-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg6 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : FVec F S100000x64 .f32) (main_arg1 : IVec S2x1600000 32) (main_arg2 : IVec S100000 32) (main_arg3 : FVec F S3x64x64 .f32) (main_arg4 : FVec F S3x64 .f32) (main_arg5 : FVec F S3x64 .f32) (main_arg6 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S1700000x64 : Shape := ⟨2, ![1700000, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩

abbrev nBuf : Space → Nat
  | .hbm => 183
  | .vmem => 57
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1x64x64, .f32⟩
  | 48 => ⟨S64x64, .f32⟩
  | 49 => ⟨S1x64, .f32⟩
  | 50 => ⟨S64, .f32⟩
  | 51 => ⟨S1x64, .f32⟩
  | 52 => ⟨S64, .f32⟩
  | 53 => ⟨S1x64, .f32⟩
  | 54 => ⟨S64, .f32⟩
  | 55 => ⟨S100000x64, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S1x64, .f32⟩
  | 74 => ⟨S1x64, .f32⟩
  | 75 => ⟨S_, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S1x64, .f32⟩
  | 82 => ⟨S1x64, .f32⟩
  | 83 => ⟨S1x64, .f32⟩
  | 84 => ⟨S1x64, .f32⟩
  | 85 => ⟨S1x64, .f32⟩
  | 86 => ⟨S100000x64, .f32⟩
  | 87 => ⟨S1x64x64, .f32⟩
  | 88 => ⟨S64x64, .f32⟩
  | 89 => ⟨S1x64, .f32⟩
  | 90 => ⟨S64, .f32⟩
  | 91 => ⟨S1x64, .f32⟩
  | 92 => ⟨S64, .f32⟩
  | 93 => ⟨S1x64, .f32⟩
  | 94 => ⟨S64, .f32⟩
  | 95 => ⟨S100000x64, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x64, .f32⟩
  | 105 => ⟨S1700000x1, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S1x64, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S1x64, .f32⟩
  | 122 => ⟨S1x64, .f32⟩
  | 123 => ⟨S1x64, .f32⟩
  | 124 => ⟨S1x64, .f32⟩
  | 125 => ⟨S1x64, .f32⟩
  | 126 => ⟨S100000x64, .f32⟩
  | 127 => ⟨S1x64x64, .f32⟩
  | _ => ⟨S100000x64, .f32⟩

abbrev hbmTy0_1 (i : Nat) : BufTy := match i % 128 with
  | 0 => ⟨S64x64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S64, .f32⟩
  | 7 => ⟨S100000x64, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x64, .f32⟩
  | 17 => ⟨S1700000x1, .f32⟩
  | 18 => ⟨S1700000x64, .f32⟩
  | 19 => ⟨S1700000x64, .f32⟩
  | 20 => ⟨S_, .f32⟩
  | 21 => ⟨S100000x64, .f32⟩
  | 22 => ⟨S1700000x1, .i32⟩
  | 23 => ⟨S100000x64, .f32⟩
  | 24 => ⟨S1x64, .f32⟩
  | 25 => ⟨S1x64, .f32⟩
  | 26 => ⟨S1x64, .f32⟩
  | 27 => ⟨S_, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S1x64, .f32⟩
  | 34 => ⟨S1x64, .f32⟩
  | 35 => ⟨S1x64, .f32⟩
  | 36 => ⟨S1x64, .f32⟩
  | 37 => ⟨S1x64, .f32⟩
  | 38 => ⟨S100000x64, .f32⟩
  | 39 => ⟨S_, .f32⟩
  | 40 => ⟨S128x64, .f32⟩
  | 41 => ⟨S100000x1, .i32⟩
  | 42 => ⟨S128x64, .f32⟩
  | 43 => ⟨S_, .f32⟩
  | 44 => ⟨S100000, .f32⟩
  | 45 => ⟨S_, .f32⟩
  | 46 => ⟨S128, .f32⟩
  | 47 => ⟨S100000x1, .i32⟩
  | 48 => ⟨S128, .f32⟩
  | 49 => ⟨S_, .f32⟩
  | 50 => ⟨S128, .f32⟩
  | 51 => ⟨S128, .f32⟩
  | 52 => ⟨S128x1, .f32⟩
  | 53 => ⟨S128x64, .f32⟩
  | 54 => ⟨S128x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S10000x64, .f32⟩
  | .local _ .vmem, ⟨30, _⟩ => ⟨S10000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S10000x64, .f32⟩
  | .local _ .vmem, ⟨49, _⟩ => ⟨S10000x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S10000x64, .f32⟩
  | .local _ .vmem, ⟨56, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53_0 : Ref sig .tc := ⟨.hbm, 73, rfl⟩
abbrev main_v53_1 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_11 : Ref sig .tc := ⟨.hbm, 96, rfl⟩
abbrev main_v73 : Ref sig .tc := ⟨.hbm, 97, rfl⟩
abbrev main_v74 : Ref sig .tc := ⟨.hbm, 98, rfl⟩
abbrev main_c_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87_0 : Ref sig .tc := ⟨.hbm, 113, rfl⟩
abbrev main_v87_1 : Ref sig .tc := ⟨.hbm, 114, rfl⟩
abbrev main_cst_14 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_c_16 : Ref sig .tc := ⟨.hbm, 136, rfl⟩
abbrev main_v107 : Ref sig .tc := ⟨.hbm, 137, rfl⟩
abbrev main_v108 : Ref sig .tc := ⟨.hbm, 138, rfl⟩
abbrev main_c_17 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_18 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121_0 : Ref sig .tc := ⟨.hbm, 153, rfl⟩
abbrev main_v121_1 : Ref sig .tc := ⟨.hbm, 154, rfl⟩
abbrev main_cst_19 : Ref sig .tc := ⟨.hbm, 155, rfl⟩
abbrev main_v122 : Ref sig .tc := ⟨.hbm, 156, rfl⟩
abbrev main_v123 : Ref sig .tc := ⟨.hbm, 157, rfl⟩
abbrev main_cst_20 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_21 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_22 : Ref sig .tc := ⟨.hbm, 171, rfl⟩
abbrev main_v135 : Ref sig .tc := ⟨.hbm, 172, rfl⟩
abbrev main_cst_23 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_24 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc8_stg5_0 : Ref sig .tc := ⟨.vmem, 54, rfl⟩
abbrev cc8_stg6_0 : Ref sig .tc := ⟨.vmem, 55, rfl⟩
abbrev cc8_stg6_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem6_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x64.size a ≤ S100000x64.size a
  hwx8_6 : ∀ i : grid8.Coords, EltTy.bits .f32 = 32 ∨ (Rect.block (s := S100000x64) S10000x64.size (cc8_transform_6 i) (hinb8_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v63) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v85) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87_0) S1x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87_1) S1x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v85) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v97) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v97) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v106) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v119) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v120) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v121_0) S1x64.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v121_1) S1x64.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v119) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v128) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v123) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v127) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v129) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v130) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v131) S10000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64x64 : Shape := ⟨3, ![1, 64, 64]⟩
abbrev S64x64 : Shape := ⟨2, ![64, 64]⟩
abbrev S1700000x64 : Shape := ⟨2, ![1700000, 64]⟩
abbrev S1x64 : Shape := ⟨2, ![1, 64]⟩
abbrev S64 : Shape := ⟨1, ![64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩

abbrev nBuf : Space → Nat
  | .hbm => 246
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1x64x64, .f32⟩
  | 48 => ⟨S64x64, .f32⟩
  | 49 => ⟨S100000x64, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S64, .f32⟩
  | 68 => ⟨S1x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S100000x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S_, .f32⟩
  | 89 => ⟨S64, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S1x64x64, .f32⟩
  | 109 => ⟨S64x64, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x64, .f32⟩

abbrev hbmTy0_1 (i : Nat) : BufTy := match i % 128 with
  | 0 => ⟨S64, .f32⟩
  | 1 => ⟨S1x64, .f32⟩
  | 2 => ⟨S100000x64, .f32⟩
  | 3 => ⟨S100000x64, .f32⟩
  | 4 => ⟨S_, .f32⟩
  | 5 => ⟨S64, .f32⟩
  | 6 => ⟨S_, .f32⟩
  | 7 => ⟨S64, .f32⟩
  | 8 => ⟨S64, .f32⟩
  | 9 => ⟨S1x64, .f32⟩
  | 10 => ⟨S100000x64, .f32⟩
  | 11 => ⟨S100000x64, .f32⟩
  | 12 => ⟨S100000x64, .f32⟩
  | 13 => ⟨S_, .f32⟩
  | 14 => ⟨S64, .f32⟩
  | 15 => ⟨S_, .f32⟩
  | 16 => ⟨S64, .f32⟩
  | 17 => ⟨S64, .f32⟩
  | 18 => ⟨S1x64, .f32⟩
  | 19 => ⟨S100000x64, .f32⟩
  | 20 => ⟨S100000x64, .f32⟩
  | 21 => ⟨S_, .f32⟩
  | 22 => ⟨S64, .f32⟩
  | 23 => ⟨S64, .f32⟩
  | 24 => ⟨S64, .f32⟩
  | 25 => ⟨S1x64, .f32⟩
  | 26 => ⟨S100000x64, .f32⟩
  | 27 => ⟨S100000x64, .f32⟩
  | 28 => ⟨S1x64, .f32⟩
  | 29 => ⟨S64, .f32⟩
  | 30 => ⟨S1x64, .f32⟩
  | 31 => ⟨S100000x64, .f32⟩
  | 32 => ⟨S100000x64, .f32⟩
  | 33 => ⟨S1x64, .f32⟩
  | 34 => ⟨S64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S1x64x64, .f32⟩
  | 42 => ⟨S64x64, .f32⟩
  | 43 => ⟨S100000x64, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x64, .f32⟩
  | 53 => ⟨S1700000x1, .f32⟩
  | 54 => ⟨S1700000x64, .f32⟩
  | 55 => ⟨S1700000x64, .f32⟩
  | 56 => ⟨S_, .f32⟩
  | 57 => ⟨S100000x64, .f32⟩
  | 58 => ⟨S1700000x1, .i32⟩
  | 59 => ⟨S100000x64, .f32⟩
  | 60 => ⟨S1x64, .f32⟩
  | 61 => ⟨S64, .f32⟩
  | 62 => ⟨S1x64, .f32⟩
  | 63 => ⟨S100000x64, .f32⟩
  | 64 => ⟨S100000x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S100000x64, .f32⟩
  | 74 => ⟨S_, .f32⟩
  | 75 => ⟨S64, .f32⟩
  | 76 => ⟨S_, .f32⟩
  | 77 => ⟨S64, .f32⟩
  | 78 => ⟨S64, .f32⟩
  | 79 => ⟨S1x64, .f32⟩
  | 80 => ⟨S100000x64, .f32⟩
  | 81 => ⟨S100000x64, .f32⟩
  | 82 => ⟨S_, .f32⟩
  | 83 => ⟨S64, .f32⟩
  | 84 => ⟨S64, .f32⟩
  | 85 => ⟨S64, .f32⟩
  | 86 => ⟨S1x64, .f32⟩
  | 87 => ⟨S100000x64, .f32⟩
  | 88 => ⟨S100000x64, .f32⟩
  | 89 => ⟨S1x64, .f32⟩
  | 90 => ⟨S64, .f32⟩
  | 91 => ⟨S1x64, .f32⟩
  | 92 => ⟨S100000x64, .f32⟩
  | 93 => ⟨S100000x64, .f32⟩
  | 94 => ⟨S1x64, .f32⟩
  | 95 => ⟨S64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S_, .f32⟩
  | 103 => ⟨S128x64, .f32⟩
  | 104 => ⟨S100000x1, .i32⟩
  | 105 => ⟨S128x64, .f32⟩
  | 106 => ⟨S_, .f32⟩
  | 107 => ⟨S100000, .f32⟩
  | 108 => ⟨S_, .f32⟩
  | 109 => ⟨S128, .f32⟩
  | 110 => ⟨S100000x1, .i32⟩
  | 111 => ⟨S128, .f32⟩
  | 112 => ⟨S_, .f32⟩
  | 113 => ⟨S128, .f32⟩
  | 114 => ⟨S128, .f32⟩
  | 115 => ⟨S128x1, .f32⟩
  | 116 => ⟨S128x64, .f32⟩
  | 117 => ⟨S128x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_call1_cst : Ref sig .tc := ⟨.hbm, 105, rfl⟩
abbrev main_call1_v0 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_14 : Ref sig .tc := ⟨.hbm, 111, rfl⟩
abbrev main_v84 : Ref sig .tc := ⟨.hbm, 112, rfl⟩
abbrev main_v85 : Ref sig .tc := ⟨.hbm, 113, rfl⟩
abbrev main_c_15 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_16 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_17 : Ref sig .tc := ⟨.hbm, 132, rfl⟩
abbrev main_v102 : Ref sig .tc := ⟨.hbm, 133, rfl⟩
abbrev main_cst_18 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_19 : Ref sig .tc := ⟨.hbm, 141, rfl⟩
abbrev main_v109 : Ref sig .tc := ⟨.hbm, 142, rfl⟩
abbrev main_cst_20 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_21 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_call2_cst : Ref sig .tc := ⟨.hbm, 166, rfl⟩
abbrev main_call2_v0 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_c_22 : Ref sig .tc := ⟨.hbm, 172, rfl⟩
abbrev main_v135 : Ref sig .tc := ⟨.hbm, 173, rfl⟩
abbrev main_v136 : Ref sig .tc := ⟨.hbm, 174, rfl⟩
abbrev main_c_23 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_24 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_25 : Ref sig .tc := ⟨.hbm, 193, rfl⟩
abbrev main_v153 : Ref sig .tc := ⟨.hbm, 194, rfl⟩
abbrev main_cst_26 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_27 : Ref sig .tc := ⟨.hbm, 202, rfl⟩
abbrev main_v160 : Ref sig .tc := ⟨.hbm, 203, rfl⟩
abbrev main_cst_28 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_29 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_call3_cst : Ref sig .tc := ⟨.hbm, 227, rfl⟩
abbrev main_call3_v0 : Ref sig .tc := ⟨.hbm, 228, rfl⟩
abbrev main_v182 : Ref sig .tc := ⟨.hbm, 229, rfl⟩
abbrev main_cst_30 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_31 : Ref sig .tc := ⟨.hbm, 234, rfl⟩
abbrev main_v186 : Ref sig .tc := ⟨.hbm, 235, rfl⟩
abbrev main_cst_32 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_cst_33 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x64x64_S1x64x64_0_0_0 : S3x64x64.Slices ![0, 0, 0] S1x64x64
  shapeCasts_S1x64x64_S64x64 : S1x64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.RunMain.lean ====
/-
  The idealized kernel's run with its result named: every weakly fair execution of @main terminates without a
  fault, the arguments end as launched, and the result buffer ends at what the fold of @main's segments —
  each stretch of host operations applied in order, each region's arrays at what its write-backs leave —
  gives at that buffer. The same launch over the same segments as the frame; only the last reading of the
  final state keeps the result buffer as well as the arguments.
-/
import proofs.«132062_j28845000360070_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: terminates, no fault; the result buffer at the fold's value; the arguments unchanged. -/
theorem run_main : θ_run defs (onTc (τ := τ) (main (F := F))) ⟨m, fun _ => 0, ρ⟩ (fun r => ∀ c : Dev nD,
      r.2.mem ((c.tc : Thread nD τ).loc main_v143) = W21 m ρ c (Proc.devRef .tc main_v143)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v143 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c)⟩)

end Cert.KernelIdeal.RunV

end
-- ==== Proof.HostPre.lean ====
/-
The host operations before the first region, read buffer by buffer: the edge lists with self-loops
  (source and destination), the symmetric normalisation of each edge, and the first layer's weight, bias, scale and shift
  are the same operations of the arguments as the reference's.
-/
import proofs.«132062_j28845000360070_1_alg».proof.Proof.Gen.KernelIdeal.Frame
import proofs.«132062_j28845000360070_1_alg».proof.Proof.RefRead
import Idealize.ShloMosaic.Lib.StableHlo.Run
import Idealize.ShloMosaic.Lib.ValueIdx
import Idealize.ShloMosaic.Lib.Pipeline.Value

set_option maxRecDepth 16384

noncomputable section

namespace Cert.KernelIdeal.Chain

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (Wp : Valuation τ sig (Elt Ideal))
variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S3x64x64, .f32⟩ : BufTy).Contents (Elt Ideal))
  (x4 x5 x6 : (⟨S3x64, .f32⟩ : BufTy).Contents (Elt Ideal))
set_option maxHeartbeats 4000000 in
theorem pre0_v3 (h1 : Wp (Proc.devRef .tc main_arg1) = x1) :
    StableHlo.after (hostOps0 (F := Ideal)) Wp (Proc.devRef .tc main_v3) = (val_main_v3 (F := Ideal) x1) := by
  dsimp only [hostOps0]; after_results
  rw [h1]
  rfl
set_option maxHeartbeats 4000000 in
theorem pre0_v6 (h1 : Wp (Proc.devRef .tc main_arg1) = x1) :
    StableHlo.after (hostOps0 (F := Ideal)) Wp (Proc.devRef .tc main_v6) = (val_main_v6 (F := Ideal) x1) := by
  dsimp only [hostOps0]; after_results
  rw [h1]
  rfl
set_option maxHeartbeats 4000000 in
theorem pre0_v12 (h1 : Wp (Proc.devRef .tc main_arg1) = x1) :
    StableHlo.after (hostOps0 (F := Ideal)) Wp (Proc.devRef .tc main_v12) = (val_main_v12 (F := Ideal) x1) := by
  dsimp only [hostOps0]; after_results
  rw [h1]
  rfl
set_option maxHeartbeats 4000000 in
theorem pre0_v13 (h1 : Wp (Proc.devRef .tc main_arg1) = x1) :
    StableHlo.after (hostOps0 (F := Ideal)) Wp (Proc.devRef .tc main_v13) = (val_main_v13 (F := Ideal) x1) := by
  dsimp only [hostOps0]; after_results
  rw [h1]
  rfl
set_option maxHeartbeats 4000000 in
theorem pre0_cst2  :
    StableHlo.after (hostOps0 (F := Ideal)) Wp (Proc.devRef .tc main_cst_2) = (val_main_cst_2 (F := Ideal)) := by
  dsimp only [hostOps0]; after_results_simp

  rfl
theorem keep_hostOps0_main_arg0 : StableHlo.after (hostOps0 (F := Ideal)) Wp (Proc.devRef .tc main_arg0) = Wp (Proc.devRef .tc main_arg0) := by
  dsimp only [hostOps0]; after_results
theorem keep_hostOps0_main_arg1 : StableHlo.after (hostOps0 (F := Ideal)) Wp (Proc.devRef .tc main_arg1) = Wp (Proc.devRef .tc main_arg1) := by
  dsimp only [hostOps0]; after_results
theorem keep_hostOps0_main_arg2 : StableHlo.after (hostOps0 (F := Ideal)) Wp (Proc.devRef .tc main_arg2) = Wp (Proc.devRef .tc main_arg2) := by
  dsimp only [hostOps0]; after_results
theorem keep_hostOps0_main_arg3 : StableHlo.after (hostOps0 (F := Ideal)) Wp (Proc.devRef .tc main_arg3) = Wp (Proc.devRef .tc main_arg3) := by
  dsimp only [hostOps0]; after_results
theorem keep_hostOps0_main_arg4 : StableHlo.after (hostOps0 (F := Ideal)) Wp (Proc.devRef .tc main_arg4) = Wp (Proc.devRef .tc main_arg4) := by
  dsimp only [hostOps0]; after_results
theorem keep_hostOps0_main_arg5 : StableHlo.after (hostOps0 (F := Ideal)) Wp (Proc.devRef .tc main_arg5) = Wp (Proc.devRef .tc main_arg5) := by
  dsimp only [hostOps0]; after_results
theorem keep_hostOps0_main_arg6 : StableHlo.after (hostOps0 (F := Ideal)) Wp (Proc.devRef .tc main_arg6) = Wp (Proc.devRef .tc main_arg6) := by
  dsimp only [hostOps0]; after_results

/-- The selection "where the degree is positive take its reciprocal square root, else zero", from any operands. -/
theorem pre1_sel (a : (⟨S100000, .i1⟩ : BufTy).Contents (Elt Ideal)) (b : (⟨S100000, .f32⟩ : BufTy).Contents (Elt Ideal))
    (cc : (⟨S_, .f32⟩ : BufTy).Contents (Elt Ideal))
    (h12 : Wp (Proc.devRef .tc main_v12) = a) (h13 : Wp (Proc.devRef .tc main_v13) = b) (hc : Wp (Proc.devRef .tc main_cst_2) = cc) :
    StableHlo.after (hostOps0_1 (F := Ideal)) Wp (Proc.devRef .tc main_v14)
      = select a b (broadcastInDim S100000 ![] bcast_S_S100000 (id cc)) := by
  dsimp only [hostOps0_1]; after_results_simp
  simp only [h12, h13, hc]
  rfl
theorem sel_ref : (val_main_v14 (F := Ideal) x1) = select (val_main_v12 (F := Ideal) x1) (val_main_v13 (F := Ideal) x1)
    (broadcastInDim S100000 ![] bcast_S_S100000 (id (val_main_cst_2 (F := Ideal)))) := rfl
theorem pre1_v14 (h12 : Wp (Proc.devRef .tc main_v12) = (val_main_v12 (F := Ideal) x1)) (h13 : Wp (Proc.devRef .tc main_v13) = (val_main_v13 (F := Ideal) x1)) (hc : Wp (Proc.devRef .tc main_cst_2) = (val_main_cst_2 (F := Ideal))) :
    StableHlo.after (hostOps0_1 (F := Ideal)) Wp (Proc.devRef .tc main_v14) = (val_main_v14 (F := Ideal) x1) :=
  (pre1_sel Wp _ _ _ h12 h13 hc).trans (sel_ref x1).symm
theorem keep_hostOps0_1_main_arg0 : StableHlo.after (hostOps0_1 (F := Ideal)) Wp (Proc.devRef .tc main_arg0) = Wp (Proc.devRef .tc main_arg0) := by
  dsimp only [hostOps0_1]; after_results
theorem keep_hostOps0_1_main_arg1 : StableHlo.after (hostOps0_1 (F := Ideal)) Wp (Proc.devRef .tc main_arg1) = Wp (Proc.devRef .tc main_arg1) := by
  dsimp only [hostOps0_1]; after_results
theorem keep_hostOps0_1_main_arg2 : StableHlo.after (hostOps0_1 (F := Ideal)) Wp (Proc.devRef .tc main_arg2) = Wp (Proc.devRef .tc main_arg2) := by
  dsimp only [hostOps0_1]; after_results
theorem keep_hostOps0_1_main_arg3 : StableHlo.after (hostOps0_1 (F := Ideal)) Wp (Proc.devRef .tc main_arg3) = Wp (Proc.devRef .tc main_arg3) := by
  dsimp only [hostOps0_1]; after_results
theorem keep_hostOps0_1_main_arg4 : StableHlo.after (hostOps0_1 (F := Ideal)) Wp (Proc.devRef .tc main_arg4) = Wp (Proc.devRef .tc main_arg4) := by
  dsimp only [hostOps0_1]; after_results
theorem keep_hostOps0_1_main_arg5 : StableHlo.after (hostOps0_1 (F := Ideal)) Wp (Proc.devRef .tc main_arg5) = Wp (Proc.devRef .tc main_arg5) := by
  dsimp only [hostOps0_1]; after_results
theorem keep_hostOps0_1_main_arg6 : StableHlo.after (hostOps0_1 (F := Ideal)) Wp (Proc.devRef .tc main_arg6) = Wp (Proc.devRef .tc main_arg6) := by
  dsimp only [hostOps0_1]; after_results
theorem keep_hostOps0_1_main_v3 : StableHlo.after (hostOps0_1 (F := Ideal)) Wp (Proc.devRef .tc main_v3) = Wp (Proc.devRef .tc main_v3) := by
  dsimp only [hostOps0_1]; after_results
theorem keep_hostOps0_1_main_v6 : StableHlo.after (hostOps0_1 (F := Ideal)) Wp (Proc.devRef .tc main_v6) = Wp (Proc.devRef .tc main_v6) := by
  dsimp only [hostOps0_1]; after_results
set_option maxHeartbeats 4000000 in
theorem pre2_v29 (h14 : Wp (Proc.devRef .tc main_v14) = (val_main_v14 (F := Ideal) x1)) (h3 : Wp (Proc.devRef .tc main_v3) = (val_main_v3 (F := Ideal) x1)) (h6 : Wp (Proc.devRef .tc main_v6) = (val_main_v6 (F := Ideal) x1)) :
    StableHlo.after (hostOps0_2 (F := Ideal)) Wp (Proc.devRef .tc main_v29) = (val_main_v29 (F := Ideal) x1) := by
  dsimp only [hostOps0_2]; after_results_simp
  simp only [h14, h3, h6]
  rfl
set_option maxHeartbeats 4000000 in
theorem pre2_v31 (h : Wp (Proc.devRef .tc main_arg3) = x3) :
    StableHlo.after (hostOps0_2 (F := Ideal)) Wp (Proc.devRef .tc main_v31) = (val_main_v31 (F := Ideal) x3) := by
  dsimp only [hostOps0_2]; after_results_simp
  simp only [h]
  rfl
set_option maxHeartbeats 4000000 in
theorem pre2_v33 (h : Wp (Proc.devRef .tc main_arg4) = x4) :
    StableHlo.after (hostOps0_2 (F := Ideal)) Wp (Proc.devRef .tc main_v33) = (val_main_v47 (F := Ideal) x4) := by
  dsimp only [hostOps0_2]; after_results_simp
  simp only [h]
  rfl
set_option maxHeartbeats 4000000 in
theorem pre2_v35 (h : Wp (Proc.devRef .tc main_arg5) = x5) :
    StableHlo.after (hostOps0_2 (F := Ideal)) Wp (Proc.devRef .tc main_v35) = (val_main_v71 (F := Ideal) x5) := by
  dsimp only [hostOps0_2]; after_results_simp
  simp only [h]
  rfl
set_option maxHeartbeats 4000000 in
theorem pre2_v37 (h : Wp (Proc.devRef .tc main_arg6) = x6) :
    StableHlo.after (hostOps0_2 (F := Ideal)) Wp (Proc.devRef .tc main_v37) = (val_main_v76 (F := Ideal) x6) := by
  dsimp only [hostOps0_2]; after_results_simp
  simp only [h]
  rfl
theorem keep_hostOps0_2_main_arg0 : StableHlo.after (hostOps0_2 (F := Ideal)) Wp (Proc.devRef .tc main_arg0) = Wp (Proc.devRef .tc main_arg0) := by
  dsimp only [hostOps0_2]; after_results
theorem keep_hostOps0_2_main_arg1 : StableHlo.after (hostOps0_2 (F := Ideal)) Wp (Proc.devRef .tc main_arg1) = Wp (Proc.devRef .tc main_arg1) := by
  dsimp only [hostOps0_2]; after_results
theorem keep_hostOps0_2_main_arg2 : StableHlo.after (hostOps0_2 (F := Ideal)) Wp (Proc.devRef .tc main_arg2) = Wp (Proc.devRef .tc main_arg2) := by
  dsimp only [hostOps0_2]; after_results
theorem keep_hostOps0_2_main_arg3 : StableHlo.after (hostOps0_2 (F := Ideal)) Wp (Proc.devRef .tc main_arg3) = Wp (Proc.devRef .tc main_arg3) := by
  dsimp only [hostOps0_2]; after_results
theorem keep_hostOps0_2_main_arg4 : StableHlo.after (hostOps0_2 (F := Ideal)) Wp (Proc.devRef .tc main_arg4) = Wp (Proc.devRef .tc main_arg4) := by
  dsimp only [hostOps0_2]; after_results
theorem keep_hostOps0_2_main_arg5 : StableHlo.after (hostOps0_2 (F := Ideal)) Wp (Proc.devRef .tc main_arg5) = Wp (Proc.devRef .tc main_arg5) := by
  dsimp only [hostOps0_2]; after_results
theorem keep_hostOps0_2_main_arg6 : StableHlo.after (hostOps0_2 (F := Ideal)) Wp (Proc.devRef .tc main_arg6) = Wp (Proc.devRef .tc main_arg6) := by
  dsimp only [hostOps0_2]; after_results
theorem keep_hostOps0_2_main_v3 : StableHlo.after (hostOps0_2 (F := Ideal)) Wp (Proc.devRef .tc main_v3) = Wp (Proc.devRef .tc main_v3) := by
  dsimp only [hostOps0_2]; after_results
theorem keep_hostOps0_2_main_v6 : StableHlo.after (hostOps0_2 (F := Ideal)) Wp (Proc.devRef .tc main_v6) = Wp (Proc.devRef .tc main_v6) := by
  dsimp only [hostOps0_2]; after_results

end Cert.KernelIdeal.Chain

end
-- ==== Proof.RowVec.lean ====
/-
  A vector of 64 entries viewed as a one-row matrix, read at an index.
-/
import Idealize.ShloMosaic.Lib.ValueIdx
import Idealize.ShloMosaic.Lib.Pipeline.Value

namespace Cert.KernelIdeal.Chain

open Idealize.ShloMosaic Idealize.ShloMosaic.ValueIdx

/-- A vector of 64 entries viewed as a one-row matrix reads, at `(u, q)`, the vector's entry `q`. -/
theorem row_of_vec {α : Type} (x : (⟨1, ![64]⟩ : Shape).Idx → α)
    (sc : (⟨1, ![64]⟩ : Shape).ShapeCasts ⟨2, ![1, 64]⟩) (u : Fin 1) (q : Fin 64) :
    shapeCast ⟨2, ![1, 64]⟩ x sc (ix2 u q) = x (ix1 q) :=
  shapeCast_apply x sc (ix2 u q) (ix1 q) (by
    have hu : u.val = 0 := by omega
    rw [Shape.rowMajor_val_two, Shape.rowMajor_val_one]
    show q.val = u.val * 64 + q.val
    rw [hu, Nat.zero_mul, Nat.zero_add])

end Cert.KernelIdeal.Chain
-- ==== Proof.HostL0.lean ====
/-
Layer 1's host operations between its regions, read buffer by buffer: the gather of the transformed rows along the
  edges, their scaling and the accumulating scatter are the reference's operations of the same operands; the mean is the
  column sum over 100000, the variance the mean of squares minus the squared mean; bias, scale and shift are passed on as rows.
-/
import proofs.«132062_j28845000360070_1_alg».proof.Proof.Gen.KernelIdeal.Frame
import proofs.«132062_j28845000360070_1_alg».proof.Proof.RefRead
import Idealize.ShloMosaic.Lib.StableHlo.Run
import Idealize.ShloMosaic.Lib.ValueIdx
import Idealize.ShloMosaic.Lib.Pipeline.Value
import proofs.«132062_j28845000360070_1_alg».proof.Proof.RowVec

set_option maxRecDepth 16384

noncomputable section

namespace Cert.KernelIdeal.Chain

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (Wp : Valuation τ sig (Elt Ideal))
variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S3x64x64, .f32⟩ : BufTy).Contents (Elt Ideal))
  (x4 x5 x6 : (⟨S3x64, .f32⟩ : BufTy).Contents (Elt Ideal))
set_option maxHeartbeats 4000000 in
theorem hA0_agg (hlin : Wp (Proc.devRef .tc main_v38) = (val_main_v32 (F := Ideal) x0 x3)) (h3 : Wp (Proc.devRef .tc main_v3) = (val_main_v3 (F := Ideal) x1)) (h6 : Wp (Proc.devRef .tc main_v6) = (val_main_v6 (F := Ideal) x1)) (h29 : Wp (Proc.devRef .tc main_v29) = (val_main_v29 (F := Ideal) x1)) :
    StableHlo.after (hostOps1 (F := Ideal)) Wp (Proc.devRef .tc main_v51) = (val_main_v45 (F := Ideal) x0 x1 x3) := by
  dsimp only [hostOps1]; after_results_simp
  simp only [hlin, h3, h6, h29]
  rfl
theorem hA0_brow (u : Fin 1) (q : Fin 64) :
    StableHlo.after (hostOps1 (F := Ideal)) Wp (Proc.devRef .tc main_v52) (ix2 u q) = Wp (Proc.devRef .tc main_v33) (ix1 q) := by
  dsimp only [hostOps1]; after_results
  exact row_of_vec _ _ u q
theorem keep_hostOps1_main_v3 : StableHlo.after (hostOps1 (F := Ideal)) Wp (Proc.devRef .tc main_v3) = Wp (Proc.devRef .tc main_v3) := by
  dsimp only [hostOps1]; after_results
theorem keep_hostOps1_main_v6 : StableHlo.after (hostOps1 (F := Ideal)) Wp (Proc.devRef .tc main_v6) = Wp (Proc.devRef .tc main_v6) := by
  dsimp only [hostOps1]; after_results
theorem keep_hostOps1_main_v29 : StableHlo.after (hostOps1 (F := Ideal)) Wp (Proc.devRef .tc main_v29) = Wp (Proc.devRef .tc main_v29) := by
  dsimp only [hostOps1]; after_results
theorem keep_hostOps1_main_arg2 : StableHlo.after (hostOps1 (F := Ideal)) Wp (Proc.devRef .tc main_arg2) = Wp (Proc.devRef .tc main_arg2) := by
  dsimp only [hostOps1]; after_results
theorem keep_hostOps1_main_arg3 : StableHlo.after (hostOps1 (F := Ideal)) Wp (Proc.devRef .tc main_arg3) = Wp (Proc.devRef .tc main_arg3) := by
  dsimp only [hostOps1]; after_results
theorem keep_hostOps1_main_arg4 : StableHlo.after (hostOps1 (F := Ideal)) Wp (Proc.devRef .tc main_arg4) = Wp (Proc.devRef .tc main_arg4) := by
  dsimp only [hostOps1]; after_results
theorem keep_hostOps1_main_arg5 : StableHlo.after (hostOps1 (F := Ideal)) Wp (Proc.devRef .tc main_arg5) = Wp (Proc.devRef .tc main_arg5) := by
  dsimp only [hostOps1]; after_results
theorem keep_hostOps1_main_arg6 : StableHlo.after (hostOps1 (F := Ideal)) Wp (Proc.devRef .tc main_arg6) = Wp (Proc.devRef .tc main_arg6) := by
  dsimp only [hostOps1]; after_results
theorem keep_hostOps1_main_v33 : StableHlo.after (hostOps1 (F := Ideal)) Wp (Proc.devRef .tc main_v33) = Wp (Proc.devRef .tc main_v33) := by
  dsimp only [hostOps1]; after_results
theorem keep_hostOps1_main_v35 : StableHlo.after (hostOps1 (F := Ideal)) Wp (Proc.devRef .tc main_v35) = Wp (Proc.devRef .tc main_v35) := by
  dsimp only [hostOps1]; after_results
theorem keep_hostOps1_main_v37 : StableHlo.after (hostOps1 (F := Ideal)) Wp (Proc.devRef .tc main_v37) = Wp (Proc.devRef .tc main_v37) := by
  dsimp only [hostOps1]; after_results
theorem hB0_mean (u : Fin 1) (q : Fin 64) :
    StableHlo.after (hostOps2 (F := Ideal)) Wp (Proc.devRef .tc main_v55) (ix2 u q) = Ideal.div (Wp (Proc.devRef .tc main_v53_0) (ix2 u q)) (Ideal.ofBits .f32 0x47C35000#32) := by
  dsimp only [hostOps2]; after_results
  rfl
theorem hB0_var (u : Fin 1) (q : Fin 64) :
    StableHlo.after (hostOps2 (F := Ideal)) Wp (Proc.devRef .tc main_v59) (ix2 u q)
      = Ideal.div (Wp (Proc.devRef .tc main_v53_1) (ix2 u q)) (Ideal.ofBits .f32 0x47C35000#32) - Ideal.div (Wp (Proc.devRef .tc main_v53_0) (ix2 u q)) (Ideal.ofBits .f32 0x47C35000#32) * Ideal.div (Wp (Proc.devRef .tc main_v53_0) (ix2 u q)) (Ideal.ofBits .f32 0x47C35000#32) := by
  dsimp only [hostOps2]; after_results
  rfl
theorem hB0_b (u : Fin 1) (q : Fin 64) :
    StableHlo.after (hostOps2 (F := Ideal)) Wp (Proc.devRef .tc main_v60) (ix2 u q) = Wp (Proc.devRef .tc main_v33) (ix1 q) := by
  dsimp only [hostOps2]; after_results
  exact row_of_vec _ _ u q
theorem hB0_g (u : Fin 1) (q : Fin 64) :
    StableHlo.after (hostOps2 (F := Ideal)) Wp (Proc.devRef .tc main_v61) (ix2 u q) = Wp (Proc.devRef .tc main_v35) (ix1 q) := by
  dsimp only [hostOps2]; after_results
  exact row_of_vec _ _ u q
theorem hB0_be (u : Fin 1) (q : Fin 64) :
    StableHlo.after (hostOps2 (F := Ideal)) Wp (Proc.devRef .tc main_v62) (ix2 u q) = Wp (Proc.devRef .tc main_v37) (ix1 q) := by
  dsimp only [hostOps2]; after_results
  exact row_of_vec _ _ u q
theorem keep_hostOps2_main_v3 : StableHlo.after (hostOps2 (F := Ideal)) Wp (Proc.devRef .tc main_v3) = Wp (Proc.devRef .tc main_v3) := by
  dsimp only [hostOps2]; after_results
theorem keep_hostOps2_main_v6 : StableHlo.after (hostOps2 (F := Ideal)) Wp (Proc.devRef .tc main_v6) = Wp (Proc.devRef .tc main_v6) := by
  dsimp only [hostOps2]; after_results
theorem keep_hostOps2_main_v29 : StableHlo.after (hostOps2 (F := Ideal)) Wp (Proc.devRef .tc main_v29) = Wp (Proc.devRef .tc main_v29) := by
  dsimp only [hostOps2]; after_results
theorem keep_hostOps2_main_arg2 : StableHlo.after (hostOps2 (F := Ideal)) Wp (Proc.devRef .tc main_arg2) = Wp (Proc.devRef .tc main_arg2) := by
  dsimp only [hostOps2]; after_results
theorem keep_hostOps2_main_arg3 : StableHlo.after (hostOps2 (F := Ideal)) Wp (Proc.devRef .tc main_arg3) = Wp (Proc.devRef .tc main_arg3) := by
  dsimp only [hostOps2]; after_results
theorem keep_hostOps2_main_arg4 : StableHlo.after (hostOps2 (F := Ideal)) Wp (Proc.devRef .tc main_arg4) = Wp (Proc.devRef .tc main_arg4) := by
  dsimp only [hostOps2]; after_results
theorem keep_hostOps2_main_arg5 : StableHlo.after (hostOps2 (F := Ideal)) Wp (Proc.devRef .tc main_arg5) = Wp (Proc.devRef .tc main_arg5) := by
  dsimp only [hostOps2]; after_results
theorem keep_hostOps2_main_arg6 : StableHlo.after (hostOps2 (F := Ideal)) Wp (Proc.devRef .tc main_arg6) = Wp (Proc.devRef .tc main_arg6) := by
  dsimp only [hostOps2]; after_results
theorem keep_hostOps2_main_v51 : StableHlo.after (hostOps2 (F := Ideal)) Wp (Proc.devRef .tc main_v51) = Wp (Proc.devRef .tc main_v51) := by
  dsimp only [hostOps2]; after_results
set_option maxHeartbeats 4000000 in
theorem hC0_W (h : Wp (Proc.devRef .tc main_arg3) = x3) :
    StableHlo.after (hostOps3 (F := Ideal)) Wp (Proc.devRef .tc main_v65) = (val_main_v82 (F := Ideal) x3) := by
  dsimp only [hostOps3]; after_results_simp
  simp only [h]
  rfl
set_option maxHeartbeats 4000000 in
theorem hC0_b (h : Wp (Proc.devRef .tc main_arg4) = x4) :
    StableHlo.after (hostOps3 (F := Ideal)) Wp (Proc.devRef .tc main_v67) = (val_main_v98 (F := Ideal) x4) := by
  dsimp only [hostOps3]; after_results_simp
  simp only [h]
  rfl
set_option maxHeartbeats 4000000 in
theorem hC0_g (h : Wp (Proc.devRef .tc main_arg5) = x5) :
    StableHlo.after (hostOps3 (F := Ideal)) Wp (Proc.devRef .tc main_v69) = (val_main_v122 (F := Ideal) x5) := by
  dsimp only [hostOps3]; after_results_simp
  simp only [h]
  rfl
set_option maxHeartbeats 4000000 in
theorem hC0_be (h : Wp (Proc.devRef .tc main_arg6) = x6) :
    StableHlo.after (hostOps3 (F := Ideal)) Wp (Proc.devRef .tc main_v71) = (val_main_v127 (F := Ideal) x6) := by
  dsimp only [hostOps3]; after_results_simp
  simp only [h]
  rfl
theorem keep_hostOps3_main_v3 : StableHlo.after (hostOps3 (F := Ideal)) Wp (Proc.devRef .tc main_v3) = Wp (Proc.devRef .tc main_v3) := by
  dsimp only [hostOps3]; after_results
theorem keep_hostOps3_main_v6 : StableHlo.after (hostOps3 (F := Ideal)) Wp (Proc.devRef .tc main_v6) = Wp (Proc.devRef .tc main_v6) := by
  dsimp only [hostOps3]; after_results
theorem keep_hostOps3_main_v29 : StableHlo.after (hostOps3 (F := Ideal)) Wp (Proc.devRef .tc main_v29) = Wp (Proc.devRef .tc main_v29) := by
  dsimp only [hostOps3]; after_results
theorem keep_hostOps3_main_arg2 : StableHlo.after (hostOps3 (F := Ideal)) Wp (Proc.devRef .tc main_arg2) = Wp (Proc.devRef .tc main_arg2) := by
  dsimp only [hostOps3]; after_results
theorem keep_hostOps3_main_arg3 : StableHlo.after (hostOps3 (F := Ideal)) Wp (Proc.devRef .tc main_arg3) = Wp (Proc.devRef .tc main_arg3) := by
  dsimp only [hostOps3]; after_results
theorem keep_hostOps3_main_arg4 : StableHlo.after (hostOps3 (F := Ideal)) Wp (Proc.devRef .tc main_arg4) = Wp (Proc.devRef .tc main_arg4) := by
  dsimp only [hostOps3]; after_results
theorem keep_hostOps3_main_arg5 : StableHlo.after (hostOps3 (F := Ideal)) Wp (Proc.devRef .tc main_arg5) = Wp (Proc.devRef .tc main_arg5) := by
  dsimp only [hostOps3]; after_results
theorem keep_hostOps3_main_arg6 : StableHlo.after (hostOps3 (F := Ideal)) Wp (Proc.devRef .tc main_arg6) = Wp (Proc.devRef .tc main_arg6) := by
  dsimp only [hostOps3]; after_results
theorem keep_hostOps3_main_v63 : StableHlo.after (hostOps3 (F := Ideal)) Wp (Proc.devRef .tc main_v63) = Wp (Proc.devRef .tc main_v63) := by
  dsimp only [hostOps3]; after_results

end Cert.KernelIdeal.Chain

end
-- ==== Proof.HostL1.lean ====
/-
Layer 2's host operations between its regions, read buffer by buffer: the gather of the transformed rows along the
  edges, their scaling and the accumulating scatter are the reference's operations of the same operands; the mean is the
  column sum over 100000, the variance the mean of squares minus the squared mean; bias, scale and shift are passed on as rows.
-/
import proofs.«132062_j28845000360070_1_alg».proof.Proof.Gen.KernelIdeal.Frame
import proofs.«132062_j28845000360070_1_alg».proof.Proof.RefRead
import Idealize.ShloMosaic.Lib.StableHlo.Run
import Idealize.ShloMosaic.Lib.ValueIdx
import Idealize.ShloMosaic.Lib.Pipeline.Value
import proofs.«132062_j28845000360070_1_alg».proof.Proof.RowVec

set_option maxRecDepth 16384

noncomputable section

namespace Cert.KernelIdeal.Chain

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (Wp : Valuation τ sig (Elt Ideal))
variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S3x64x64, .f32⟩ : BufTy).Contents (Elt Ideal))
  (x4 x5 x6 : (⟨S3x64, .f32⟩ : BufTy).Contents (Elt Ideal))
set_option maxHeartbeats 4000000 in
theorem hA1_agg (hlin : Wp (Proc.devRef .tc main_v72) = (val_main_v83 (F := Ideal) x0 x1 x3 x4 x5 x6)) (h3 : Wp (Proc.devRef .tc main_v3) = (val_main_v3 (F := Ideal) x1)) (h6 : Wp (Proc.devRef .tc main_v6) = (val_main_v6 (F := Ideal) x1)) (h29 : Wp (Proc.devRef .tc main_v29) = (val_main_v29 (F := Ideal) x1)) :
    StableHlo.after (hostOps4 (F := Ideal)) Wp (Proc.devRef .tc main_v85) = (val_main_v96 (F := Ideal) x0 x1 x3 x4 x5 x6) := by
  dsimp only [hostOps4]; after_results_simp
  simp only [hlin, h3, h6, h29]
  rfl
theorem hA1_brow (u : Fin 1) (q : Fin 64) :
    StableHlo.after (hostOps4 (F := Ideal)) Wp (Proc.devRef .tc main_v86) (ix2 u q) = Wp (Proc.devRef .tc main_v67) (ix1 q) := by
  dsimp only [hostOps4]; after_results
  exact row_of_vec _ _ u q
theorem keep_hostOps4_main_v3 : StableHlo.after (hostOps4 (F := Ideal)) Wp (Proc.devRef .tc main_v3) = Wp (Proc.devRef .tc main_v3) := by
  dsimp only [hostOps4]; after_results
theorem keep_hostOps4_main_v6 : StableHlo.after (hostOps4 (F := Ideal)) Wp (Proc.devRef .tc main_v6) = Wp (Proc.devRef .tc main_v6) := by
  dsimp only [hostOps4]; after_results
theorem keep_hostOps4_main_v29 : StableHlo.after (hostOps4 (F := Ideal)) Wp (Proc.devRef .tc main_v29) = Wp (Proc.devRef .tc main_v29) := by
  dsimp only [hostOps4]; after_results
theorem keep_hostOps4_main_arg2 : StableHlo.after (hostOps4 (F := Ideal)) Wp (Proc.devRef .tc main_arg2) = Wp (Proc.devRef .tc main_arg2) := by
  dsimp only [hostOps4]; after_results
theorem keep_hostOps4_main_arg3 : StableHlo.after (hostOps4 (F := Ideal)) Wp (Proc.devRef .tc main_arg3) = Wp (Proc.devRef .tc main_arg3) := by
  dsimp only [hostOps4]; after_results
theorem keep_hostOps4_main_arg4 : StableHlo.after (hostOps4 (F := Ideal)) Wp (Proc.devRef .tc main_arg4) = Wp (Proc.devRef .tc main_arg4) := by
  dsimp only [hostOps4]; after_results
theorem keep_hostOps4_main_arg5 : StableHlo.after (hostOps4 (F := Ideal)) Wp (Proc.devRef .tc main_arg5) = Wp (Proc.devRef .tc main_arg5) := by
  dsimp only [hostOps4]; after_results
theorem keep_hostOps4_main_arg6 : StableHlo.after (hostOps4 (F := Ideal)) Wp (Proc.devRef .tc main_arg6) = Wp (Proc.devRef .tc main_arg6) := by
  dsimp only [hostOps4]; after_results
theorem keep_hostOps4_main_v67 : StableHlo.after (hostOps4 (F := Ideal)) Wp (Proc.devRef .tc main_v67) = Wp (Proc.devRef .tc main_v67) := by
  dsimp only [hostOps4]; after_results
theorem keep_hostOps4_main_v69 : StableHlo.after (hostOps4 (F := Ideal)) Wp (Proc.devRef .tc main_v69) = Wp (Proc.devRef .tc main_v69) := by
  dsimp only [hostOps4]; after_results
theorem keep_hostOps4_main_v71 : StableHlo.after (hostOps4 (F := Ideal)) Wp (Proc.devRef .tc main_v71) = Wp (Proc.devRef .tc main_v71) := by
  dsimp only [hostOps4]; after_results
theorem hB1_mean (u : Fin 1) (q : Fin 64) :
    StableHlo.after (hostOps5 (F := Ideal)) Wp (Proc.devRef .tc main_v89) (ix2 u q) = Ideal.div (Wp (Proc.devRef .tc main_v87_0) (ix2 u q)) (Ideal.ofBits .f32 0x47C35000#32) := by
  dsimp only [hostOps5]; after_results
  rfl
theorem hB1_var (u : Fin 1) (q : Fin 64) :
    StableHlo.after (hostOps5 (F := Ideal)) Wp (Proc.devRef .tc main_v93) (ix2 u q)
      = Ideal.div (Wp (Proc.devRef .tc main_v87_1) (ix2 u q)) (Ideal.ofBits .f32 0x47C35000#32) - Ideal.div (Wp (Proc.devRef .tc main_v87_0) (ix2 u q)) (Ideal.ofBits .f32 0x47C35000#32) * Ideal.div (Wp (Proc.devRef .tc main_v87_0) (ix2 u q)) (Ideal.ofBits .f32 0x47C35000#32) := by
  dsimp only [hostOps5]; after_results
  rfl
theorem hB1_b (u : Fin 1) (q : Fin 64) :
    StableHlo.after (hostOps5 (F := Ideal)) Wp (Proc.devRef .tc main_v94) (ix2 u q) = Wp (Proc.devRef .tc main_v67) (ix1 q) := by
  dsimp only [hostOps5]; after_results
  exact row_of_vec _ _ u q
theorem hB1_g (u : Fin 1) (q : Fin 64) :
    StableHlo.after (hostOps5 (F := Ideal)) Wp (Proc.devRef .tc main_v95) (ix2 u q) = Wp (Proc.devRef .tc main_v69) (ix1 q) := by
  dsimp only [hostOps5]; after_results
  exact row_of_vec _ _ u q
theorem hB1_be (u : Fin 1) (q : Fin 64) :
    StableHlo.after (hostOps5 (F := Ideal)) Wp (Proc.devRef .tc main_v96) (ix2 u q) = Wp (Proc.devRef .tc main_v71) (ix1 q) := by
  dsimp only [hostOps5]; after_results
  exact row_of_vec _ _ u q
theorem keep_hostOps5_main_v3 : StableHlo.after (hostOps5 (F := Ideal)) Wp (Proc.devRef .tc main_v3) = Wp (Proc.devRef .tc main_v3) := by
  dsimp only [hostOps5]; after_results
theorem keep_hostOps5_main_v6 : StableHlo.after (hostOps5 (F := Ideal)) Wp (Proc.devRef .tc main_v6) = Wp (Proc.devRef .tc main_v6) := by
  dsimp only [hostOps5]; after_results
theorem keep_hostOps5_main_v29 : StableHlo.after (hostOps5 (F := Ideal)) Wp (Proc.devRef .tc main_v29) = Wp (Proc.devRef .tc main_v29) := by
  dsimp only [hostOps5]; after_results
theorem keep_hostOps5_main_arg2 : StableHlo.after (hostOps5 (F := Ideal)) Wp (Proc.devRef .tc main_arg2) = Wp (Proc.devRef .tc main_arg2) := by
  dsimp only [hostOps5]; after_results
theorem keep_hostOps5_main_arg3 : StableHlo.after (hostOps5 (F := Ideal)) Wp (Proc.devRef .tc main_arg3) = Wp (Proc.devRef .tc main_arg3) := by
  dsimp only [hostOps5]; after_results
theorem keep_hostOps5_main_arg4 : StableHlo.after (hostOps5 (F := Ideal)) Wp (Proc.devRef .tc main_arg4) = Wp (Proc.devRef .tc main_arg4) := by
  dsimp only [hostOps5]; after_results
theorem keep_hostOps5_main_arg5 : StableHlo.after (hostOps5 (F := Ideal)) Wp (Proc.devRef .tc main_arg5) = Wp (Proc.devRef .tc main_arg5) := by
  dsimp only [hostOps5]; after_results
theorem keep_hostOps5_main_arg6 : StableHlo.after (hostOps5 (F := Ideal)) Wp (Proc.devRef .tc main_arg6) = Wp (Proc.devRef .tc main_arg6) := by
  dsimp only [hostOps5]; after_results
theorem keep_hostOps5_main_v85 : StableHlo.after (hostOps5 (F := Ideal)) Wp (Proc.devRef .tc main_v85) = Wp (Proc.devRef .tc main_v85) := by
  dsimp only [hostOps5]; after_results
set_option maxHeartbeats 4000000 in
theorem hC1_W (h : Wp (Proc.devRef .tc main_arg3) = x3) :
    StableHlo.after (hostOps6 (F := Ideal)) Wp (Proc.devRef .tc main_v99) = (val_main_v133 (F := Ideal) x3) := by
  dsimp only [hostOps6]; after_results_simp
  simp only [h]
  rfl
set_option maxHeartbeats 4000000 in
theorem hC1_b (h : Wp (Proc.devRef .tc main_arg4) = x4) :
    StableHlo.after (hostOps6 (F := Ideal)) Wp (Proc.devRef .tc main_v101) = (val_main_v149 (F := Ideal) x4) := by
  dsimp only [hostOps6]; after_results_simp
  simp only [h]
  rfl
set_option maxHeartbeats 4000000 in
theorem hC1_g (h : Wp (Proc.devRef .tc main_arg5) = x5) :
    StableHlo.after (hostOps6 (F := Ideal)) Wp (Proc.devRef .tc main_v103) = (val_main_v173 (F := Ideal) x5) := by
  dsimp only [hostOps6]; after_results_simp
  simp only [h]
  rfl
set_option maxHeartbeats 4000000 in
theorem hC1_be (h : Wp (Proc.devRef .tc main_arg6) = x6) :
    StableHlo.after (hostOps6 (F := Ideal)) Wp (Proc.devRef .tc main_v105) = (val_main_v178 (F := Ideal) x6) := by
  dsimp only [hostOps6]; after_results_simp
  simp only [h]
  rfl
theorem keep_hostOps6_main_v3 : StableHlo.after (hostOps6 (F := Ideal)) Wp (Proc.devRef .tc main_v3) = Wp (Proc.devRef .tc main_v3) := by
  dsimp only [hostOps6]; after_results
theorem keep_hostOps6_main_v6 : StableHlo.after (hostOps6 (F := Ideal)) Wp (Proc.devRef .tc main_v6) = Wp (Proc.devRef .tc main_v6) := by
  dsimp only [hostOps6]; after_results
theorem keep_hostOps6_main_v29 : StableHlo.after (hostOps6 (F := Ideal)) Wp (Proc.devRef .tc main_v29) = Wp (Proc.devRef .tc main_v29) := by
  dsimp only [hostOps6]; after_results
theorem keep_hostOps6_main_arg2 : StableHlo.after (hostOps6 (F := Ideal)) Wp (Proc.devRef .tc main_arg2) = Wp (Proc.devRef .tc main_arg2) := by
  dsimp only [hostOps6]; after_results
theorem keep_hostOps6_main_arg3 : StableHlo.after (hostOps6 (F := Ideal)) Wp (Proc.devRef .tc main_arg3) = Wp (Proc.devRef .tc main_arg3) := by
  dsimp only [hostOps6]; after_results
theorem keep_hostOps6_main_arg4 : StableHlo.after (hostOps6 (F := Ideal)) Wp (Proc.devRef .tc main_arg4) = Wp (Proc.devRef .tc main_arg4) := by
  dsimp only [hostOps6]; after_results
theorem keep_hostOps6_main_arg5 : StableHlo.after (hostOps6 (F := Ideal)) Wp (Proc.devRef .tc main_arg5) = Wp (Proc.devRef .tc main_arg5) := by
  dsimp only [hostOps6]; after_results
theorem keep_hostOps6_main_arg6 : StableHlo.after (hostOps6 (F := Ideal)) Wp (Proc.devRef .tc main_arg6) = Wp (Proc.devRef .tc main_arg6) := by
  dsimp only [hostOps6]; after_results
theorem keep_hostOps6_main_v97 : StableHlo.after (hostOps6 (F := Ideal)) Wp (Proc.devRef .tc main_v97) = Wp (Proc.devRef .tc main_v97) := by
  dsimp only [hostOps6]; after_results

end Cert.KernelIdeal.Chain

end
-- ==== Proof.HostL2.lean ====
/-
Layer 3's host operations between its regions, read buffer by buffer: the gather of the transformed rows along the
  edges, their scaling and the accumulating scatter are the reference's operations of the same operands; the mean is the
  column sum over 100000, the variance the mean of squares minus the squared mean; bias, scale and shift are passed on as rows.
-/
import proofs.«132062_j28845000360070_1_alg».proof.Proof.Gen.KernelIdeal.Frame
import proofs.«132062_j28845000360070_1_alg».proof.Proof.RefRead
import Idealize.ShloMosaic.Lib.StableHlo.Run
import Idealize.ShloMosaic.Lib.ValueIdx
import Idealize.ShloMosaic.Lib.Pipeline.Value
import proofs.«132062_j28845000360070_1_alg».proof.Proof.RowVec

set_option maxRecDepth 16384

noncomputable section

namespace Cert.KernelIdeal.Chain

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

variable (Wp : Valuation τ sig (Elt Ideal))
variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S3x64x64, .f32⟩ : BufTy).Contents (Elt Ideal))
  (x4 x5 x6 : (⟨S3x64, .f32⟩ : BufTy).Contents (Elt Ideal))
set_option maxHeartbeats 4000000 in
theorem hA2_agg (hlin : Wp (Proc.devRef .tc main_v106) = (val_main_v134 (F := Ideal) x0 x1 x3 x4 x5 x6)) (h3 : Wp (Proc.devRef .tc main_v3) = (val_main_v3 (F := Ideal) x1)) (h6 : Wp (Proc.devRef .tc main_v6) = (val_main_v6 (F := Ideal) x1)) (h29 : Wp (Proc.devRef .tc main_v29) = (val_main_v29 (F := Ideal) x1)) :
    StableHlo.after (hostOps7 (F := Ideal)) Wp (Proc.devRef .tc main_v119) = (val_main_v147 (F := Ideal) x0 x1 x3 x4 x5 x6) := by
  dsimp only [hostOps7]; after_results_simp
  simp only [hlin, h3, h6, h29]
  rfl
theorem hA2_brow (u : Fin 1) (q : Fin 64) :
    StableHlo.after (hostOps7 (F := Ideal)) Wp (Proc.devRef .tc main_v120) (ix2 u q) = Wp (Proc.devRef .tc main_v101) (ix1 q) := by
  dsimp only [hostOps7]; after_results
  exact row_of_vec _ _ u q
theorem keep_hostOps7_main_v3 : StableHlo.after (hostOps7 (F := Ideal)) Wp (Proc.devRef .tc main_v3) = Wp (Proc.devRef .tc main_v3) := by
  dsimp only [hostOps7]; after_results
theorem keep_hostOps7_main_v6 : StableHlo.after (hostOps7 (F := Ideal)) Wp (Proc.devRef .tc main_v6) = Wp (Proc.devRef .tc main_v6) := by
  dsimp only [hostOps7]; after_results
theorem keep_hostOps7_main_v29 : StableHlo.after (hostOps7 (F := Ideal)) Wp (Proc.devRef .tc main_v29) = Wp (Proc.devRef .tc main_v29) := by
  dsimp only [hostOps7]; after_results
theorem keep_hostOps7_main_arg2 : StableHlo.after (hostOps7 (F := Ideal)) Wp (Proc.devRef .tc main_arg2) = Wp (Proc.devRef .tc main_arg2) := by
  dsimp only [hostOps7]; after_results
theorem keep_hostOps7_main_arg3 : StableHlo.after (hostOps7 (F := Ideal)) Wp (Proc.devRef .tc main_arg3) = Wp (Proc.devRef .tc main_arg3) := by
  dsimp only [hostOps7]; after_results
theorem keep_hostOps7_main_arg4 : StableHlo.after (hostOps7 (F := Ideal)) Wp (Proc.devRef .tc main_arg4) = Wp (Proc.devRef .tc main_arg4) := by
  dsimp only [hostOps7]; after_results
theorem keep_hostOps7_main_arg5 : StableHlo.after (hostOps7 (F := Ideal)) Wp (Proc.devRef .tc main_arg5) = Wp (Proc.devRef .tc main_arg5) := by
  dsimp only [hostOps7]; after_results
theorem keep_hostOps7_main_arg6 : StableHlo.after (hostOps7 (F := Ideal)) Wp (Proc.devRef .tc main_arg6) = Wp (Proc.devRef .tc main_arg6) := by
  dsimp only [hostOps7]; after_results
theorem keep_hostOps7_main_v101 : StableHlo.after (hostOps7 (F := Ideal)) Wp (Proc.devRef .tc main_v101) = Wp (Proc.devRef .tc main_v101) := by
  dsimp only [hostOps7]; after_results
theorem keep_hostOps7_main_v103 : StableHlo.after (hostOps7 (F := Ideal)) Wp (Proc.devRef .tc main_v103) = Wp (Proc.devRef .tc main_v103) := by
  dsimp only [hostOps7]; after_results
theorem keep_hostOps7_main_v105 : StableHlo.after (hostOps7 (F := Ideal)) Wp (Proc.devRef .tc main_v105) = Wp (Proc.devRef .tc main_v105) := by
  dsimp only [hostOps7]; after_results
theorem hB2_mean (u : Fin 1) (q : Fin 64) :
    StableHlo.after (hostOps8 (F := Ideal)) Wp (Proc.devRef .tc main_v123) (ix2 u q) = Ideal.div (Wp (Proc.devRef .tc main_v121_0) (ix2 u q)) (Ideal.ofBits .f32 0x47C35000#32) := by
  dsimp only [hostOps8]; after_results
  rfl
theorem hB2_var (u : Fin 1) (q : Fin 64) :
    StableHlo.after (hostOps8 (F := Ideal)) Wp (Proc.devRef .tc main_v127) (ix2 u q)
      = Ideal.div (Wp (Proc.devRef .tc main_v121_1) (ix2 u q)) (Ideal.ofBits .f32 0x47C35000#32) - Ideal.div (Wp (Proc.devRef .tc main_v121_0) (ix2 u q)) (Ideal.ofBits .f32 0x47C35000#32) * Ideal.div (Wp (Proc.devRef .tc main_v121_0) (ix2 u q)) (Ideal.ofBits .f32 0x47C35000#32) := by
  dsimp only [hostOps8]; after_results
  rfl
theorem hB2_b (u : Fin 1) (q : Fin 64) :
    StableHlo.after (hostOps8 (F := Ideal)) Wp (Proc.devRef .tc main_v128) (ix2 u q) = Wp (Proc.devRef .tc main_v101) (ix1 q) := by
  dsimp only [hostOps8]; after_results
  exact row_of_vec _ _ u q
theorem hB2_g (u : Fin 1) (q : Fin 64) :
    StableHlo.after (hostOps8 (F := Ideal)) Wp (Proc.devRef .tc main_v129) (ix2 u q) = Wp (Proc.devRef .tc main_v103) (ix1 q) := by
  dsimp only [hostOps8]; after_results
  exact row_of_vec _ _ u q
theorem hB2_be (u : Fin 1) (q : Fin 64) :
    StableHlo.after (hostOps8 (F := Ideal)) Wp (Proc.devRef .tc main_v130) (ix2 u q) = Wp (Proc.devRef .tc main_v105) (ix1 q) := by
  dsimp only [hostOps8]; after_results
  exact row_of_vec _ _ u q
theorem keep_hostOps8_main_v3 : StableHlo.after (hostOps8 (F := Ideal)) Wp (Proc.devRef .tc main_v3) = Wp (Proc.devRef .tc main_v3) := by
  dsimp only [hostOps8]; after_results
theorem keep_hostOps8_main_v6 : StableHlo.after (hostOps8 (F := Ideal)) Wp (Proc.devRef .tc main_v6) = Wp (Proc.devRef .tc main_v6) := by
  dsimp only [hostOps8]; after_results
theorem keep_hostOps8_main_v29 : StableHlo.after (hostOps8 (F := Ideal)) Wp (Proc.devRef .tc main_v29) = Wp (Proc.devRef .tc main_v29) := by
  dsimp only [hostOps8]; after_results
theorem keep_hostOps8_main_arg2 : StableHlo.after (hostOps8 (F := Ideal)) Wp (Proc.devRef .tc main_arg2) = Wp (Proc.devRef .tc main_arg2) := by
  dsimp only [hostOps8]; after_results
theorem keep_hostOps8_main_arg3 : StableHlo.after (hostOps8 (F := Ideal)) Wp (Proc.devRef .tc main_arg3) = Wp (Proc.devRef .tc main_arg3) := by
  dsimp only [hostOps8]; after_results
theorem keep_hostOps8_main_arg4 : StableHlo.after (hostOps8 (F := Ideal)) Wp (Proc.devRef .tc main_arg4) = Wp (Proc.devRef .tc main_arg4) := by
  dsimp only [hostOps8]; after_results
theorem keep_hostOps8_main_arg5 : StableHlo.after (hostOps8 (F := Ideal)) Wp (Proc.devRef .tc main_arg5) = Wp (Proc.devRef .tc main_arg5) := by
  dsimp only [hostOps8]; after_results
theorem keep_hostOps8_main_arg6 : StableHlo.after (hostOps8 (F := Ideal)) Wp (Proc.devRef .tc main_arg6) = Wp (Proc.devRef .tc main_arg6) := by
  dsimp only [hostOps8]; after_results
theorem keep_hostOps8_main_v119 : StableHlo.after (hostOps8 (F := Ideal)) Wp (Proc.devRef .tc main_v119) = Wp (Proc.devRef .tc main_v119) := by
  dsimp only [hostOps8]; after_results
set_option maxHeartbeats 4000000 in
theorem hTail (h131 : Wp (Proc.devRef .tc main_v131) = (val_main_v182 (F := Ideal) x0 x1 x3 x4 x5 x6)) (h2 : Wp (Proc.devRef .tc main_arg2) = x2) :
    StableHlo.after (hostOps9 (F := Ideal)) Wp (Proc.devRef .tc main_v143) = (val_main_v194 (F := Ideal) x0 x1 x2 x3 x4 x5 x6) := by
  dsimp only [hostOps9]; after_results_simp
  simp only [h131, h2]
  rfl

end Cert.KernelIdeal.Chain

end
-- ==== Proof.RegLinPay.lean ====
import proofs.«132062_j28845000360070_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.RegVal

open Cert.KernelIdeal Cert.KernelIdeal.Gen Idealize.ShloMosaic Idealize.ShloMosaic.ValueIdx
open scoped BigOperators

/-! # The linear body's value at an index

The body rounds both operands to bf16 (the identity on extended reals), and multiplies them into a zero
accumulator: entry (p, q) of the result is the sum over k of row p of the left operand times column q of the
right one. -/

theorem lhs_dot_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_dot_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
theorem rhs_dot_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
theorem rhs_dot_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The contraction of a [10000,64] by a [64,64] operand into a zero accumulator, entry by entry. -/
theorem matmul_zero_apply (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun ax => Fin.ext (by
      match ax with
      | ⟨0, _⟩ => exact lhs_dot_0 _ _
      | ⟨1, _⟩ => exact (lhs_dot_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun ax => Fin.ext (by
      match ax with
      | ⟨0, _⟩ => exact (rhs_dot_0 _ _).trans hk
      | ⟨1, _⟩ => exact rhs_dot_1 _ _)
  rw [el, er]

/-- The first layer's payload at (p, q). -/
theorem k0_pay1_apply (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  refine (matmul_zero_apply _ _ p q).trans ?_
  refine Finset.sum_congr rfl fun k _ => ?_
  rw [shapeCast_self]
  rfl

/-- The second layer's payload at (p, q). -/
theorem k3_pay1_apply (x0 : Vec Ideal S10000x64 .f32) (x1 : Vec Ideal S64x64 .f32) (p : Fin 10000) (q : Fin 64) :
    k3_pay1 (F := Ideal) x0 x1 (ix2 p q) = ∑ k : Fin 64, x0 (ix2 p k) * x1 (ix2 k q) := by
  unfold k3_pay1
  refine (matmul_zero_apply _ _ p q).trans ?_
  refine Finset.sum_congr rfl fun k _ => ?_
  rw [shapeCast_self, shapeCast_self]
  rfl

/-- The third layer's payload at (p, q). -/
theorem k6_pay1_apply (x0 : Vec Ideal S10000x64 .f32) (x1 : Vec Ideal S64x64 .f32) (p : Fin 10000) (q : Fin 64) :
    k6_pay1 (F := Ideal) x0 x1 (ix2 p q) = ∑ k : Fin 64, x0 (ix2 p k) * x1 (ix2 k q) := by
  unfold k6_pay1
  refine (matmul_zero_apply _ _ p q).trans ?_
  refine Finset.sum_congr rfl fun k _ => ?_
  rw [shapeCast_self, shapeCast_self]
  rfl

end Cert.KernelIdeal.RegVal

end
-- ==== Proof.RegLin.lean ====
import proofs.«132062_j28845000360070_1_alg».proof.Proof.Gen.KernelIdeal.Frame
import proofs.«132062_j28845000360070_1_alg».proof.Proof.RegLinPay
import Idealize.ShloMosaic.Lib.Pipeline.Value
import Idealize.ShloMosaic.Lib.ValueIdx

noncomputable section

namespace Cert.KernelIdeal.RegVal

open Cert.KernelIdeal Cert.KernelIdeal.Gen Idealize.ShloMosaic Idealize.ShloMosaic.ValueIdx
open scoped BigOperators

open Idealize.ShloMosaic.TcCoe Idealize.SL.Sem
open Idealize.ShloMosaic.Pipeline (Dat)

variable (V : (c : Dev nD) → (b : Ref sig .tc) → Buf (Elt Ideal) ((c : Thread nD τ).loc b))

/-! # Region 0: the dense transform as one function of the arrays the region finds

Ten grid points; point t multiplies rows 10000·t … 10000·t + 9999 of the left operand by the whole [64,64]
weight and writes the product to the same rows of the output. So the output array ends as the full product,
entry (r, q) the sum over k of left (r, k) times weight (k, q). -/

theorem lin0_hz : (![0, 0] : Fin 2 → Nat) = fun _ => 0 := funext fun a => by fin_cases a <;> rfl

/-- The left operand as the region finds it: window 0's array, over its literal shape. -/
abbrev lin0_A (c : Dev nD) : S100000x64.Idx → EReal := V c (Pipeline.arrRef spec0 0)
/-- The weight as the region finds it: window 1's array. -/
abbrev lin0_W (c : Dev nD) : S64x64.Idx → EReal := V c (Pipeline.arrRef spec0 1)

/-- The product, entry by entry, over literal coordinates. -/
def lin0_entry (c : Dev nD) (r : Fin 100000) (q : Fin 64) : EReal :=
  ∑ k : Fin 64, lin0_A V c (ix2 r k) * lin0_W V c (ix2 k q)

/-- The product as an array. -/
def lin0_G (c : Dev nD) : S100000x64.Idx → EReal := fun i => lin0_entry V c ⟨(i 0).val, idx2_lt0 i⟩ ⟨(i 1).val, idx2_lt1 i⟩

/-- The printed index maps over the grid: the left operand's and the output's block index is the point on the row
    axis and zero on the column axis; the weight's block index is zero. -/
theorem lin0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t leaves in the output's staging buffer, at (p, q): row 10000·t + p of the product. -/
theorem lin0_after_apply (c : Dev nD) (t : Fin cfg0.N) (p : Fin 10000) (q : Fin 64) (r : Fin 100000) (q' : Fin 64) (hr : r.val = t.val * 10000 + p.val) (hq : q'.val = q.val) :
    k0_pay1 (F := Ideal) (iblk0 V c 0 t) (iblk0 V c 1 t) (ix2 p q) = lin0_entry V c r q' := by
  obtain rfl : q = q' := (Fin.ext hq).symm
  refine (k0_pay1_apply (iblk0 V c 0 t) (iblk0 V c 1 t) p q).trans ?_
  obtain ⟨e0, e1, e2, e3, e4, e5⟩ := lin0_idx t
  unfold lin0_entry
  refine Finset.sum_congr rfl fun k _ => ?_
  have h0 : iblk0 V c 0 t (ix2 p k) = lin0_A V c (ix2 r k) := by
    show V c (Pipeline.arrRef spec0 0) (((cfg0.win 0).blk t).view.emb (ix2 p k)) = V c (Pipeline.arrRef spec0 0) (ix2 r k)
    congr 1
    funext a; apply Fin.ext
    match a with
    | ⟨0, _⟩ => show win0_0.index t (0 : Fin 2) * 10000 + 1 * p.val = r.val; omega
    | ⟨1, _⟩ => show win0_0.index t (1 : Fin 2) * 64 + 1 * k.val = k.val; omega
  have h1 : iblk0 V c 1 t (ix2 k q) = lin0_W V c (ix2 k q) := by
    show V c (Pipeline.arrRef spec0 1) (((cfg0.win 1).blk t).view.emb (ix2 k q)) = V c (Pipeline.arrRef spec0 1) (ix2 k q)
    congr 1
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  rw [h0, h1]

/-- What point t writes back is block t of the product. -/
theorem lin0_flushed (c : Dev nD) (t : Fin cfg0.N) :
    (dat0 (F := Ideal) V c).flushed 2 t = ((cfg0.win 2).blk t).view.read (Elt Ideal) (lin0_G V c) := by
  show (cfg0.win 2).cut (grid0.coords t) ((dat0 (F := Ideal) V c).after 2 t) = _
  rw [after0_2]
  unfold out0_2
  rw [View.canon_unit_zero lin0_hz]
  simp only [View.ld_unit_zero (S := S10000x64) lin0_hz, View.ld_unit_zero (S := S64x64) lin0_hz]
  obtain ⟨e0, e1, e2, e3, e4, e5⟩ := lin0_idx t
  funext j
  have hj0 : (j 0).val < 10000 := (j 0).isLt
  have hj1 : (j 1).val < 64 := (j 1).isLt
  have ht : t.val < 10 := lt_of_lt_of_eq t.isLt N_0
  show k0_pay1 (F := Ideal) (iblk0 V c 0 t) (iblk0 V c 1 t) j = lin0_G V c (((cfg0.win 2).blk t).view.emb j)
  have hj : j = ix2 (⟨(j 0).val, hj0⟩ : Fin 10000) (⟨(j 1).val, hj1⟩ : Fin 64) := funext fun a => by
    match a with
    | ⟨0, _⟩ => rfl
    | ⟨1, _⟩ => rfl
  refine (congrArg (k0_pay1 (F := Ideal) (iblk0 V c 0 t) (iblk0 V c 1 t)) hj).trans ?_
  unfold lin0_G
  refine lin0_after_apply V c t ⟨(j 0).val, hj0⟩ ⟨(j 1).val, hj1⟩ _ _ ?_ ?_
  · show win0_2.index t (0 : Fin 2) * 10000 + 1 * (j 0).val = t.val * 10000 + (j 0).val
    omega
  · show win0_2.index t (1 : Fin 2) * 64 + 1 * (j 1).val = (j 1).val
    omega

/-- An index of the output array is in point t's block iff each coordinate is in the block's range on its axis. -/
theorem lin0_mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v38).slice (win0_2.rect t)).set ↔ _
  rw [View.set_slice_whole, Rect.mem_set_unit]
  exact Iff.rfl

/-- The ten row blocks cover the array: row r is in the block of point r / 10000. -/
theorem lin0_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have htN : (i 0).val / 10000 < cfg0.N := lt_of_lt_of_eq (by omega : (i 0).val / 10000 < 10) hN.symm
  refine ⟨⟨(i 0).val / 10000, htN⟩, flush0_2 _, ?_⟩
  rw [lin0_mem_blk]
  obtain ⟨e0, e1, e2, e3, e4, e5⟩ := lin0_idx ⟨(i 0).val / 10000, htN⟩
  intro a
  match a with
  | ⟨0, _⟩ =>
    show win0_2.index ⟨(i 0).val / 10000, htN⟩ (0 : Fin 2) * 10000 ≤ (i 0).val ∧ (i 0).val < win0_2.index ⟨(i 0).val / 10000, htN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, htN⟩ (1 : Fin 2) * 64 ≤ (i 1).val ∧ (i 1).val < win0_2.index ⟨(i 0).val / 10000, htN⟩ (1 : Fin 2) * 64 + 64
    rw [e5]; omega

/-- The output array after the region is the product. -/
theorem lin0_final (c : Dev nD) : (dat0 (F := Ideal) V c).arrAt 2 cfg0.N = lin0_G V c :=
  (dat0 (F := Ideal) V c).arrAt_eq_of_cover 2 (lin0_G V c) (fun t _ => lin0_flushed V c t) lin0_cover

/-- Region 0's output array, entry (r, q): the sum over k of left (r, k) times weight (k, q). -/
theorem lin0_apply (c : Dev nD) (r : Fin 100000) (q : Fin 64) :
    (dat0 (F := Ideal) V c).arrAt 2 cfg0.N (ix2 r q)
      = ∑ k : Fin 64, lin0_A V c (ix2 r k) * lin0_W V c (ix2 k q) := by
  rw [lin0_final]
  rfl

/-! # Region 3: the dense transform as one function of the arrays the region finds

Ten grid points; point t multiplies rows 10000·t … 10000·t + 9999 of the left operand by the whole [64,64]
weight and writes the product to the same rows of the output. So the output array ends as the full product,
entry (r, q) the sum over k of left (r, k) times weight (k, q). -/

theorem lin3_hz : (![0, 0] : Fin 2 → Nat) = fun _ => 0 := funext fun a => by fin_cases a <;> rfl

/-- The left operand as the region finds it: window 0's array, over its literal shape. -/
abbrev lin3_A (c : Dev nD) : S100000x64.Idx → EReal := V c (Pipeline.arrRef spec3 0)
/-- The weight as the region finds it: window 1's array. -/
abbrev lin3_W (c : Dev nD) : S64x64.Idx → EReal := V c (Pipeline.arrRef spec3 1)

/-- The product, entry by entry, over literal coordinates. -/
def lin3_entry (c : Dev nD) (r : Fin 100000) (q : Fin 64) : EReal :=
  ∑ k : Fin 64, lin3_A V c (ix2 r k) * lin3_W V c (ix2 k q)

/-- The product as an array. -/
def lin3_G (c : Dev nD) : S100000x64.Idx → EReal := fun i => lin3_entry V c ⟨(i 0).val, idx2_lt0 i⟩ ⟨(i 1).val, idx2_lt1 i⟩

/-- The printed index maps over the grid: the left operand's and the output's block index is the point on the row
    axis and zero on the column axis; the weight's block index is zero. -/
theorem lin3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t leaves in the output's staging buffer, at (p, q): row 10000·t + p of the product. -/
theorem lin3_after_apply (c : Dev nD) (t : Fin cfg3.N) (p : Fin 10000) (q : Fin 64) (r : Fin 100000) (q' : Fin 64) (hr : r.val = t.val * 10000 + p.val) (hq : q'.val = q.val) :
    k3_pay1 (F := Ideal) (iblk3 V c 0 t) (iblk3 V c 1 t) (ix2 p q) = lin3_entry V c r q' := by
  obtain rfl : q = q' := (Fin.ext hq).symm
  refine (k3_pay1_apply (iblk3 V c 0 t) (iblk3 V c 1 t) p q).trans ?_
  obtain ⟨e0, e1, e2, e3, e4, e5⟩ := lin3_idx t
  unfold lin3_entry
  refine Finset.sum_congr rfl fun k _ => ?_
  have h0 : iblk3 V c 0 t (ix2 p k) = lin3_A V c (ix2 r k) := by
    show V c (Pipeline.arrRef spec3 0) (((cfg3.win 0).blk t).view.emb (ix2 p k)) = V c (Pipeline.arrRef spec3 0) (ix2 r k)
    congr 1
    funext a; apply Fin.ext
    match a with
    | ⟨0, _⟩ => show win3_0.index t (0 : Fin 2) * 10000 + 1 * p.val = r.val; omega
    | ⟨1, _⟩ => show win3_0.index t (1 : Fin 2) * 64 + 1 * k.val = k.val; omega
  have h1 : iblk3 V c 1 t (ix2 k q) = lin3_W V c (ix2 k q) := by
    show V c (Pipeline.arrRef spec3 1) (((cfg3.win 1).blk t).view.emb (ix2 k q)) = V c (Pipeline.arrRef spec3 1) (ix2 k q)
    congr 1
    funext a; apply Fin.ext
    match a with
    | ⟨0, _⟩ => show win3_1.index t (0 : Fin 2) * 64 + 1 * k.val = k.val; omega
    | ⟨1, _⟩ => show win3_1.index t (1 : Fin 2) * 64 + 1 * q.val = q.val; omega
  rw [h0, h1]

/-- What point t writes back is block t of the product. -/
theorem lin3_flushed (c : Dev nD) (t : Fin cfg3.N) :
    (dat3 (F := Ideal) V c).flushed 2 t = ((cfg3.win 2).blk t).view.read (Elt Ideal) (lin3_G V c) := by
  show (cfg3.win 2).cut (grid3.coords t) ((dat3 (F := Ideal) V c).after 2 t) = _
  rw [after3_2]
  unfold out3_2
  rw [View.canon_unit_zero lin3_hz]
  simp only [View.ld_unit_zero (S := S10000x64) lin3_hz, View.ld_unit_zero (S := S64x64) lin3_hz]
  obtain ⟨e0, e1, e2, e3, e4, e5⟩ := lin3_idx t
  funext j
  have hj0 : (j 0).val < 10000 := (j 0).isLt
  have hj1 : (j 1).val < 64 := (j 1).isLt
  have ht : t.val < 10 := lt_of_lt_of_eq t.isLt N_3
  show k3_pay1 (F := Ideal) (iblk3 V c 0 t) (iblk3 V c 1 t) j = lin3_G V c (((cfg3.win 2).blk t).view.emb j)
  have hj : j = ix2 (⟨(j 0).val, hj0⟩ : Fin 10000) (⟨(j 1).val, hj1⟩ : Fin 64) := funext fun a => by
    match a with
    | ⟨0, _⟩ => rfl
    | ⟨1, _⟩ => rfl
  refine (congrArg (k3_pay1 (F := Ideal) (iblk3 V c 0 t) (iblk3 V c 1 t)) hj).trans ?_
  unfold lin3_G
  refine lin3_after_apply V c t ⟨(j 0).val, hj0⟩ ⟨(j 1).val, hj1⟩ _ _ ?_ ?_
  · show win3_2.index t (0 : Fin 2) * 10000 + 1 * (j 0).val = t.val * 10000 + (j 0).val
    omega
  · show win3_2.index t (1 : Fin 2) * 64 + 1 * (j 1).val = (j 1).val
    omega

/-- An index of the output array is in point t's block iff each coordinate is in the block's range on its axis. -/
theorem lin3_mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v72).slice (win3_2.rect t)).set ↔ _
  rw [View.set_slice_whole, Rect.mem_set_unit]
  exact Iff.rfl

/-- The ten row blocks cover the array: row r is in the block of point r / 10000. -/
theorem lin3_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  have htN : (i 0).val / 10000 < cfg3.N := lt_of_lt_of_eq (by omega : (i 0).val / 10000 < 10) hN.symm
  refine ⟨⟨(i 0).val / 10000, htN⟩, flush3_2 _, ?_⟩
  rw [lin3_mem_blk]
  obtain ⟨e0, e1, e2, e3, e4, e5⟩ := lin3_idx ⟨(i 0).val / 10000, htN⟩
  intro a
  match a with
  | ⟨0, _⟩ =>
    show win3_2.index ⟨(i 0).val / 10000, htN⟩ (0 : Fin 2) * 10000 ≤ (i 0).val ∧ (i 0).val < win3_2.index ⟨(i 0).val / 10000, htN⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, htN⟩ (1 : Fin 2) * 64 ≤ (i 1).val ∧ (i 1).val < win3_2.index ⟨(i 0).val / 10000, htN⟩ (1 : Fin 2) * 64 + 64
    rw [e5]; omega

/-- The output array after the region is the product. -/
theorem lin3_final (c : Dev nD) : (dat3 (F := Ideal) V c).arrAt 2 cfg3.N = lin3_G V c :=
  (dat3 (F := Ideal) V c).arrAt_eq_of_cover 2 (lin3_G V c) (fun t _ => lin3_flushed V c t) lin3_cover

/-- Region 3's output array, entry (r, q): the sum over k of left (r, k) times weight (k, q). -/
theorem lin3_apply (c : Dev nD) (r : Fin 100000) (q : Fin 64) :
    (dat3 (F := Ideal) V c).arrAt 2 cfg3.N (ix2 r q)
      = ∑ k : Fin 64, lin3_A V c (ix2 r k) * lin3_W V c (ix2 k q) := by
  rw [lin3_final]
  rfl

/-! # Region 6: the dense transform as one function of the arrays the region finds

Ten grid points; point t multiplies rows 10000·t … 10000·t + 9999 of the left operand by the whole [64,64]
weight and writes the product to the same rows of the output. So the output array ends as the full product,
entry (r, q) the sum over k of left (r, k) times weight (k, q). -/

theorem lin6_hz : (![0, 0] : Fin 2 → Nat) = fun _ => 0 := funext fun a => by fin_cases a <;> rfl

/-- The left operand as the region finds it: window 0's array, over its literal shape. -/
abbrev lin6_A (c : Dev nD) : S100000x64.Idx → EReal := V c (Pipeline.arrRef spec6 0)
/-- The weight as the region finds it: window 1's array. -/
abbrev lin6_W (c : Dev nD) : S64x64.Idx → EReal := V c (Pipeline.arrRef spec6 1)

/-- The product, entry by entry, over literal coordinates. -/
def lin6_entry (c : Dev nD) (r : Fin 100000) (q : Fin 64) : EReal :=
  ∑ k : Fin 64, lin6_A V c (ix2 r k) * lin6_W V c (ix2 k q)

/-- The product as an array. -/
def lin6_G (c : Dev nD) : S100000x64.Idx → EReal := fun i => lin6_entry V c ⟨(i 0).val, idx2_lt0 i⟩ ⟨(i 1).val, idx2_lt1 i⟩

/-- The printed index maps over the grid: the left operand's and the output's block index is the point on the row
    axis and zero on the column axis; the weight's block index is zero. -/
theorem lin6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t leaves in the output's staging buffer, at (p, q): row 10000·t + p of the product. -/
theorem lin6_after_apply (c : Dev nD) (t : Fin cfg6.N) (p : Fin 10000) (q : Fin 64) (r : Fin 100000) (q' : Fin 64) (hr : r.val = t.val * 10000 + p.val) (hq : q'.val = q.val) :
    k6_pay1 (F := Ideal) (iblk6 V c 0 t) (iblk6 V c 1 t) (ix2 p q) = lin6_entry V c r q' := by
  obtain rfl : q = q' := (Fin.ext hq).symm
  refine (k6_pay1_apply (iblk6 V c 0 t) (iblk6 V c 1 t) p q).trans ?_
  obtain ⟨e0, e1, e2, e3, e4, e5⟩ := lin6_idx t
  unfold lin6_entry
  refine Finset.sum_congr rfl fun k _ => ?_
  have h0 : iblk6 V c 0 t (ix2 p k) = lin6_A V c (ix2 r k) := by
    show V c (Pipeline.arrRef spec6 0) (((cfg6.win 0).blk t).view.emb (ix2 p k)) = V c (Pipeline.arrRef spec6 0) (ix2 r k)
    congr 1
    funext a; apply Fin.ext
    match a with
    | ⟨0, _⟩ => show win6_0.index t (0 : Fin 2) * 10000 + 1 * p.val = r.val; omega
    | ⟨1, _⟩ => show win6_0.index t (1 : Fin 2) * 64 + 1 * k.val = k.val; omega
  have h1 : iblk6 V c 1 t (ix2 k q) = lin6_W V c (ix2 k q) := by
    show V c (Pipeline.arrRef spec6 1) (((cfg6.win 1).blk t).view.emb (ix2 k q)) = V c (Pipeline.arrRef spec6 1) (ix2 k q)
    congr 1
    funext a; apply Fin.ext
    match a with
    | ⟨0, _⟩ => show win6_1.index t (0 : Fin 2) * 64 + 1 * k.val = k.val; omega
    | ⟨1, _⟩ => show win6_1.index t (1 : Fin 2) * 64 + 1 * q.val = q.val; omega
  rw [h0, h1]

/-- What point t writes back is block t of the product. -/
theorem lin6_flushed (c : Dev nD) (t : Fin cfg6.N) :
    (dat6 (F := Ideal) V c).flushed 2 t = ((cfg6.win 2).blk t).view.read (Elt Ideal) (lin6_G V c) := by
  show (cfg6.win 2).cut (grid6.coords t) ((dat6 (F := Ideal) V c).after 2 t) = _
  rw [after6_2]
  unfold out6_2
  rw [View.canon_unit_zero lin6_hz]
  simp only [View.ld_unit_zero (S := S10000x64) lin6_hz, View.ld_unit_zero (S := S64x64) lin6_hz]
  obtain ⟨e0, e1, e2, e3, e4, e5⟩ := lin6_idx t
  funext j
  have hj0 : (j 0).val < 10000 := (j 0).isLt
  have hj1 : (j 1).val < 64 := (j 1).isLt
  have ht : t.val < 10 := lt_of_lt_of_eq t.isLt N_6
  show k6_pay1 (F := Ideal) (iblk6 V c 0 t) (iblk6 V c 1 t) j = lin6_G V c (((cfg6.win 2).blk t).view.emb j)
  have hj : j = ix2 (⟨(j 0).val, hj0⟩ : Fin 10000) (⟨(j 1).val, hj1⟩ : Fin 64) := funext fun a => by
    match a with
    | ⟨0, _⟩ => rfl
    | ⟨1, _⟩ => rfl
  refine (congrArg (k6_pay1 (F := Ideal) (iblk6 V c 0 t) (iblk6 V c 1 t)) hj).trans ?_
  unfold lin6_G
  refine lin6_after_apply V c t ⟨(j 0).val, hj0⟩ ⟨(j 1).val, hj1⟩ _ _ ?_ ?_
  · show win6_2.index t (0 : Fin 2) * 10000 + 1 * (j 0).val = t.val * 10000 + (j 0).val
    omega
  · show win6_2.index t (1 : Fin 2) * 64 + 1 * (j 1).val = (j 1).val
    omega

/-- An index of the output array is in point t's block iff each coordinate is in the block's range on its axis. -/
theorem lin6_mem_blk (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v106).slice (win6_2.rect t)).set ↔ _
  rw [View.set_slice_whole, Rect.mem_set_unit]
  exact Iff.rfl

/-- The ten row blocks cover the array: row r is in the block of point r / 10000. -/
theorem lin6_cover (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hN : grid6.N = 10 := N_6
  have htN : (i 0).val / 10000 < cfg6.N := lt_of_lt_of_eq (by omega : (i 0).val / 10000 < 10) hN.symm
  refine ⟨⟨(i 0).val / 10000, htN⟩, flush6_2 _, ?_⟩
  rw [lin6_mem_blk]
  obtain ⟨e0, e1, e2, e3, e4, e5⟩ := lin6_idx ⟨(i 0).val / 10000, htN⟩
  intro a
  match a with
  | ⟨0, _⟩ =>
    show win6_2.index ⟨(i 0).val / 10000, htN⟩ (0 : Fin 2) * 10000 ≤ (i 0).val ∧ (i 0).val < win6_2.index ⟨(i 0).val / 10000, htN⟩ (0 : Fin 2) * 10000 + 10000
    rw [e4]; show (i 0).val / 10000 * 10000 ≤ (i 0).val ∧ (i 0).val < (i 0).val / 10000 * 10000 + 10000; omega
  | ⟨1, _⟩ =>
    show win6_2.index ⟨(i 0).val / 10000, htN⟩ (1 : Fin 2) * 64 ≤ (i 1).val ∧ (i 1).val < win6_2.index ⟨(i 0).val / 10000, htN⟩ (1 : Fin 2) * 64 + 64
    rw [e5]; omega

/-- The output array after the region is the product. -/
theorem lin6_final (c : Dev nD) : (dat6 (F := Ideal) V c).arrAt 2 cfg6.N = lin6_G V c :=
  (dat6 (F := Ideal) V c).arrAt_eq_of_cover 2 (lin6_G V c) (fun t _ => lin6_flushed V c t) lin6_cover

/-- Region 6's output array, entry (r, q): the sum over k of left (r, k) times weight (k, q). -/
theorem lin6_apply (c : Dev nD) (r : Fin 100000) (q : Fin 64) :
    (dat6 (F := Ideal) V c).arrAt 2 cfg6.N (ix2 r q)
      = ∑ k : Fin 64, lin6_A V c (ix2 r k) * lin6_W V c (ix2 k q) := by
  rw [lin6_final]
  rfl

end Cert.KernelIdeal.RegVal

end
-- ==== Proof.RegNormPay.lean ====
import proofs.«132062_j28845000360070_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.ValueIdx
open scoped BigOperators

/-! # The normalize-and-clamp body's value at an index

Every operation of the body is pointwise; the five [1,64] operands are broadcast along the rows, so entry (p, q)
reads each of them at (0, q). -/

/-- Layer payload 2 at (p, q): bias added, mean subtracted, scaled by the reciprocal square root of the shifted variance
    and by gamma, beta added, clamped below at zero. The operands are the [10000,64] block and five [1,64] rows. -/
theorem k2_pay1_apply (x : Vec Ideal S10000x64 .f32) (b va mu g be : Vec Ideal S1x64 .f32) (p : Fin 10000) (q : Fin 64) :
    k2_pay1 (F := Ideal) x b va mu g be (ix2 p q)
      = max ((((x (ix2 p q) + b (ix2 (0 : Fin 1) q)) - mu (ix2 (0 : Fin 1) q)) * Ideal.rsqrt (va (ix2 (0 : Fin 1) q) + Ideal.ofBits .f32 0x3727C5AC#32)) * g (ix2 (0 : Fin 1) q) + be (ix2 (0 : Fin 1) q)) (Ideal.ofBits .f32 0x00000000#32) := by
  unfold k2_pay1
  simp only [shapeCast_self]
  simp only [maximumf_apply, addf_apply, mulf_apply, subf_apply, broadcastTo_1b_ab_apply]
  rfl

/-- Layer payload 5 at (p, q): bias added, mean subtracted, scaled by the reciprocal square root of the shifted variance
    and by gamma, beta added, clamped below at zero. The operands are the [10000,64] block and five [1,64] rows. -/
theorem k5_pay1_apply (x : Vec Ideal S10000x64 .f32) (b va mu g be : Vec Ideal S1x64 .f32) (p : Fin 10000) (q : Fin 64) :
    k5_pay1 (F := Ideal) x b va mu g be (ix2 p q)
      = max ((((x (ix2 p q) + b (ix2 (0 : Fin 1) q)) - mu (ix2 (0 : Fin 1) q)) * Ideal.rsqrt (va (ix2 (0 : Fin 1) q) + Ideal.ofBits .f32 0x3727C5AC#32)) * g (ix2 (0 : Fin 1) q) + be (ix2 (0 : Fin 1) q)) (Ideal.ofBits .f32 0x00000000#32) := by
  unfold k5_pay1
  simp only [shapeCast_self]
  simp only [maximumf_apply, addf_apply, mulf_apply, subf_apply, broadcastTo_1b_ab_apply]
  rfl

/-- Layer payload 8 at (p, q): bias added, mean subtracted, scaled by the reciprocal square root of the shifted variance
    and by gamma, beta added, clamped below at zero. The operands are the [10000,64] block and five [1,64] rows. -/
theorem k8_pay1_apply (x : Vec Ideal S10000x64 .f32) (b va mu g be : Vec Ideal S1x64 .f32) (p : Fin 10000) (q : Fin 64) :
    k8_pay1 (F := Ideal) x b va mu g be (ix2 p q)
      = max ((((x (ix2 p q) + b (ix2 (0 : Fin 1) q)) - mu (ix2 (0 : Fin 1) q)) * Ideal.rsqrt (va (ix2 (0 : Fin 1) q) + Ideal.ofBits .f32 0x3727C5AC#32)) * g (ix2 (0 : Fin 1) q) + be (ix2 (0 : Fin 1) q)) (Ideal.ofBits .f32 0x00000000#32) := by
  unfold k8_pay1
  simp only [shapeCast_self]
  simp only [maximumf_apply, addf_apply, mulf_apply, subf_apply, broadcastTo_1b_ab_apply]
  rfl

end Cert.KernelIdeal.RegVal

end
-- ==== Proof.RegNorm.lean ====
import proofs.«132062_j28845000360070_1_alg».proof.Proof.Gen.KernelIdeal.Frame
import proofs.«132062_j28845000360070_1_alg».proof.Proof.RegNormPay
import Idealize.ShloMosaic.Lib.Pipeline.Value
import Idealize.ShloMosaic.Lib.ValueIdx

noncomputable section

namespace Cert.KernelIdeal.RegVal

open Cert.KernelIdeal Cert.KernelIdeal.Gen Idealize.ShloMosaic Idealize.ShloMosaic.ValueIdx
open scoped BigOperators

open Idealize.ShloMosaic.TcCoe Idealize.SL.Sem
open Idealize.ShloMosaic.Pipeline (Dat)

variable (V : (c : Dev nD) → (b : Ref sig .tc) → Buf (Elt Ideal) ((c : Thread nD τ).loc b))

/-! # Region 2: normalize, scale, shift and clamp, as one function of the arrays the region finds

Ten grid points; point t reads rows 10000·t … 10000·t + 9999 of the aggregated features and the five [1,64] rows
(bias, mean, variance, gamma, beta; the same block at every point), and writes the normalized rows, clamped below at
zero, to the same rows of the output. Every operation is pointwise, so entry (r, q) of the output depends on entry
(r, q) of the features and on column q of each row. -/

theorem norm2_hz : (![0, 0] : Fin 2 → Nat) = fun _ => 0 := funext fun a => by fin_cases a <;> rfl

/-- The aggregated features as the region finds them: window 0's array, over its literal shape. -/
abbrev norm2_X (c : Dev nD) : S100000x64.Idx → EReal := V c (Pipeline.arrRef spec2 0)
/-- The bias row as the region finds it: window 1's array. -/
abbrev norm2_b (c : Dev nD) : S1x64.Idx → EReal := V c (Pipeline.arrRef spec2 1)
/-- The mean row as the region finds it: window 2's array. -/
abbrev norm2_mu (c : Dev nD) : S1x64.Idx → EReal := V c (Pipeline.arrRef spec2 2)
/-- The variance row as the region finds it: window 3's array. -/
abbrev norm2_va (c : Dev nD) : S1x64.Idx → EReal := V c (Pipeline.arrRef spec2 3)
/-- The scale (gamma) row as the region finds it: window 4's array. -/
abbrev norm2_g (c : Dev nD) : S1x64.Idx → EReal := V c (Pipeline.arrRef spec2 4)
/-- The shift (beta) row as the region finds it: window 5's array. -/
abbrev norm2_be (c : Dev nD) : S1x64.Idx → EReal := V c (Pipeline.arrRef spec2 5)

/-- The result, entry by entry, over literal coordinates. -/
def norm2_entry (c : Dev nD) (r : Fin 100000) (q : Fin 64) : EReal :=
  max ((((norm2_X V c (ix2 r q) + norm2_b V c (ix2 (0 : Fin 1) q)) - norm2_mu V c (ix2 (0 : Fin 1) q)) * Ideal.rsqrt (norm2_va V c (ix2 (0 : Fin 1) q) + Ideal.ofBits .f32 0x3727C5AC#32)) * norm2_g V c (ix2 (0 : Fin 1) q) + norm2_be V c (ix2 (0 : Fin 1) q)) (Ideal.ofBits .f32 0x00000000#32)

/-- The result as an array. -/
def norm2_G (c : Dev nD) : S100000x64.Idx → EReal := fun i => norm2_entry V c ⟨(i 0).val, idx2_lt0 i⟩ ⟨(i 1).val, idx2_lt1 i⟩

/-- The printed index maps over the grid: the features' and the output's block index is the point on the row axis and
    zero on the column axis; each row operand's block index is zero. -/
theorem norm2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The features' block at point t is rows 10000·t … of the array. -/
theorem norm2_read0 (c : Dev nD) (t : Fin cfg2.N) (p : Fin 10000) (q : Fin 64) (r : Fin 100000) (hr : r.val = t.val * 10000 + p.val) :
    iblk2 V c 0 t (ix2 p q) = norm2_X V c (ix2 r q) := by
  obtain ⟨e00, e01, e10, e11, e20, e21, e30, e31, e40, e41, e50, e51, e60, e61⟩ := norm2_idx t
  show V c (Pipeline.arrRef spec2 0) (((cfg2.win 0).blk t).view.emb (ix2 p q)) = V c (Pipeline.arrRef spec2 0) (ix2 r q)
  refine congrArg (V c (Pipeline.arrRef spec2 0)) (funext fun a => Fin.ext ?_)
  match a with
  | ⟨0, _⟩ => show win2_0.index t (0 : Fin 2) * 10000 + 1 * p.val = r.val; omega
  | ⟨1, _⟩ => show win2_0.index t (1 : Fin 2) * 64 + 1 * q.val = q.val; omega

/-- Window 1's block at any point is its whole [1,64] array. -/
theorem norm2_read1 (c : Dev nD) (t : Fin cfg2.N) (q : Fin 64) :
    iblk2 V c 1 t (ix2 (0 : Fin 1) q) = norm2_b V c (ix2 (0 : Fin 1) q) := by
  obtain ⟨e00, e01, e10, e11, e20, e21, e30, e31, e40, e41, e50, e51, e60, e61⟩ := norm2_idx t
  show V c (Pipeline.arrRef spec2 1) (((cfg2.win 1).blk t).view.emb (ix2 (0 : Fin 1) q)) = V c (Pipeline.arrRef spec2 1) (ix2 (0 : Fin 1) q)
  refine congrArg (V c (Pipeline.arrRef spec2 1)) (funext fun a => Fin.ext ?_)
  match a with
  | ⟨0, _⟩ => show win2_1.index t (0 : Fin 2) * 1 + 1 * (0 : Fin 1).val = (0 : Fin 1).val; omega
  | ⟨1, _⟩ => show win2_1.index t (1 : Fin 2) * 64 + 1 * q.val = q.val; omega

/-- Window 2's block at any point is its whole [1,64] array. -/
theorem norm2_read2 (c : Dev nD) (t : Fin cfg2.N) (q : Fin 64) :
    iblk2 V c 2 t (ix2 (0 : Fin 1) q) = norm2_mu V c (ix2 (0 : Fin 1) q) := by
  obtain ⟨e00, e01, e10, e11, e20, e21, e30, e31, e40, e41, e50, e51, e60, e61⟩ := norm2_idx t
  show V c (Pipeline.arrRef spec2 2) (((cfg2.win 2).blk t).view.emb (ix2 (0 : Fin 1) q)) = V c (Pipeline.arrRef spec2 2) (ix2 (0 : Fin 1) q)
  refine congrArg (V c (Pipeline.arrRef spec2 2)) (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 64 + 1 * q.val = q.val; omega

/-- Window 3's block at any point is its whole [1,64] array. -/
theorem norm2_read3 (c : Dev nD) (t : Fin cfg2.N) (q : Fin 64) :
    iblk2 V c 3 t (ix2 (0 : Fin 1) q) = norm2_va V c (ix2 (0 : Fin 1) q) := by
  obtain ⟨e00, e01, e10, e11, e20, e21, e30, e31, e40, e41, e50, e51, e60, e61⟩ := norm2_idx t
  show V c (Pipeline.arrRef spec2 3) (((cfg2.win 3).blk t).view.emb (ix2 (0 : Fin 1) q)) = V c (Pipeline.arrRef spec2 3) (ix2 (0 : Fin 1) q)
  refine congrArg (V c (Pipeline.arrRef spec2 3)) (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 64 + 1 * q.val = q.val; omega

/-- Window 4's block at any point is its whole [1,64] array. -/
theorem norm2_read4 (c : Dev nD) (t : Fin cfg2.N) (q : Fin 64) :
    iblk2 V c 4 t (ix2 (0 : Fin 1) q) = norm2_g V c (ix2 (0 : Fin 1) q) := by
  obtain ⟨e00, e01, e10, e11, e20, e21, e30, e31, e40, e41, e50, e51, e60, e61⟩ := norm2_idx t
  show V c (Pipeline.arrRef spec2 4) (((cfg2.win 4).blk t).view.emb (ix2 (0 : Fin 1) q)) = V c (Pipeline.arrRef spec2 4) (ix2 (0 : Fin 1) q)
  refine congrArg (V c (Pipeline.arrRef spec2 4)) (funext fun a => Fin.ext ?_)
  match a with
  | ⟨0, _⟩ => show win2_4.index t (0 : Fin 2) * 1 + 1 * (0 : Fin 1).val = (0 : Fin 1).val; omega
  | ⟨1, _⟩ => show win2_4.index t (1 : Fin 2) * 64 + 1 * q.val = q.val; omega

/-- Window 5's block at any point is its whole [1,64] array. -/
theorem norm2_read5 (c : Dev nD) (t : Fin cfg2.N) (q : Fin 64) :
    iblk2 V c 5 t (ix2 (0 : Fin 1) q) = norm2_be V c (ix2 (0 : Fin 1) q) := by
  obtain ⟨e00, e01, e10, e11, e20, e21, e30, e31, e40, e41, e50, e51, e60, e61⟩ := norm2_idx t
  show V c (Pipeline.arrRef spec2 5) (((cfg2.win 5).blk t).view.emb (ix2 (0 : Fin 1) q)) = V c (Pipeline.arrRef spec2 5) (ix2 (0 : Fin 1) q)
  refine congrArg (V c (Pipeline.arrRef spec2 5)) (funext fun a => Fin.ext ?_)
  match a with
  | ⟨0, _⟩ => show win2_5.index t (0 : Fin 2) * 1 + 1 * (0 : Fin 1).val = (0 : Fin 1).val; omega
  | ⟨1, _⟩ => show win2_5.index t (1 : Fin 2) * 64 + 1 * q.val = q.val; omega

/-- What point t leaves in the output's staging buffer, at (p, q): row 10000·t + p of the result. -/
theorem norm2_after_apply (c : Dev nD) (t : Fin cfg2.N) (p : Fin 10000) (q : Fin 64) (r : Fin 100000) (q' : Fin 64) (hr : r.val = t.val * 10000 + p.val) (hq : q'.val = q.val) :
    k2_pay1 (F := Ideal) (iblk2 V c 0 t) (iblk2 V c 1 t) (iblk2 V c 3 t) (iblk2 V c 2 t) (iblk2 V c 4 t) (iblk2 V c 5 t) (ix2 p q) = norm2_entry V c r q' := by
  obtain rfl : q = q' := (Fin.ext hq).symm
  refine (k2_pay1_apply (iblk2 V c 0 t) (iblk2 V c 1 t) (iblk2 V c 3 t) (iblk2 V c 2 t) (iblk2 V c 4 t) (iblk2 V c 5 t) p q).trans ?_
  unfold norm2_entry
  rw [norm2_read0 V c t p q r hr, norm2_read1 V c t q, norm2_read2 V c t q, norm2_read3 V c t q, norm2_read4 V c t q, norm2_read5 V c t q]

/-- What point t writes back is block t of the result. -/
theorem norm2_flushed (c : Dev nD) (t : Fin cfg2.N) :
    (dat2 (F := Ideal) V c).flushed 6 t = ((cfg2.win 6).blk t).view.read (Elt Ideal) (norm2_G V c) := by
  show (cfg2.win 6).cut (grid2.coords t) ((dat2 (F := Ideal) V c).after 6 t) = _
  rw [after2_6]
  unfold out2_6
  rw [View.canon_unit_zero norm2_hz]
  simp only [View.ld_unit_zero (S := S10000x64) norm2_hz, View.ld_unit_zero (S := S1x64) norm2_hz]
  obtain ⟨e00, e01, e10, e11, e20, e21, e30, e31, e40, e41, e50, e51, e60, e61⟩ := norm2_idx t
  funext j
  have hj0 : (j 0).val < 10000 := (j 0).isLt
  have hj1 : (j 1).val < 64 := (j 1).isLt
  have ht : t.val < 10 := lt_of_lt_of_eq t.isLt N_2
  show k2_pay1 (F := Ideal) (iblk2 V c 0 t) (iblk2 V c 1 t) (iblk2 V c 3 t) (iblk2 V c 2 t) (iblk2 V c 4 t) (iblk2 V c 5 t) j = norm2_G V c (((cfg2.win 6).blk t).view.emb j)
  have hj : j = ix2 (⟨(j 0).val, hj0⟩ : Fin 10000) (⟨(j 1).val, hj1⟩ : Fin 64) := funext fun a => by
    match a with
    | ⟨0, _⟩ => rfl
    | ⟨1, _⟩ => rfl
  refine (congrArg (k2_pay1 (F := Ideal) (iblk2 V c 0 t) (iblk2 V c 1 t) (iblk2 V c 3 t) (iblk2 V c 2 t) (iblk2 V c 4 t) (iblk2 V c 5 t)) hj).trans ?_
  unfold norm2_G
  refine norm2_after_apply V c t ⟨(j 0).val, hj0⟩ ⟨(j 1).val, hj1⟩ _ _ ?_ ?_
  · show win2_6.index t (0 : Fin 2) * 10000 + 1 * (j 0).val = t.val * 10000 + (j 0).val
    omega
  · show win2_6.index t (1 : Fin 2) * 64 + 1 * (j 1).val = (j 1).val
    omega

/-- An index of the output array is in point t's block iff each coordinate is in the block's range on its axis. -/
theorem norm2_mem_blk (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v63).slice (win2_6.rect t)).set ↔ _
  rw [View.set_slice_whole, Rect.mem_set_unit]
  exact Iff.rfl

/-- The ten row blocks cover the array: row r is in the block of point r / 10000. -/
theorem norm2_cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : grid2.N = 10 := N_2
  have htN : (i 0).val / 10000 < cfg2.N := lt_of_lt_of_eq (by omega : (i 0).val / 10000 < 10) hN.symm
  refine ⟨⟨(i 0).val / 10000, htN⟩, flush2_6 _, ?_⟩
  rw [norm2_mem_blk]
  obtain ⟨e00, e01, e10, e11, e20, e21, e30, e31, e40, e41, e50, e51, e60, e61⟩ := norm2_idx ⟨(i 0).val / 10000, htN⟩
  intro a
  match a with
  | ⟨0, _⟩ =>
    show win2_6.index ⟨(i 0).val / 10000, htN⟩ (0 : Fin 2) * 10000 ≤ (i 0).val ∧ (i 0).val < win2_6.index ⟨(i 0).val / 10000, htN⟩ (0 : Fin 2) * 10000 + 10000
    rw [e60]; show (i 0).val / 10000 * 10000 ≤ (i 0).val ∧ (i 0).val < (i 0).val / 10000 * 10000 + 10000; omega
  | ⟨1, _⟩ =>
    show win2_6.index ⟨(i 0).val / 10000, htN⟩ (1 : Fin 2) * 64 ≤ (i 1).val ∧ (i 1).val < win2_6.index ⟨(i 0).val / 10000, htN⟩ (1 : Fin 2) * 64 + 64
    rw [e61]; omega

/-- The output array after the region is the result. -/
theorem norm2_final (c : Dev nD) : (dat2 (F := Ideal) V c).arrAt 6 cfg2.N = norm2_G V c :=
  (dat2 (F := Ideal) V c).arrAt_eq_of_cover 6 (norm2_G V c) (fun t _ => norm2_flushed V c t) norm2_cover

/-- Region 2's output array, entry (r, q). -/
theorem norm2_apply (c : Dev nD) (r : Fin 100000) (q : Fin 64) :
    (dat2 (F := Ideal) V c).arrAt 6 cfg2.N (ix2 r q)
      = max ((((norm2_X V c (ix2 r q) + norm2_b V c (ix2 (0 : Fin 1) q)) - norm2_mu V c (ix2 (0 : Fin 1) q)) * Ideal.rsqrt (norm2_va V c (ix2 (0 : Fin 1) q) + Ideal.ofBits .f32 0x3727C5AC#32)) * norm2_g V c (ix2 (0 : Fin 1) q) + norm2_be V c (ix2 (0 : Fin 1) q)) (Ideal.ofBits .f32 0x00000000#32) := by
  rw [norm2_final]
  rfl

/-! # Region 5: normalize, scale, shift and clamp, as one function of the arrays the region finds

Ten grid points; point t reads rows 10000·t … 10000·t + 9999 of the aggregated features and the five [1,64] rows
(bias, mean, variance, gamma, beta; the same block at every point), and writes the normalized rows, clamped below at
zero, to the same rows of the output. Every operation is pointwise, so entry (r, q) of the output depends on entry
(r, q) of the features and on column q of each row. -/

theorem norm5_hz : (![0, 0] : Fin 2 → Nat) = fun _ => 0 := funext fun a => by fin_cases a <;> rfl

/-- The aggregated features as the region finds them: window 0's array, over its literal shape. -/
abbrev norm5_X (c : Dev nD) : S100000x64.Idx → EReal := V c (Pipeline.arrRef spec5 0)
/-- The bias row as the region finds it: window 1's array. -/
abbrev norm5_b (c : Dev nD) : S1x64.Idx → EReal := V c (Pipeline.arrRef spec5 1)
/-- The mean row as the region finds it: window 2's array. -/
abbrev norm5_mu (c : Dev nD) : S1x64.Idx → EReal := V c (Pipeline.arrRef spec5 2)
/-- The variance row as the region finds it: window 3's array. -/
abbrev norm5_va (c : Dev nD) : S1x64.Idx → EReal := V c (Pipeline.arrRef spec5 3)
/-- The scale (gamma) row as the region finds it: window 4's array. -/
abbrev norm5_g (c : Dev nD) : S1x64.Idx → EReal := V c (Pipeline.arrRef spec5 4)
/-- The shift (beta) row as the region finds it: window 5's array. -/
abbrev norm5_be (c : Dev nD) : S1x64.Idx → EReal := V c (Pipeline.arrRef spec5 5)

/-- The result, entry by entry, over literal coordinates. -/
def norm5_entry (c : Dev nD) (r : Fin 100000) (q : Fin 64) : EReal :=
  max ((((norm5_X V c (ix2 r q) + norm5_b V c (ix2 (0 : Fin 1) q)) - norm5_mu V c (ix2 (0 : Fin 1) q)) * Ideal.rsqrt (norm5_va V c (ix2 (0 : Fin 1) q) + Ideal.ofBits .f32 0x3727C5AC#32)) * norm5_g V c (ix2 (0 : Fin 1) q) + norm5_be V c (ix2 (0 : Fin 1) q)) (Ideal.ofBits .f32 0x00000000#32)

/-- The result as an array. -/
def norm5_G (c : Dev nD) : S100000x64.Idx → EReal := fun i => norm5_entry V c ⟨(i 0).val, idx2_lt0 i⟩ ⟨(i 1).val, idx2_lt1 i⟩

/-- The printed index maps over the grid: the features' and the output's block index is the point on the row axis and
    zero on the column axis; each row operand's block index is zero. -/
theorem norm5_idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The features' block at point t is rows 10000·t … of the array. -/
theorem norm5_read0 (c : Dev nD) (t : Fin cfg5.N) (p : Fin 10000) (q : Fin 64) (r : Fin 100000) (hr : r.val = t.val * 10000 + p.val) :
    iblk5 V c 0 t (ix2 p q) = norm5_X V c (ix2 r q) := by
  obtain ⟨e00, e01, e10, e11, e20, e21, e30, e31, e40, e41, e50, e51, e60, e61⟩ := norm5_idx t
  show V c (Pipeline.arrRef spec5 0) (((cfg5.win 0).blk t).view.emb (ix2 p q)) = V c (Pipeline.arrRef spec5 0) (ix2 r q)
  refine congrArg (V c (Pipeline.arrRef spec5 0)) (funext fun a => Fin.ext ?_)
  match a with
  | ⟨0, _⟩ => show win5_0.index t (0 : Fin 2) * 10000 + 1 * p.val = r.val; omega
  | ⟨1, _⟩ => show win5_0.index t (1 : Fin 2) * 64 + 1 * q.val = q.val; omega

/-- Window 1's block at any point is its whole [1,64] array. -/
theorem norm5_read1 (c : Dev nD) (t : Fin cfg5.N) (q : Fin 64) :
    iblk5 V c 1 t (ix2 (0 : Fin 1) q) = norm5_b V c (ix2 (0 : Fin 1) q) := by
  obtain ⟨e00, e01, e10, e11, e20, e21, e30, e31, e40, e41, e50, e51, e60, e61⟩ := norm5_idx t
  show V c (Pipeline.arrRef spec5 1) (((cfg5.win 1).blk t).view.emb (ix2 (0 : Fin 1) q)) = V c (Pipeline.arrRef spec5 1) (ix2 (0 : Fin 1) q)
  refine congrArg (V c (Pipeline.arrRef spec5 1)) (funext fun a => Fin.ext ?_)
  match a with
  | ⟨0, _⟩ => show win5_1.index t (0 : Fin 2) * 1 + 1 * (0 : Fin 1).val = (0 : Fin 1).val; omega
  | ⟨1, _⟩ => show win5_1.index t (1 : Fin 2) * 64 + 1 * q.val = q.val; omega

/-- Window 2's block at any point is its whole [1,64] array. -/
theorem norm5_read2 (c : Dev nD) (t : Fin cfg5.N) (q : Fin 64) :
    iblk5 V c 2 t (ix2 (0 : Fin 1) q) = norm5_mu V c (ix2 (0 : Fin 1) q) := by
  obtain ⟨e00, e01, e10, e11, e20, e21, e30, e31, e40, e41, e50, e51, e60, e61⟩ := norm5_idx t
  show V c (Pipeline.arrRef spec5 2) (((cfg5.win 2).blk t).view.emb (ix2 (0 : Fin 1) q)) = V c (Pipeline.arrRef spec5 2) (ix2 (0 : Fin 1) q)
  refine congrArg (V c (Pipeline.arrRef spec5 2)) (funext fun a => Fin.ext ?_)
  match a with
  | ⟨0, _⟩ => show win5_2.index t (0 : Fin 2) * 1 + 1 * (0 : Fin 1).val = (0 : Fin 1).val; omega
  | ⟨1, _⟩ => show win5_2.index t (1 : Fin 2) * 64 + 1 * q.val = q.val; omega

/-- Window 3's block at any point is its whole [1,64] array. -/
theorem norm5_read3 (c : Dev nD) (t : Fin cfg5.N) (q : Fin 64) :
    iblk5 V c 3 t (ix2 (0 : Fin 1) q) = norm5_va V c (ix2 (0 : Fin 1) q) := by
  obtain ⟨e00, e01, e10, e11, e20, e21, e30, e31, e40, e41, e50, e51, e60, e61⟩ := norm5_idx t
  show V c (Pipeline.arrRef spec5 3) (((cfg5.win 3).blk t).view.emb (ix2 (0 : Fin 1) q)) = V c (Pipeline.arrRef spec5 3) (ix2 (0 : Fin 1) q)
  refine congrArg (V c (Pipeline.arrRef spec5 3)) (funext fun a => Fin.ext ?_)
  match a with
  | ⟨0, _⟩ => show win5_3.index t (0 : Fin 2) * 1 + 1 * (0 : Fin 1).val = (0 : Fin 1).val; omega
  | ⟨1, _⟩ => show win5_3.index t (1 : Fin 2) * 64 + 1 * q.val = q.val; omega

/-- Window 4's block at any point is its whole [1,64] array. -/
theorem norm5_read4 (c : Dev nD) (t : Fin cfg5.N) (q : Fin 64) :
    iblk5 V c 4 t (ix2 (0 : Fin 1) q) = norm5_g V c (ix2 (0 : Fin 1) q) := by
  obtain ⟨e00, e01, e10, e11, e20, e21, e30, e31, e40, e41, e50, e51, e60, e61⟩ := norm5_idx t
  show V c (Pipeline.arrRef spec5 4) (((cfg5.win 4).blk t).view.emb (ix2 (0 : Fin 1) q)) = V c (Pipeline.arrRef spec5 4) (ix2 (0 : Fin 1) q)
  refine congrArg (V c (Pipeline.arrRef spec5 4)) (funext fun a => Fin.ext ?_)
  match a with
  | ⟨0, _⟩ => show win5_4.index t (0 : Fin 2) * 1 + 1 * (0 : Fin 1).val = (0 : Fin 1).val; omega
  | ⟨1, _⟩ => show win5_4.index t (1 : Fin 2) * 64 + 1 * q.val = q.val; omega

/-- Window 5's block at any point is its whole [1,64] array. -/
theorem norm5_read5 (c : Dev nD) (t : Fin cfg5.N) (q : Fin 64) :
    iblk5 V c 5 t (ix2 (0 : Fin 1) q) = norm5_be V c (ix2 (0 : Fin 1) q) := by
  obtain ⟨e00, e01, e10, e11, e20, e21, e30, e31, e40, e41, e50, e51, e60, e61⟩ := norm5_idx t
  show V c (Pipeline.arrRef spec5 5) (((cfg5.win 5).blk t).view.emb (ix2 (0 : Fin 1) q)) = V c (Pipeline.arrRef spec5 5) (ix2 (0 : Fin 1) q)
  refine congrArg (V c (Pipeline.arrRef spec5 5)) (funext fun a => Fin.ext ?_)
  match a with
  | ⟨0, _⟩ => show win5_5.index t (0 : Fin 2) * 1 + 1 * (0 : Fin 1).val = (0 : Fin 1).val; omega
  | ⟨1, _⟩ => show win5_5.index t (1 : Fin 2) * 64 + 1 * q.val = q.val; omega

/-- What point t leaves in the output's staging buffer, at (p, q): row 10000·t + p of the result. -/
theorem norm5_after_apply (c : Dev nD) (t : Fin cfg5.N) (p : Fin 10000) (q : Fin 64) (r : Fin 100000) (q' : Fin 64) (hr : r.val = t.val * 10000 + p.val) (hq : q'.val = q.val) :
    k5_pay1 (F := Ideal) (iblk5 V c 0 t) (iblk5 V c 1 t) (iblk5 V c 3 t) (iblk5 V c 2 t) (iblk5 V c 4 t) (iblk5 V c 5 t) (ix2 p q) = norm5_entry V c r q' := by
  obtain rfl : q = q' := (Fin.ext hq).symm
  refine (k5_pay1_apply (iblk5 V c 0 t) (iblk5 V c 1 t) (iblk5 V c 3 t) (iblk5 V c 2 t) (iblk5 V c 4 t) (iblk5 V c 5 t) p q).trans ?_
  unfold norm5_entry
  rw [norm5_read0 V c t p q r hr, norm5_read1 V c t q, norm5_read2 V c t q, norm5_read3 V c t q, norm5_read4 V c t q, norm5_read5 V c t q]

/-- What point t writes back is block t of the result. -/
theorem norm5_flushed (c : Dev nD) (t : Fin cfg5.N) :
    (dat5 (F := Ideal) V c).flushed 6 t = ((cfg5.win 6).blk t).view.read (Elt Ideal) (norm5_G V c) := by
  show (cfg5.win 6).cut (grid5.coords t) ((dat5 (F := Ideal) V c).after 6 t) = _
  rw [after5_6]
  unfold out5_6
  rw [View.canon_unit_zero norm5_hz]
  simp only [View.ld_unit_zero (S := S10000x64) norm5_hz, View.ld_unit_zero (S := S1x64) norm5_hz]
  obtain ⟨e00, e01, e10, e11, e20, e21, e30, e31, e40, e41, e50, e51, e60, e61⟩ := norm5_idx t
  funext j
  have hj0 : (j 0).val < 10000 := (j 0).isLt
  have hj1 : (j 1).val < 64 := (j 1).isLt
  have ht : t.val < 10 := lt_of_lt_of_eq t.isLt N_5
  show k5_pay1 (F := Ideal) (iblk5 V c 0 t) (iblk5 V c 1 t) (iblk5 V c 3 t) (iblk5 V c 2 t) (iblk5 V c 4 t) (iblk5 V c 5 t) j = norm5_G V c (((cfg5.win 6).blk t).view.emb j)
  have hj : j = ix2 (⟨(j 0).val, hj0⟩ : Fin 10000) (⟨(j 1).val, hj1⟩ : Fin 64) := funext fun a => by
    match a with
    | ⟨0, _⟩ => rfl
    | ⟨1, _⟩ => rfl
  refine (congrArg (k5_pay1 (F := Ideal) (iblk5 V c 0 t) (iblk5 V c 1 t) (iblk5 V c 3 t) (iblk5 V c 2 t) (iblk5 V c 4 t) (iblk5 V c 5 t)) hj).trans ?_
  unfold norm5_G
  refine norm5_after_apply V c t ⟨(j 0).val, hj0⟩ ⟨(j 1).val, hj1⟩ _ _ ?_ ?_
  · show win5_6.index t (0 : Fin 2) * 10000 + 1 * (j 0).val = t.val * 10000 + (j 0).val
    omega
  · show win5_6.index t (1 : Fin 2) * 64 + 1 * (j 1).val = (j 1).val
    omega

/-- An index of the output array is in point t's block iff each coordinate is in the block's range on its axis. -/
theorem norm5_mem_blk (t : Fin cfg5.N) (i : S100000x64.Idx) :
    i ∈ ((cfg5.win 6).blk t).view.set ↔ ∀ a : Fin 2, win5_6.index t a * S10000x64.size a ≤ (i a).val ∧ (i a).val < win5_6.index t a * S10000x64.size a + S10000x64.size a := by
  show i ∈ ((View.whole main_v97).slice (win5_6.rect t)).set ↔ _
  rw [View.set_slice_whole, Rect.mem_set_unit]
  exact Iff.rfl

/-- The ten row blocks cover the array: row r is in the block of point r / 10000. -/
theorem norm5_cover (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hN : grid5.N = 10 := N_5
  have htN : (i 0).val / 10000 < cfg5.N := lt_of_lt_of_eq (by omega : (i 0).val / 10000 < 10) hN.symm
  refine ⟨⟨(i 0).val / 10000, htN⟩, flush5_6 _, ?_⟩
  rw [norm5_mem_blk]
  obtain ⟨e00, e01, e10, e11, e20, e21, e30, e31, e40, e41, e50, e51, e60, e61⟩ := norm5_idx ⟨(i 0).val / 10000, htN⟩
  intro a
  match a with
  | ⟨0, _⟩ =>
    show win5_6.index ⟨(i 0).val / 10000, htN⟩ (0 : Fin 2) * 10000 ≤ (i 0).val ∧ (i 0).val < win5_6.index ⟨(i 0).val / 10000, htN⟩ (0 : Fin 2) * 10000 + 10000
    rw [e60]; show (i 0).val / 10000 * 10000 ≤ (i 0).val ∧ (i 0).val < (i 0).val / 10000 * 10000 + 10000; omega
  | ⟨1, _⟩ =>
    show win5_6.index ⟨(i 0).val / 10000, htN⟩ (1 : Fin 2) * 64 ≤ (i 1).val ∧ (i 1).val < win5_6.index ⟨(i 0).val / 10000, htN⟩ (1 : Fin 2) * 64 + 64
    rw [e61]; omega

/-- The output array after the region is the result. -/
theorem norm5_final (c : Dev nD) : (dat5 (F := Ideal) V c).arrAt 6 cfg5.N = norm5_G V c :=
  (dat5 (F := Ideal) V c).arrAt_eq_of_cover 6 (norm5_G V c) (fun t _ => norm5_flushed V c t) norm5_cover

/-- Region 5's output array, entry (r, q). -/
theorem norm5_apply (c : Dev nD) (r : Fin 100000) (q : Fin 64) :
    (dat5 (F := Ideal) V c).arrAt 6 cfg5.N (ix2 r q)
      = max ((((norm5_X V c (ix2 r q) + norm5_b V c (ix2 (0 : Fin 1) q)) - norm5_mu V c (ix2 (0 : Fin 1) q)) * Ideal.rsqrt (norm5_va V c (ix2 (0 : Fin 1) q) + Ideal.ofBits .f32 0x3727C5AC#32)) * norm5_g V c (ix2 (0 : Fin 1) q) + norm5_be V c (ix2 (0 : Fin 1) q)) (Ideal.ofBits .f32 0x00000000#32) := by
  rw [norm5_final]
  rfl

/-! # Region 8: normalize, scale, shift and clamp, as one function of the arrays the region finds

Ten grid points; point t reads rows 10000·t … 10000·t + 9999 of the aggregated features and the five [1,64] rows
(bias, mean, variance, gamma, beta; the same block at every point), and writes the normalized rows, clamped below at
zero, to the same rows of the output. Every operation is pointwise, so entry (r, q) of the output depends on entry
(r, q) of the features and on column q of each row. -/

theorem norm8_hz : (![0, 0] : Fin 2 → Nat) = fun _ => 0 := funext fun a => by fin_cases a <;> rfl

/-- The aggregated features as the region finds them: window 0's array, over its literal shape. -/
abbrev norm8_X (c : Dev nD) : S100000x64.Idx → EReal := V c (Pipeline.arrRef spec8 0)
/-- The bias row as the region finds it: window 1's array. -/
abbrev norm8_b (c : Dev nD) : S1x64.Idx → EReal := V c (Pipeline.arrRef spec8 1)
/-- The mean row as the region finds it: window 2's array. -/
abbrev norm8_mu (c : Dev nD) : S1x64.Idx → EReal := V c (Pipeline.arrRef spec8 2)
/-- The variance row as the region finds it: window 3's array. -/
abbrev norm8_va (c : Dev nD) : S1x64.Idx → EReal := V c (Pipeline.arrRef spec8 3)
/-- The scale (gamma) row as the region finds it: window 4's array. -/
abbrev norm8_g (c : Dev nD) : S1x64.Idx → EReal := V c (Pipeline.arrRef spec8 4)
/-- The shift (beta) row as the region finds it: window 5's array. -/
abbrev norm8_be (c : Dev nD) : S1x64.Idx → EReal := V c (Pipeline.arrRef spec8 5)

/-- The result, entry by entry, over literal coordinates. -/
def norm8_entry (c : Dev nD) (r : Fin 100000) (q : Fin 64) : EReal :=
  max ((((norm8_X V c (ix2 r q) + norm8_b V c (ix2 (0 : Fin 1) q)) - norm8_mu V c (ix2 (0 : Fin 1) q)) * Ideal.rsqrt (norm8_va V c (ix2 (0 : Fin 1) q) + Ideal.ofBits .f32 0x3727C5AC#32)) * norm8_g V c (ix2 (0 : Fin 1) q) + norm8_be V c (ix2 (0 : Fin 1) q)) (Ideal.ofBits .f32 0x00000000#32)

/-- The result as an array. -/
def norm8_G (c : Dev nD) : S100000x64.Idx → EReal := fun i => norm8_entry V c ⟨(i 0).val, idx2_lt0 i⟩ ⟨(i 1).val, idx2_lt1 i⟩

/-- The printed index maps over the grid: the features' and the output's block index is the point on the row axis and
    zero on the column axis; each row operand's block index is zero. -/
theorem norm8_idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- The features' block at point t is rows 10000·t … of the array. -/
theorem norm8_read0 (c : Dev nD) (t : Fin cfg8.N) (p : Fin 10000) (q : Fin 64) (r : Fin 100000) (hr : r.val = t.val * 10000 + p.val) :
    iblk8 V c 0 t (ix2 p q) = norm8_X V c (ix2 r q) := by
  obtain ⟨e00, e01, e10, e11, e20, e21, e30, e31, e40, e41, e50, e51, e60, e61⟩ := norm8_idx t
  show V c (Pipeline.arrRef spec8 0) (((cfg8.win 0).blk t).view.emb (ix2 p q)) = V c (Pipeline.arrRef spec8 0) (ix2 r q)
  refine congrArg (V c (Pipeline.arrRef spec8 0)) (funext fun a => Fin.ext ?_)
  match a with
  | ⟨0, _⟩ => show win8_0.index t (0 : Fin 2) * 10000 + 1 * p.val = r.val; omega
  | ⟨1, _⟩ => show win8_0.index t (1 : Fin 2) * 64 + 1 * q.val = q.val; omega

/-- Window 1's block at any point is its whole [1,64] array. -/
theorem norm8_read1 (c : Dev nD) (t : Fin cfg8.N) (q : Fin 64) :
    iblk8 V c 1 t (ix2 (0 : Fin 1) q) = norm8_b V c (ix2 (0 : Fin 1) q) := by
  obtain ⟨e00, e01, e10, e11, e20, e21, e30, e31, e40, e41, e50, e51, e60, e61⟩ := norm8_idx t
  show V c (Pipeline.arrRef spec8 1) (((cfg8.win 1).blk t).view.emb (ix2 (0 : Fin 1) q)) = V c (Pipeline.arrRef spec8 1) (ix2 (0 : Fin 1) q)
  refine congrArg (V c (Pipeline.arrRef spec8 1)) (funext fun a => Fin.ext ?_)
  match a with
  | ⟨0, _⟩ => show win8_1.index t (0 : Fin 2) * 1 + 1 * (0 : Fin 1).val = (0 : Fin 1).val; omega
  | ⟨1, _⟩ => show win8_1.index t (1 : Fin 2) * 64 + 1 * q.val = q.val; omega

/-- Window 2's block at any point is its whole [1,64] array. -/
theorem norm8_read2 (c : Dev nD) (t : Fin cfg8.N) (q : Fin 64) :
    iblk8 V c 2 t (ix2 (0 : Fin 1) q) = norm8_mu V c (ix2 (0 : Fin 1) q) := by
  obtain ⟨e00, e01, e10, e11, e20, e21, e30, e31, e40, e41, e50, e51, e60, e61⟩ := norm8_idx t
  show V c (Pipeline.arrRef spec8 2) (((cfg8.win 2).blk t).view.emb (ix2 (0 : Fin 1) q)) = V c (Pipeline.arrRef spec8 2) (ix2 (0 : Fin 1) q)
  refine congrArg (V c (Pipeline.arrRef spec8 2)) (funext fun a => Fin.ext ?_)
  match a with
  | ⟨0, _⟩ => show win8_2.index t (0 : Fin 2) * 1 + 1 * (0 : Fin 1).val = (0 : Fin 1).val; omega
  | ⟨1, _⟩ => show win8_2.index t (1 : Fin 2) * 64 + 1 * q.val = q.val; omega

/-- Window 3's block at any point is its whole [1,64] array. -/
theorem norm8_read3 (c : Dev nD) (t : Fin cfg8.N) (q : Fin 64) :
    iblk8 V c 3 t (ix2 (0 : Fin 1) q) = norm8_va V c (ix2 (0 : Fin 1) q) := by
  obtain ⟨e00, e01, e10, e11, e20, e21, e30, e31, e40, e41, e50, e51, e60, e61⟩ := norm8_idx t
  show V c (Pipeline.arrRef spec8 3) (((cfg8.win 3).blk t).view.emb (ix2 (0 : Fin 1) q)) = V c (Pipeline.arrRef spec8 3) (ix2 (0 : Fin 1) q)
  refine congrArg (V c (Pipeline.arrRef spec8 3)) (funext fun a => Fin.ext ?_)
  match a with
  | ⟨0, _⟩ => show win8_3.index t (0 : Fin 2) * 1 + 1 * (0 : Fin 1).val = (0 : Fin 1).val; omega
  | ⟨1, _⟩ => show win8_3.index t (1 : Fin 2) * 64 + 1 * q.val = q.val; omega

/-- Window 4's block at any point is its whole [1,64] array. -/
theorem norm8_read4 (c : Dev nD) (t : Fin cfg8.N) (q : Fin 64) :
    iblk8 V c 4 t (ix2 (0 : Fin 1) q) = norm8_g V c (ix2 (0 : Fin 1) q) := by
  obtain ⟨e00, e01, e10, e11, e20, e21, e30, e31, e40, e41, e50, e51, e60, e61⟩ := norm8_idx t
  show V c (Pipeline.arrRef spec8 4) (((cfg8.win 4).blk t).view.emb (ix2 (0 : Fin 1) q)) = V c (Pipeline.arrRef spec8 4) (ix2 (0 : Fin 1) q)
  refine congrArg (V c (Pipeline.arrRef spec8 4)) (funext fun a => Fin.ext ?_)
  match a with
  | ⟨0, _⟩ => show win8_4.index t (0 : Fin 2) * 1 + 1 * (0 : Fin 1).val = (0 : Fin 1).val; omega
  | ⟨1, _⟩ => show win8_4.index t (1 : Fin 2) * 64 + 1 * q.val = q.val; omega

/-- Window 5's block at any point is its whole [1,64] array. -/
theorem norm8_read5 (c : Dev nD) (t : Fin cfg8.N) (q : Fin 64) :
    iblk8 V c 5 t (ix2 (0 : Fin 1) q) = norm8_be V c (ix2 (0 : Fin 1) q) := by
  obtain ⟨e00, e01, e10, e11, e20, e21, e30, e31, e40, e41, e50, e51, e60, e61⟩ := norm8_idx t
  show V c (Pipeline.arrRef spec8 5) (((cfg8.win 5).blk t).view.emb (ix2 (0 : Fin 1) q)) = V c (Pipeline.arrRef spec8 5) (ix2 (0 : Fin 1) q)
  refine congrArg (V c (Pipeline.arrRef spec8 5)) (funext fun a => Fin.ext ?_)
  match a with
  | ⟨0, _⟩ => show win8_5.index t (0 : Fin 2) * 1 + 1 * (0 : Fin 1).val = (0 : Fin 1).val; omega
  | ⟨1, _⟩ => show win8_5.index t (1 : Fin 2) * 64 + 1 * q.val = q.val; omega

/-- What point t leaves in the output's staging buffer, at (p, q): row 10000·t + p of the result. -/
theorem norm8_after_apply (c : Dev nD) (t : Fin cfg8.N) (p : Fin 10000) (q : Fin 64) (r : Fin 100000) (q' : Fin 64) (hr : r.val = t.val * 10000 + p.val) (hq : q'.val = q.val) :
    k8_pay1 (F := Ideal) (iblk8 V c 0 t) (iblk8 V c 1 t) (iblk8 V c 3 t) (iblk8 V c 2 t) (iblk8 V c 4 t) (iblk8 V c 5 t) (ix2 p q) = norm8_entry V c r q' := by
  obtain rfl : q = q' := (Fin.ext hq).symm
  refine (k8_pay1_apply (iblk8 V c 0 t) (iblk8 V c 1 t) (iblk8 V c 3 t) (iblk8 V c 2 t) (iblk8 V c 4 t) (iblk8 V c 5 t) p q).trans ?_
  unfold norm8_entry
  rw [norm8_read0 V c t p q r hr, norm8_read1 V c t q, norm8_read2 V c t q, norm8_read3 V c t q, norm8_read4 V c t q, norm8_read5 V c t q]

/-- What point t writes back is block t of the result. -/
theorem norm8_flushed (c : Dev nD) (t : Fin cfg8.N) :
    (dat8 (F := Ideal) V c).flushed 6 t = ((cfg8.win 6).blk t).view.read (Elt Ideal) (norm8_G V c) := by
  show (cfg8.win 6).cut (grid8.coords t) ((dat8 (F := Ideal) V c).after 6 t) = _
  rw [after8_6]
  unfold out8_6
  rw [View.canon_unit_zero norm8_hz]
  simp only [View.ld_unit_zero (S := S10000x64) norm8_hz, View.ld_unit_zero (S := S1x64) norm8_hz]
  obtain ⟨e00, e01, e10, e11, e20, e21, e30, e31, e40, e41, e50, e51, e60, e61⟩ := norm8_idx t
  funext j
  have hj0 : (j 0).val < 10000 := (j 0).isLt
  have hj1 : (j 1).val < 64 := (j 1).isLt
  have ht : t.val < 10 := lt_of_lt_of_eq t.isLt N_8
  show k8_pay1 (F := Ideal) (iblk8 V c 0 t) (iblk8 V c 1 t) (iblk8 V c 3 t) (iblk8 V c 2 t) (iblk8 V c 4 t) (iblk8 V c 5 t) j = norm8_G V c (((cfg8.win 6).blk t).view.emb j)
  have hj : j = ix2 (⟨(j 0).val, hj0⟩ : Fin 10000) (⟨(j 1).val, hj1⟩ : Fin 64) := funext fun a => by
    match a with
    | ⟨0, _⟩ => rfl
    | ⟨1, _⟩ => rfl
  refine (congrArg (k8_pay1 (F := Ideal) (iblk8 V c 0 t) (iblk8 V c 1 t) (iblk8 V c 3 t) (iblk8 V c 2 t) (iblk8 V c 4 t) (iblk8 V c 5 t)) hj).trans ?_
  unfold norm8_G
  refine norm8_after_apply V c t ⟨(j 0).val, hj0⟩ ⟨(j 1).val, hj1⟩ _ _ ?_ ?_
  · show win8_6.index t (0 : Fin 2) * 10000 + 1 * (j 0).val = t.val * 10000 + (j 0).val
    omega
  · show win8_6.index t (1 : Fin 2) * 64 + 1 * (j 1).val = (j 1).val
    omega

/-- An index of the output array is in point t's block iff each coordinate is in the block's range on its axis. -/
theorem norm8_mem_blk (t : Fin cfg8.N) (i : S100000x64.Idx) :
    i ∈ ((cfg8.win 6).blk t).view.set ↔ ∀ a : Fin 2, win8_6.index t a * S10000x64.size a ≤ (i a).val ∧ (i a).val < win8_6.index t a * S10000x64.size a + S10000x64.size a := by
  show i ∈ ((View.whole main_v131).slice (win8_6.rect t)).set ↔ _
  rw [View.set_slice_whole, Rect.mem_set_unit]
  exact Iff.rfl

/-- The ten row blocks cover the array: row r is in the block of point r / 10000. -/
theorem norm8_cover (i : S100000x64.Idx) :
    ∃ t : Fin cfg8.N, (cfg8.win 6).flush t = true ∧ i ∈ ((cfg8.win 6).blk t).view.set := by
  have hi0 : (i 0).val < 100000 := (i 0).isLt
  have hi1 : (i 1).val < 64 := (i 1).isLt
  have hN : grid8.N = 10 := N_8
  have htN : (i 0).val / 10000 < cfg8.N := lt_of_lt_of_eq (by omega : (i 0).val / 10000 < 10) hN.symm
  refine ⟨⟨(i 0).val / 10000, htN⟩, flush8_6 _, ?_⟩
  rw [norm8_mem_blk]
  obtain ⟨e00, e01, e10, e11, e20, e21, e30, e31, e40, e41, e50, e51, e60, e61⟩ := norm8_idx ⟨(i 0).val / 10000, htN⟩
  intro a
  match a with
  | ⟨0, _⟩ =>
    show win8_6.index ⟨(i 0).val / 10000, htN⟩ (0 : Fin 2) * 10000 ≤ (i 0).val ∧ (i 0).val < win8_6.index ⟨(i 0).val / 10000, htN⟩ (0 : Fin 2) * 10000 + 10000
    rw [e60]; show (i 0).val / 10000 * 10000 ≤ (i 0).val ∧ (i 0).val < (i 0).val / 10000 * 10000 + 10000; omega
  | ⟨1, _⟩ =>
    show win8_6.index ⟨(i 0).val / 10000, htN⟩ (1 : Fin 2) * 64 ≤ (i 1).val ∧ (i 1).val < win8_6.index ⟨(i 0).val / 10000, htN⟩ (1 : Fin 2) * 64 + 64
    rw [e61]; omega

/-- The output array after the region is the result. -/
theorem norm8_final (c : Dev nD) : (dat8 (F := Ideal) V c).arrAt 6 cfg8.N = norm8_G V c :=
  (dat8 (F := Ideal) V c).arrAt_eq_of_cover 6 (norm8_G V c) (fun t _ => norm8_flushed V c t) norm8_cover

/-- Region 8's output array, entry (r, q). -/
theorem norm8_apply (c : Dev nD) (r : Fin 100000) (q : Fin 64) :
    (dat8 (F := Ideal) V c).arrAt 6 cfg8.N (ix2 r q)
      = max ((((norm8_X V c (ix2 r q) + norm8_b V c (ix2 (0 : Fin 1) q)) - norm8_mu V c (ix2 (0 : Fin 1) q)) * Ideal.rsqrt (norm8_va V c (ix2 (0 : Fin 1) q) + Ideal.ofBits .f32 0x3727C5AC#32)) * norm8_g V c (ix2 (0 : Fin 1) q) + norm8_be V c (ix2 (0 : Fin 1) q)) (Ideal.ofBits .f32 0x00000000#32) := by
  rw [norm8_final]
  rfl

end Cert.KernelIdeal.RegVal

end
-- ==== Proof.LibSumSplit.lean ====
/-
  Finite sums over `Fin (m + n)` and `Fin (m * n)` split by blocks: a sum over 39 fields as the first 13 plus the
  last 26, and a sum over 2496 columns as 13 blocks of 64 followed by 26 blocks of 64. Commutative-monoid facts.
-/
import Mathlib.Algebra.BigOperators.Fin

open scoped BigOperators

namespace Cert.Lib.SumSplit

variable {M : Type*} [AddCommMonoid M]

/-- A sum over `Fin (m + n)` is the sum over the first `m` indices plus the sum over the last `n`, the latter
    written `m + j`. -/
theorem sum_fin_add_split (m n : ℕ) (h : Fin (m + n) → M) :
    ∑ g, h g = (∑ f : Fin m, h ⟨f.val, by omega⟩) + ∑ j : Fin n, h ⟨m + j.val, by omega⟩ :=
  Fin.sum_univ_add h

/-- A sum over `Fin (m * n)` is the double sum over `m` blocks of `n` consecutive indices, index `n * f + e` being
    position `e` of block `f`. -/
theorem sum_fin_mul_split (m n : ℕ) (h : Fin (m * n) → M) :
    ∑ k, h k = ∑ f : Fin m, ∑ e : Fin n, h ⟨n * f.val + e.val, by
      have := f.isLt; have := e.isLt
      calc n * f.val + e.val < n * f.val + n := by omega
        _ = n * (f.val + 1) := (Nat.mul_succ n f.val).symm
        _ ≤ n * m := Nat.mul_le_mul_left n (by omega)
        _ = m * n := Nat.mul_comm n m⟩ := by
  rw [← Equiv.sum_comp finProdFinEquiv h, Fintype.sum_prod_type]
  refine Finset.sum_congr rfl fun f _ => Finset.sum_congr rfl fun e _ => congrArg h (Fin.ext ?_)
  show e.val + n * f.val = n * f.val + e.val
  omega

/-- A sum over 39 indices: the first 13, then the last 26 written `13 + j`. -/
theorem sum_fin39_split (h : Fin 39 → M) :
    ∑ g, h g = (∑ f : Fin 13, h ⟨f.val, by omega⟩) + ∑ j : Fin 26, h ⟨13 + j.val, by omega⟩ :=
  sum_fin_add_split 13 26 h

/-- A sum over 2496 indices: 13 blocks of 64 (index `64 f + e`), then 26 blocks of 64 (index `832 + 64 j + e`). -/
theorem sum_fin2496_split (h : Fin 2496 → M) :
    ∑ k, h k = (∑ f : Fin 13, ∑ e : Fin 64, h ⟨64 * f.val + e.val, by omega⟩)
      + ∑ j : Fin 26, ∑ e : Fin 64, h ⟨832 + 64 * j.val + e.val, by omega⟩ := by
  rw [sum_fin_add_split 832 1664 h,
    sum_fin_mul_split 13 64 (fun k : Fin (13 * 64) => h ⟨k.val, by have := k.isLt; omega⟩),
    sum_fin_mul_split 26 64 (fun k : Fin (26 * 64) => h ⟨832 + k.val, by have := k.isLt; omega⟩)]
  refine congrArg₂ (· + ·) rfl
    (Finset.sum_congr rfl fun j _ => Finset.sum_congr rfl fun e _ => congrArg h (Fin.ext ?_))
  show 832 + (64 * j.val + e.val) = 832 + 64 * j.val + e.val
  omega

end Cert.Lib.SumSplit
-- ==== Proof.RegStatsPay.lean ====
/-
  The statistics kernel's stored values read at one column, over the extended reals: the block plus the
  broadcast bias row, its column sums, and the column sums of its squares, each added to a running row.
-/
import proofs.«132062_j28845000360070_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegVal

open Idealize.ShloMosaic Idealize.ShloMosaic.ValueIdx
open Cert.KernelIdeal Cert.KernelIdeal.Gen

/-- The zero offsets of a whole-buffer access, as the constant function. -/
theorem stats_hz : (![0, 0] : Fin 2 → Nat) = fun _ => 0 := funext fun a => by fin_cases a <;> rfl

/-- Row `e` of block `t` is row `10000 t + e` of the array (read modulo the array's height, so that it is defined
    for every natural `t`). -/
def statsRow (t : ℕ) (e : Fin 10000) : Fin 100000 := ⟨(10000 * t + e.val) % 100000, Nat.mod_lt _ (by decide)⟩

/-- Row `10000 t + e` of the array, for `t` below ten, is `statsRow t e`. -/
theorem statsRow_eq (t : Fin 10) (e : Fin 10000) (hlt : 10000 * t.val + e.val < 10 * 10000) :
    (⟨10000 * t.val + e.val, hlt⟩ : Fin 100000) = statsRow t.val e :=
  Fin.ext (by show 10000 * t.val + e.val = (10000 * t.val + e.val) % 100000; have := t.isLt; have := e.isLt; omega)

/-- The index a column sum of a [10000, 64] block reads at row `e`, column `q`. -/
theorem stats_lift_eq (q : Fin 64) (e : Fin 10000) :
    (reduces_S10000x64_S64.lift (ix1 q) e : S10000x64.Idx) = ix2 e q := by
  funext a
  match a with
  | ⟨0, _⟩ => rfl
  | ⟨1, _⟩ => rfl

/-! ## The first layer's statistics kernel -/

/-- The zero row the first grid point stores, at a column. -/
theorem k1_pay1_apply (q : Fin 64) : k1_pay1 (F := Ideal) (ix2 (0 : Fin 1) q) = 0 := by
  unfold k1_pay1
  exact Ideal.ofBits_zero_f32

theorem k1_pay2_apply (q : Fin 64) : k1_pay2 (F := Ideal) (ix2 (0 : Fin 1) q) = 0 := by
  unfold k1_pay2
  exact Ideal.ofBits_zero_f32

/-- The block plus the bias row broadcast over its rows, at row `e`, column `q`. -/
theorem k1_pay3_apply (x0 : Vec Ideal S10000x64 .f32) (x1 : Vec Ideal S1x64 .f32) (e : Fin 10000) (q : Fin 64) :
    k1_pay3 x0 x1 (ix2 e q) = x0 (ix2 e q) + x1 (ix2 (0 : Fin 1) q) := by
  unfold k1_pay3
  refine (addf_apply _ _ _).trans ?_
  refine congrArg₂ (· + ·) ?_ ?_
  · exact congrFun (shapeCast_self x0 _) _
  · refine (broadcastTo_1b_ab_apply _ _ e q).trans ?_
    exact congrFun (shapeCast_self x1 _) _

/-- The running row plus the block's column sums, at column `q`. -/
theorem k1_pay4_apply (x0 : Vec Ideal S10000x64 .f32) (x1 acc : Vec Ideal S1x64 .f32) (q : Fin 64) :
    k1_pay4 x0 x1 acc (ix2 (0 : Fin 1) q)
      = acc (ix2 (0 : Fin 1) q) + ∑ e : Fin 10000, (x0 (ix2 e q) + x1 (ix2 (0 : Fin 1) q)) := by
  unfold k1_pay4
  refine (addf_apply _ _ _).trans ?_
  refine congrArg₂ (· + ·) ?_ ?_
  · exact congrFun (shapeCast_self acc _) _
  · refine (shapeCast_a_1a_apply _ _ (0 : Fin 1) q).trans ?_
    refine (Ideal.multiReduction_add_single (k1_pay3 x0 x1) 0x00000000#32 reduces_S10000x64_S64 (.inl rfl) rfl (ix1 q)).trans ?_
    refine Finset.sum_congr rfl fun e _ => ?_
    refine (congrArg (k1_pay3 x0 x1) (stats_lift_eq q e)).trans ?_
    exact k1_pay3_apply x0 x1 e q

/-- The running row plus the column sums of the block's squares, at column `q`. -/
theorem k1_pay5_apply (x0 : Vec Ideal S10000x64 .f32) (x1 acc : Vec Ideal S1x64 .f32) (q : Fin 64) :
    k1_pay5 x0 x1 acc (ix2 (0 : Fin 1) q)
      = acc (ix2 (0 : Fin 1) q)
        + ∑ e : Fin 10000, (x0 (ix2 e q) + x1 (ix2 (0 : Fin 1) q)) * (x0 (ix2 e q) + x1 (ix2 (0 : Fin 1) q)) := by
  unfold k1_pay5
  refine (addf_apply _ _ _).trans ?_
  refine congrArg₂ (· + ·) ?_ ?_
  · exact congrFun (shapeCast_self acc _) _
  · refine (shapeCast_a_1a_apply _ _ (0 : Fin 1) q).trans ?_
    refine (Ideal.multiReduction_add_single (mulf (k1_pay3 x0 x1) (k1_pay3 x0 x1)) 0x00000000#32 reduces_S10000x64_S64 (.inl rfl) rfl (ix1 q)).trans ?_
    refine Finset.sum_congr rfl fun e _ => ?_
    refine (congrArg (mulf (k1_pay3 x0 x1) (k1_pay3 x0 x1)) (stats_lift_eq q e)).trans ?_
    refine (mulf_apply _ _ _).trans ?_
    rw [k1_pay3_apply x0 x1 e q]

/-! ## The second layer's statistics kernel -/

/-- The zero row the first grid point stores, at a column. -/
theorem k4_pay1_apply (q : Fin 64) : k4_pay1 (F := Ideal) (ix2 (0 : Fin 1) q) = 0 := by
  unfold k4_pay1
  exact Ideal.ofBits_zero_f32

theorem k4_pay2_apply (q : Fin 64) : k4_pay2 (F := Ideal) (ix2 (0 : Fin 1) q) = 0 := by
  unfold k4_pay2
  exact Ideal.ofBits_zero_f32

/-- The block plus the bias row broadcast over its rows, at row `e`, column `q`. -/
theorem k4_pay3_apply (x0 : Vec Ideal S10000x64 .f32) (x1 : Vec Ideal S1x64 .f32) (e : Fin 10000) (q : Fin 64) :
    k4_pay3 x0 x1 (ix2 e q) = x0 (ix2 e q) + x1 (ix2 (0 : Fin 1) q) := by
  unfold k4_pay3
  refine (addf_apply _ _ _).trans ?_
  refine congrArg₂ (· + ·) ?_ ?_
  · exact congrFun (shapeCast_self x0 _) _
  · refine (broadcastTo_1b_ab_apply _ _ e q).trans ?_
    exact congrFun (shapeCast_self x1 _) _

/-- The running row plus the block's column sums, at column `q`. -/
theorem k4_pay4_apply (x0 : Vec Ideal S10000x64 .f32) (x1 acc : Vec Ideal S1x64 .f32) (q : Fin 64) :
    k4_pay4 x0 x1 acc (ix2 (0 : Fin 1) q)
      = acc (ix2 (0 : Fin 1) q) + ∑ e : Fin 10000, (x0 (ix2 e q) + x1 (ix2 (0 : Fin 1) q)) := by
  unfold k4_pay4
  refine (addf_apply _ _ _).trans ?_
  refine congrArg₂ (· + ·) ?_ ?_
  · exact congrFun (shapeCast_self acc _) _
  · refine (shapeCast_a_1a_apply _ _ (0 : Fin 1) q).trans ?_
    refine (Ideal.multiReduction_add_single (k4_pay3 x0 x1) 0x00000000#32 reduces_S10000x64_S64 (.inl rfl) rfl (ix1 q)).trans ?_
    refine Finset.sum_congr rfl fun e _ => ?_
    refine (congrArg (k4_pay3 x0 x1) (stats_lift_eq q e)).trans ?_
    exact k4_pay3_apply x0 x1 e q

/-- The running row plus the column sums of the block's squares, at column `q`. -/
theorem k4_pay5_apply (x0 : Vec Ideal S10000x64 .f32) (x1 acc : Vec Ideal S1x64 .f32) (q : Fin 64) :
    k4_pay5 x0 x1 acc (ix2 (0 : Fin 1) q)
      = acc (ix2 (0 : Fin 1) q)
        + ∑ e : Fin 10000, (x0 (ix2 e q) + x1 (ix2 (0 : Fin 1) q)) * (x0 (ix2 e q) + x1 (ix2 (0 : Fin 1) q)) := by
  unfold k4_pay5
  refine (addf_apply _ _ _).trans ?_
  refine congrArg₂ (· + ·) ?_ ?_
  · exact congrFun (shapeCast_self acc _) _
  · refine (shapeCast_a_1a_apply _ _ (0 : Fin 1) q).trans ?_
    refine (Ideal.multiReduction_add_single (mulf (k4_pay3 x0 x1) (k4_pay3 x0 x1)) 0x00000000#32 reduces_S10000x64_S64 (.inl rfl) rfl (ix1 q)).trans ?_
    refine Finset.sum_congr rfl fun e _ => ?_
    refine (congrArg (mulf (k4_pay3 x0 x1) (k4_pay3 x0 x1)) (stats_lift_eq q e)).trans ?_
    refine (mulf_apply _ _ _).trans ?_
    rw [k4_pay3_apply x0 x1 e q]

/-! ## The third layer's statistics kernel -/

/-- The zero row the first grid point stores, at a column. -/
theorem k7_pay1_apply (q : Fin 64) : k7_pay1 (F := Ideal) (ix2 (0 : Fin 1) q) = 0 := by
  unfold k7_pay1
  exact Ideal.ofBits_zero_f32

theorem k7_pay2_apply (q : Fin 64) : k7_pay2 (F := Ideal) (ix2 (0 : Fin 1) q) = 0 := by
  unfold k7_pay2
  exact Ideal.ofBits_zero_f32

/-- The block plus the bias row broadcast over its rows, at row `e`, column `q`. -/
theorem k7_pay3_apply (x0 : Vec Ideal S10000x64 .f32) (x1 : Vec Ideal S1x64 .f32) (e : Fin 10000) (q : Fin 64) :
    k7_pay3 x0 x1 (ix2 e q) = x0 (ix2 e q) + x1 (ix2 (0 : Fin 1) q) := by
  unfold k7_pay3
  refine (addf_apply _ _ _).trans ?_
  refine congrArg₂ (· + ·) ?_ ?_
  · exact congrFun (shapeCast_self x0 _) _
  · refine (broadcastTo_1b_ab_apply _ _ e q).trans ?_
    exact congrFun (shapeCast_self x1 _) _

/-- The running row plus the block's column sums, at column `q`. -/
theorem k7_pay4_apply (x0 : Vec Ideal S10000x64 .f32) (x1 acc : Vec Ideal S1x64 .f32) (q : Fin 64) :
    k7_pay4 x0 x1 acc (ix2 (0 : Fin 1) q)
      = acc (ix2 (0 : Fin 1) q) + ∑ e : Fin 10000, (x0 (ix2 e q) + x1 (ix2 (0 : Fin 1) q)) := by
  unfold k7_pay4
  refine (addf_apply _ _ _).trans ?_
  refine congrArg₂ (· + ·) ?_ ?_
  · exact congrFun (shapeCast_self acc _) _
  · refine (shapeCast_a_1a_apply _ _ (0 : Fin 1) q).trans ?_
    refine (Ideal.multiReduction_add_single (k7_pay3 x0 x1) 0x00000000#32 reduces_S10000x64_S64 (.inl rfl) rfl (ix1 q)).trans ?_
    refine Finset.sum_congr rfl fun e _ => ?_
    refine (congrArg (k7_pay3 x0 x1) (stats_lift_eq q e)).trans ?_
    exact k7_pay3_apply x0 x1 e q

/-- The running row plus the column sums of the block's squares, at column `q`. -/
theorem k7_pay5_apply (x0 : Vec Ideal S10000x64 .f32) (x1 acc : Vec Ideal S1x64 .f32) (q : Fin 64) :
    k7_pay5 x0 x1 acc (ix2 (0 : Fin 1) q)
      = acc (ix2 (0 : Fin 1) q)
        + ∑ e : Fin 10000, (x0 (ix2 e q) + x1 (ix2 (0 : Fin 1) q)) * (x0 (ix2 e q) + x1 (ix2 (0 : Fin 1) q)) := by
  unfold k7_pay5
  refine (addf_apply _ _ _).trans ?_
  refine congrArg₂ (· + ·) ?_ ?_
  · exact congrFun (shapeCast_self acc _) _
  · refine (shapeCast_a_1a_apply _ _ (0 : Fin 1) q).trans ?_
    refine (Ideal.multiReduction_add_single (mulf (k7_pay3 x0 x1) (k7_pay3 x0 x1)) 0x00000000#32 reduces_S10000x64_S64 (.inl rfl) rfl (ix1 q)).trans ?_
    refine Finset.sum_congr rfl fun e _ => ?_
    refine (congrArg (mulf (k7_pay3 x0 x1) (k7_pay3 x0 x1)) (stats_lift_eq q e)).trans ?_
    refine (mulf_apply _ _ _).trans ?_
    rw [k7_pay3_apply x0 x1 e q]

end Cert.KernelIdeal.RegVal

end
-- ==== Proof.RegStatsOut1.lean ====
/-
  What the statistics kernel of region 1 leaves in its two output rows, case by case: the payloads of the skeleton
  applied to the input blocks and to what the rows held before.
-/
import proofs.«132062_j28845000360070_1_alg».proof.Proof.Gen.KernelIdeal.Frame
import proofs.«132062_j28845000360070_1_alg».proof.Proof.RegStatsPay
import Idealize.ShloMosaic.Lib.Pipeline.Value
import Idealize.ShloMosaic.Lib.Tactic

noncomputable section

namespace Cert.KernelIdeal.RegVal

open Idealize.ShloMosaic Idealize.ShloMosaic.TcCoe Idealize.SL.Sem
open Idealize.ShloMosaic.Pipeline (Dat)
open Cert.KernelIdeal Cert.KernelIdeal.Gen

variable {F : FTy → Type} [FloatOps F]

/-- After a point other than the first, the sum row holds the payload `k1_pay4` of the two input blocks and of what
    the row held before: the body's one covering store of that row, its loads reading whole buffers. -/
theorem out1_B_2_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 xo2 xo3 : Vec F S1x64 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero stats_hz]
  simp only [View.readAt_eq_ld, h1.read_unread, h2.read_unread, h3.read_unread, View.ld_unit_zero (S := S10000x64) stats_hz,
    View.ld_unit_zero (S := S1x64) stats_hz]

/-- Likewise the row of sums of squares: the payload `k1_pay5`. -/
theorem out1_B_3_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 xo2 xo3 : Vec F S1x64 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero stats_hz]
  simp only [View.readAt_eq_ld, h1.read_unread, h2.read_unread, h4.read_unread, View.ld_unit_zero (S := S10000x64) stats_hz,
    View.ld_unit_zero (S := S1x64) stats_hz]

/-- After the first point the sum row holds the same payload over the zero row `k1_pay1`: the body stores the zero
    row, reads it back, and stores the payload over it. -/
theorem out1_A_2_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x64) stats_hz, View.readCov_unit_zero (S := S1x64) _ stats_hz]
  simp only [View.readAt_eq_ld, h1.read_unread, h2.read_unread, View.ld_unit_zero (S := S10000x64) stats_hz,
    View.ld_unit_zero (S := S1x64) stats_hz]

/-- Likewise the row of sums of squares, over the zero row `k1_pay2`. -/
theorem out1_A_3_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x64) stats_hz, View.readCov_unit_zero (S := S1x64) _ stats_hz]
  simp only [View.readAt_eq_ld, h1.read_unread, h2.read_unread, View.ld_unit_zero (S := S10000x64) stats_hz,
    View.ld_unit_zero (S := S1x64) stats_hz]

end Cert.KernelIdeal.RegVal

end
-- ==== Proof.RegStatsAcc1.lean ====
/-
  The statistics kernel of region 1, point by point: the blocks it reads as rows of the arrays the region finds, and
  what its two output rows hold after each grid point — the first point starts from zero, every later point adds the
  column sums of its 10000 rows (of the activation plus the bias, and of its square) to what the point before left.
-/
import proofs.«132062_j28845000360070_1_alg».proof.Proof.Gen.KernelIdeal.Frame
import proofs.«132062_j28845000360070_1_alg».proof.Proof.RegStatsPay
import proofs.«132062_j28845000360070_1_alg».proof.Proof.RegStatsOut1
import Idealize.ShloMosaic.Lib.Pipeline.Value
import Idealize.ShloMosaic.Lib.ValueIdx
import Idealize.ShloMosaic.Lib.Tactic

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## Region 1: the blocks the statistics kernel reads -/

/-- The block-index maps over the ten grid points: the activations' block moves down with the point, the bias row
    and the two output rows stay. -/
theorem stats1_idx : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- The activations' block at point `t`, read at row `e`, column `q`. -/
theorem iblk1_0_apply (c : Dev nD) (t : Fin cfg1.N) (e : Fin 10000) (q : Fin 64) :
    (iblk1 V c 0 t : Vec Ideal S10000x64 .f32) (ix2 e q)
      = (V c (Pipeline.arrRef spec1 0) : S100000x64.Idx → Ideal .f32) (ix2 (statsRow t.val e) q) := by
  have hN : t.val < 10 := lt_of_lt_of_eq t.isLt (show cfg1.N = 10 from N_1)
  obtain ⟨i0, i1, -, -⟩ := stats1_idx t
  unfold iblk1
  rw [View.read_apply]
  show V c (Pipeline.arrRef spec1 0) _ = V c (Pipeline.arrRef spec1 0) _
  refine congrArg _ ?_
  funext a
  apply Fin.ext
  match a with
  | ⟨0, _⟩ =>
    show win1_0.index t (0 : Fin 2) * 10000 + 1 * e.val = (10000 * t.val + e.val) % 100000
    rw [i0]; have := e.isLt; omega
  | ⟨1, _⟩ =>
    show win1_0.index t (1 : Fin 2) * 64 + 1 * q.val = q.val
    rw [i1]; omega

/-- The bias row's block at any point is the row. -/
theorem iblk1_1_apply (c : Dev nD) (t : Fin cfg1.N) (q : Fin 64) :
    (iblk1 V c 1 t : Vec Ideal S1x64 .f32) (ix2 (0 : Fin 1) q)
      = (V c (Pipeline.arrRef spec1 1) : S1x64.Idx → Ideal .f32) (ix2 (0 : Fin 1) q) := by
  obtain ⟨-, -, i0, i1⟩ := stats1_idx t
  unfold iblk1
  rw [View.read_apply]
  show V c (Pipeline.arrRef spec1 1) _ = V c (Pipeline.arrRef spec1 1) _
  refine congrArg _ ?_
  funext a
  apply Fin.ext
  match a with
  | ⟨0, _⟩ =>
    show win1_1.index t (0 : Fin 2) * 1 + 1 * 0 = 0
    rw [i0]
  | ⟨1, _⟩ =>
    show win1_1.index t (1 : Fin 2) * 64 + 1 * q.val = q.val
    rw [i1]; omega

/-! ## What the two output rows hold after each point -/

/-- The activations as the region finds them, and the bias row. -/
abbrev statsX1 (c : Dev nD) : S100000x64.Idx → Ideal .f32 := V c (Pipeline.arrRef spec1 0)
abbrev statsB1 (c : Dev nD) : S1x64.Idx → Ideal .f32 := V c (Pipeline.arrRef spec1 1)

/-- The two input blocks at a point, as plain [10000, 64] and [1, 64] vectors. -/
def statsBlk1 (c : Dev nD) (t : Fin cfg1.N) : Vec Ideal S10000x64 .f32 := iblk1 V c 0 t
def statsBias1 (c : Dev nD) (t : Fin cfg1.N) : Vec Ideal S1x64 .f32 := iblk1 V c 1 t

theorem statsBlk1_apply (c : Dev nD) (t : Fin cfg1.N) (e : Fin 10000) (q : Fin 64) :
    statsBlk1 V c t (ix2 e q) = statsX1 V c (ix2 (statsRow t.val e) q) := iblk1_0_apply V c t e q

theorem statsBias1_apply (c : Dev nD) (t : Fin cfg1.N) (q : Fin 64) :
    statsBias1 V c t (ix2 (0 : Fin 1) q) = statsB1 V c (ix2 (0 : Fin 1) q) := iblk1_1_apply V c t q

/-- The two rows after point `n` as a recursion on the point: the first point's payloads over the zero rows, every
    later point's payloads over what the point before left. -/
def statsChain1 (c : Dev nD) : (n : ℕ) → n < cfg1.N → Vec Ideal S1x64 .f32 × Vec Ideal S1x64 .f32
  | 0, h => (k1_pay4 (statsBlk1 V c ⟨0, h⟩) (statsBias1 V c ⟨0, h⟩) (k1_pay1 (F := Ideal)),
      k1_pay5 (statsBlk1 V c ⟨0, h⟩) (statsBias1 V c ⟨0, h⟩) (k1_pay2 (F := Ideal)))
  | n + 1, h => (k1_pay4 (statsBlk1 V c ⟨n + 1, h⟩) (statsBias1 V c ⟨n + 1, h⟩) (statsChain1 c n (Nat.lt_of_succ_lt h)).1,
      k1_pay5 (statsBlk1 V c ⟨n + 1, h⟩) (statsBias1 V c ⟨n + 1, h⟩) (statsChain1 c n (Nat.lt_of_succ_lt h)).2)

/-- What the staging buffers of the two outputs hold after point `n` is that recursion: by induction on the point, the
    case of each point read off its piece lemma. -/
theorem outsAt1_eq_chain (c : Dev nD) : ∀ (n : ℕ) (h : n < cfg1.N), outsAt1 V c n h = statsChain1 V c n h
  | 0, h => by
    rw [outsAt1_A V c ⟨0, h⟩ rfl, out1_A_2_eq, out1_A_3_eq]
    rfl
  | n + 1, h => by
    have hN : cfg1.N = 10 := N_1
    have hB : ¬(⟨n + 1, h⟩ : Fin cfg1.N).val % 10 = 0 := by dsimp only; omega
    rw [outsAt1_B V c ⟨n + 1, h⟩ hB, out1_B_2_eq, out1_B_3_eq]
    show (k1_pay4 _ _ (outsAt1 V c n _).1, k1_pay5 _ _ (outsAt1 V c n _).2) = _
    rw [outsAt1_eq_chain c n]
    rfl

/-- After point `n` the sum row holds, at column `q`, the sum over the rows of blocks `0 … n` of the activation plus
    the bias. -/
theorem statsChain1_fst (c : Dev nD) (q : Fin 64) : ∀ (n : ℕ) (h : n < cfg1.N),
    (statsChain1 V c n h).1 (ix2 (0 : Fin 1) q)
      = ∑ s ∈ Finset.range (n + 1), ∑ e : Fin 10000,
          (statsX1 V c (ix2 (statsRow s e) q) + statsB1 V c (ix2 (0 : Fin 1) q))
  | 0, h => by
    show k1_pay4 (statsBlk1 V c ⟨0, h⟩) (statsBias1 V c ⟨0, h⟩) (k1_pay1 (F := Ideal)) (ix2 (0 : Fin 1) q) = _
    rw [k1_pay4_apply, k1_pay1_apply, zero_add, Finset.sum_range_one]
    refine Finset.sum_congr rfl fun e _ => ?_
    rw [statsBlk1_apply, statsBias1_apply]
  | n + 1, h => by
    show k1_pay4 (statsBlk1 V c ⟨n + 1, h⟩) (statsBias1 V c ⟨n + 1, h⟩) (statsChain1 V c n (Nat.lt_of_succ_lt h)).1 (ix2 (0 : Fin 1) q) = _
    rw [k1_pay4_apply, statsChain1_fst c q n (Nat.lt_of_succ_lt h), Finset.sum_range_succ _ (n + 1)]
    refine congrArg _ (Finset.sum_congr rfl fun e _ => ?_)
    rw [statsBlk1_apply, statsBias1_apply]

/-- Likewise the row of sums of squares. -/
theorem statsChain1_snd (c : Dev nD) (q : Fin 64) : ∀ (n : ℕ) (h : n < cfg1.N),
    (statsChain1 V c n h).2 (ix2 (0 : Fin 1) q)
      = ∑ s ∈ Finset.range (n + 1), ∑ e : Fin 10000,
          (statsX1 V c (ix2 (statsRow s e) q) + statsB1 V c (ix2 (0 : Fin 1) q))
            * (statsX1 V c (ix2 (statsRow s e) q) + statsB1 V c (ix2 (0 : Fin 1) q))
  | 0, h => by
    show k1_pay5 (statsBlk1 V c ⟨0, h⟩) (statsBias1 V c ⟨0, h⟩) (k1_pay2 (F := Ideal)) (ix2 (0 : Fin 1) q) = _
    rw [k1_pay5_apply, k1_pay2_apply, zero_add, Finset.sum_range_one]
    refine Finset.sum_congr rfl fun e _ => ?_
    rw [statsBlk1_apply, statsBias1_apply]
  | n + 1, h => by
    show k1_pay5 (statsBlk1 V c ⟨n + 1, h⟩) (statsBias1 V c ⟨n + 1, h⟩) (statsChain1 V c n (Nat.lt_of_succ_lt h)).2 (ix2 (0 : Fin 1) q) = _
    rw [k1_pay5_apply, statsChain1_snd c q n (Nat.lt_of_succ_lt h), Finset.sum_range_succ _ (n + 1)]
    refine congrArg _ (Finset.sum_congr rfl fun e _ => ?_)
    rw [statsBlk1_apply, statsBias1_apply]

end Cert.KernelIdeal.RegVal

end
-- ==== Proof.RegStats1.lean ====
/-
  The two [1, 64] results of the statistics kernel of region 1, as closed forms of the arrays the region finds:
  the column sums, over all 100000 rows, of the activation plus the bias, and of its square. The output block never
  moves, so only the last point's write-back reaches the arrays; ten blocks of 10000 rows are re-indexed as one sum.
-/
import proofs.«132062_j28845000360070_1_alg».proof.Proof.Gen.KernelIdeal.Frame
import proofs.«132062_j28845000360070_1_alg».proof.Proof.LibSumSplit
import proofs.«132062_j28845000360070_1_alg».proof.Proof.RegStatsPay
import proofs.«132062_j28845000360070_1_alg».proof.Proof.RegStatsAcc1
import Idealize.ShloMosaic.Lib.Pipeline.Value
import Idealize.ShloMosaic.Lib.ValueIdx
import Idealize.ShloMosaic.Lib.Tactic

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The two result arrays after the region -/

theorem stats1_last : 9 < cfg1.N := by rw [show cfg1.N = 10 from N_1]; decide

/-- The two rows after the last point, as contents of the result arrays (each array is its one block). -/
abbrev statsSum1 (c : Dev nD) : Buf (Elt Ideal) ((c : Thread nD τ).loc main_v53_0) := (outsAt1 V c 9 stats1_last).1
abbrev statsSq1 (c : Dev nD) : Buf (Elt Ideal) ((c : Thread nD τ).loc main_v53_1) := (outsAt1 V c 9 stats1_last).2

/-- The one write-back of the sum row, at the last point, writes it: block (0, 0) of the [1, 64] array is the array. -/
theorem stats1_flushed_2 (c : Dev nD) (t : Fin cfg1.N) (hf : (cfg1.win 2).flush t = true) :
    (dat1 V c).flushed 2 t = ((cfg1.win 2).blk t).view.read (Elt Ideal) (statsSum1 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v53_0.ty.shape.size a) = fun _ => 0 := funext fun a => by fin_cases a <;> decide
  exact (Memref.read_access_unit_zero (Elt Ideal) main_v53_0 hz' (fun a => by rw [congrFun hz' a]; simp) (statsSum1 V c)).symm

theorem stats1_flushed_3 (c : Dev nD) (t : Fin cfg1.N) (hf : (cfg1.win 3).flush t = true) :
    (dat1 V c).flushed 3 t = ((cfg1.win 3).blk t).view.read (Elt Ideal) (statsSq1 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v53_1.ty.shape.size a) = fun _ => 0 := funext fun a => by fin_cases a <;> decide
  exact (Memref.read_access_unit_zero (Elt Ideal) main_v53_1 hz' (fun a => by rw [congrFun hz' a]; simp) (statsSq1 V c)).symm

/-- So the sum array ends holding the row the last point left (that point's block covers the array). -/
theorem stats1_final_2 (c : Dev nD) : (dat1 V c).arrAt 2 cfg1.N = statsSum1 V c :=
  (dat1 V c).arrAt_eq_of_cover 2 (statsSum1 V c) (stats1_flushed_2 V c) fun i =>
    ⟨t1_9, (flush1_2 t1_9).mpr rfl, by
      show i ∈ ((View.whole main_v53_0).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 64 from by decide +kernel]; omega⟩

theorem stats1_final_3 (c : Dev nD) : (dat1 V c).arrAt 3 cfg1.N = statsSq1 V c :=
  (dat1 V c).arrAt_eq_of_cover 3 (statsSq1 V c) (stats1_flushed_3 V c) fun i =>
    ⟨t1_9, (flush1_3 t1_9).mpr rfl, by
      show i ∈ ((View.whole main_v53_1).slice (win1_3.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 64 from by decide +kernel]; omega⟩

/-- THE SUM ARRAY after the region: at column `q`, the sum over all 100000 rows of the activation plus the bias —
    ten blocks of 10000 rows, re-indexed as one sum. -/
theorem sum1_apply (c : Dev nD) (q : Fin 64) :
    @Eq (Ideal .f32) ((dat1 (F := Ideal) V c).arrAt 2 cfg1.N (ix2 (0 : Fin 1) q))
      (∑ r : Fin 100000, (statsX1 V c (ix2 r q) + statsB1 V c (ix2 (0 : Fin 1) q))) := by
  refine (congrFun (stats1_final_2 V c) (ix2 (0 : Fin 1) q)).trans ?_
  refine (congrFun (congrArg Prod.fst (outsAt1_eq_chain V c 9 stats1_last)) (ix2 (0 : Fin 1) q)).trans ?_
  refine (statsChain1_fst V c q 9 stats1_last).trans ?_
  refine (Finset.sum_range _).trans ?_
  refine ((Cert.Lib.SumSplit.sum_fin_mul_split 10 10000
    (fun r : Fin 100000 => statsX1 V c (ix2 r q) + statsB1 V c (ix2 (0 : Fin 1) q))).trans ?_).symm
  refine Finset.sum_congr rfl fun t _ => Finset.sum_congr rfl fun e _ => ?_
  exact congrArg (fun r : Fin 100000 => statsX1 V c (ix2 r q) + statsB1 V c (ix2 (0 : Fin 1) q)) (statsRow_eq t e _)

/-- THE SUM-OF-SQUARES ARRAY after the region: at column `q`, the sum over all rows of the square of the activation
    plus the bias. -/
theorem sumsq1_apply (c : Dev nD) (q : Fin 64) :
    @Eq (Ideal .f32) ((dat1 (F := Ideal) V c).arrAt 3 cfg1.N (ix2 (0 : Fin 1) q))
      (∑ r : Fin 100000, (statsX1 V c (ix2 r q) + statsB1 V c (ix2 (0 : Fin 1) q))
        * (statsX1 V c (ix2 r q) + statsB1 V c (ix2 (0 : Fin 1) q))) := by
  refine (congrFun (stats1_final_3 V c) (ix2 (0 : Fin 1) q)).trans ?_
  refine (congrFun (congrArg Prod.snd (outsAt1_eq_chain V c 9 stats1_last)) (ix2 (0 : Fin 1) q)).trans ?_
  refine (statsChain1_snd V c q 9 stats1_last).trans ?_
  refine (Finset.sum_range _).trans ?_
  refine ((Cert.Lib.SumSplit.sum_fin_mul_split 10 10000
    (fun r : Fin 100000 => (statsX1 V c (ix2 r q) + statsB1 V c (ix2 (0 : Fin 1) q))
      * (statsX1 V c (ix2 r q) + statsB1 V c (ix2 (0 : Fin 1) q)))).trans ?_).symm
  refine Finset.sum_congr rfl fun t _ => Finset.sum_congr rfl fun e _ => ?_
  exact congrArg (fun r : Fin 100000 => (statsX1 V c (ix2 r q) + statsB1 V c (ix2 (0 : Fin 1) q))
      * (statsX1 V c (ix2 r q) + statsB1 V c (ix2 (0 : Fin 1) q))) (statsRow_eq t e _)

end Cert.KernelIdeal.RegVal

end
-- ==== Proof.RegStatsOut4.lean ====
/-
  What the statistics kernel of region 4 leaves in its two output rows, case by case: the payloads of the skeleton
  applied to the input blocks and to what the rows held before.
-/
import proofs.«132062_j28845000360070_1_alg».proof.Proof.Gen.KernelIdeal.Frame
import proofs.«132062_j28845000360070_1_alg».proof.Proof.RegStatsPay
import Idealize.ShloMosaic.Lib.Pipeline.Value
import Idealize.ShloMosaic.Lib.Tactic

noncomputable section

namespace Cert.KernelIdeal.RegVal

open Idealize.ShloMosaic Idealize.ShloMosaic.TcCoe Idealize.SL.Sem
open Idealize.ShloMosaic.Pipeline (Dat)
open Cert.KernelIdeal Cert.KernelIdeal.Gen

variable {F : FTy → Type} [FloatOps F]

/-- After a point other than the first, the sum row holds the payload `k4_pay4` of the two input blocks and of what
    the row held before: the body's one covering store of that row, its loads reading whole buffers. -/
theorem out4_B_2_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond4_0 i)
    (x0 : Vec F S10000x64 .f32) (x1 xo2 xo3 : Vec F S1x64 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero stats_hz]
  simp only [View.readAt_eq_ld, h1.read_unread, h2.read_unread, h3.read_unread, View.ld_unit_zero (S := S10000x64) stats_hz,
    View.ld_unit_zero (S := S1x64) stats_hz]

/-- Likewise the row of sums of squares: the payload `k4_pay5`. -/
theorem out4_B_3_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond4_0 i)
    (x0 : Vec F S10000x64 .f32) (x1 xo2 xo3 : Vec F S1x64 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero stats_hz]
  simp only [View.readAt_eq_ld, h1.read_unread, h2.read_unread, h4.read_unread, View.ld_unit_zero (S := S10000x64) stats_hz,
    View.ld_unit_zero (S := S1x64) stats_hz]

/-- After the first point the sum row holds the same payload over the zero row `k4_pay1`: the body stores the zero
    row, reads it back, and stores the payload over it. -/
theorem out4_A_2_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond4_0 i)
    (x0 : Vec F S10000x64 .f32) (x1 : Vec F S1x64 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x64) stats_hz, View.readCov_unit_zero (S := S1x64) _ stats_hz]
  simp only [View.readAt_eq_ld, h1.read_unread, h2.read_unread, View.ld_unit_zero (S := S10000x64) stats_hz,
    View.ld_unit_zero (S := S1x64) stats_hz]

/-- Likewise the row of sums of squares, over the zero row `k4_pay2`. -/
theorem out4_A_3_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond4_0 i)
    (x0 : Vec F S10000x64 .f32) (x1 : Vec F S1x64 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x64) stats_hz, View.readCov_unit_zero (S := S1x64) _ stats_hz]
  simp only [View.readAt_eq_ld, h1.read_unread, h2.read_unread, View.ld_unit_zero (S := S10000x64) stats_hz,
    View.ld_unit_zero (S := S1x64) stats_hz]

end Cert.KernelIdeal.RegVal

end
-- ==== Proof.RegStatsAcc4.lean ====
/-
  The statistics kernel of region 4, point by point: the blocks it reads as rows of the arrays the region finds, and
  what its two output rows hold after each grid point — the first point starts from zero, every later point adds the
  column sums of its 10000 rows (of the activation plus the bias, and of its square) to what the point before left.
-/
import proofs.«132062_j28845000360070_1_alg».proof.Proof.Gen.KernelIdeal.Frame
import proofs.«132062_j28845000360070_1_alg».proof.Proof.RegStatsPay
import proofs.«132062_j28845000360070_1_alg».proof.Proof.RegStatsOut4
import Idealize.ShloMosaic.Lib.Pipeline.Value
import Idealize.ShloMosaic.Lib.ValueIdx
import Idealize.ShloMosaic.Lib.Tactic

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## Region 4: the blocks the statistics kernel reads -/

/-- The block-index maps over the ten grid points: the activations' block moves down with the point, the bias row
    and the two output rows stay. -/
theorem stats4_idx : ∀ t : Fin cfg4.N, win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- The activations' block at point `t`, read at row `e`, column `q`. -/
theorem iblk4_0_apply (c : Dev nD) (t : Fin cfg4.N) (e : Fin 10000) (q : Fin 64) :
    (iblk4 V c 0 t : Vec Ideal S10000x64 .f32) (ix2 e q)
      = (V c (Pipeline.arrRef spec4 0) : S100000x64.Idx → Ideal .f32) (ix2 (statsRow t.val e) q) := by
  have hN : t.val < 10 := lt_of_lt_of_eq t.isLt (show cfg4.N = 10 from N_4)
  obtain ⟨i0, i1, -, -⟩ := stats4_idx t
  unfold iblk4
  rw [View.read_apply]
  show V c (Pipeline.arrRef spec4 0) _ = V c (Pipeline.arrRef spec4 0) _
  refine congrArg _ ?_
  funext a
  apply Fin.ext
  match a with
  | ⟨0, _⟩ =>
    show win4_0.index t (0 : Fin 2) * 10000 + 1 * e.val = (10000 * t.val + e.val) % 100000
    rw [i0]; have := e.isLt; omega
  | ⟨1, _⟩ =>
    show win4_0.index t (1 : Fin 2) * 64 + 1 * q.val = q.val
    rw [i1]; omega

/-- The bias row's block at any point is the row. -/
theorem iblk4_1_apply (c : Dev nD) (t : Fin cfg4.N) (q : Fin 64) :
    (iblk4 V c 1 t : Vec Ideal S1x64 .f32) (ix2 (0 : Fin 1) q)
      = (V c (Pipeline.arrRef spec4 1) : S1x64.Idx → Ideal .f32) (ix2 (0 : Fin 1) q) := by
  obtain ⟨-, -, i0, i1⟩ := stats4_idx t
  unfold iblk4
  rw [View.read_apply]
  show V c (Pipeline.arrRef spec4 1) _ = V c (Pipeline.arrRef spec4 1) _
  refine congrArg _ ?_
  funext a
  apply Fin.ext
  match a with
  | ⟨0, _⟩ =>
    show win4_1.index t (0 : Fin 2) * 1 + 1 * 0 = 0
    rw [i0]
  | ⟨1, _⟩ =>
    show win4_1.index t (1 : Fin 2) * 64 + 1 * q.val = q.val
    rw [i1]; omega

/-! ## What the two output rows hold after each point -/

/-- The activations as the region finds them, and the bias row. -/
abbrev statsX4 (c : Dev nD) : S100000x64.Idx → Ideal .f32 := V c (Pipeline.arrRef spec4 0)
abbrev statsB4 (c : Dev nD) : S1x64.Idx → Ideal .f32 := V c (Pipeline.arrRef spec4 1)

/-- The two input blocks at a point, as plain [10000, 64] and [1, 64] vectors. -/
def statsBlk4 (c : Dev nD) (t : Fin cfg4.N) : Vec Ideal S10000x64 .f32 := iblk4 V c 0 t
def statsBias4 (c : Dev nD) (t : Fin cfg4.N) : Vec Ideal S1x64 .f32 := iblk4 V c 1 t

theorem statsBlk4_apply (c : Dev nD) (t : Fin cfg4.N) (e : Fin 10000) (q : Fin 64) :
    statsBlk4 V c t (ix2 e q) = statsX4 V c (ix2 (statsRow t.val e) q) := iblk4_0_apply V c t e q

theorem statsBias4_apply (c : Dev nD) (t : Fin cfg4.N) (q : Fin 64) :
    statsBias4 V c t (ix2 (0 : Fin 1) q) = statsB4 V c (ix2 (0 : Fin 1) q) := iblk4_1_apply V c t q

/-- The two rows after point `n` as a recursion on the point: the first point's payloads over the zero rows, every
    later point's payloads over what the point before left. -/
def statsChain4 (c : Dev nD) : (n : ℕ) → n < cfg4.N → Vec Ideal S1x64 .f32 × Vec Ideal S1x64 .f32
  | 0, h => (k4_pay4 (statsBlk4 V c ⟨0, h⟩) (statsBias4 V c ⟨0, h⟩) (k4_pay1 (F := Ideal)),
      k4_pay5 (statsBlk4 V c ⟨0, h⟩) (statsBias4 V c ⟨0, h⟩) (k4_pay2 (F := Ideal)))
  | n + 1, h => (k4_pay4 (statsBlk4 V c ⟨n + 1, h⟩) (statsBias4 V c ⟨n + 1, h⟩) (statsChain4 c n (Nat.lt_of_succ_lt h)).1,
      k4_pay5 (statsBlk4 V c ⟨n + 1, h⟩) (statsBias4 V c ⟨n + 1, h⟩) (statsChain4 c n (Nat.lt_of_succ_lt h)).2)

/-- What the staging buffers of the two outputs hold after point `n` is that recursion: by induction on the point, the
    case of each point read off its piece lemma. -/
theorem outsAt4_eq_chain (c : Dev nD) : ∀ (n : ℕ) (h : n < cfg4.N), outsAt4 V c n h = statsChain4 V c n h
  | 0, h => by
    rw [outsAt4_A V c ⟨0, h⟩ rfl, out4_A_2_eq, out4_A_3_eq]
    rfl
  | n + 1, h => by
    have hN : cfg4.N = 10 := N_4
    have hB : ¬(⟨n + 1, h⟩ : Fin cfg4.N).val % 10 = 0 := by dsimp only; omega
    rw [outsAt4_B V c ⟨n + 1, h⟩ hB, out4_B_2_eq, out4_B_3_eq]
    show (k4_pay4 _ _ (outsAt4 V c n _).1, k4_pay5 _ _ (outsAt4 V c n _).2) = _
    rw [outsAt4_eq_chain c n]
    rfl

/-- After point `n` the sum row holds, at column `q`, the sum over the rows of blocks `0 … n` of the activation plus
    the bias. -/
theorem statsChain4_fst (c : Dev nD) (q : Fin 64) : ∀ (n : ℕ) (h : n < cfg4.N),
    (statsChain4 V c n h).1 (ix2 (0 : Fin 1) q)
      = ∑ s ∈ Finset.range (n + 1), ∑ e : Fin 10000,
          (statsX4 V c (ix2 (statsRow s e) q) + statsB4 V c (ix2 (0 : Fin 1) q))
  | 0, h => by
    show k4_pay4 (statsBlk4 V c ⟨0, h⟩) (statsBias4 V c ⟨0, h⟩) (k4_pay1 (F := Ideal)) (ix2 (0 : Fin 1) q) = _
    rw [k4_pay4_apply, k4_pay1_apply, zero_add, Finset.sum_range_one]
    refine Finset.sum_congr rfl fun e _ => ?_
    rw [statsBlk4_apply, statsBias4_apply]
  | n + 1, h => by
    show k4_pay4 (statsBlk4 V c ⟨n + 1, h⟩) (statsBias4 V c ⟨n + 1, h⟩) (statsChain4 V c n (Nat.lt_of_succ_lt h)).1 (ix2 (0 : Fin 1) q) = _
    rw [k4_pay4_apply, statsChain4_fst c q n (Nat.lt_of_succ_lt h), Finset.sum_range_succ _ (n + 1)]
    refine congrArg _ (Finset.sum_congr rfl fun e _ => ?_)
    rw [statsBlk4_apply, statsBias4_apply]

/-- Likewise the row of sums of squares. -/
theorem statsChain4_snd (c : Dev nD) (q : Fin 64) : ∀ (n : ℕ) (h : n < cfg4.N),
    (statsChain4 V c n h).2 (ix2 (0 : Fin 1) q)
      = ∑ s ∈ Finset.range (n + 1), ∑ e : Fin 10000,
          (statsX4 V c (ix2 (statsRow s e) q) + statsB4 V c (ix2 (0 : Fin 1) q))
            * (statsX4 V c (ix2 (statsRow s e) q) + statsB4 V c (ix2 (0 : Fin 1) q))
  | 0, h => by
    show k4_pay5 (statsBlk4 V c ⟨0, h⟩) (statsBias4 V c ⟨0, h⟩) (k4_pay2 (F := Ideal)) (ix2 (0 : Fin 1) q) = _
    rw [k4_pay5_apply, k4_pay2_apply, zero_add, Finset.sum_range_one]
    refine Finset.sum_congr rfl fun e _ => ?_
    rw [statsBlk4_apply, statsBias4_apply]
  | n + 1, h => by
    show k4_pay5 (statsBlk4 V c ⟨n + 1, h⟩) (statsBias4 V c ⟨n + 1, h⟩) (statsChain4 V c n (Nat.lt_of_succ_lt h)).2 (ix2 (0 : Fin 1) q) = _
    rw [k4_pay5_apply, statsChain4_snd c q n (Nat.lt_of_succ_lt h), Finset.sum_range_succ _ (n + 1)]
    refine congrArg _ (Finset.sum_congr rfl fun e _ => ?_)
    rw [statsBlk4_apply, statsBias4_apply]

end Cert.KernelIdeal.RegVal

end
-- ==== Proof.RegStats4.lean ====
/-
  The two [1, 64] results of the statistics kernel of region 4, as closed forms of the arrays the region finds:
  the column sums, over all 100000 rows, of the activation plus the bias, and of its square. The output block never
  moves, so only the last point's write-back reaches the arrays; ten blocks of 10000 rows are re-indexed as one sum.
-/
import proofs.«132062_j28845000360070_1_alg».proof.Proof.Gen.KernelIdeal.Frame
import proofs.«132062_j28845000360070_1_alg».proof.Proof.LibSumSplit
import proofs.«132062_j28845000360070_1_alg».proof.Proof.RegStatsPay
import proofs.«132062_j28845000360070_1_alg».proof.Proof.RegStatsAcc4
import Idealize.ShloMosaic.Lib.Pipeline.Value
import Idealize.ShloMosaic.Lib.ValueIdx
import Idealize.ShloMosaic.Lib.Tactic

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The two result arrays after the region -/

theorem stats4_last : 9 < cfg4.N := by rw [show cfg4.N = 10 from N_4]; decide

/-- The two rows after the last point, as contents of the result arrays (each array is its one block). -/
abbrev statsSum4 (c : Dev nD) : Buf (Elt Ideal) ((c : Thread nD τ).loc main_v87_0) := (outsAt4 V c 9 stats4_last).1
abbrev statsSq4 (c : Dev nD) : Buf (Elt Ideal) ((c : Thread nD τ).loc main_v87_1) := (outsAt4 V c 9 stats4_last).2

/-- The one write-back of the sum row, at the last point, writes it: block (0, 0) of the [1, 64] array is the array. -/
theorem stats4_flushed_2 (c : Dev nD) (t : Fin cfg4.N) (hf : (cfg4.win 2).flush t = true) :
    (dat4 V c).flushed 2 t = ((cfg4.win 2).blk t).view.read (Elt Ideal) (statsSum4 V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v87_0.ty.shape.size a) = fun _ => 0 := funext fun a => by fin_cases a <;> decide
  exact (Memref.read_access_unit_zero (Elt Ideal) main_v87_0 hz' (fun a => by rw [congrFun hz' a]; simp) (statsSum4 V c)).symm

theorem stats4_flushed_3 (c : Dev nD) (t : Fin cfg4.N) (hf : (cfg4.win 3).flush t = true) :
    (dat4 V c).flushed 3 t = ((cfg4.win 3).blk t).view.read (Elt Ideal) (statsSq4 V c) := by
  have hN : cfg4.N = 10 := N_4
  have h9 : t.val = 9 := by have := (flush4_3 t).mp hf; have := t.isLt; omega
  obtain rfl : t = t4_9 := Fin.ext h9
  show (cfg4.win 3).cut (grid4.coords t4_9) ((dat4 V c).after 3 t4_9) = _
  rw [after4_3]
  have hz' : (fun a => win4_3.index t4_9 a * main_v87_1.ty.shape.size a) = fun _ => 0 := funext fun a => by fin_cases a <;> decide
  exact (Memref.read_access_unit_zero (Elt Ideal) main_v87_1 hz' (fun a => by rw [congrFun hz' a]; simp) (statsSq4 V c)).symm

/-- So the sum array ends holding the row the last point left (that point's block covers the array). -/
theorem stats4_final_2 (c : Dev nD) : (dat4 V c).arrAt 2 cfg4.N = statsSum4 V c :=
  (dat4 V c).arrAt_eq_of_cover 2 (statsSum4 V c) (stats4_flushed_2 V c) fun i =>
    ⟨t4_9, (flush4_2 t4_9).mpr rfl, by
      show i ∈ ((View.whole main_v87_0).slice (win4_2.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 64 from by decide +kernel]; omega⟩

theorem stats4_final_3 (c : Dev nD) : (dat4 V c).arrAt 3 cfg4.N = statsSq4 V c :=
  (dat4 V c).arrAt_eq_of_cover 3 (statsSq4 V c) (stats4_flushed_3 V c) fun i =>
    ⟨t4_9, (flush4_3 t4_9).mpr rfl, by
      show i ∈ ((View.whole main_v87_1).slice (win4_3.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 64 from by decide +kernel]; omega⟩

/-- THE SUM ARRAY after the region: at column `q`, the sum over all 100000 rows of the activation plus the bias —
    ten blocks of 10000 rows, re-indexed as one sum. -/
theorem sum4_apply (c : Dev nD) (q : Fin 64) :
    @Eq (Ideal .f32) ((dat4 (F := Ideal) V c).arrAt 2 cfg4.N (ix2 (0 : Fin 1) q))
      (∑ r : Fin 100000, (statsX4 V c (ix2 r q) + statsB4 V c (ix2 (0 : Fin 1) q))) := by
  refine (congrFun (stats4_final_2 V c) (ix2 (0 : Fin 1) q)).trans ?_
  refine (congrFun (congrArg Prod.fst (outsAt4_eq_chain V c 9 stats4_last)) (ix2 (0 : Fin 1) q)).trans ?_
  refine (statsChain4_fst V c q 9 stats4_last).trans ?_
  refine (Finset.sum_range _).trans ?_
  refine ((Cert.Lib.SumSplit.sum_fin_mul_split 10 10000
    (fun r : Fin 100000 => statsX4 V c (ix2 r q) + statsB4 V c (ix2 (0 : Fin 1) q))).trans ?_).symm
  refine Finset.sum_congr rfl fun t _ => Finset.sum_congr rfl fun e _ => ?_
  exact congrArg (fun r : Fin 100000 => statsX4 V c (ix2 r q) + statsB4 V c (ix2 (0 : Fin 1) q)) (statsRow_eq t e _)

/-- THE SUM-OF-SQUARES ARRAY after the region: at column `q`, the sum over all rows of the square of the activation
    plus the bias. -/
theorem sumsq4_apply (c : Dev nD) (q : Fin 64) :
    @Eq (Ideal .f32) ((dat4 (F := Ideal) V c).arrAt 3 cfg4.N (ix2 (0 : Fin 1) q))
      (∑ r : Fin 100000, (statsX4 V c (ix2 r q) + statsB4 V c (ix2 (0 : Fin 1) q))
        * (statsX4 V c (ix2 r q) + statsB4 V c (ix2 (0 : Fin 1) q))) := by
  refine (congrFun (stats4_final_3 V c) (ix2 (0 : Fin 1) q)).trans ?_
  refine (congrFun (congrArg Prod.snd (outsAt4_eq_chain V c 9 stats4_last)) (ix2 (0 : Fin 1) q)).trans ?_
  refine (statsChain4_snd V c q 9 stats4_last).trans ?_
  refine (Finset.sum_range _).trans ?_
  refine ((Cert.Lib.SumSplit.sum_fin_mul_split 10 10000
    (fun r : Fin 100000 => (statsX4 V c (ix2 r q) + statsB4 V c (ix2 (0 : Fin 1) q))
      * (statsX4 V c (ix2 r q) + statsB4 V c (ix2 (0 : Fin 1) q)))).trans ?_).symm
  refine Finset.sum_congr rfl fun t _ => Finset.sum_congr rfl fun e _ => ?_
  exact congrArg (fun r : Fin 100000 => (statsX4 V c (ix2 r q) + statsB4 V c (ix2 (0 : Fin 1) q))
      * (statsX4 V c (ix2 r q) + statsB4 V c (ix2 (0 : Fin 1) q))) (statsRow_eq t e _)

end Cert.KernelIdeal.RegVal

end
-- ==== Proof.RegStatsOut7.lean ====
/-
  What the statistics kernel of region 7 leaves in its two output rows, case by case: the payloads of the skeleton
  applied to the input blocks and to what the rows held before.
-/
import proofs.«132062_j28845000360070_1_alg».proof.Proof.Gen.KernelIdeal.Frame
import proofs.«132062_j28845000360070_1_alg».proof.Proof.RegStatsPay
import Idealize.ShloMosaic.Lib.Pipeline.Value
import Idealize.ShloMosaic.Lib.Tactic

noncomputable section

namespace Cert.KernelIdeal.RegVal

open Idealize.ShloMosaic Idealize.ShloMosaic.TcCoe Idealize.SL.Sem
open Idealize.ShloMosaic.Pipeline (Dat)
open Cert.KernelIdeal Cert.KernelIdeal.Gen

variable {F : FTy → Type} [FloatOps F]

/-- After a point other than the first, the sum row holds the payload `k7_pay4` of the two input blocks and of what
    the row held before: the body's one covering store of that row, its loads reading whole buffers. -/
theorem out7_B_2_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond7_0 i)
    (x0 : Vec F S10000x64 .f32) (x1 xo2 xo3 : Vec F S1x64 .f32) :
    out7_B_2 c i a1 h1 a2 h2 a3 h3 a4 h4 hc x0 x1 xo2 xo3 = k7_pay4 x0 x1 xo2 := by
  unfold out7_B_2
  rw [View.read_writes_eq_canon _ _ _ (cover7_B_2 c i a1 h1 a2 h2 a3 h3 a4 h4 hc x0 x1 xo2 xo3)]
  unfold kernelRun7_B
  dsimp only
  rw [View.canon_unit_zero stats_hz]
  simp only [View.readAt_eq_ld, h1.read_unread, h2.read_unread, h3.read_unread, View.ld_unit_zero (S := S10000x64) stats_hz,
    View.ld_unit_zero (S := S1x64) stats_hz]

/-- Likewise the row of sums of squares: the payload `k7_pay5`. -/
theorem out7_B_3_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond7_0 i)
    (x0 : Vec F S10000x64 .f32) (x1 xo2 xo3 : Vec F S1x64 .f32) :
    out7_B_3 c i a1 h1 a2 h2 a3 h3 a4 h4 hc x0 x1 xo2 xo3 = k7_pay5 x0 x1 xo3 := by
  unfold out7_B_3
  rw [View.read_writes_eq_canon _ _ _ (cover7_B_3 c i a1 h1 a2 h2 a3 h3 a4 h4 hc x0 x1 xo2 xo3)]
  unfold kernelRun7_B
  dsimp only
  rw [View.canon_unit_zero stats_hz]
  simp only [View.readAt_eq_ld, h1.read_unread, h2.read_unread, h4.read_unread, View.ld_unit_zero (S := S10000x64) stats_hz,
    View.ld_unit_zero (S := S1x64) stats_hz]

/-- After the first point the sum row holds the same payload over the zero row `k7_pay1`: the body stores the zero
    row, reads it back, and stores the payload over it. -/
theorem out7_A_2_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond7_0 i)
    (x0 : Vec F S10000x64 .f32) (x1 : Vec F S1x64 .f32) :
    out7_A_2 c i a1 h1 a2 h2 a3 h3 a4 h4 hc x0 x1 = k7_pay4 x0 x1 k7_pay1 := by
  unfold out7_A_2
  rw [View.read_writes_eq_canon _ _ _ (cover7_A_2 c i a1 h1 a2 h2 a3 h3 a4 h4 hc x0 x1)]
  unfold kernelRun7_A
  dsimp only
  sl_unfold_words
  rw [View.canon_cons_unit_zero (S := S1x64) stats_hz, View.readCov_unit_zero (S := S1x64) _ stats_hz]
  simp only [View.readAt_eq_ld, h1.read_unread, h2.read_unread, View.ld_unit_zero (S := S10000x64) stats_hz,
    View.ld_unit_zero (S := S1x64) stats_hz]

/-- Likewise the row of sums of squares, over the zero row `k7_pay2`. -/
theorem out7_A_3_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond7_0 i)
    (x0 : Vec F S10000x64 .f32) (x1 : Vec F S1x64 .f32) :
    out7_A_3 c i a1 h1 a2 h2 a3 h3 a4 h4 hc x0 x1 = k7_pay5 x0 x1 k7_pay2 := by
  unfold out7_A_3
  rw [View.read_writes_eq_canon _ _ _ (cover7_A_3 c i a1 h1 a2 h2 a3 h3 a4 h4 hc x0 x1)]
  unfold kernelRun7_A
  dsimp only
  sl_unfold_words
  rw [View.canon_cons_unit_zero (S := S1x64) stats_hz, View.readCov_unit_zero (S := S1x64) _ stats_hz]
  simp only [View.readAt_eq_ld, h1.read_unread, h2.read_unread, View.ld_unit_zero (S := S10000x64) stats_hz,
    View.ld_unit_zero (S := S1x64) stats_hz]

end Cert.KernelIdeal.RegVal

end
-- ==== Proof.RegStatsAcc7.lean ====
/-
  The statistics kernel of region 7, point by point: the blocks it reads as rows of the arrays the region finds, and
  what its two output rows hold after each grid point — the first point starts from zero, every later point adds the
  column sums of its 10000 rows (of the activation plus the bias, and of its square) to what the point before left.
-/
import proofs.«132062_j28845000360070_1_alg».proof.Proof.Gen.KernelIdeal.Frame
import proofs.«132062_j28845000360070_1_alg».proof.Proof.RegStatsPay
import proofs.«132062_j28845000360070_1_alg».proof.Proof.RegStatsOut7
import Idealize.ShloMosaic.Lib.Pipeline.Value
import Idealize.ShloMosaic.Lib.ValueIdx
import Idealize.ShloMosaic.Lib.Tactic

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## Region 7: the blocks the statistics kernel reads -/

/-- The block-index maps over the ten grid points: the activations' block moves down with the point, the bias row
    and the two output rows stay. -/
theorem stats7_idx : ∀ t : Fin cfg7.N, win7_0.index t (0 : Fin 2) = t.val ∧ win7_0.index t (1 : Fin 2) = 0
    ∧ win7_1.index t (0 : Fin 2) = 0 ∧ win7_1.index t (1 : Fin 2) = 0 :=
  (by decide +kernel : ∀ t : Fin grid7.N, _)

/-- The activations' block at point `t`, read at row `e`, column `q`. -/
theorem iblk7_0_apply (c : Dev nD) (t : Fin cfg7.N) (e : Fin 10000) (q : Fin 64) :
    (iblk7 V c 0 t : Vec Ideal S10000x64 .f32) (ix2 e q)
      = (V c (Pipeline.arrRef spec7 0) : S100000x64.Idx → Ideal .f32) (ix2 (statsRow t.val e) q) := by
  have hN : t.val < 10 := lt_of_lt_of_eq t.isLt (show cfg7.N = 10 from N_7)
  obtain ⟨i0, i1, -, -⟩ := stats7_idx t
  unfold iblk7
  rw [View.read_apply]
  show V c (Pipeline.arrRef spec7 0) _ = V c (Pipeline.arrRef spec7 0) _
  refine congrArg _ ?_
  funext a
  apply Fin.ext
  match a with
  | ⟨0, _⟩ =>
    show win7_0.index t (0 : Fin 2) * 10000 + 1 * e.val = (10000 * t.val + e.val) % 100000
    rw [i0]; have := e.isLt; omega
  | ⟨1, _⟩ =>
    show win7_0.index t (1 : Fin 2) * 64 + 1 * q.val = q.val
    rw [i1]; omega

/-- The bias row's block at any point is the row. -/
theorem iblk7_1_apply (c : Dev nD) (t : Fin cfg7.N) (q : Fin 64) :
    (iblk7 V c 1 t : Vec Ideal S1x64 .f32) (ix2 (0 : Fin 1) q)
      = (V c (Pipeline.arrRef spec7 1) : S1x64.Idx → Ideal .f32) (ix2 (0 : Fin 1) q) := by
  obtain ⟨-, -, i0, i1⟩ := stats7_idx t
  unfold iblk7
  rw [View.read_apply]
  show V c (Pipeline.arrRef spec7 1) _ = V c (Pipeline.arrRef spec7 1) _
  refine congrArg _ ?_
  funext a
  apply Fin.ext
  match a with
  | ⟨0, _⟩ =>
    show win7_1.index t (0 : Fin 2) * 1 + 1 * 0 = 0
    rw [i0]
  | ⟨1, _⟩ =>
    show win7_1.index t (1 : Fin 2) * 64 + 1 * q.val = q.val
    rw [i1]; omega

/-! ## What the two output rows hold after each point -/

/-- The activations as the region finds them, and the bias row. -/
abbrev statsX7 (c : Dev nD) : S100000x64.Idx → Ideal .f32 := V c (Pipeline.arrRef spec7 0)
abbrev statsB7 (c : Dev nD) : S1x64.Idx → Ideal .f32 := V c (Pipeline.arrRef spec7 1)

/-- The two input blocks at a point, as plain [10000, 64] and [1, 64] vectors. -/
def statsBlk7 (c : Dev nD) (t : Fin cfg7.N) : Vec Ideal S10000x64 .f32 := iblk7 V c 0 t
def statsBias7 (c : Dev nD) (t : Fin cfg7.N) : Vec Ideal S1x64 .f32 := iblk7 V c 1 t

theorem statsBlk7_apply (c : Dev nD) (t : Fin cfg7.N) (e : Fin 10000) (q : Fin 64) :
    statsBlk7 V c t (ix2 e q) = statsX7 V c (ix2 (statsRow t.val e) q) := iblk7_0_apply V c t e q

theorem statsBias7_apply (c : Dev nD) (t : Fin cfg7.N) (q : Fin 64) :
    statsBias7 V c t (ix2 (0 : Fin 1) q) = statsB7 V c (ix2 (0 : Fin 1) q) := iblk7_1_apply V c t q

/-- The two rows after point `n` as a recursion on the point: the first point's payloads over the zero rows, every
    later point's payloads over what the point before left. -/
def statsChain7 (c : Dev nD) : (n : ℕ) → n < cfg7.N → Vec Ideal S1x64 .f32 × Vec Ideal S1x64 .f32
  | 0, h => (k7_pay4 (statsBlk7 V c ⟨0, h⟩) (statsBias7 V c ⟨0, h⟩) (k7_pay1 (F := Ideal)),
      k7_pay5 (statsBlk7 V c ⟨0, h⟩) (statsBias7 V c ⟨0, h⟩) (k7_pay2 (F := Ideal)))
  | n + 1, h => (k7_pay4 (statsBlk7 V c ⟨n + 1, h⟩) (statsBias7 V c ⟨n + 1, h⟩) (statsChain7 c n (Nat.lt_of_succ_lt h)).1,
      k7_pay5 (statsBlk7 V c ⟨n + 1, h⟩) (statsBias7 V c ⟨n + 1, h⟩) (statsChain7 c n (Nat.lt_of_succ_lt h)).2)

/-- What the staging buffers of the two outputs hold after point `n` is that recursion: by induction on the point, the
    case of each point read off its piece lemma. -/
theorem outsAt7_eq_chain (c : Dev nD) : ∀ (n : ℕ) (h : n < cfg7.N), outsAt7 V c n h = statsChain7 V c n h
  | 0, h => by
    rw [outsAt7_A V c ⟨0, h⟩ rfl, out7_A_2_eq, out7_A_3_eq]
    rfl
  | n + 1, h => by
    have hN : cfg7.N = 10 := N_7
    have hB : ¬(⟨n + 1, h⟩ : Fin cfg7.N).val % 10 = 0 := by dsimp only; omega
    rw [outsAt7_B V c ⟨n + 1, h⟩ hB, out7_B_2_eq, out7_B_3_eq]
    show (k7_pay4 _ _ (outsAt7 V c n _).1, k7_pay5 _ _ (outsAt7 V c n _).2) = _
    rw [outsAt7_eq_chain c n]
    rfl

/-- After point `n` the sum row holds, at column `q`, the sum over the rows of blocks `0 … n` of the activation plus
    the bias. -/
theorem statsChain7_fst (c : Dev nD) (q : Fin 64) : ∀ (n : ℕ) (h : n < cfg7.N),
    (statsChain7 V c n h).1 (ix2 (0 : Fin 1) q)
      = ∑ s ∈ Finset.range (n + 1), ∑ e : Fin 10000,
          (statsX7 V c (ix2 (statsRow s e) q) + statsB7 V c (ix2 (0 : Fin 1) q))
  | 0, h => by
    show k7_pay4 (statsBlk7 V c ⟨0, h⟩) (statsBias7 V c ⟨0, h⟩) (k7_pay1 (F := Ideal)) (ix2 (0 : Fin 1) q) = _
    rw [k7_pay4_apply, k7_pay1_apply, zero_add, Finset.sum_range_one]
    refine Finset.sum_congr rfl fun e _ => ?_
    rw [statsBlk7_apply, statsBias7_apply]
  | n + 1, h => by
    show k7_pay4 (statsBlk7 V c ⟨n + 1, h⟩) (statsBias7 V c ⟨n + 1, h⟩) (statsChain7 V c n (Nat.lt_of_succ_lt h)).1 (ix2 (0 : Fin 1) q) = _
    rw [k7_pay4_apply, statsChain7_fst c q n (Nat.lt_of_succ_lt h), Finset.sum_range_succ _ (n + 1)]
    refine congrArg _ (Finset.sum_congr rfl fun e _ => ?_)
    rw [statsBlk7_apply, statsBias7_apply]

/-- Likewise the row of sums of squares. -/
theorem statsChain7_snd (c : Dev nD) (q : Fin 64) : ∀ (n : ℕ) (h : n < cfg7.N),
    (statsChain7 V c n h).2 (ix2 (0 : Fin 1) q)
      = ∑ s ∈ Finset.range (n + 1), ∑ e : Fin 10000,
          (statsX7 V c (ix2 (statsRow s e) q) + statsB7 V c (ix2 (0 : Fin 1) q))
            * (statsX7 V c (ix2 (statsRow s e) q) + statsB7 V c (ix2 (0 : Fin 1) q))
  | 0, h => by
    show k7_pay5 (statsBlk7 V c ⟨0, h⟩) (statsBias7 V c ⟨0, h⟩) (k7_pay2 (F := Ideal)) (ix2 (0 : Fin 1) q) = _
    rw [k7_pay5_apply, k7_pay2_apply, zero_add, Finset.sum_range_one]
    refine Finset.sum_congr rfl fun e _ => ?_
    rw [statsBlk7_apply, statsBias7_apply]
  | n + 1, h => by
    show k7_pay5 (statsBlk7 V c ⟨n + 1, h⟩) (statsBias7 V c ⟨n + 1, h⟩) (statsChain7 V c n (Nat.lt_of_succ_lt h)).2 (ix2 (0 : Fin 1) q) = _
    rw [k7_pay5_apply, statsChain7_snd c q n (Nat.lt_of_succ_lt h), Finset.sum_range_succ _ (n + 1)]
    refine congrArg _ (Finset.sum_congr rfl fun e _ => ?_)
    rw [statsBlk7_apply, statsBias7_apply]

end Cert.KernelIdeal.RegVal

end
-- ==== Proof.RegStats7.lean ====
/-
  The two [1, 64] results of the statistics kernel of region 7, as closed forms of the arrays the region finds:
  the column sums, over all 100000 rows, of the activation plus the bias, and of its square. The output block never
  moves, so only the last point's write-back reaches the arrays; ten blocks of 10000 rows are re-indexed as one sum.
-/
import proofs.«132062_j28845000360070_1_alg».proof.Proof.Gen.KernelIdeal.Frame
import proofs.«132062_j28845000360070_1_alg».proof.Proof.LibSumSplit
import proofs.«132062_j28845000360070_1_alg».proof.Proof.RegStatsPay
import proofs.«132062_j28845000360070_1_alg».proof.Proof.RegStatsAcc7
import Idealize.ShloMosaic.Lib.Pipeline.Value
import Idealize.ShloMosaic.Lib.ValueIdx
import Idealize.ShloMosaic.Lib.Tactic

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The two result arrays after the region -/

theorem stats7_last : 9 < cfg7.N := by rw [show cfg7.N = 10 from N_7]; decide

/-- The two rows after the last point, as contents of the result arrays (each array is its one block). -/
abbrev statsSum7 (c : Dev nD) : Buf (Elt Ideal) ((c : Thread nD τ).loc main_v121_0) := (outsAt7 V c 9 stats7_last).1
abbrev statsSq7 (c : Dev nD) : Buf (Elt Ideal) ((c : Thread nD τ).loc main_v121_1) := (outsAt7 V c 9 stats7_last).2

/-- The one write-back of the sum row, at the last point, writes it: block (0, 0) of the [1, 64] array is the array. -/
theorem stats7_flushed_2 (c : Dev nD) (t : Fin cfg7.N) (hf : (cfg7.win 2).flush t = true) :
    (dat7 V c).flushed 2 t = ((cfg7.win 2).blk t).view.read (Elt Ideal) (statsSum7 V c) := by
  have hN : cfg7.N = 10 := N_7
  have h9 : t.val = 9 := by have := (flush7_2 t).mp hf; have := t.isLt; omega
  obtain rfl : t = t7_9 := Fin.ext h9
  show (cfg7.win 2).cut (grid7.coords t7_9) ((dat7 V c).after 2 t7_9) = _
  rw [after7_2]
  have hz' : (fun a => win7_2.index t7_9 a * main_v121_0.ty.shape.size a) = fun _ => 0 := funext fun a => by fin_cases a <;> decide
  exact (Memref.read_access_unit_zero (Elt Ideal) main_v121_0 hz' (fun a => by rw [congrFun hz' a]; simp) (statsSum7 V c)).symm

theorem stats7_flushed_3 (c : Dev nD) (t : Fin cfg7.N) (hf : (cfg7.win 3).flush t = true) :
    (dat7 V c).flushed 3 t = ((cfg7.win 3).blk t).view.read (Elt Ideal) (statsSq7 V c) := by
  have hN : cfg7.N = 10 := N_7
  have h9 : t.val = 9 := by have := (flush7_3 t).mp hf; have := t.isLt; omega
  obtain rfl : t = t7_9 := Fin.ext h9
  show (cfg7.win 3).cut (grid7.coords t7_9) ((dat7 V c).after 3 t7_9) = _
  rw [after7_3]
  have hz' : (fun a => win7_3.index t7_9 a * main_v121_1.ty.shape.size a) = fun _ => 0 := funext fun a => by fin_cases a <;> decide
  exact (Memref.read_access_unit_zero (Elt Ideal) main_v121_1 hz' (fun a => by rw [congrFun hz' a]; simp) (statsSq7 V c)).symm

/-- So the sum array ends holding the row the last point left (that point's block covers the array). -/
theorem stats7_final_2 (c : Dev nD) : (dat7 V c).arrAt 2 cfg7.N = statsSum7 V c :=
  (dat7 V c).arrAt_eq_of_cover 2 (statsSum7 V c) (stats7_flushed_2 V c) fun i =>
    ⟨t7_9, (flush7_2 t7_9).mpr rfl, by
      show i ∈ ((View.whole main_v121_0).slice (win7_2.rect t7_9)).set
      rw [View.set_slice_whole, Rect.mem_set_unit]
      intro a
      have h0 : (i 0 : Nat) < 1 := (i 0).isLt
      have h1 : (i 1 : Nat) < 64 := (i 1).isLt
      match a with
      | ⟨0, _⟩ => show win7_2.index t7_9 0 * win7_2.size 0 ≤ (i 0 : Nat) ∧ (i 0 : Nat) < win7_2.index t7_9 0 * win7_2.size 0 + win7_2.xsize (grid7.coords t7_9) 0
                  rw [show win7_2.index t7_9 0 * win7_2.size 0 = 0 from by decide +kernel, show win7_2.xsize (grid7.coords t7_9) 0 = 1 from by decide +kernel]; omega
      | ⟨1, _⟩ => show win7_2.index t7_9 1 * win7_2.size 1 ≤ (i 1 : Nat) ∧ (i 1 : Nat) < win7_2.index t7_9 1 * win7_2.size 1 + win7_2.xsize (grid7.coords t7_9) 1
                  rw [show win7_2.index t7_9 1 * win7_2.size 1 = 0 from by decide +kernel, show win7_2.xsize (grid7.coords t7_9) 1 = 64 from by decide +kernel]; omega⟩

theorem stats7_final_3 (c : Dev nD) : (dat7 V c).arrAt 3 cfg7.N = statsSq7 V c :=
  (dat7 V c).arrAt_eq_of_cover 3 (statsSq7 V c) (stats7_flushed_3 V c) fun i =>
    ⟨t7_9, (flush7_3 t7_9).mpr rfl, by
      show i ∈ ((View.whole main_v121_1).slice (win7_3.rect t7_9)).set
      rw [View.set_slice_whole, Rect.mem_set_unit]
      intro a
      have h0 : (i 0 : Nat) < 1 := (i 0).isLt
      have h1 : (i 1 : Nat) < 64 := (i 1).isLt
      match a with
      | ⟨0, _⟩ => show win7_3.index t7_9 0 * win7_3.size 0 ≤ (i 0 : Nat) ∧ (i 0 : Nat) < win7_3.index t7_9 0 * win7_3.size 0 + win7_3.xsize (grid7.coords t7_9) 0
                  rw [show win7_3.index t7_9 0 * win7_3.size 0 = 0 from by decide +kernel, show win7_3.xsize (grid7.coords t7_9) 0 = 1 from by decide +kernel]; omega
      | ⟨1, _⟩ => show win7_3.index t7_9 1 * win7_3.size 1 ≤ (i 1 : Nat) ∧ (i 1 : Nat) < win7_3.index t7_9 1 * win7_3.size 1 + win7_3.xsize (grid7.coords t7_9) 1
                  rw [show win7_3.index t7_9 1 * win7_3.size 1 = 0 from by decide +kernel, show win7_3.xsize (grid7.coords t7_9) 1 = 64 from by decide +kernel]; omega⟩

/-- THE SUM ARRAY after the region: at column `q`, the sum over all 100000 rows of the activation plus the bias —
    ten blocks of 10000 rows, re-indexed as one sum. -/
theorem sum7_apply (c : Dev nD) (q : Fin 64) :
    @Eq (Ideal .f32) ((dat7 (F := Ideal) V c).arrAt 2 cfg7.N (ix2 (0 : Fin 1) q))
      (∑ r : Fin 100000, (statsX7 V c (ix2 r q) + statsB7 V c (ix2 (0 : Fin 1) q))) := by
  refine (congrFun (stats7_final_2 V c) (ix2 (0 : Fin 1) q)).trans ?_
  refine (congrFun (congrArg Prod.fst (outsAt7_eq_chain V c 9 stats7_last)) (ix2 (0 : Fin 1) q)).trans ?_
  refine (statsChain7_fst V c q 9 stats7_last).trans ?_
  refine (Finset.sum_range _).trans ?_
  refine ((Cert.Lib.SumSplit.sum_fin_mul_split 10 10000
    (fun r : Fin 100000 => statsX7 V c (ix2 r q) + statsB7 V c (ix2 (0 : Fin 1) q))).trans ?_).symm
  refine Finset.sum_congr rfl fun t _ => Finset.sum_congr rfl fun e _ => ?_
  exact congrArg (fun r : Fin 100000 => statsX7 V c (ix2 r q) + statsB7 V c (ix2 (0 : Fin 1) q)) (statsRow_eq t e _)

/-- THE SUM-OF-SQUARES ARRAY after the region: at column `q`, the sum over all rows of the square of the activation
    plus the bias. -/
theorem sumsq7_apply (c : Dev nD) (q : Fin 64) :
    @Eq (Ideal .f32) ((dat7 (F := Ideal) V c).arrAt 3 cfg7.N (ix2 (0 : Fin 1) q))
      (∑ r : Fin 100000, (statsX7 V c (ix2 r q) + statsB7 V c (ix2 (0 : Fin 1) q))
        * (statsX7 V c (ix2 r q) + statsB7 V c (ix2 (0 : Fin 1) q))) := by
  refine (congrFun (stats7_final_3 V c) (ix2 (0 : Fin 1) q)).trans ?_
  refine (congrFun (congrArg Prod.snd (outsAt7_eq_chain V c 9 stats7_last)) (ix2 (0 : Fin 1) q)).trans ?_
  refine (statsChain7_snd V c q 9 stats7_last).trans ?_
  refine (Finset.sum_range _).trans ?_
  refine ((Cert.Lib.SumSplit.sum_fin_mul_split 10 10000
    (fun r : Fin 100000 => (statsX7 V c (ix2 r q) + statsB7 V c (ix2 (0 : Fin 1) q))
      * (statsX7 V c (ix2 r q) + statsB7 V c (ix2 (0 : Fin 1) q)))).trans ?_).symm
  refine Finset.sum_congr rfl fun t _ => Finset.sum_congr rfl fun e _ => ?_
  exact congrArg (fun r : Fin 100000 => (statsX7 V c (ix2 r q) + statsB7 V c (ix2 (0 : Fin 1) q))
      * (statsX7 V c (ix2 r q) + statsB7 V c (ix2 (0 : Fin 1) q))) (statsRow_eq t e _)

end Cert.KernelIdeal.RegVal

end
-- ==== Proof.RegStats.lean ====
/-
  The statistics kernels of the three layers (regions 1, 4 and 7): each one's two [1, 64] results as column sums over
  all rows of the array it reads.
-/
import proofs.«132062_j28845000360070_1_alg».proof.Proof.RegStats1
import proofs.«132062_j28845000360070_1_alg».proof.Proof.RegStats4
import proofs.«132062_j28845000360070_1_alg».proof.Proof.RegStats7
-- ==== Proof.LibCovariance.lean ====
/-
  General lemmas about means and covariances of finitely many values, over the reals and over
  the extended reals (for values known to be real), in the operation forms of the ideal float
  instance: sums of coerced reals, subtraction and multiplication of extended reals, and the
  division `Ideal.div` by a nonzero real.  Also the regrouping of a doubly indexed sum as a sum
  over one flat index (and back), for the index arithmetic `k ↦ (k / N, k % N)`.

  The covariance identity is the textbook one: with `μf = (∑ f) / n`, `μg = (∑ g) / n`,
  `n` the number of indices,
      (∑ i, (f i - μf) * (g i - μg)) / n = (∑ i, f i * g i) / n - μf * μg.
  It uses distributivity and cancellation, so on the extended reals it needs every value finite.
  The regroupings are re-indexings of a sum in a commutative monoid and need no finiteness.
-/
import Idealize.ShloMosaic.PureOps.Ideal
import Mathlib.Data.Fintype.BigOperators
import Mathlib.Logic.Equiv.Fin.Basic
import Mathlib.Tactic.Ring
import Mathlib.Tactic.FieldSimp

namespace Cert.Lib.Covariance

open Idealize.ShloMosaic
open scoped BigOperators

/-! ### The identity over the reals -/

section Real

variable {ι : Type*} [Fintype ι]

/-- The covariance identity with the two means given as numbers `a`, `b` satisfying
    `∑ f = a * n`, `∑ g = b * n`, where `n ≠ 0` is the number of indices:
    `(∑ (f i - a) * (g i - b)) / n = (∑ f i * g i) / n - a * b`. -/
theorem cov_real_of_means (f g : ι → ℝ) (a b n : ℝ) (hn : n ≠ 0) (hcard : n = (Fintype.card ι : ℝ))
    (ha : ∑ i, f i = a * n) (hb : ∑ i, g i = b * n) :
    (∑ i, (f i - a) * (g i - b)) / n = (∑ i, f i * g i) / n - a * b := by
  have hexp : ∀ i, (f i - a) * (g i - b) = f i * g i - b * f i - a * g i + a * b := fun i => by ring
  simp only [hexp]
  rw [Finset.sum_add_distrib, Finset.sum_sub_distrib, Finset.sum_sub_distrib, ← Finset.mul_sum, ← Finset.mul_sum,
    Finset.sum_const, Finset.card_univ, nsmul_eq_mul, ← hcard, ha, hb]
  field_simp
  ring

/-- The covariance identity over the reals: for `n ≠ 0` the number of indices,
    `(∑ i, (f i - (∑ f)/n) * (g i - (∑ g)/n)) / n = (∑ i, f i * g i) / n - ((∑ f)/n) * ((∑ g)/n)`. -/
theorem cov_real (f g : ι → ℝ) (n : ℝ) (hn : n ≠ 0) (hcard : n = (Fintype.card ι : ℝ)) :
    (∑ i, (f i - (∑ j, f j) / n) * (g i - (∑ j, g j) / n)) / n
      = (∑ i, f i * g i) / n - ((∑ j, f j) / n) * ((∑ j, g j) / n) :=
  cov_real_of_means f g _ _ n hn hcard (by field_simp) (by field_simp)

end Real

/-! ### Coerced reals inside the extended reals -/

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `Ideal.div` of a coerced real by a nonzero coerced real is the coerced real quotient. -/
theorem div_coe_coe (x : ℝ) {n : ℝ} (hn : n ≠ 0) :
    Ideal.div (x : EReal) (n : EReal) = ((x / n : ℝ) : EReal) := by
  rw [Ideal.div_coe hn, ← EReal.coe_mul, ← div_eq_mul_one_div]

/-- A finite sum of extended reals that are each a real is a real. -/
theorem exists_real_sum {ι : Type*} (s : Finset ι) (F : ι → EReal) (hF : ∀ i, ∃ r : ℝ, F i = (r : EReal)) :
    ∃ r : ℝ, ∑ i ∈ s, F i = (r : EReal) := by
  choose f hf using hF
  exact ⟨∑ i ∈ s, f i, by rw [coe_sum]; exact Finset.sum_congr rfl fun i _ => hf i⟩

/-- The sum of two reals is a real. -/
theorem exists_real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- The difference of two reals is a real. -/
theorem exists_real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- The product of two reals is a real. -/
theorem exists_real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- The quotient (`Ideal.div`) of a real by a nonzero real is a real. -/
theorem exists_real_div {x : EReal} (hx : ∃ r : ℝ, x = (r : EReal)) {n : ℝ} (hn : n ≠ 0) :
    ∃ r : ℝ, Ideal.div x (n : EReal) = (r : EReal) := by
  obtain ⟨a, rfl⟩ := hx; exact ⟨a / n, div_coe_coe a hn⟩

/-- The mean `Ideal.div (∑ i, F i) n` of finitely many reals is a real (namely `(∑ f) / n`). -/
theorem exists_real_mean {ι : Type*} [Fintype ι] (F : ι → EReal) (hF : ∀ i, ∃ r : ℝ, F i = (r : EReal))
    {n : ℝ} (hn : n ≠ 0) : ∃ r : ℝ, Ideal.div (∑ i, F i) (n : EReal) = (r : EReal) :=
  exists_real_div (exists_real_sum _ F hF) hn

/-- The mean of coerced reals, computed: `Ideal.div (∑ i, ↑(f i)) ↑n = ↑((∑ i, f i) / n)`. -/
theorem mean_coe {ι : Type*} [Fintype ι] (f : ι → ℝ) {n : ℝ} (hn : n ≠ 0) :
    Ideal.div (∑ i, (f i : EReal)) (n : EReal) = (((∑ i, f i) / n : ℝ) : EReal) := by
  rw [← coe_sum, div_coe_coe _ hn]

/-! ### The identity over the extended reals, for real values -/

section EReal

variable {ι : Type*} [Fintype ι]

/-- The covariance identity on the extended reals, for coerced reals, in the ideal instance's
    operations: with `μf = Ideal.div (∑ i, ↑(f i)) ↑n` and `μg` likewise,
    `Ideal.div (∑ i, (↑(f i) - μf) * (↑(g i) - μg)) ↑n = Ideal.div (∑ i, ↑(f i) * ↑(g i)) ↑n - μf * μg`. -/
theorem cov_coe (f g : ι → ℝ) (n : ℝ) (hn : n ≠ 0) (hcard : n = (Fintype.card ι : ℝ)) :
    Ideal.div (∑ i, ((f i : EReal) - Ideal.div (∑ j, (f j : EReal)) (n : EReal))
        * ((g i : EReal) - Ideal.div (∑ j, (g j : EReal)) (n : EReal))) (n : EReal)
      = Ideal.div (∑ i, (f i : EReal) * (g i : EReal)) (n : EReal)
        - Ideal.div (∑ j, (f j : EReal)) (n : EReal) * Ideal.div (∑ j, (g j : EReal)) (n : EReal) := by
  rw [mean_coe f hn, mean_coe g hn]
  simp only [← EReal.coe_sub, ← EReal.coe_mul]
  rw [mean_coe _ hn, mean_coe _ hn, ← EReal.coe_sub, cov_real f g n hn hcard]

/-- The covariance identity on the extended reals, for values each known to be a real: with
    `μF = Ideal.div (∑ j, F j) ↑n`, `μG = Ideal.div (∑ j, G j) ↑n` and `n ≠ 0` the number of indices,
    `Ideal.div (∑ i, (F i - μF) * (G i - μG)) ↑n = Ideal.div (∑ i, F i * G i) ↑n - μF * μG`. -/
theorem cov_ereal (F G : ι → EReal) (hF : ∀ i, ∃ r : ℝ, F i = (r : EReal)) (hG : ∀ i, ∃ r : ℝ, G i = (r : EReal))
    (n : ℝ) (hn : n ≠ 0) (hcard : n = (Fintype.card ι : ℝ)) :
    Ideal.div (∑ i, (F i - Ideal.div (∑ j, F j) (n : EReal)) * (G i - Ideal.div (∑ j, G j) (n : EReal))) (n : EReal)
      = Ideal.div (∑ i, F i * G i) (n : EReal)
        - Ideal.div (∑ j, F j) (n : EReal) * Ideal.div (∑ j, G j) (n : EReal) := by
  choose f hf using hF
  choose g hg using hG
  obtain rfl : F = fun i => (f i : EReal) := funext hf
  obtain rfl : G = fun i => (g i : EReal) := funext hg
  exact cov_coe f g n hn hcard

/-- `cov_ereal` with every sum written `0 + ∑`, the form in which a host reduction with a zero
    initial value states it. -/
theorem cov_ereal_zero_add (F G : ι → EReal) (hF : ∀ i, ∃ r : ℝ, F i = (r : EReal))
    (hG : ∀ i, ∃ r : ℝ, G i = (r : EReal)) (n : ℝ) (hn : n ≠ 0) (hcard : n = (Fintype.card ι : ℝ)) :
    Ideal.div (0 + ∑ i, (F i - Ideal.div (0 + ∑ j, F j) (n : EReal)) * (G i - Ideal.div (0 + ∑ j, G j) (n : EReal)))
        (n : EReal)
      = Ideal.div (0 + ∑ i, F i * G i) (n : EReal)
        - Ideal.div (0 + ∑ j, F j) (n : EReal) * Ideal.div (0 + ∑ j, G j) (n : EReal) := by
  simp only [zero_add]
  exact cov_ereal F G hF hG n hn hcard

/-- The regularised form: for a real `e` (a ridge term added before the mean product is subtracted
    on one side, and added to the centred covariance on the other),
    `(e + Ideal.div (∑ i, F i * G i) ↑n) - μF * μG = e + Ideal.div (∑ i, (F i - μF) * (G i - μG)) ↑n`. -/
theorem cov_ereal_add (e : EReal) (he : ∃ r : ℝ, e = (r : EReal)) (F G : ι → EReal)
    (hF : ∀ i, ∃ r : ℝ, F i = (r : EReal)) (hG : ∀ i, ∃ r : ℝ, G i = (r : EReal))
    (n : ℝ) (hn : n ≠ 0) (hcard : n = (Fintype.card ι : ℝ)) :
    (e + Ideal.div (∑ i, F i * G i) (n : EReal))
        - Ideal.div (∑ j, F j) (n : EReal) * Ideal.div (∑ j, G j) (n : EReal)
      = e + Ideal.div (∑ i, (F i - Ideal.div (∑ j, F j) (n : EReal)) * (G i - Ideal.div (∑ j, G j) (n : EReal)))
          (n : EReal) := by
  rw [cov_ereal F G hF hG n hn hcard]
  obtain ⟨r, rfl⟩ := he
  obtain ⟨a, ha⟩ := exists_real_div (exists_real_sum Finset.univ _ fun i => exists_real_mul (hF i) (hG i)) hn
  obtain ⟨b, hb⟩ := exists_real_mul (exists_real_mean F hF hn) (exists_real_mean G hG hn)
  rw [ha, hb, ← EReal.coe_add, ← EReal.coe_sub, ← EReal.coe_sub, ← EReal.coe_add, add_sub_assoc]

end EReal

/-! ### Regrouping a double sum over one flat index -/

section Regroup

variable {α : Type*} [AddCommMonoid α]

/-- A double sum over `Fin M × Fin N` is the sum over the flat index `k : Fin (M * N)` of the term at
    `(k / N, k % N)` (`Fin.divNat`, `Fin.modNat`): re-indexing along `finProdFinEquiv`, whose inverse
    is `k ↦ (k.divNat, k.modNat)`. -/
theorem sum_sum_eq_sum_divNat_modNat (M N : ℕ) (a : Fin M → Fin N → α) :
    ∑ b, ∑ s, a b s = ∑ k : Fin (M * N), a k.divNat k.modNat := by
  rw [← Fintype.sum_prod_type' a]
  refine Fintype.sum_equiv finProdFinEquiv _ _ fun p => ?_
  have h := finProdFinEquiv.symm_apply_apply p
  rw [show (finProdFinEquiv p).divNat = p.1 from congrArg Prod.fst h,
    show (finProdFinEquiv p).modNat = p.2 from congrArg Prod.snd h]

/-- A sum over the flat index `k : Fin (M * N)` is the double sum of the term at `N * t + j`
    (`finProdFinEquiv (t, j)`, whose value is `j + N * t`). -/
theorem sum_eq_sum_sum_finProdFinEquiv (M N : ℕ) (g : Fin (M * N) → α) :
    ∑ k, g k = ∑ t : Fin M, ∑ j : Fin N, g (finProdFinEquiv (t, j)) := by
  rw [← Fintype.sum_prod_type' fun t j => g (finProdFinEquiv (t, j))]
  exact (Fintype.sum_equiv finProdFinEquiv _ _ fun _ => rfl).symm

/-- The flat index of a batch `b : Fin 128` and a position `s : Fin 3136`: `finProdFinEquiv` at
    `128 × 3136`, read at `Fin 401408` (`128 * 3136 = 401408`). Its value is `s + 3136 * b`; its
    inverse sends `k` to `(k / 3136, k % 3136)`. -/
def batchPosEquiv : Fin 128 × Fin 3136 ≃ Fin 401408 :=
  finProdFinEquiv.trans (finCongr (by norm_num))

@[simp] theorem batchPosEquiv_val (p : Fin 128 × Fin 3136) : (batchPosEquiv p).val = p.2.val + 3136 * p.1.val := rfl
@[simp] theorem batchPosEquiv_symm_fst_val (k : Fin 401408) : (batchPosEquiv.symm k).1.val = k.val / 3136 := rfl
@[simp] theorem batchPosEquiv_symm_snd_val (k : Fin 401408) : (batchPosEquiv.symm k).2.val = k.val % 3136 := rfl

/-- The batch-by-position double sum is the flat sum over `k : Fin 401408` of the term at
    `(k / 3136, k % 3136)`, stated through `batchPosEquiv.symm`. -/
theorem sum_batch_pos_eq_sum_equiv (a : Fin 128 → Fin 3136 → α) :
    ∑ b, ∑ s, a b s = ∑ k : Fin 401408, a (batchPosEquiv.symm k).1 (batchPosEquiv.symm k).2 := by
  rw [← Fintype.sum_prod_type' a]
  exact Fintype.sum_equiv batchPosEquiv _ _ fun p => by rw [Equiv.symm_apply_apply]

/-- The batch-by-position double sum is the flat sum over `k : Fin 401408` of the term at
    `(k / 3136, k % 3136)`, with the two indices spelled as quotient and remainder. -/
theorem sum_batch_pos_eq_sum_flat (a : Fin 128 → Fin 3136 → α) :
    ∑ b, ∑ s, a b s
      = ∑ k : Fin 401408, a ⟨k.val / 3136, by have := k.isLt; omega⟩ ⟨k.val % 3136, Nat.mod_lt _ (by norm_num)⟩ :=
  sum_batch_pos_eq_sum_equiv a

/-- A flat sum over `k : Fin 401408` is the double sum over batch `b` and position `s` of the term at
    `3136 * b + s`. -/
theorem sum_flat_eq_sum_batch_pos (g : Fin 401408 → α) :
    ∑ k, g k = ∑ b : Fin 128, ∑ s : Fin 3136, g ⟨3136 * b.val + s.val, by have := b.isLt; have := s.isLt; omega⟩ := by
  rw [← Fintype.sum_prod_type' fun (b : Fin 128) (s : Fin 3136) =>
    g ⟨3136 * b.val + s.val, by have := b.isLt; have := s.isLt; omega⟩]
  exact (Fintype.sum_equiv batchPosEquiv _ _ fun p => congrArg g (Fin.ext (by simp [Nat.add_comm]))).symm

/-- Sixteen blocks of eight cover the 128 batches: `∑ t : Fin 16, ∑ j : Fin 8, a (8 * t + j) = ∑ b : Fin 128, a b`
    (re-indexing along `finProdFinEquiv` at `16 × 8`, whose value at `(t, j)` is `j + 8 * t`). -/
theorem sum_blocks_eq_sum_batch (a : Fin 128 → α) :
    ∑ t : Fin 16, ∑ j : Fin 8, a ⟨8 * t.val + j.val, by have := t.isLt; have := j.isLt; omega⟩ = ∑ b : Fin 128, a b := by
  rw [← Fintype.sum_prod_type' fun (t : Fin 16) (j : Fin 8) =>
    a ⟨8 * t.val + j.val, by have := t.isLt; have := j.isLt; omega⟩]
  exact Fintype.sum_equiv (finProdFinEquiv.trans (finCongr (by norm_num : 16 * 8 = 128))) _ _
    fun p => congrArg a (Fin.ext (Nat.add_comm _ _))

end Regroup

end Cert.Lib.Covariance
-- ==== Proof.Core.lean ====
/-
  The normalisation step of one layer as pure mathematics on the extended reals.

  For a column of `100000` values `T r` that are all real numbers, with `n = 100000`:
  the mean is `μ = (∑ T) / n`; the variance can be taken as the mean of squares minus the squared mean,
  `(∑ T²) / n - μ · μ`, or as the mean of the squared deviations, `(∑ (T - μ)²) / n`. The two agree (the
  covariance identity at `f = g`; it distributes and cancels, so it needs the values finite). The variance
  is then a nonnegative real, so adding the positive constant `ε` gives a positive real and its reciprocal
  square root is a real; the normalised, scaled, shifted and clamped value is therefore a real as well.
-/
import proofs.«132062_j28845000360070_1_alg».proof.Proof.LibCovariance
import Idealize.ShloMosaic.PureOps.Ideal
import Idealize.ShloMosaic.PureOps.Ideal.Laws
import Mathlib.Tactic.NormNum
import Mathlib.Tactic.Positivity

noncomputable section

open scoped BigOperators

namespace Cert.Core

open Idealize.ShloMosaic Cert.Lib.Covariance

/-- An extended real that is a real number. -/
def IsReal (x : EReal) : Prop := ∃ r : ℝ, x = (r : EReal)

theorem IsReal.add {x y : EReal} (hx : IsReal x) (hy : IsReal y) : IsReal (x + y) := exists_real_add hx hy
theorem IsReal.sub {x y : EReal} (hx : IsReal x) (hy : IsReal y) : IsReal (x - y) := exists_real_sub hx hy
theorem IsReal.mul {x y : EReal} (hx : IsReal x) (hy : IsReal y) : IsReal (x * y) := exists_real_mul hx hy
theorem IsReal.sum {ι : Type*} (s : Finset ι) (F : ι → EReal) (hF : ∀ i, IsReal (F i)) : IsReal (∑ i ∈ s, F i) :=
  exists_real_sum s F hF
theorem isReal_zero : IsReal 0 := ⟨0, rfl⟩
theorem IsReal.max {x y : EReal} (hx : IsReal x) (hy : IsReal y) : IsReal (max x y) := by
  obtain ⟨a, rfl⟩ := hx; obtain ⟨b, rfl⟩ := hy
  rcases le_total (a : EReal) (b : EReal) with h | h
  · rw [max_eq_right h]; exact ⟨b, rfl⟩
  · rw [max_eq_left h]; exact ⟨a, rfl⟩

/-- The number of rows, as the f32 pattern of `100000.0` reads it. -/
theorem ofBits_n : Ideal.ofBits .f32 0x47C35000#32 = ((100000 : ℝ) : EReal) := by
  simp [Ideal.ofBits, Ideal.ieee]
  rw [← EReal.coe_mul]
  norm_num

/-- The pattern `0x3727C5AC` (the float nearest `1e-5`) is a positive real. -/
theorem ofBits_eps : ∃ e : ℝ, 0 < e ∧ Ideal.ofBits .f32 0x3727C5AC#32 = (e : EReal) := by
  simp only [Ideal.ofBits, Ideal.ieee]
  norm_num
  rw [if_neg (by decide), if_neg (by decide), if_neg (by decide)]
  exact ⟨_, by positivity, rfl⟩

/-- The reciprocal square root of a positive real is a real. -/
theorem isReal_rsqrt_pos {r : ℝ} (hr : 0 < r) : IsReal (Ideal.rsqrt (r : EReal)) := by
  show IsReal (if r < 0 then ⊥ else if r = 0 then ⊤ else (((Real.sqrt r)⁻¹ : ℝ) : EReal))
  rw [if_neg (not_lt.mpr hr.le), if_neg hr.ne']
  exact ⟨_, rfl⟩

/-- The reciprocal square root of anything positive is a real (at `+∞` it is `0`). -/
theorem isReal_rsqrt_of_pos {x : EReal} (hx : 0 < x) : IsReal (Ideal.rsqrt x) := by
  induction x using EReal.rec with
  | bot => exact absurd hx (by simp)
  | top => exact ⟨0, rfl⟩
  | coe r => exact isReal_rsqrt_pos (by exact_mod_cast hx)

section Column

variable (T : Fin 100000 → EReal)

/-- The column's mean. -/
def mean : EReal := Ideal.div (∑ r, T r) ((100000 : ℝ) : EReal)
/-- The variance as mean of squares minus squared mean. -/
def varK : EReal := Ideal.div (∑ r, T r * T r) ((100000 : ℝ) : EReal) - mean T * mean T
/-- The variance as mean of squared deviations. -/
def varR : EReal := Ideal.div (∑ r, (T r - mean T) * (T r - mean T)) ((100000 : ℝ) : EReal)

variable {T}

theorem hcard : (100000 : ℝ) = (Fintype.card (Fin 100000) : ℝ) := by simp

theorem isReal_mean (hT : ∀ r, IsReal (T r)) : IsReal (mean T) :=
  exists_real_mean T hT (by norm_num)

/-- The two variances agree on real columns. -/
theorem varK_eq_varR (hT : ∀ r, IsReal (T r)) : varK T = varR T :=
  (cov_ereal T T hT hT 100000 (by norm_num) hcard).symm

/-- The variance of a real column is a nonnegative real. -/
theorem varR_nonneg (hT : ∀ r, IsReal (T r)) : ∃ v : ℝ, 0 ≤ v ∧ varR T = (v : EReal) := by
  obtain ⟨m, hm⟩ := isReal_mean hT
  choose f hf using hT
  refine ⟨(∑ r, (f r - m) * (f r - m)) / 100000,
    div_nonneg (Finset.sum_nonneg fun r _ => mul_self_nonneg _) (by norm_num), ?_⟩
  unfold varR
  rw [hm]
  simp only [hf, ← EReal.coe_sub, ← EReal.coe_mul]
  exact mean_coe _ (by norm_num)

/-- The reciprocal square root of variance plus `ε` is a real. -/
theorem isReal_rs (hT : ∀ r, IsReal (T r)) :
    IsReal (Ideal.rsqrt (varR T + Ideal.ofBits .f32 0x3727C5AC#32)) := by
  obtain ⟨v, hv, hve⟩ := varR_nonneg hT
  obtain ⟨e, he, hee⟩ := ofBits_eps
  rw [hve, hee, ← EReal.coe_add]
  exact isReal_rsqrt_pos (by positivity)

/-- One normalised, scaled, shifted and clamped entry. -/
def outR (T : Fin 100000 → EReal) (g b : EReal) (r : Fin 100000) : EReal :=
  max (((T r - mean T) * Ideal.rsqrt (varR T + Ideal.ofBits .f32 0x3727C5AC#32)) * g + b) 0

/-- The same entry with the variance taken as mean of squares minus squared mean. -/
def outK (T : Fin 100000 → EReal) (g b : EReal) (r : Fin 100000) : EReal :=
  max (((T r - mean T) * Ideal.rsqrt (varK T + Ideal.ofBits .f32 0x3727C5AC#32)) * g + b) 0

theorem outK_eq_outR (hT : ∀ r, IsReal (T r)) (g b : EReal) (r : Fin 100000) : outK T g b r = outR T g b r := by
  unfold outK outR; rw [varK_eq_varR hT]

theorem isReal_outR (hT : ∀ r, IsReal (T r)) {g b : EReal} (hg : IsReal g) (hb : IsReal b) (r : Fin 100000) :
    IsReal (outR T g b r) :=
  ((((hT r).sub (isReal_mean hT)).mul (isReal_rs hT)).mul hg |>.add hb).max isReal_zero

end Column

end Cert.Core

end
-- ==== Proof.RefLayer0.lean ====
/-
  Layer 1 of the reference read at an index: entry (r, q) of the layer's output is the normalised, scaled, shifted and
  clamped entry r of the column T with T r' = (aggregated row r', column q) + bias q — the column's mean and its variance
  as the mean of squared deviations being the reference's two column reductions divided by 100000.
-/
import proofs.«132062_j28845000360070_1_alg».proof.Proof.RefRead
import proofs.«132062_j28845000360070_1_alg».proof.Proof.Core
import Idealize.ShloMosaic.Lib.ValueIdx
import Idealize.ShloMosaic.PureOps.Ideal.Laws

set_option maxRecDepth 16384

noncomputable section

namespace Cert.ReferenceIdeal.Layer

open Cert.ReferenceIdeal Cert.ReferenceIdeal.ReadP
open Idealize.ShloMosaic Idealize.ShloMosaic.ValueIdx

/-- The column of layer 1's pre-normalisation values at column `q`. -/
def col0 (x0 : (⟨S100000x64, .f32⟩ : BufTy).Contents (Elt Ideal)) (x1 : (⟨S2x1600000, .i32⟩ : BufTy).Contents (Elt Ideal))
  (x3 : (⟨S3x64x64, .f32⟩ : BufTy).Contents (Elt Ideal)) (x4 x5 x6 : (⟨S3x64, .f32⟩ : BufTy).Contents (Elt Ideal)) (q : Fin 64) : Fin 100000 → EReal :=
  fun r' => val_main_v45 (F := Ideal) x0 x1 x3 (ix2 r' q) + val_main_v47 (F := Ideal) x4 (ix1 q)

theorem ref_out0 (x0 : (⟨S100000x64, .f32⟩ : BufTy).Contents (Elt Ideal)) (x1 : (⟨S2x1600000, .i32⟩ : BufTy).Contents (Elt Ideal))
  (x3 : (⟨S3x64x64, .f32⟩ : BufTy).Contents (Elt Ideal)) (x4 x5 x6 : (⟨S3x64, .f32⟩ : BufTy).Contents (Elt Ideal)) (r : Fin 100000) (q : Fin 64) :
    val_main_v80 (F := Ideal) x0 x1 x3 x4 x5 x6 (ix2 r q)
      = Cert.Core.outR (col0 x0 x1 x3 x4 x5 x6 q) (val_main_v71 (F := Ideal) x5 (ix1 q)) (val_main_v76 (F := Ideal) x6 (ix1 q)) r := by
  have hb : ∀ r' : Fin 100000, val_main_v49 (F := Ideal) x4 (ix2 r' q) = val_main_v47 (F := Ideal) x4 (ix1 q) := fun r' =>
    (val_main_v49_apply x4 _).trans ((val_main_v48_apply x4 _).trans (congrArg _ (funext fun a => by match a with | ⟨0, _⟩ => rfl)))
  have ht : ∀ r' : Fin 100000, val_main_v50 (F := Ideal) x0 x1 x3 x4 (ix2 r' q) = col0 x0 x1 x3 x4 x5 x6 q r' := fun r' =>
    (val_main_v50_apply x0 x1 x3 x4 _).trans (congrArg (_ + ·) (hb r'))
  have hn1 : val_main_v52 (F := Ideal) (ix1 q) = ((100000 : ℝ) : EReal) :=
    (val_main_v52_apply _).trans ((val_main_cst_10_apply _).trans Cert.Core.ofBits_n)
  have hn2 : val_main_v59 (F := Ideal) (ix1 q) = ((100000 : ℝ) : EReal) :=
    (val_main_v59_apply _).trans ((val_main_cst_12_apply _).trans Cert.Core.ofBits_n)
  have hsum : val_main_v51 (F := Ideal) x0 x1 x3 x4 (ix1 q) = ∑ k : Fin 100000, col0 x0 x1 x3 x4 x5 x6 q k :=
    (val_main_v51_apply x0 x1 x3 x4 (ix1 q)).trans
      ((congrArg₂ (· + ·) ((val_main_cst_9_apply _).trans Ideal.ofBits_zero_f32)
        (Finset.sum_congr rfl fun k _ => (congrArg _ (funext fun a => by match a with | ⟨0, _⟩ => rfl | ⟨1, _⟩ => rfl)).trans (ht k))).trans (zero_add _))
  have hmean : val_main_v53 (F := Ideal) x0 x1 x3 x4 (ix1 q) = Cert.Core.mean (col0 x0 x1 x3 x4 x5 x6 q) :=
    (val_main_v53_apply x0 x1 x3 x4 _).trans (congrArg₂ Ideal.div hsum hn1)
  have hm55 : ∀ r' : Fin 100000, val_main_v55 (F := Ideal) x0 x1 x3 x4 (ix2 r' q) = Cert.Core.mean (col0 x0 x1 x3 x4 x5 x6 q) := fun r' =>
    (val_main_v55_apply x0 x1 x3 x4 _).trans ((val_main_v54_apply x0 x1 x3 x4 _).trans ((congrArg _ (funext fun a => by match a with | ⟨0, _⟩ => rfl)).trans hmean))
  have hm62 : ∀ r' : Fin 100000, val_main_v62 (F := Ideal) x0 x1 x3 x4 (ix2 r' q) = Cert.Core.mean (col0 x0 x1 x3 x4 x5 x6 q) := fun r' =>
    (val_main_v62_apply x0 x1 x3 x4 _).trans ((val_main_v61_apply x0 x1 x3 x4 _).trans ((congrArg _ (funext fun a => by match a with | ⟨0, _⟩ => rfl)).trans hmean))
  have h56 : ∀ k : Fin 100000, val_main_v56 (F := Ideal) x0 x1 x3 x4 (ix2 k q) = col0 x0 x1 x3 x4 x5 x6 q k - Cert.Core.mean (col0 x0 x1 x3 x4 x5 x6 q) := fun k =>
    (val_main_v56_apply x0 x1 x3 x4 _).trans (congrArg₂ (· - ·) (ht k) (hm55 k))
  have h57 : ∀ k : Fin 100000, val_main_v57 (F := Ideal) x0 x1 x3 x4 (ix2 k q)
      = (col0 x0 x1 x3 x4 x5 x6 q k - Cert.Core.mean (col0 x0 x1 x3 x4 x5 x6 q)) * (col0 x0 x1 x3 x4 x5 x6 q k - Cert.Core.mean (col0 x0 x1 x3 x4 x5 x6 q)) := fun k =>
    (val_main_v57_apply x0 x1 x3 x4 _).trans (congrArg₂ (· * ·) (h56 k) (h56 k))
  have hsq : val_main_v58 (F := Ideal) x0 x1 x3 x4 (ix1 q)
      = ∑ k : Fin 100000, (col0 x0 x1 x3 x4 x5 x6 q k - Cert.Core.mean (col0 x0 x1 x3 x4 x5 x6 q)) * (col0 x0 x1 x3 x4 x5 x6 q k - Cert.Core.mean (col0 x0 x1 x3 x4 x5 x6 q)) :=
    (val_main_v58_apply x0 x1 x3 x4 (ix1 q)).trans
      ((congrArg₂ (· + ·) ((val_main_cst_11_apply _).trans Ideal.ofBits_zero_f32)
        (Finset.sum_congr rfl fun k _ => (congrArg _ (funext fun a => by match a with | ⟨0, _⟩ => rfl | ⟨1, _⟩ => rfl)).trans (h57 k))).trans (zero_add _))
  have hvar : val_main_v60 (F := Ideal) x0 x1 x3 x4 (ix1 q) = Cert.Core.varR (col0 x0 x1 x3 x4 x5 x6 q) :=
    (val_main_v60_apply x0 x1 x3 x4 _).trans (congrArg₂ Ideal.div hsq hn2)
  have h65 : val_main_v65 (F := Ideal) x0 x1 x3 x4 (ix1 q) = Cert.Core.varR (col0 x0 x1 x3 x4 x5 x6 q) + Ideal.ofBits .f32 0x3727C5AC#32 :=
    (val_main_v65_apply x0 x1 x3 x4 _).trans (congrArg₂ (· + ·) hvar ((val_main_v64_apply _).trans (val_main_cst_13_apply _)))
  have hrs : val_main_v68 (F := Ideal) x0 x1 x3 x4 (ix2 r q)
      = Ideal.rsqrt (Cert.Core.varR (col0 x0 x1 x3 x4 x5 x6 q) + Ideal.ofBits .f32 0x3727C5AC#32) :=
    (val_main_v68_apply x0 x1 x3 x4 _).trans ((val_main_v67_apply x0 x1 x3 x4 _).trans ((congrArg _ (funext fun a => by match a with | ⟨0, _⟩ => rfl)).trans
      ((val_main_v66_apply x0 x1 x3 x4 (ix1 q)).trans (congrArg Ideal.rsqrt h65))))
  have hg : val_main_v73 (F := Ideal) x5 (ix2 r q) = val_main_v71 (F := Ideal) x5 (ix1 q) :=
    (val_main_v73_apply x5 _).trans ((val_main_v72_apply x5 _).trans (congrArg _ (funext fun a => by match a with | ⟨0, _⟩ => rfl)))
  have hbe : val_main_v78 (F := Ideal) x6 (ix2 r q) = val_main_v76 (F := Ideal) x6 (ix1 q) :=
    (val_main_v78_apply x6 _).trans ((val_main_v77_apply x6 _).trans (congrArg _ (funext fun a => by match a with | ⟨0, _⟩ => rfl)))
  have h63 : val_main_v63 (F := Ideal) x0 x1 x3 x4 (ix2 r q) = col0 x0 x1 x3 x4 x5 x6 q r - Cert.Core.mean (col0 x0 x1 x3 x4 x5 x6 q) :=
    (val_main_v63_apply x0 x1 x3 x4 _).trans (congrArg₂ (· - ·) (ht r) (hm62 r))
  have h69 : val_main_v69 (F := Ideal) x0 x1 x3 x4 (ix2 r q) = (col0 x0 x1 x3 x4 x5 x6 q r - Cert.Core.mean (col0 x0 x1 x3 x4 x5 x6 q))
      * Ideal.rsqrt (Cert.Core.varR (col0 x0 x1 x3 x4 x5 x6 q) + Ideal.ofBits .f32 0x3727C5AC#32) :=
    (val_main_v69_apply x0 x1 x3 x4 _).trans (congrArg₂ (· * ·) h63 hrs)
  have h74 := (val_main_v74_apply x0 x1 x3 x4 x5 (ix2 r q)).trans (congrArg₂ (· * ·) h69 hg)
  have h79 := (val_main_v79_apply x0 x1 x3 x4 x5 x6 (ix2 r q)).trans (congrArg₂ (· + ·) h74 hbe)
  have hz : val_main_call1_v0 (F := Ideal) (ix2 r q) = 0 :=
    (val_main_call1_v0_apply _).trans ((val_main_call1_cst_apply _).trans Ideal.ofBits_zero_f32)
  exact (val_main_v80_apply x0 x1 x3 x4 x5 x6 _).trans (congrArg₂ max h79 hz)

end Cert.ReferenceIdeal.Layer

end
-- ==== Proof.RefLayer1.lean ====
/-
  Layer 2 of the reference read at an index: entry (r, q) of the layer's output is the normalised, scaled, shifted and
  clamped entry r of the column T with T r' = (aggregated row r', column q) + bias q — the column's mean and its variance
  as the mean of squared deviations being the reference's two column reductions divided by 100000.
-/
import proofs.«132062_j28845000360070_1_alg».proof.Proof.RefRead
import proofs.«132062_j28845000360070_1_alg».proof.Proof.Core
import Idealize.ShloMosaic.Lib.ValueIdx
import Idealize.ShloMosaic.PureOps.Ideal.Laws

set_option maxRecDepth 16384

noncomputable section

namespace Cert.ReferenceIdeal.Layer

open Cert.ReferenceIdeal Cert.ReferenceIdeal.ReadP
open Idealize.ShloMosaic Idealize.ShloMosaic.ValueIdx

/-- The column of layer 2's pre-normalisation values at column `q`. -/
def col1 (x0 : (⟨S100000x64, .f32⟩ : BufTy).Contents (Elt Ideal)) (x1 : (⟨S2x1600000, .i32⟩ : BufTy).Contents (Elt Ideal))
  (x3 : (⟨S3x64x64, .f32⟩ : BufTy).Contents (Elt Ideal)) (x4 x5 x6 : (⟨S3x64, .f32⟩ : BufTy).Contents (Elt Ideal)) (q : Fin 64) : Fin 100000 → EReal :=
  fun r' => val_main_v96 (F := Ideal) x0 x1 x3 x4 x5 x6 (ix2 r' q) + val_main_v98 (F := Ideal) x4 (ix1 q)

theorem ref_out1 (x0 : (⟨S100000x64, .f32⟩ : BufTy).Contents (Elt Ideal)) (x1 : (⟨S2x1600000, .i32⟩ : BufTy).Contents (Elt Ideal))
  (x3 : (⟨S3x64x64, .f32⟩ : BufTy).Contents (Elt Ideal)) (x4 x5 x6 : (⟨S3x64, .f32⟩ : BufTy).Contents (Elt Ideal)) (r : Fin 100000) (q : Fin 64) :
    val_main_v131 (F := Ideal) x0 x1 x3 x4 x5 x6 (ix2 r q)
      = Cert.Core.outR (col1 x0 x1 x3 x4 x5 x6 q) (val_main_v122 (F := Ideal) x5 (ix1 q)) (val_main_v127 (F := Ideal) x6 (ix1 q)) r := by
  have hb : ∀ r' : Fin 100000, val_main_v100 (F := Ideal) x4 (ix2 r' q) = val_main_v98 (F := Ideal) x4 (ix1 q) := fun r' =>
    (val_main_v100_apply x4 _).trans ((val_main_v99_apply x4 _).trans (congrArg _ (funext fun a => by match a with | ⟨0, _⟩ => rfl)))
  have ht : ∀ r' : Fin 100000, val_main_v101 (F := Ideal) x0 x1 x3 x4 x5 x6 (ix2 r' q) = col1 x0 x1 x3 x4 x5 x6 q r' := fun r' =>
    (val_main_v101_apply x0 x1 x3 x4 x5 x6 _).trans (congrArg (_ + ·) (hb r'))
  have hn1 : val_main_v103 (F := Ideal) (ix1 q) = ((100000 : ℝ) : EReal) :=
    (val_main_v103_apply _).trans ((val_main_cst_18_apply _).trans Cert.Core.ofBits_n)
  have hn2 : val_main_v110 (F := Ideal) (ix1 q) = ((100000 : ℝ) : EReal) :=
    (val_main_v110_apply _).trans ((val_main_cst_20_apply _).trans Cert.Core.ofBits_n)
  have hsum : val_main_v102 (F := Ideal) x0 x1 x3 x4 x5 x6 (ix1 q) = ∑ k : Fin 100000, col1 x0 x1 x3 x4 x5 x6 q k :=
    (val_main_v102_apply x0 x1 x3 x4 x5 x6 (ix1 q)).trans
      ((congrArg₂ (· + ·) ((val_main_cst_17_apply _).trans Ideal.ofBits_zero_f32)
        (Finset.sum_congr rfl fun k _ => (congrArg _ (funext fun a => by match a with | ⟨0, _⟩ => rfl | ⟨1, _⟩ => rfl)).trans (ht k))).trans (zero_add _))
  have hmean : val_main_v104 (F := Ideal) x0 x1 x3 x4 x5 x6 (ix1 q) = Cert.Core.mean (col1 x0 x1 x3 x4 x5 x6 q) :=
    (val_main_v104_apply x0 x1 x3 x4 x5 x6 _).trans (congrArg₂ Ideal.div hsum hn1)
  have hm55 : ∀ r' : Fin 100000, val_main_v106 (F := Ideal) x0 x1 x3 x4 x5 x6 (ix2 r' q) = Cert.Core.mean (col1 x0 x1 x3 x4 x5 x6 q) := fun r' =>
    (val_main_v106_apply x0 x1 x3 x4 x5 x6 _).trans ((val_main_v105_apply x0 x1 x3 x4 x5 x6 _).trans ((congrArg _ (funext fun a => by match a with | ⟨0, _⟩ => rfl)).trans hmean))
  have hm62 : ∀ r' : Fin 100000, val_main_v113 (F := Ideal) x0 x1 x3 x4 x5 x6 (ix2 r' q) = Cert.Core.mean (col1 x0 x1 x3 x4 x5 x6 q) := fun r' =>
    (val_main_v113_apply x0 x1 x3 x4 x5 x6 _).trans ((val_main_v112_apply x0 x1 x3 x4 x5 x6 _).trans ((congrArg _ (funext fun a => by match a with | ⟨0, _⟩ => rfl)).trans hmean))
  have h56 : ∀ k : Fin 100000, val_main_v107 (F := Ideal) x0 x1 x3 x4 x5 x6 (ix2 k q) = col1 x0 x1 x3 x4 x5 x6 q k - Cert.Core.mean (col1 x0 x1 x3 x4 x5 x6 q) := fun k =>
    (val_main_v107_apply x0 x1 x3 x4 x5 x6 _).trans (congrArg₂ (· - ·) (ht k) (hm55 k))
  have h57 : ∀ k : Fin 100000, val_main_v108 (F := Ideal) x0 x1 x3 x4 x5 x6 (ix2 k q)
      = (col1 x0 x1 x3 x4 x5 x6 q k - Cert.Core.mean (col1 x0 x1 x3 x4 x5 x6 q)) * (col1 x0 x1 x3 x4 x5 x6 q k - Cert.Core.mean (col1 x0 x1 x3 x4 x5 x6 q)) := fun k =>
    (val_main_v108_apply x0 x1 x3 x4 x5 x6 _).trans (congrArg₂ (· * ·) (h56 k) (h56 k))
  have hsq : val_main_v109 (F := Ideal) x0 x1 x3 x4 x5 x6 (ix1 q)
      = ∑ k : Fin 100000, (col1 x0 x1 x3 x4 x5 x6 q k - Cert.Core.mean (col1 x0 x1 x3 x4 x5 x6 q)) * (col1 x0 x1 x3 x4 x5 x6 q k - Cert.Core.mean (col1 x0 x1 x3 x4 x5 x6 q)) :=
    (val_main_v109_apply x0 x1 x3 x4 x5 x6 (ix1 q)).trans
      ((congrArg₂ (· + ·) ((val_main_cst_19_apply _).trans Ideal.ofBits_zero_f32)
        (Finset.sum_congr rfl fun k _ => (congrArg _ (funext fun a => by match a with | ⟨0, _⟩ => rfl | ⟨1, _⟩ => rfl)).trans (h57 k))).trans (zero_add _))
  have hvar : val_main_v111 (F := Ideal) x0 x1 x3 x4 x5 x6 (ix1 q) = Cert.Core.varR (col1 x0 x1 x3 x4 x5 x6 q) :=
    (val_main_v111_apply x0 x1 x3 x4 x5 x6 _).trans (congrArg₂ Ideal.div hsq hn2)
  have h65 : val_main_v116 (F := Ideal) x0 x1 x3 x4 x5 x6 (ix1 q) = Cert.Core.varR (col1 x0 x1 x3 x4 x5 x6 q) + Ideal.ofBits .f32 0x3727C5AC#32 :=
    (val_main_v116_apply x0 x1 x3 x4 x5 x6 _).trans (congrArg₂ (· + ·) hvar ((val_main_v115_apply _).trans (val_main_cst_21_apply _)))
  have hrs : val_main_v119 (F := Ideal) x0 x1 x3 x4 x5 x6 (ix2 r q)
      = Ideal.rsqrt (Cert.Core.varR (col1 x0 x1 x3 x4 x5 x6 q) + Ideal.ofBits .f32 0x3727C5AC#32) :=
    (val_main_v119_apply x0 x1 x3 x4 x5 x6 _).trans ((val_main_v118_apply x0 x1 x3 x4 x5 x6 _).trans ((congrArg _ (funext fun a => by match a with | ⟨0, _⟩ => rfl)).trans
      ((val_main_v117_apply x0 x1 x3 x4 x5 x6 (ix1 q)).trans (congrArg Ideal.rsqrt h65))))
  have hg : val_main_v124 (F := Ideal) x5 (ix2 r q) = val_main_v122 (F := Ideal) x5 (ix1 q) :=
    (val_main_v124_apply x5 _).trans ((val_main_v123_apply x5 _).trans (congrArg _ (funext fun a => by match a with | ⟨0, _⟩ => rfl)))
  have hbe : val_main_v129 (F := Ideal) x6 (ix2 r q) = val_main_v127 (F := Ideal) x6 (ix1 q) :=
    (val_main_v129_apply x6 _).trans ((val_main_v128_apply x6 _).trans (congrArg _ (funext fun a => by match a with | ⟨0, _⟩ => rfl)))
  have h63 : val_main_v114 (F := Ideal) x0 x1 x3 x4 x5 x6 (ix2 r q) = col1 x0 x1 x3 x4 x5 x6 q r - Cert.Core.mean (col1 x0 x1 x3 x4 x5 x6 q) :=
    (val_main_v114_apply x0 x1 x3 x4 x5 x6 _).trans (congrArg₂ (· - ·) (ht r) (hm62 r))
  have h69 : val_main_v120 (F := Ideal) x0 x1 x3 x4 x5 x6 (ix2 r q) = (col1 x0 x1 x3 x4 x5 x6 q r - Cert.Core.mean (col1 x0 x1 x3 x4 x5 x6 q))
      * Ideal.rsqrt (Cert.Core.varR (col1 x0 x1 x3 x4 x5 x6 q) + Ideal.ofBits .f32 0x3727C5AC#32) :=
    (val_main_v120_apply x0 x1 x3 x4 x5 x6 _).trans (congrArg₂ (· * ·) h63 hrs)
  have h74 := (val_main_v125_apply x0 x1 x3 x4 x5 x6 (ix2 r q)).trans (congrArg₂ (· * ·) h69 hg)
  have h79 := (val_main_v130_apply x0 x1 x3 x4 x5 x6 (ix2 r q)).trans (congrArg₂ (· + ·) h74 hbe)
  have hz : val_main_call2_v0 (F := Ideal) (ix2 r q) = 0 :=
    (val_main_call2_v0_apply _).trans ((val_main_call2_cst_apply _).trans Ideal.ofBits_zero_f32)
  exact (val_main_v131_apply x0 x1 x3 x4 x5 x6 _).trans (congrArg₂ max h79 hz)

end Cert.ReferenceIdeal.Layer

end
-- ==== Proof.RefLayer2.lean ====
/-
  Layer 3 of the reference read at an index: entry (r, q) of the layer's output is the normalised, scaled, shifted and
  clamped entry r of the column T with T r' = (aggregated row r', column q) + bias q — the column's mean and its variance
  as the mean of squared deviations being the reference's two column reductions divided by 100000.
-/
import proofs.«132062_j28845000360070_1_alg».proof.Proof.RefRead
import proofs.«132062_j28845000360070_1_alg».proof.Proof.Core
import Idealize.ShloMosaic.Lib.ValueIdx
import Idealize.ShloMosaic.PureOps.Ideal.Laws

set_option maxRecDepth 16384

noncomputable section

namespace Cert.ReferenceIdeal.Layer

open Cert.ReferenceIdeal Cert.ReferenceIdeal.ReadP
open Idealize.ShloMosaic Idealize.ShloMosaic.ValueIdx

/-- The column of layer 3's pre-normalisation values at column `q`. -/
def col2 (x0 : (⟨S100000x64, .f32⟩ : BufTy).Contents (Elt Ideal)) (x1 : (⟨S2x1600000, .i32⟩ : BufTy).Contents (Elt Ideal))
  (x3 : (⟨S3x64x64, .f32⟩ : BufTy).Contents (Elt Ideal)) (x4 x5 x6 : (⟨S3x64, .f32⟩ : BufTy).Contents (Elt Ideal)) (q : Fin 64) : Fin 100000 → EReal :=
  fun r' => val_main_v147 (F := Ideal) x0 x1 x3 x4 x5 x6 (ix2 r' q) + val_main_v149 (F := Ideal) x4 (ix1 q)

theorem ref_out2 (x0 : (⟨S100000x64, .f32⟩ : BufTy).Contents (Elt Ideal)) (x1 : (⟨S2x1600000, .i32⟩ : BufTy).Contents (Elt Ideal))
  (x3 : (⟨S3x64x64, .f32⟩ : BufTy).Contents (Elt Ideal)) (x4 x5 x6 : (⟨S3x64, .f32⟩ : BufTy).Contents (Elt Ideal)) (r : Fin 100000) (q : Fin 64) :
    val_main_v182 (F := Ideal) x0 x1 x3 x4 x5 x6 (ix2 r q)
      = Cert.Core.outR (col2 x0 x1 x3 x4 x5 x6 q) (val_main_v173 (F := Ideal) x5 (ix1 q)) (val_main_v178 (F := Ideal) x6 (ix1 q)) r := by
  have hb : ∀ r' : Fin 100000, val_main_v151 (F := Ideal) x4 (ix2 r' q) = val_main_v149 (F := Ideal) x4 (ix1 q) := fun r' =>
    (val_main_v151_apply x4 _).trans ((val_main_v150_apply x4 _).trans (congrArg _ (funext fun a => by match a with | ⟨0, _⟩ => rfl)))
  have ht : ∀ r' : Fin 100000, val_main_v152 (F := Ideal) x0 x1 x3 x4 x5 x6 (ix2 r' q) = col2 x0 x1 x3 x4 x5 x6 q r' := fun r' =>
    (val_main_v152_apply x0 x1 x3 x4 x5 x6 _).trans (congrArg (_ + ·) (hb r'))
  have hn1 : val_main_v154 (F := Ideal) (ix1 q) = ((100000 : ℝ) : EReal) :=
    (val_main_v154_apply _).trans ((val_main_cst_26_apply _).trans Cert.Core.ofBits_n)
  have hn2 : val_main_v161 (F := Ideal) (ix1 q) = ((100000 : ℝ) : EReal) :=
    (val_main_v161_apply _).trans ((val_main_cst_28_apply _).trans Cert.Core.ofBits_n)
  have hsum : val_main_v153 (F := Ideal) x0 x1 x3 x4 x5 x6 (ix1 q) = ∑ k : Fin 100000, col2 x0 x1 x3 x4 x5 x6 q k :=
    (val_main_v153_apply x0 x1 x3 x4 x5 x6 (ix1 q)).trans
      ((congrArg₂ (· + ·) ((val_main_cst_25_apply _).trans Ideal.ofBits_zero_f32)
        (Finset.sum_congr rfl fun k _ => (congrArg _ (funext fun a => by match a with | ⟨0, _⟩ => rfl | ⟨1, _⟩ => rfl)).trans (ht k))).trans (zero_add _))
  have hmean : val_main_v155 (F := Ideal) x0 x1 x3 x4 x5 x6 (ix1 q) = Cert.Core.mean (col2 x0 x1 x3 x4 x5 x6 q) :=
    (val_main_v155_apply x0 x1 x3 x4 x5 x6 _).trans (congrArg₂ Ideal.div hsum hn1)
  have hm55 : ∀ r' : Fin 100000, val_main_v157 (F := Ideal) x0 x1 x3 x4 x5 x6 (ix2 r' q) = Cert.Core.mean (col2 x0 x1 x3 x4 x5 x6 q) := fun r' =>
    (val_main_v157_apply x0 x1 x3 x4 x5 x6 _).trans ((val_main_v156_apply x0 x1 x3 x4 x5 x6 _).trans ((congrArg _ (funext fun a => by match a with | ⟨0, _⟩ => rfl)).trans hmean))
  have hm62 : ∀ r' : Fin 100000, val_main_v164 (F := Ideal) x0 x1 x3 x4 x5 x6 (ix2 r' q) = Cert.Core.mean (col2 x0 x1 x3 x4 x5 x6 q) := fun r' =>
    (val_main_v164_apply x0 x1 x3 x4 x5 x6 _).trans ((val_main_v163_apply x0 x1 x3 x4 x5 x6 _).trans ((congrArg _ (funext fun a => by match a with | ⟨0, _⟩ => rfl)).trans hmean))
  have h56 : ∀ k : Fin 100000, val_main_v158 (F := Ideal) x0 x1 x3 x4 x5 x6 (ix2 k q) = col2 x0 x1 x3 x4 x5 x6 q k - Cert.Core.mean (col2 x0 x1 x3 x4 x5 x6 q) := fun k =>
    (val_main_v158_apply x0 x1 x3 x4 x5 x6 _).trans (congrArg₂ (· - ·) (ht k) (hm55 k))
  have h57 : ∀ k : Fin 100000, val_main_v159 (F := Ideal) x0 x1 x3 x4 x5 x6 (ix2 k q)
      = (col2 x0 x1 x3 x4 x5 x6 q k - Cert.Core.mean (col2 x0 x1 x3 x4 x5 x6 q)) * (col2 x0 x1 x3 x4 x5 x6 q k - Cert.Core.mean (col2 x0 x1 x3 x4 x5 x6 q)) := fun k =>
    (val_main_v159_apply x0 x1 x3 x4 x5 x6 _).trans (congrArg₂ (· * ·) (h56 k) (h56 k))
  have hsq : val_main_v160 (F := Ideal) x0 x1 x3 x4 x5 x6 (ix1 q)
      = ∑ k : Fin 100000, (col2 x0 x1 x3 x4 x5 x6 q k - Cert.Core.mean (col2 x0 x1 x3 x4 x5 x6 q)) * (col2 x0 x1 x3 x4 x5 x6 q k - Cert.Core.mean (col2 x0 x1 x3 x4 x5 x6 q)) :=
    (val_main_v160_apply x0 x1 x3 x4 x5 x6 (ix1 q)).trans
      ((congrArg₂ (· + ·) ((val_main_cst_27_apply _).trans Ideal.ofBits_zero_f32)
        (Finset.sum_congr rfl fun k _ => (congrArg _ (funext fun a => by match a with | ⟨0, _⟩ => rfl | ⟨1, _⟩ => rfl)).trans (h57 k))).trans (zero_add _))
  have hvar : val_main_v162 (F := Ideal) x0 x1 x3 x4 x5 x6 (ix1 q) = Cert.Core.varR (col2 x0 x1 x3 x4 x5 x6 q) :=
    (val_main_v162_apply x0 x1 x3 x4 x5 x6 _).trans (congrArg₂ Ideal.div hsq hn2)
  have h65 : val_main_v167 (F := Ideal) x0 x1 x3 x4 x5 x6 (ix1 q) = Cert.Core.varR (col2 x0 x1 x3 x4 x5 x6 q) + Ideal.ofBits .f32 0x3727C5AC#32 :=
    (val_main_v167_apply x0 x1 x3 x4 x5 x6 _).trans (congrArg₂ (· + ·) hvar ((val_main_v166_apply _).trans (val_main_cst_29_apply _)))
  have hrs : val_main_v170 (F := Ideal) x0 x1 x3 x4 x5 x6 (ix2 r q)
      = Ideal.rsqrt (Cert.Core.varR (col2 x0 x1 x3 x4 x5 x6 q) + Ideal.ofBits .f32 0x3727C5AC#32) :=
    (val_main_v170_apply x0 x1 x3 x4 x5 x6 _).trans ((val_main_v169_apply x0 x1 x3 x4 x5 x6 _).trans ((congrArg _ (funext fun a => by match a with | ⟨0, _⟩ => rfl)).trans
      ((val_main_v168_apply x0 x1 x3 x4 x5 x6 (ix1 q)).trans (congrArg Ideal.rsqrt h65))))
  have hg : val_main_v175 (F := Ideal) x5 (ix2 r q) = val_main_v173 (F := Ideal) x5 (ix1 q) :=
    (val_main_v175_apply x5 _).trans ((val_main_v174_apply x5 _).trans (congrArg _ (funext fun a => by match a with | ⟨0, _⟩ => rfl)))
  have hbe : val_main_v180 (F := Ideal) x6 (ix2 r q) = val_main_v178 (F := Ideal) x6 (ix1 q) :=
    (val_main_v180_apply x6 _).trans ((val_main_v179_apply x6 _).trans (congrArg _ (funext fun a => by match a with | ⟨0, _⟩ => rfl)))
  have h63 : val_main_v165 (F := Ideal) x0 x1 x3 x4 x5 x6 (ix2 r q) = col2 x0 x1 x3 x4 x5 x6 q r - Cert.Core.mean (col2 x0 x1 x3 x4 x5 x6 q) :=
    (val_main_v165_apply x0 x1 x3 x4 x5 x6 _).trans (congrArg₂ (· - ·) (ht r) (hm62 r))
  have h69 : val_main_v171 (F := Ideal) x0 x1 x3 x4 x5 x6 (ix2 r q) = (col2 x0 x1 x3 x4 x5 x6 q r - Cert.Core.mean (col2 x0 x1 x3 x4 x5 x6 q))
      * Ideal.rsqrt (Cert.Core.varR (col2 x0 x1 x3 x4 x5 x6 q) + Ideal.ofBits .f32 0x3727C5AC#32) :=
    (val_main_v171_apply x0 x1 x3 x4 x5 x6 _).trans (congrArg₂ (· * ·) h63 hrs)
  have h74 := (val_main_v176_apply x0 x1 x3 x4 x5 x6 (ix2 r q)).trans (congrArg₂ (· * ·) h69 hg)
  have h79 := (val_main_v181_apply x0 x1 x3 x4 x5 x6 (ix2 r q)).trans (congrArg₂ (· + ·) h74 hbe)
  have hz : val_main_call3_v0 (F := Ideal) (ix2 r q) = 0 :=
    (val_main_call3_v0_apply _).trans ((val_main_call3_cst_apply _).trans Ideal.ofBits_zero_f32)
  exact (val_main_v182_apply x0 x1 x3 x4 x5 x6 _).trans (congrArg₂ max h79 hz)

end Cert.ReferenceIdeal.Layer

end
-- ==== Proof.KChain.lean ====
/-
The idealized kernel's result as a function of the arguments, stage by stage along @main: after each stretch of host
  operations and each region, the buffers that later stages read hold the reference's stage functions of the arguments.
  The matrix product of each layer is the reference's dot_general (one contraction, whatever the blocking); the column
  sums accumulated over the ten row blocks are the reference's column reductions; the variance as mean of squares minus
  squared mean is the reference's mean of squared deviations once the column is known to be real; the rest of each layer and
  the host operations around the regions are the reference's own operations of the same operands.
-/
import proofs.«132062_j28845000360070_1_alg».proof.Proof.Gen.KernelIdeal.Frame
import proofs.«132062_j28845000360070_1_alg».proof.Proof.RefRead
import Idealize.ShloMosaic.Lib.StableHlo.Run
import Idealize.ShloMosaic.Lib.ValueIdx
import Idealize.ShloMosaic.Lib.Pipeline.Value
import proofs.«132062_j28845000360070_1_alg».proof.Proof.HostPre
import proofs.«132062_j28845000360070_1_alg».proof.Proof.HostL0
import proofs.«132062_j28845000360070_1_alg».proof.Proof.HostL1
import proofs.«132062_j28845000360070_1_alg».proof.Proof.HostL2
import proofs.«132062_j28845000360070_1_alg».proof.Proof.RegLin
import proofs.«132062_j28845000360070_1_alg».proof.Proof.RegNorm
import proofs.«132062_j28845000360070_1_alg».proof.Proof.RegStats
import proofs.«132062_j28845000360070_1_alg».proof.Proof.Core
import proofs.«132062_j28845000360070_1_alg».proof.Proof.RefLayer0
import proofs.«132062_j28845000360070_1_alg».proof.Proof.RefLayer1
import proofs.«132062_j28845000360070_1_alg».proof.Proof.RefLayer2

set_option maxRecDepth 16384

noncomputable section

namespace Cert.KernelIdeal.Chain

open Cert.KernelIdeal Cert.KernelIdeal.Gen Cert.ReferenceIdeal.ReadP
open Idealize.ShloMosaic Idealize.ShloMosaic.TcCoe Idealize.ShloMosaic.StableHlo Idealize.ShloMosaic.ValueIdx Idealize.SL.Sem

open Cert.KernelIdeal.RegVal

variable (m : (ℓ : Loc nD τ sig) → Buf (Elt Ideal) ℓ) (ρ : Dev nD → PrngReg) (c : Dev nD)

theorem f0_main_arg0 :
    (W0 (F := Ideal) m ρ c) (Proc.devRef .tc main_arg0) = (m ((c : Thread nD τ).loc main_arg0)) :=
  rfl
theorem f0_main_arg1 :
    (W0 (F := Ideal) m ρ c) (Proc.devRef .tc main_arg1) = (m ((c : Thread nD τ).loc main_arg1)) :=
  rfl
theorem f0_main_arg2 :
    (W0 (F := Ideal) m ρ c) (Proc.devRef .tc main_arg2) = (m ((c : Thread nD τ).loc main_arg2)) :=
  rfl
theorem f0_main_arg3 :
    (W0 (F := Ideal) m ρ c) (Proc.devRef .tc main_arg3) = (m ((c : Thread nD τ).loc main_arg3)) :=
  rfl
theorem f0_main_arg4 :
    (W0 (F := Ideal) m ρ c) (Proc.devRef .tc main_arg4) = (m ((c : Thread nD τ).loc main_arg4)) :=
  rfl
theorem f0_main_arg5 :
    (W0 (F := Ideal) m ρ c) (Proc.devRef .tc main_arg5) = (m ((c : Thread nD τ).loc main_arg5)) :=
  rfl
theorem f0_main_arg6 :
    (W0 (F := Ideal) m ρ c) (Proc.devRef .tc main_arg6) = (m ((c : Thread nD τ).loc main_arg6)) :=
  rfl
theorem f1_main_v3 :
    (W1 (F := Ideal) m ρ c) (Proc.devRef .tc main_v3) = (val_main_v3 (F := Ideal) (m ((c : Thread nD τ).loc main_arg1))) :=
  pre0_v3 (W0 (F := Ideal) m ρ c) (m ((c : Thread nD τ).loc main_arg1)) (f0_main_arg1 m ρ c)
theorem f1_main_v6 :
    (W1 (F := Ideal) m ρ c) (Proc.devRef .tc main_v6) = (val_main_v6 (F := Ideal) (m ((c : Thread nD τ).loc main_arg1))) :=
  pre0_v6 (W0 (F := Ideal) m ρ c) (m ((c : Thread nD τ).loc main_arg1)) (f0_main_arg1 m ρ c)
theorem f1_main_v12 :
    (W1 (F := Ideal) m ρ c) (Proc.devRef .tc main_v12) = (val_main_v12 (F := Ideal) (m ((c : Thread nD τ).loc main_arg1))) :=
  pre0_v12 (W0 (F := Ideal) m ρ c) (m ((c : Thread nD τ).loc main_arg1)) (f0_main_arg1 m ρ c)
theorem f1_main_v13 :
    (W1 (F := Ideal) m ρ c) (Proc.devRef .tc main_v13) = (val_main_v13 (F := Ideal) (m ((c : Thread nD τ).loc main_arg1))) :=
  pre0_v13 (W0 (F := Ideal) m ρ c) (m ((c : Thread nD τ).loc main_arg1)) (f0_main_arg1 m ρ c)
theorem f1_main_cst_2 :
    (W1 (F := Ideal) m ρ c) (Proc.devRef .tc main_cst_2) = (val_main_cst_2 (F := Ideal)) :=
  pre0_cst2 (W0 (F := Ideal) m ρ c)
theorem f1_main_arg0 :
    (W1 (F := Ideal) m ρ c) (Proc.devRef .tc main_arg0) = (m ((c : Thread nD τ).loc main_arg0)) :=
  (keep_hostOps0_main_arg0 (W0 (F := Ideal) m ρ c)).trans (f0_main_arg0 m ρ c)
theorem f1_main_arg1 :
    (W1 (F := Ideal) m ρ c) (Proc.devRef .tc main_arg1) = (m ((c : Thread nD τ).loc main_arg1)) :=
  (keep_hostOps0_main_arg1 (W0 (F := Ideal) m ρ c)).trans (f0_main_arg1 m ρ c)
theorem f1_main_arg2 :
    (W1 (F := Ideal) m ρ c) (Proc.devRef .tc main_arg2) = (m ((c : Thread nD τ).loc main_arg2)) :=
  (keep_hostOps0_main_arg2 (W0 (F := Ideal) m ρ c)).trans (f0_main_arg2 m ρ c)
theorem f1_main_arg3 :
    (W1 (F := Ideal) m ρ c) (Proc.devRef .tc main_arg3) = (m ((c : Thread nD τ).loc main_arg3)) :=
  (keep_hostOps0_main_arg3 (W0 (F := Ideal) m ρ c)).trans (f0_main_arg3 m ρ c)
theorem f1_main_arg4 :
    (W1 (F := Ideal) m ρ c) (Proc.devRef .tc main_arg4) = (m ((c : Thread nD τ).loc main_arg4)) :=
  (keep_hostOps0_main_arg4 (W0 (F := Ideal) m ρ c)).trans (f0_main_arg4 m ρ c)
theorem f1_main_arg5 :
    (W1 (F := Ideal) m ρ c) (Proc.devRef .tc main_arg5) = (m ((c : Thread nD τ).loc main_arg5)) :=
  (keep_hostOps0_main_arg5 (W0 (F := Ideal) m ρ c)).trans (f0_main_arg5 m ρ c)
theorem f1_main_arg6 :
    (W1 (F := Ideal) m ρ c) (Proc.devRef .tc main_arg6) = (m ((c : Thread nD τ).loc main_arg6)) :=
  (keep_hostOps0_main_arg6 (W0 (F := Ideal) m ρ c)).trans (f0_main_arg6 m ρ c)
theorem f2_main_v14 :
    (W2 (F := Ideal) m ρ c) (Proc.devRef .tc main_v14) = (val_main_v14 (F := Ideal) (m ((c : Thread nD τ).loc main_arg1))) :=
  pre1_v14 (W1 (F := Ideal) m ρ c) (m ((c : Thread nD τ).loc main_arg1)) (f1_main_v12 m ρ c) (f1_main_v13 m ρ c) (f1_main_cst_2 m ρ c)
theorem f2_main_arg0 :
    (W2 (F := Ideal) m ρ c) (Proc.devRef .tc main_arg0) = (m ((c : Thread nD τ).loc main_arg0)) :=
  (keep_hostOps0_1_main_arg0 (W1 (F := Ideal) m ρ c)).trans (f1_main_arg0 m ρ c)
theorem f2_main_arg1 :
    (W2 (F := Ideal) m ρ c) (Proc.devRef .tc main_arg1) = (m ((c : Thread nD τ).loc main_arg1)) :=
  (keep_hostOps0_1_main_arg1 (W1 (F := Ideal) m ρ c)).trans (f1_main_arg1 m ρ c)
theorem f2_main_arg2 :
    (W2 (F := Ideal) m ρ c) (Proc.devRef .tc main_arg2) = (m ((c : Thread nD τ).loc main_arg2)) :=
  (keep_hostOps0_1_main_arg2 (W1 (F := Ideal) m ρ c)).trans (f1_main_arg2 m ρ c)
theorem f2_main_arg3 :
    (W2 (F := Ideal) m ρ c) (Proc.devRef .tc main_arg3) = (m ((c : Thread nD τ).loc main_arg3)) :=
  (keep_hostOps0_1_main_arg3 (W1 (F := Ideal) m ρ c)).trans (f1_main_arg3 m ρ c)
theorem f2_main_arg4 :
    (W2 (F := Ideal) m ρ c) (Proc.devRef .tc main_arg4) = (m ((c : Thread nD τ).loc main_arg4)) :=
  (keep_hostOps0_1_main_arg4 (W1 (F := Ideal) m ρ c)).trans (f1_main_arg4 m ρ c)
theorem f2_main_arg5 :
    (W2 (F := Ideal) m ρ c) (Proc.devRef .tc main_arg5) = (m ((c : Thread nD τ).loc main_arg5)) :=
  (keep_hostOps0_1_main_arg5 (W1 (F := Ideal) m ρ c)).trans (f1_main_arg5 m ρ c)
theorem f2_main_arg6 :
    (W2 (F := Ideal) m ρ c) (Proc.devRef .tc main_arg6) = (m ((c : Thread nD τ).loc main_arg6)) :=
  (keep_hostOps0_1_main_arg6 (W1 (F := Ideal) m ρ c)).trans (f1_main_arg6 m ρ c)
theorem f2_main_v3 :
    (W2 (F := Ideal) m ρ c) (Proc.devRef .tc main_v3) = (val_main_v3 (F := Ideal) (m ((c : Thread nD τ).loc main_arg1))) :=
  (keep_hostOps0_1_main_v3 (W1 (F := Ideal) m ρ c)).trans (f1_main_v3 m ρ c)
theorem f2_main_v6 :
    (W2 (F := Ideal) m ρ c) (Proc.devRef .tc main_v6) = (val_main_v6 (F := Ideal) (m ((c : Thread nD τ).loc main_arg1))) :=
  (keep_hostOps0_1_main_v6 (W1 (F := Ideal) m ρ c)).trans (f1_main_v6 m ρ c)
theorem f3_main_v29 :
    (W3 (F := Ideal) m ρ c) (Proc.devRef .tc main_v29) = (val_main_v29 (F := Ideal) (m ((c : Thread nD τ).loc main_arg1))) :=
  pre2_v29 (W2 (F := Ideal) m ρ c) (m ((c : Thread nD τ).loc main_arg1)) (f2_main_v14 m ρ c) (f2_main_v3 m ρ c) (f2_main_v6 m ρ c)
theorem f3_main_v31 :
    (W3 (F := Ideal) m ρ c) (Proc.devRef .tc main_v31) = (val_main_v31 (F := Ideal) (m ((c : Thread nD τ).loc main_arg3))) :=
  pre2_v31 (W2 (F := Ideal) m ρ c) (m ((c : Thread nD τ).loc main_arg3)) (f2_main_arg3 m ρ c)
theorem f3_main_v33 :
    (W3 (F := Ideal) m ρ c) (Proc.devRef .tc main_v33) = (val_main_v47 (F := Ideal) (m ((c : Thread nD τ).loc main_arg4))) :=
  pre2_v33 (W2 (F := Ideal) m ρ c) (m ((c : Thread nD τ).loc main_arg4)) (f2_main_arg4 m ρ c)
theorem f3_main_v35 :
    (W3 (F := Ideal) m ρ c) (Proc.devRef .tc main_v35) = (val_main_v71 (F := Ideal) (m ((c : Thread nD τ).loc main_arg5))) :=
  pre2_v35 (W2 (F := Ideal) m ρ c) (m ((c : Thread nD τ).loc main_arg5)) (f2_main_arg5 m ρ c)
theorem f3_main_v37 :
    (W3 (F := Ideal) m ρ c) (Proc.devRef .tc main_v37) = (val_main_v76 (F := Ideal) (m ((c : Thread nD τ).loc main_arg6))) :=
  pre2_v37 (W2 (F := Ideal) m ρ c) (m ((c : Thread nD τ).loc main_arg6)) (f2_main_arg6 m ρ c)
theorem f3_main_arg0 :
    (W3 (F := Ideal) m ρ c) (Proc.devRef .tc main_arg0) = (m ((c : Thread nD τ).loc main_arg0)) :=
  (keep_hostOps0_2_main_arg0 (W2 (F := Ideal) m ρ c)).trans (f2_main_arg0 m ρ c)
theorem f3_main_arg1 :
    (W3 (F := Ideal) m ρ c) (Proc.devRef .tc main_arg1) = (m ((c : Thread nD τ).loc main_arg1)) :=
  (keep_hostOps0_2_main_arg1 (W2 (F := Ideal) m ρ c)).trans (f2_main_arg1 m ρ c)
theorem f3_main_arg2 :
    (W3 (F := Ideal) m ρ c) (Proc.devRef .tc main_arg2) = (m ((c : Thread nD τ).loc main_arg2)) :=
  (keep_hostOps0_2_main_arg2 (W2 (F := Ideal) m ρ c)).trans (f2_main_arg2 m ρ c)
theorem f3_main_arg3 :
    (W3 (F := Ideal) m ρ c) (Proc.devRef .tc main_arg3) = (m ((c : Thread nD τ).loc main_arg3)) :=
  (keep_hostOps0_2_main_arg3 (W2 (F := Ideal) m ρ c)).trans (f2_main_arg3 m ρ c)
theorem f3_main_arg4 :
    (W3 (F := Ideal) m ρ c) (Proc.devRef .tc main_arg4) = (m ((c : Thread nD τ).loc main_arg4)) :=
  (keep_hostOps0_2_main_arg4 (W2 (F := Ideal) m ρ c)).trans (f2_main_arg4 m ρ c)
theorem f3_main_arg5 :
    (W3 (F := Ideal) m ρ c) (Proc.devRef .tc main_arg5) = (m ((c : Thread nD τ).loc main_arg5)) :=
  (keep_hostOps0_2_main_arg5 (W2 (F := Ideal) m ρ c)).trans (f2_main_arg5 m ρ c)
theorem f3_main_arg6 :
    (W3 (F := Ideal) m ρ c) (Proc.devRef .tc main_arg6) = (m ((c : Thread nD τ).loc main_arg6)) :=
  (keep_hostOps0_2_main_arg6 (W2 (F := Ideal) m ρ c)).trans (f2_main_arg6 m ρ c)
theorem f3_main_v3 :
    (W3 (F := Ideal) m ρ c) (Proc.devRef .tc main_v3) = (val_main_v3 (F := Ideal) (m ((c : Thread nD τ).loc main_arg1))) :=
  (keep_hostOps0_2_main_v3 (W2 (F := Ideal) m ρ c)).trans (f2_main_v3 m ρ c)
theorem f3_main_v6 :
    (W3 (F := Ideal) m ρ c) (Proc.devRef .tc main_v6) = (val_main_v6 (F := Ideal) (m ((c : Thread nD τ).loc main_arg1))) :=
  (keep_hostOps0_2_main_v6 (W2 (F := Ideal) m ρ c)).trans (f2_main_v6 m ρ c)

/-! ## Layer 1 -/

theorem f4_main_v38 :
    (W4 (F := Ideal) m ρ c) (Proc.devRef .tc main_v38) = (val_main_v32 (F := Ideal) (m ((c : Thread nD τ).loc main_arg0)) (m ((c : Thread nD τ).loc main_arg3))) :=
  by
  refine (W4_arr m ρ c 2).trans ?_
  funext i
  obtain ⟨r, q, rfl⟩ : ∃ (r : Fin 100000) (q : Fin 64), i = ix2 r q := ⟨i 0, i 1, eq_ix2 i⟩
  refine (lin0_apply (V3 (F := Ideal) m ρ) c r q).trans ?_
  refine ((val_main_v32_apply (m ((c : Thread nD τ).loc main_arg0)) (m ((c : Thread nD τ).loc main_arg3)) (ix2 r q)).trans ?_).symm
  have hA : lin0_A (V3 (F := Ideal) m ρ) c = (m ((c : Thread nD τ).loc main_arg0)) := (f3_main_arg0 m ρ c)
  have hW : lin0_W (V3 (F := Ideal) m ρ) c = (val_main_v31 (F := Ideal) (m ((c : Thread nD τ).loc main_arg3))) := (f3_main_v31 m ρ c)
  rw [hA, hW]
  exact Finset.sum_congr rfl fun kk _ => congrArg₂ (· * ·) (congrArg _ (funext fun a => by match a with | ⟨0, _⟩ => rfl | ⟨1, _⟩ => rfl)) (congrArg _ (funext fun a => by match a with | ⟨0, _⟩ => rfl | ⟨1, _⟩ => rfl))
theorem f4_main_v3 :
    (W4 (F := Ideal) m ρ c) (Proc.devRef .tc main_v3) = (val_main_v3 (F := Ideal) (m ((c : Thread nD τ).loc main_arg1))) :=
  (W4_of_ne m ρ c main_v3 (by decide)).trans (f3_main_v3 m ρ c)
theorem f4_main_v6 :
    (W4 (F := Ideal) m ρ c) (Proc.devRef .tc main_v6) = (val_main_v6 (F := Ideal) (m ((c : Thread nD τ).loc main_arg1))) :=
  (W4_of_ne m ρ c main_v6 (by decide)).trans (f3_main_v6 m ρ c)
theorem f4_main_v29 :
    (W4 (F := Ideal) m ρ c) (Proc.devRef .tc main_v29) = (val_main_v29 (F := Ideal) (m ((c : Thread nD τ).loc main_arg1))) :=
  (W4_of_ne m ρ c main_v29 (by decide)).trans (f3_main_v29 m ρ c)
theorem f4_main_arg2 :
    (W4 (F := Ideal) m ρ c) (Proc.devRef .tc main_arg2) = (m ((c : Thread nD τ).loc main_arg2)) :=
  (W4_of_ne m ρ c main_arg2 (by decide)).trans (f3_main_arg2 m ρ c)
theorem f4_main_arg3 :
    (W4 (F := Ideal) m ρ c) (Proc.devRef .tc main_arg3) = (m ((c : Thread nD τ).loc main_arg3)) :=
  (W4_of_ne m ρ c main_arg3 (by decide)).trans (f3_main_arg3 m ρ c)
theorem f4_main_arg4 :
    (W4 (F := Ideal) m ρ c) (Proc.devRef .tc main_arg4) = (m ((c : Thread nD τ).loc main_arg4)) :=
  (W4_of_ne m ρ c main_arg4 (by decide)).trans (f3_main_arg4 m ρ c)
theorem f4_main_arg5 :
    (W4 (F := Ideal) m ρ c) (Proc.devRef .tc main_arg5) = (m ((c : Thread nD τ).loc main_arg5)) :=
  (W4_of_ne m ρ c main_arg5 (by decide)).trans (f3_main_arg5 m ρ c)
theorem f4_main_arg6 :
    (W4 (F := Ideal) m ρ c) (Proc.devRef .tc main_arg6) = (m ((c : Thread nD τ).loc main_arg6)) :=
  (W4_of_ne m ρ c main_arg6 (by decide)).trans (f3_main_arg6 m ρ c)
theorem f4_main_v33 :
    (W4 (F := Ideal) m ρ c) (Proc.devRef .tc main_v33) = (val_main_v47 (F := Ideal) (m ((c : Thread nD τ).loc main_arg4))) :=
  (W4_of_ne m ρ c main_v33 (by decide)).trans (f3_main_v33 m ρ c)
theorem f4_main_v35 :
    (W4 (F := Ideal) m ρ c) (Proc.devRef .tc main_v35) = (val_main_v71 (F := Ideal) (m ((c : Thread nD τ).loc main_arg5))) :=
  (W4_of_ne m ρ c main_v35 (by decide)).trans (f3_main_v35 m ρ c)
theorem f4_main_v37 :
    (W4 (F := Ideal) m ρ c) (Proc.devRef .tc main_v37) = (val_main_v76 (F := Ideal) (m ((c : Thread nD τ).loc main_arg6))) :=
  (W4_of_ne m ρ c main_v37 (by decide)).trans (f3_main_v37 m ρ c)
theorem f5_main_v51 :
    (W5 (F := Ideal) m ρ c) (Proc.devRef .tc main_v51) = (val_main_v45 (F := Ideal) (m ((c : Thread nD τ).loc main_arg0)) (m ((c : Thread nD τ).loc main_arg1)) (m ((c : Thread nD τ).loc main_arg3))) :=
  hA0_agg (W4 (F := Ideal) m ρ c) (m ((c : Thread nD τ).loc main_arg0)) (m ((c : Thread nD τ).loc main_arg1)) (m ((c : Thread nD τ).loc main_arg3)) (f4_main_v38 m ρ c) (f4_main_v3 m ρ c) (f4_main_v6 m ρ c) (f4_main_v29 m ρ c)
theorem f5_main_v3 :
    (W5 (F := Ideal) m ρ c) (Proc.devRef .tc main_v3) = (val_main_v3 (F := Ideal) (m ((c : Thread nD τ).loc main_arg1))) :=
  (keep_hostOps1_main_v3 (W4 (F := Ideal) m ρ c)).trans (f4_main_v3 m ρ c)
theorem f5_main_v6 :
    (W5 (F := Ideal) m ρ c) (Proc.devRef .tc main_v6) = (val_main_v6 (F := Ideal) (m ((c : Thread nD τ).loc main_arg1))) :=
  (keep_hostOps1_main_v6 (W4 (F := Ideal) m ρ c)).trans (f4_main_v6 m ρ c)
theorem f5_main_v29 :
    (W5 (F := Ideal) m ρ c) (Proc.devRef .tc main_v29) = (val_main_v29 (F := Ideal) (m ((c : Thread nD τ).loc main_arg1))) :=
  (keep_hostOps1_main_v29 (W4 (F := Ideal) m ρ c)).trans (f4_main_v29 m ρ c)
theorem f5_main_arg2 :
    (W5 (F := Ideal) m ρ c) (Proc.devRef .tc main_arg2) = (m ((c : Thread nD τ).loc main_arg2)) :=
  (keep_hostOps1_main_arg2 (W4 (F := Ideal) m ρ c)).trans (f4_main_arg2 m ρ c)
theorem f5_main_arg3 :
    (W5 (F := Ideal) m ρ c) (Proc.devRef .tc main_arg3) = (m ((c : Thread nD τ).loc main_arg3)) :=
  (keep_hostOps1_main_arg3 (W4 (F := Ideal) m ρ c)).trans (f4_main_arg3 m ρ c)
theorem f5_main_arg4 :
    (W5 (F := Ideal) m ρ c) (Proc.devRef .tc main_arg4) = (m ((c : Thread nD τ).loc main_arg4)) :=
  (keep_hostOps1_main_arg4 (W4 (F := Ideal) m ρ c)).trans (f4_main_arg4 m ρ c)
theorem f5_main_arg5 :
    (W5 (F := Ideal) m ρ c) (Proc.devRef .tc main_arg5) = (m ((c : Thread nD τ).loc main_arg5)) :=
  (keep_hostOps1_main_arg5 (W4 (F := Ideal) m ρ c)).trans (f4_main_arg5 m ρ c)
theorem f5_main_arg6 :
    (W5 (F := Ideal) m ρ c) (Proc.devRef .tc main_arg6) = (m ((c : Thread nD τ).loc main_arg6)) :=
  (keep_hostOps1_main_arg6 (W4 (F := Ideal) m ρ c)).trans (f4_main_arg6 m ρ c)
theorem f5_main_v33 :
    (W5 (F := Ideal) m ρ c) (Proc.devRef .tc main_v33) = (val_main_v47 (F := Ideal) (m ((c : Thread nD τ).loc main_arg4))) :=
  (keep_hostOps1_main_v33 (W4 (F := Ideal) m ρ c)).trans (f4_main_v33 m ρ c)
theorem f5_main_v35 :
    (W5 (F := Ideal) m ρ c) (Proc.devRef .tc main_v35) = (val_main_v71 (F := Ideal) (m ((c : Thread nD τ).loc main_arg5))) :=
  (keep_hostOps1_main_v35 (W4 (F := Ideal) m ρ c)).trans (f4_main_v35 m ρ c)
theorem f5_main_v37 :
    (W5 (F := Ideal) m ρ c) (Proc.devRef .tc main_v37) = (val_main_v76 (F := Ideal) (m ((c : Thread nD τ).loc main_arg6))) :=
  (keep_hostOps1_main_v37 (W4 (F := Ideal) m ρ c)).trans (f4_main_v37 m ρ c)
theorem f5_main_v52 (q : Fin 64) :
    @Eq EReal ((W5 (F := Ideal) m ρ c) (Proc.devRef .tc main_v52) (ix2 (0 : Fin 1) q)) ((val_main_v47 (F := Ideal) (m ((c : Thread nD τ).loc main_arg4))) (ix1 q)) :=
  (hA0_brow (W4 (F := Ideal) m ρ c) 0 q).trans (congrFun (f4_main_v33 m ρ c) (ix1 q))
theorem f6_main_v3 :
    (W6 (F := Ideal) m ρ c) (Proc.devRef .tc main_v3) = (val_main_v3 (F := Ideal) (m ((c : Thread nD τ).loc main_arg1))) :=
  (W6_of_ne m ρ c main_v3 (by decide)).trans (f5_main_v3 m ρ c)
theorem f6_main_v6 :
    (W6 (F := Ideal) m ρ c) (Proc.devRef .tc main_v6) = (val_main_v6 (F := Ideal) (m ((c : Thread nD τ).loc main_arg1))) :=
  (W6_of_ne m ρ c main_v6 (by decide)).trans (f5_main_v6 m ρ c)
theorem f6_main_v29 :
    (W6 (F := Ideal) m ρ c) (Proc.devRef .tc main_v29) = (val_main_v29 (F := Ideal) (m ((c : Thread nD τ).loc main_arg1))) :=
  (W6_of_ne m ρ c main_v29 (by decide)).trans (f5_main_v29 m ρ c)
theorem f6_main_arg2 :
    (W6 (F := Ideal) m ρ c) (Proc.devRef .tc main_arg2) = (m ((c : Thread nD τ).loc main_arg2)) :=
  (W6_of_ne m ρ c main_arg2 (by decide)).trans (f5_main_arg2 m ρ c)
theorem f6_main_arg3 :
    (W6 (F := Ideal) m ρ c) (Proc.devRef .tc main_arg3) = (m ((c : Thread nD τ).loc main_arg3)) :=
  (W6_of_ne m ρ c main_arg3 (by decide)).trans (f5_main_arg3 m ρ c)
theorem f6_main_arg4 :
    (W6 (F := Ideal) m ρ c) (Proc.devRef .tc main_arg4) = (m ((c : Thread nD τ).loc main_arg4)) :=
  (W6_of_ne m ρ c main_arg4 (by decide)).trans (f5_main_arg4 m ρ c)
theorem f6_main_arg5 :
    (W6 (F := Ideal) m ρ c) (Proc.devRef .tc main_arg5) = (m ((c : Thread nD τ).loc main_arg5)) :=
  (W6_of_ne m ρ c main_arg5 (by decide)).trans (f5_main_arg5 m ρ c)
theorem f6_main_arg6 :
    (W6 (F := Ideal) m ρ c) (Proc.devRef .tc main_arg6) = (m ((c : Thread nD τ).loc main_arg6)) :=
  (W6_of_ne m ρ c main_arg6 (by decide)).trans (f5_main_arg6 m ρ c)
theorem f6_main_v33 :
    (W6 (F := Ideal) m ρ c) (Proc.devRef .tc main_v33) = (val_main_v47 (F := Ideal) (m ((c : Thread nD τ).loc main_arg4))) :=
  (W6_of_ne m ρ c main_v33 (by decide)).trans (f5_main_v33 m ρ c)
theorem f6_main_v35 :
    (W6 (F := Ideal) m ρ c) (Proc.devRef .tc main_v35) = (val_main_v71 (F := Ideal) (m ((c : Thread nD τ).loc main_arg5))) :=
  (W6_of_ne m ρ c main_v35 (by decide)).trans (f5_main_v35 m ρ c)
theorem f6_main_v37 :
    (W6 (F := Ideal) m ρ c) (Proc.devRef .tc main_v37) = (val_main_v76 (F := Ideal) (m ((c : Thread nD τ).loc main_arg6))) :=
  (W6_of_ne m ρ c main_v37 (by decide)).trans (f5_main_v37 m ρ c)
theorem f6_main_v51 :
    (W6 (F := Ideal) m ρ c) (Proc.devRef .tc main_v51) = (val_main_v45 (F := Ideal) (m ((c : Thread nD τ).loc main_arg0)) (m ((c : Thread nD τ).loc main_arg1)) (m ((c : Thread nD τ).loc main_arg3))) :=
  ((W6_arr m ρ c 0).trans (((dat1 (V5 (F := Ideal) m ρ) c).arrAt_in 0 rfl _).trans (A_eq1 (V5 (F := Ideal) m ρ) c 0))).trans (f5_main_v51 m ρ c)
theorem f6_sum (q : Fin 64) :
    @Eq EReal ((W6 (F := Ideal) m ρ c) (Proc.devRef .tc main_v53_0) (ix2 (0 : Fin 1) q)) (∑ r : Fin 100000, (Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r) :=
  (congrFun (W6_arr m ρ c 2) (ix2 (0 : Fin 1) q)).trans ((sum1_apply (V5 (F := Ideal) m ρ) c q).trans (Finset.sum_congr rfl (fun r _ => congrArg₂ (· + ·) (congrFun (show statsX1 (V5 (F := Ideal) m ρ) c = (val_main_v45 (F := Ideal) (m ((c : Thread nD τ).loc main_arg0)) (m ((c : Thread nD τ).loc main_arg1)) (m ((c : Thread nD τ).loc main_arg3))) from (f5_main_v51 m ρ c)) (ix2 r q)) (f5_main_v52 m ρ c q))))
theorem f6_sumsq (q : Fin 64) :
    @Eq EReal ((W6 (F := Ideal) m ρ c) (Proc.devRef .tc main_v53_1) (ix2 (0 : Fin 1) q)) (∑ r : Fin 100000, (Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r * (Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r) :=
  (congrFun (W6_arr m ρ c 3) (ix2 (0 : Fin 1) q)).trans ((sumsq1_apply (V5 (F := Ideal) m ρ) c q).trans (Finset.sum_congr rfl fun r hr => congrArg₂ (· * ·) ((fun r _ => congrArg₂ (· + ·) (congrFun (show statsX1 (V5 (F := Ideal) m ρ) c = (val_main_v45 (F := Ideal) (m ((c : Thread nD τ).loc main_arg0)) (m ((c : Thread nD τ).loc main_arg1)) (m ((c : Thread nD τ).loc main_arg3))) from (f5_main_v51 m ρ c)) (ix2 r q)) (f5_main_v52 m ρ c q)) r hr) ((fun r _ => congrArg₂ (· + ·) (congrFun (show statsX1 (V5 (F := Ideal) m ρ) c = (val_main_v45 (F := Ideal) (m ((c : Thread nD τ).loc main_arg0)) (m ((c : Thread nD τ).loc main_arg1)) (m ((c : Thread nD τ).loc main_arg3))) from (f5_main_v51 m ρ c)) (ix2 r q)) (f5_main_v52 m ρ c q)) r hr)))
theorem f7_main_v3 :
    (W7 (F := Ideal) m ρ c) (Proc.devRef .tc main_v3) = (val_main_v3 (F := Ideal) (m ((c : Thread nD τ).loc main_arg1))) :=
  (keep_hostOps2_main_v3 (W6 (F := Ideal) m ρ c)).trans (f6_main_v3 m ρ c)
theorem f7_main_v6 :
    (W7 (F := Ideal) m ρ c) (Proc.devRef .tc main_v6) = (val_main_v6 (F := Ideal) (m ((c : Thread nD τ).loc main_arg1))) :=
  (keep_hostOps2_main_v6 (W6 (F := Ideal) m ρ c)).trans (f6_main_v6 m ρ c)
theorem f7_main_v29 :
    (W7 (F := Ideal) m ρ c) (Proc.devRef .tc main_v29) = (val_main_v29 (F := Ideal) (m ((c : Thread nD τ).loc main_arg1))) :=
  (keep_hostOps2_main_v29 (W6 (F := Ideal) m ρ c)).trans (f6_main_v29 m ρ c)
theorem f7_main_arg2 :
    (W7 (F := Ideal) m ρ c) (Proc.devRef .tc main_arg2) = (m ((c : Thread nD τ).loc main_arg2)) :=
  (keep_hostOps2_main_arg2 (W6 (F := Ideal) m ρ c)).trans (f6_main_arg2 m ρ c)
theorem f7_main_arg3 :
    (W7 (F := Ideal) m ρ c) (Proc.devRef .tc main_arg3) = (m ((c : Thread nD τ).loc main_arg3)) :=
  (keep_hostOps2_main_arg3 (W6 (F := Ideal) m ρ c)).trans (f6_main_arg3 m ρ c)
theorem f7_main_arg4 :
    (W7 (F := Ideal) m ρ c) (Proc.devRef .tc main_arg4) = (m ((c : Thread nD τ).loc main_arg4)) :=
  (keep_hostOps2_main_arg4 (W6 (F := Ideal) m ρ c)).trans (f6_main_arg4 m ρ c)
theorem f7_main_arg5 :
    (W7 (F := Ideal) m ρ c) (Proc.devRef .tc main_arg5) = (m ((c : Thread nD τ).loc main_arg5)) :=
  (keep_hostOps2_main_arg5 (W6 (F := Ideal) m ρ c)).trans (f6_main_arg5 m ρ c)
theorem f7_main_arg6 :
    (W7 (F := Ideal) m ρ c) (Proc.devRef .tc main_arg6) = (m ((c : Thread nD τ).loc main_arg6)) :=
  (keep_hostOps2_main_arg6 (W6 (F := Ideal) m ρ c)).trans (f6_main_arg6 m ρ c)
theorem f7_main_v51 :
    (W7 (F := Ideal) m ρ c) (Proc.devRef .tc main_v51) = (val_main_v45 (F := Ideal) (m ((c : Thread nD τ).loc main_arg0)) (m ((c : Thread nD τ).loc main_arg1)) (m ((c : Thread nD τ).loc main_arg3))) :=
  (keep_hostOps2_main_v51 (W6 (F := Ideal) m ρ c)).trans (f6_main_v51 m ρ c)
theorem f7_mean (q : Fin 64) :
    @Eq EReal ((W7 (F := Ideal) m ρ c) (Proc.devRef .tc main_v55) (ix2 (0 : Fin 1) q)) (Cert.Core.mean (Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q)) :=
  (hB0_mean (W6 (F := Ideal) m ρ c) 0 q).trans (congrArg₂ Ideal.div (f6_sum m ρ c q) Cert.Core.ofBits_n)
theorem f7_var (q : Fin 64) :
    @Eq EReal ((W7 (F := Ideal) m ρ c) (Proc.devRef .tc main_v59) (ix2 (0 : Fin 1) q)) (Cert.Core.varK (Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q)) :=
  (hB0_var (W6 (F := Ideal) m ρ c) 0 q).trans (congrArg₂ (· - ·) (congrArg₂ Ideal.div (f6_sumsq m ρ c q) Cert.Core.ofBits_n)
    (congrArg₂ (· * ·) (congrArg₂ Ideal.div (f6_sum m ρ c q) Cert.Core.ofBits_n) (congrArg₂ Ideal.div (f6_sum m ρ c q) Cert.Core.ofBits_n)))
theorem f7_row_b (q : Fin 64) :
    @Eq EReal ((W7 (F := Ideal) m ρ c) (Proc.devRef .tc main_v60) (ix2 (0 : Fin 1) q)) ((val_main_v47 (F := Ideal) (m ((c : Thread nD τ).loc main_arg4))) (ix1 q)) :=
  (hB0_b (W6 (F := Ideal) m ρ c) 0 q).trans (congrFun (f6_main_v33 m ρ c) (ix1 q))
theorem f7_row_g (q : Fin 64) :
    @Eq EReal ((W7 (F := Ideal) m ρ c) (Proc.devRef .tc main_v61) (ix2 (0 : Fin 1) q)) ((val_main_v71 (F := Ideal) (m ((c : Thread nD τ).loc main_arg5))) (ix1 q)) :=
  (hB0_g (W6 (F := Ideal) m ρ c) 0 q).trans (congrFun (f6_main_v35 m ρ c) (ix1 q))
theorem f7_row_be (q : Fin 64) :
    @Eq EReal ((W7 (F := Ideal) m ρ c) (Proc.devRef .tc main_v62) (ix2 (0 : Fin 1) q)) ((val_main_v76 (F := Ideal) (m ((c : Thread nD τ).loc main_arg6))) (ix1 q)) :=
  (hB0_be (W6 (F := Ideal) m ρ c) 0 q).trans (congrFun (f6_main_v37 m ρ c) (ix1 q))
theorem f8_main_v63 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W8 (F := Ideal) m ρ c) (Proc.devRef .tc main_v63) = (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  by
  refine (W8_arr m ρ c 6).trans ?_
  funext i
  obtain ⟨r, q, rfl⟩ : ∃ (r : Fin 100000) (q : Fin 64), i = ix2 r q := ⟨i 0, i 1, eq_ix2 i⟩
  refine (norm2_apply (V7 (F := Ideal) m ρ) c r q).trans ?_
  have hX : norm2_X (V7 (F := Ideal) m ρ) c = (val_main_v45 (F := Ideal) (m ((c : Thread nD τ).loc main_arg0)) (m ((c : Thread nD τ).loc main_arg1)) (m ((c : Thread nD τ).loc main_arg3))) := (f7_main_v51 m ρ c)
  have e1 := congrArg₂ (· + ·) (congrFun hX (ix2 r q)) (f7_row_b m ρ c q)
  have e2 := congrArg₂ (· - ·) e1 (f7_mean m ρ c q)
  have e3 := congrArg₂ (· * ·) e2 (congrArg Ideal.rsqrt (congrArg (· + Ideal.ofBits .f32 0x3727C5AC#32) (f7_var m ρ c q)))
  have e4 := congrArg₂ (· * ·) e3 (f7_row_g m ρ c q)
  have e5 := congrArg₂ (· + ·) e4 (f7_row_be m ρ c q)
  refine (congrArg₂ max e5 Ideal.ofBits_zero_f32).trans ?_
  exact (Cert.Core.outK_eq_outR (hc0 q) _ _ r).trans (Cert.ReferenceIdeal.Layer.ref_out0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) r q).symm
theorem f8_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W8 (F := Ideal) m ρ c) (Proc.devRef .tc main_v3) = (val_main_v3 (F := Ideal) (m ((c : Thread nD τ).loc main_arg1))) :=
  (W8_of_ne m ρ c main_v3 (by decide)).trans (f7_main_v3 m ρ c)
theorem f8_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W8 (F := Ideal) m ρ c) (Proc.devRef .tc main_v6) = (val_main_v6 (F := Ideal) (m ((c : Thread nD τ).loc main_arg1))) :=
  (W8_of_ne m ρ c main_v6 (by decide)).trans (f7_main_v6 m ρ c)
theorem f8_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W8 (F := Ideal) m ρ c) (Proc.devRef .tc main_v29) = (val_main_v29 (F := Ideal) (m ((c : Thread nD τ).loc main_arg1))) :=
  (W8_of_ne m ρ c main_v29 (by decide)).trans (f7_main_v29 m ρ c)
theorem f8_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W8 (F := Ideal) m ρ c) (Proc.devRef .tc main_arg2) = (m ((c : Thread nD τ).loc main_arg2)) :=
  (W8_of_ne m ρ c main_arg2 (by decide)).trans (f7_main_arg2 m ρ c)
theorem f8_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W8 (F := Ideal) m ρ c) (Proc.devRef .tc main_arg3) = (m ((c : Thread nD τ).loc main_arg3)) :=
  (W8_of_ne m ρ c main_arg3 (by decide)).trans (f7_main_arg3 m ρ c)
theorem f8_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W8 (F := Ideal) m ρ c) (Proc.devRef .tc main_arg4) = (m ((c : Thread nD τ).loc main_arg4)) :=
  (W8_of_ne m ρ c main_arg4 (by decide)).trans (f7_main_arg4 m ρ c)
theorem f8_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W8 (F := Ideal) m ρ c) (Proc.devRef .tc main_arg5) = (m ((c : Thread nD τ).loc main_arg5)) :=
  (W8_of_ne m ρ c main_arg5 (by decide)).trans (f7_main_arg5 m ρ c)
theorem f8_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W8 (F := Ideal) m ρ c) (Proc.devRef .tc main_arg6) = (m ((c : Thread nD τ).loc main_arg6)) :=
  (W8_of_ne m ρ c main_arg6 (by decide)).trans (f7_main_arg6 m ρ c)
theorem f9_main_v65 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_v65) = (val_main_v82 (F := Ideal) (m ((c : Thread nD τ).loc main_arg3))) :=
  hC0_W (W8 (F := Ideal) m ρ c) (m ((c : Thread nD τ).loc main_arg3)) (f8_main_arg3 m ρ c hc0)
theorem f9_main_v67 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_v67) = (val_main_v98 (F := Ideal) (m ((c : Thread nD τ).loc main_arg4))) :=
  hC0_b (W8 (F := Ideal) m ρ c) (m ((c : Thread nD τ).loc main_arg4)) (f8_main_arg4 m ρ c hc0)
theorem f9_main_v69 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_v69) = (val_main_v122 (F := Ideal) (m ((c : Thread nD τ).loc main_arg5))) :=
  hC0_g (W8 (F := Ideal) m ρ c) (m ((c : Thread nD τ).loc main_arg5)) (f8_main_arg5 m ρ c hc0)
theorem f9_main_v71 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_v71) = (val_main_v127 (F := Ideal) (m ((c : Thread nD τ).loc main_arg6))) :=
  hC0_be (W8 (F := Ideal) m ρ c) (m ((c : Thread nD τ).loc main_arg6)) (f8_main_arg6 m ρ c hc0)
theorem f9_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_v3) = (val_main_v3 (F := Ideal) (m ((c : Thread nD τ).loc main_arg1))) :=
  (keep_hostOps3_main_v3 (W8 (F := Ideal) m ρ c)).trans (f8_main_v3 m ρ c hc0)
theorem f9_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_v6) = (val_main_v6 (F := Ideal) (m ((c : Thread nD τ).loc main_arg1))) :=
  (keep_hostOps3_main_v6 (W8 (F := Ideal) m ρ c)).trans (f8_main_v6 m ρ c hc0)
theorem f9_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_v29) = (val_main_v29 (F := Ideal) (m ((c : Thread nD τ).loc main_arg1))) :=
  (keep_hostOps3_main_v29 (W8 (F := Ideal) m ρ c)).trans (f8_main_v29 m ρ c hc0)
theorem f9_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_arg2) = (m ((c : Thread nD τ).loc main_arg2)) :=
  (keep_hostOps3_main_arg2 (W8 (F := Ideal) m ρ c)).trans (f8_main_arg2 m ρ c hc0)
theorem f9_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_arg3) = (m ((c : Thread nD τ).loc main_arg3)) :=
  (keep_hostOps3_main_arg3 (W8 (F := Ideal) m ρ c)).trans (f8_main_arg3 m ρ c hc0)
theorem f9_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_arg4) = (m ((c : Thread nD τ).loc main_arg4)) :=
  (keep_hostOps3_main_arg4 (W8 (F := Ideal) m ρ c)).trans (f8_main_arg4 m ρ c hc0)
theorem f9_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_arg5) = (m ((c : Thread nD τ).loc main_arg5)) :=
  (keep_hostOps3_main_arg5 (W8 (F := Ideal) m ρ c)).trans (f8_main_arg5 m ρ c hc0)
theorem f9_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_arg6) = (m ((c : Thread nD τ).loc main_arg6)) :=
  (keep_hostOps3_main_arg6 (W8 (F := Ideal) m ρ c)).trans (f8_main_arg6 m ρ c hc0)
theorem f9_main_v63 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W9 (F := Ideal) m ρ c) (Proc.devRef .tc main_v63) = (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (keep_hostOps3_main_v63 (W8 (F := Ideal) m ρ c)).trans (f8_main_v63 m ρ c hc0)

/-! ## Layer 2 -/

theorem f10_main_v72 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_v72) = (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  by
  refine (W10_arr m ρ c 2).trans ?_
  funext i
  obtain ⟨r, q, rfl⟩ : ∃ (r : Fin 100000) (q : Fin 64), i = ix2 r q := ⟨i 0, i 1, eq_ix2 i⟩
  refine (lin3_apply (V9 (F := Ideal) m ρ) c r q).trans ?_
  refine ((val_main_v83_apply (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 r q)).trans ?_).symm
  have hA : lin3_A (V9 (F := Ideal) m ρ) c = (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := (f9_main_v63 m ρ c hc0)
  have hW : lin3_W (V9 (F := Ideal) m ρ) c = (val_main_v82 (F := Ideal) (m ((c : Thread nD τ).loc main_arg3))) := (f9_main_v65 m ρ c hc0)
  rw [hA, hW]
  exact Finset.sum_congr rfl fun kk _ => congrArg₂ (· * ·) (congrArg _ (funext fun a => by match a with | ⟨0, _⟩ => rfl | ⟨1, _⟩ => rfl)) (congrArg _ (funext fun a => by match a with | ⟨0, _⟩ => rfl | ⟨1, _⟩ => rfl))
theorem f10_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_v3) = (val_main_v3 (F := Ideal) (m ((c : Thread nD τ).loc main_arg1))) :=
  (W10_of_ne m ρ c main_v3 (by decide)).trans (f9_main_v3 m ρ c hc0)
theorem f10_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_v6) = (val_main_v6 (F := Ideal) (m ((c : Thread nD τ).loc main_arg1))) :=
  (W10_of_ne m ρ c main_v6 (by decide)).trans (f9_main_v6 m ρ c hc0)
theorem f10_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_v29) = (val_main_v29 (F := Ideal) (m ((c : Thread nD τ).loc main_arg1))) :=
  (W10_of_ne m ρ c main_v29 (by decide)).trans (f9_main_v29 m ρ c hc0)
theorem f10_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_arg2) = (m ((c : Thread nD τ).loc main_arg2)) :=
  (W10_of_ne m ρ c main_arg2 (by decide)).trans (f9_main_arg2 m ρ c hc0)
theorem f10_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_arg3) = (m ((c : Thread nD τ).loc main_arg3)) :=
  (W10_of_ne m ρ c main_arg3 (by decide)).trans (f9_main_arg3 m ρ c hc0)
theorem f10_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_arg4) = (m ((c : Thread nD τ).loc main_arg4)) :=
  (W10_of_ne m ρ c main_arg4 (by decide)).trans (f9_main_arg4 m ρ c hc0)
theorem f10_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_arg5) = (m ((c : Thread nD τ).loc main_arg5)) :=
  (W10_of_ne m ρ c main_arg5 (by decide)).trans (f9_main_arg5 m ρ c hc0)
theorem f10_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_arg6) = (m ((c : Thread nD τ).loc main_arg6)) :=
  (W10_of_ne m ρ c main_arg6 (by decide)).trans (f9_main_arg6 m ρ c hc0)
theorem f10_main_v67 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_v67) = (val_main_v98 (F := Ideal) (m ((c : Thread nD τ).loc main_arg4))) :=
  (W10_of_ne m ρ c main_v67 (by decide)).trans (f9_main_v67 m ρ c hc0)
theorem f10_main_v69 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_v69) = (val_main_v122 (F := Ideal) (m ((c : Thread nD τ).loc main_arg5))) :=
  (W10_of_ne m ρ c main_v69 (by decide)).trans (f9_main_v69 m ρ c hc0)
theorem f10_main_v71 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W10 (F := Ideal) m ρ c) (Proc.devRef .tc main_v71) = (val_main_v127 (F := Ideal) (m ((c : Thread nD τ).loc main_arg6))) :=
  (W10_of_ne m ρ c main_v71 (by decide)).trans (f9_main_v71 m ρ c hc0)
theorem f11_main_v85 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_v85) = (val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  hA1_agg (W10 (F := Ideal) m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (f10_main_v72 m ρ c hc0) (f10_main_v3 m ρ c hc0) (f10_main_v6 m ρ c hc0) (f10_main_v29 m ρ c hc0)
theorem f11_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_v3) = (val_main_v3 (F := Ideal) (m ((c : Thread nD τ).loc main_arg1))) :=
  (keep_hostOps4_main_v3 (W10 (F := Ideal) m ρ c)).trans (f10_main_v3 m ρ c hc0)
theorem f11_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_v6) = (val_main_v6 (F := Ideal) (m ((c : Thread nD τ).loc main_arg1))) :=
  (keep_hostOps4_main_v6 (W10 (F := Ideal) m ρ c)).trans (f10_main_v6 m ρ c hc0)
theorem f11_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_v29) = (val_main_v29 (F := Ideal) (m ((c : Thread nD τ).loc main_arg1))) :=
  (keep_hostOps4_main_v29 (W10 (F := Ideal) m ρ c)).trans (f10_main_v29 m ρ c hc0)
theorem f11_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_arg2) = (m ((c : Thread nD τ).loc main_arg2)) :=
  (keep_hostOps4_main_arg2 (W10 (F := Ideal) m ρ c)).trans (f10_main_arg2 m ρ c hc0)
theorem f11_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_arg3) = (m ((c : Thread nD τ).loc main_arg3)) :=
  (keep_hostOps4_main_arg3 (W10 (F := Ideal) m ρ c)).trans (f10_main_arg3 m ρ c hc0)
theorem f11_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_arg4) = (m ((c : Thread nD τ).loc main_arg4)) :=
  (keep_hostOps4_main_arg4 (W10 (F := Ideal) m ρ c)).trans (f10_main_arg4 m ρ c hc0)
theorem f11_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_arg5) = (m ((c : Thread nD τ).loc main_arg5)) :=
  (keep_hostOps4_main_arg5 (W10 (F := Ideal) m ρ c)).trans (f10_main_arg5 m ρ c hc0)
theorem f11_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_arg6) = (m ((c : Thread nD τ).loc main_arg6)) :=
  (keep_hostOps4_main_arg6 (W10 (F := Ideal) m ρ c)).trans (f10_main_arg6 m ρ c hc0)
theorem f11_main_v67 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_v67) = (val_main_v98 (F := Ideal) (m ((c : Thread nD τ).loc main_arg4))) :=
  (keep_hostOps4_main_v67 (W10 (F := Ideal) m ρ c)).trans (f10_main_v67 m ρ c hc0)
theorem f11_main_v69 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_v69) = (val_main_v122 (F := Ideal) (m ((c : Thread nD τ).loc main_arg5))) :=
  (keep_hostOps4_main_v69 (W10 (F := Ideal) m ρ c)).trans (f10_main_v69 m ρ c hc0)
theorem f11_main_v71 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W11 (F := Ideal) m ρ c) (Proc.devRef .tc main_v71) = (val_main_v127 (F := Ideal) (m ((c : Thread nD τ).loc main_arg6))) :=
  (keep_hostOps4_main_v71 (W10 (F := Ideal) m ρ c)).trans (f10_main_v71 m ρ c hc0)
theorem f11_main_v86 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W11 (F := Ideal) m ρ c) (Proc.devRef .tc main_v86) (ix2 (0 : Fin 1) q)) ((val_main_v98 (F := Ideal) (m ((c : Thread nD τ).loc main_arg4))) (ix1 q)) :=
  (hA1_brow (W10 (F := Ideal) m ρ c) 0 q).trans (congrFun (f10_main_v67 m ρ c hc0) (ix1 q))
theorem f12_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_v3) = (val_main_v3 (F := Ideal) (m ((c : Thread nD τ).loc main_arg1))) :=
  (W12_of_ne m ρ c main_v3 (by decide)).trans (f11_main_v3 m ρ c hc0)
theorem f12_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_v6) = (val_main_v6 (F := Ideal) (m ((c : Thread nD τ).loc main_arg1))) :=
  (W12_of_ne m ρ c main_v6 (by decide)).trans (f11_main_v6 m ρ c hc0)
theorem f12_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_v29) = (val_main_v29 (F := Ideal) (m ((c : Thread nD τ).loc main_arg1))) :=
  (W12_of_ne m ρ c main_v29 (by decide)).trans (f11_main_v29 m ρ c hc0)
theorem f12_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_arg2) = (m ((c : Thread nD τ).loc main_arg2)) :=
  (W12_of_ne m ρ c main_arg2 (by decide)).trans (f11_main_arg2 m ρ c hc0)
theorem f12_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_arg3) = (m ((c : Thread nD τ).loc main_arg3)) :=
  (W12_of_ne m ρ c main_arg3 (by decide)).trans (f11_main_arg3 m ρ c hc0)
theorem f12_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_arg4) = (m ((c : Thread nD τ).loc main_arg4)) :=
  (W12_of_ne m ρ c main_arg4 (by decide)).trans (f11_main_arg4 m ρ c hc0)
theorem f12_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_arg5) = (m ((c : Thread nD τ).loc main_arg5)) :=
  (W12_of_ne m ρ c main_arg5 (by decide)).trans (f11_main_arg5 m ρ c hc0)
theorem f12_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_arg6) = (m ((c : Thread nD τ).loc main_arg6)) :=
  (W12_of_ne m ρ c main_arg6 (by decide)).trans (f11_main_arg6 m ρ c hc0)
theorem f12_main_v67 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_v67) = (val_main_v98 (F := Ideal) (m ((c : Thread nD τ).loc main_arg4))) :=
  (W12_of_ne m ρ c main_v67 (by decide)).trans (f11_main_v67 m ρ c hc0)
theorem f12_main_v69 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_v69) = (val_main_v122 (F := Ideal) (m ((c : Thread nD τ).loc main_arg5))) :=
  (W12_of_ne m ρ c main_v69 (by decide)).trans (f11_main_v69 m ρ c hc0)
theorem f12_main_v71 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_v71) = (val_main_v127 (F := Ideal) (m ((c : Thread nD τ).loc main_arg6))) :=
  (W12_of_ne m ρ c main_v71 (by decide)).trans (f11_main_v71 m ρ c hc0)
theorem f12_main_v85 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W12 (F := Ideal) m ρ c) (Proc.devRef .tc main_v85) = (val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  ((W12_arr m ρ c 0).trans (((dat4 (V11 (F := Ideal) m ρ) c).arrAt_in 0 rfl _).trans (A_eq4 (V11 (F := Ideal) m ρ) c 0))).trans (f11_main_v85 m ρ c hc0)
theorem f12_sum (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W12 (F := Ideal) m ρ c) (Proc.devRef .tc main_v87_0) (ix2 (0 : Fin 1) q)) (∑ r : Fin 100000, (Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r) :=
  (congrFun (W12_arr m ρ c 2) (ix2 (0 : Fin 1) q)).trans ((sum4_apply (V11 (F := Ideal) m ρ) c q).trans (Finset.sum_congr rfl (fun r _ => congrArg₂ (· + ·) (congrFun (show statsX4 (V11 (F := Ideal) m ρ) c = (val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) from (f11_main_v85 m ρ c hc0)) (ix2 r q)) (f11_main_v86 m ρ c hc0 q))))
theorem f12_sumsq (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W12 (F := Ideal) m ρ c) (Proc.devRef .tc main_v87_1) (ix2 (0 : Fin 1) q)) (∑ r : Fin 100000, (Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r * (Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r) :=
  (congrFun (W12_arr m ρ c 3) (ix2 (0 : Fin 1) q)).trans ((sumsq4_apply (V11 (F := Ideal) m ρ) c q).trans (Finset.sum_congr rfl fun r hr => congrArg₂ (· * ·) ((fun r _ => congrArg₂ (· + ·) (congrFun (show statsX4 (V11 (F := Ideal) m ρ) c = (val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) from (f11_main_v85 m ρ c hc0)) (ix2 r q)) (f11_main_v86 m ρ c hc0 q)) r hr) ((fun r _ => congrArg₂ (· + ·) (congrFun (show statsX4 (V11 (F := Ideal) m ρ) c = (val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) from (f11_main_v85 m ρ c hc0)) (ix2 r q)) (f11_main_v86 m ρ c hc0 q)) r hr)))
theorem f13_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W13 (F := Ideal) m ρ c) (Proc.devRef .tc main_v3) = (val_main_v3 (F := Ideal) (m ((c : Thread nD τ).loc main_arg1))) :=
  (keep_hostOps5_main_v3 (W12 (F := Ideal) m ρ c)).trans (f12_main_v3 m ρ c hc0)
theorem f13_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W13 (F := Ideal) m ρ c) (Proc.devRef .tc main_v6) = (val_main_v6 (F := Ideal) (m ((c : Thread nD τ).loc main_arg1))) :=
  (keep_hostOps5_main_v6 (W12 (F := Ideal) m ρ c)).trans (f12_main_v6 m ρ c hc0)
theorem f13_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W13 (F := Ideal) m ρ c) (Proc.devRef .tc main_v29) = (val_main_v29 (F := Ideal) (m ((c : Thread nD τ).loc main_arg1))) :=
  (keep_hostOps5_main_v29 (W12 (F := Ideal) m ρ c)).trans (f12_main_v29 m ρ c hc0)
theorem f13_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W13 (F := Ideal) m ρ c) (Proc.devRef .tc main_arg2) = (m ((c : Thread nD τ).loc main_arg2)) :=
  (keep_hostOps5_main_arg2 (W12 (F := Ideal) m ρ c)).trans (f12_main_arg2 m ρ c hc0)
theorem f13_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W13 (F := Ideal) m ρ c) (Proc.devRef .tc main_arg3) = (m ((c : Thread nD τ).loc main_arg3)) :=
  (keep_hostOps5_main_arg3 (W12 (F := Ideal) m ρ c)).trans (f12_main_arg3 m ρ c hc0)
theorem f13_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W13 (F := Ideal) m ρ c) (Proc.devRef .tc main_arg4) = (m ((c : Thread nD τ).loc main_arg4)) :=
  (keep_hostOps5_main_arg4 (W12 (F := Ideal) m ρ c)).trans (f12_main_arg4 m ρ c hc0)
theorem f13_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W13 (F := Ideal) m ρ c) (Proc.devRef .tc main_arg5) = (m ((c : Thread nD τ).loc main_arg5)) :=
  (keep_hostOps5_main_arg5 (W12 (F := Ideal) m ρ c)).trans (f12_main_arg5 m ρ c hc0)
theorem f13_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W13 (F := Ideal) m ρ c) (Proc.devRef .tc main_arg6) = (m ((c : Thread nD τ).loc main_arg6)) :=
  (keep_hostOps5_main_arg6 (W12 (F := Ideal) m ρ c)).trans (f12_main_arg6 m ρ c hc0)
theorem f13_main_v85 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W13 (F := Ideal) m ρ c) (Proc.devRef .tc main_v85) = (val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (keep_hostOps5_main_v85 (W12 (F := Ideal) m ρ c)).trans (f12_main_v85 m ρ c hc0)
theorem f13_mean (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W13 (F := Ideal) m ρ c) (Proc.devRef .tc main_v89) (ix2 (0 : Fin 1) q)) (Cert.Core.mean (Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q)) :=
  (hB1_mean (W12 (F := Ideal) m ρ c) 0 q).trans (congrArg₂ Ideal.div (f12_sum m ρ c hc0 q) Cert.Core.ofBits_n)
theorem f13_var (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W13 (F := Ideal) m ρ c) (Proc.devRef .tc main_v93) (ix2 (0 : Fin 1) q)) (Cert.Core.varK (Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q)) :=
  (hB1_var (W12 (F := Ideal) m ρ c) 0 q).trans (congrArg₂ (· - ·) (congrArg₂ Ideal.div (f12_sumsq m ρ c hc0 q) Cert.Core.ofBits_n)
    (congrArg₂ (· * ·) (congrArg₂ Ideal.div (f12_sum m ρ c hc0 q) Cert.Core.ofBits_n) (congrArg₂ Ideal.div (f12_sum m ρ c hc0 q) Cert.Core.ofBits_n)))
theorem f13_row_b (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W13 (F := Ideal) m ρ c) (Proc.devRef .tc main_v94) (ix2 (0 : Fin 1) q)) ((val_main_v98 (F := Ideal) (m ((c : Thread nD τ).loc main_arg4))) (ix1 q)) :=
  (hB1_b (W12 (F := Ideal) m ρ c) 0 q).trans (congrFun (f12_main_v67 m ρ c hc0) (ix1 q))
theorem f13_row_g (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W13 (F := Ideal) m ρ c) (Proc.devRef .tc main_v95) (ix2 (0 : Fin 1) q)) ((val_main_v122 (F := Ideal) (m ((c : Thread nD τ).loc main_arg5))) (ix1 q)) :=
  (hB1_g (W12 (F := Ideal) m ρ c) 0 q).trans (congrFun (f12_main_v69 m ρ c hc0) (ix1 q))
theorem f13_row_be (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W13 (F := Ideal) m ρ c) (Proc.devRef .tc main_v96) (ix2 (0 : Fin 1) q)) ((val_main_v127 (F := Ideal) (m ((c : Thread nD τ).loc main_arg6))) (ix1 q)) :=
  (hB1_be (W12 (F := Ideal) m ρ c) 0 q).trans (congrFun (f12_main_v71 m ρ c hc0) (ix1 q))
theorem f14_main_v97 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W14 (F := Ideal) m ρ c) (Proc.devRef .tc main_v97) = (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  by
  refine (W14_arr m ρ c 6).trans ?_
  funext i
  obtain ⟨r, q, rfl⟩ : ∃ (r : Fin 100000) (q : Fin 64), i = ix2 r q := ⟨i 0, i 1, eq_ix2 i⟩
  refine (norm5_apply (V13 (F := Ideal) m ρ) c r q).trans ?_
  have hX : norm5_X (V13 (F := Ideal) m ρ) c = (val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := (f13_main_v85 m ρ c hc0)
  have e1 := congrArg₂ (· + ·) (congrFun hX (ix2 r q)) (f13_row_b m ρ c hc0 q)
  have e2 := congrArg₂ (· - ·) e1 (f13_mean m ρ c hc0 q)
  have e3 := congrArg₂ (· * ·) e2 (congrArg Ideal.rsqrt (congrArg (· + Ideal.ofBits .f32 0x3727C5AC#32) (f13_var m ρ c hc0 q)))
  have e4 := congrArg₂ (· * ·) e3 (f13_row_g m ρ c hc0 q)
  have e5 := congrArg₂ (· + ·) e4 (f13_row_be m ρ c hc0 q)
  refine (congrArg₂ max e5 Ideal.ofBits_zero_f32).trans ?_
  exact (Cert.Core.outK_eq_outR (hc1 q) _ _ r).trans (Cert.ReferenceIdeal.Layer.ref_out1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) r q).symm
theorem f14_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W14 (F := Ideal) m ρ c) (Proc.devRef .tc main_v3) = (val_main_v3 (F := Ideal) (m ((c : Thread nD τ).loc main_arg1))) :=
  (W14_of_ne m ρ c main_v3 (by decide)).trans (f13_main_v3 m ρ c hc0)
theorem f14_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W14 (F := Ideal) m ρ c) (Proc.devRef .tc main_v6) = (val_main_v6 (F := Ideal) (m ((c : Thread nD τ).loc main_arg1))) :=
  (W14_of_ne m ρ c main_v6 (by decide)).trans (f13_main_v6 m ρ c hc0)
theorem f14_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W14 (F := Ideal) m ρ c) (Proc.devRef .tc main_v29) = (val_main_v29 (F := Ideal) (m ((c : Thread nD τ).loc main_arg1))) :=
  (W14_of_ne m ρ c main_v29 (by decide)).trans (f13_main_v29 m ρ c hc0)
theorem f14_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W14 (F := Ideal) m ρ c) (Proc.devRef .tc main_arg2) = (m ((c : Thread nD τ).loc main_arg2)) :=
  (W14_of_ne m ρ c main_arg2 (by decide)).trans (f13_main_arg2 m ρ c hc0)
theorem f14_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W14 (F := Ideal) m ρ c) (Proc.devRef .tc main_arg3) = (m ((c : Thread nD τ).loc main_arg3)) :=
  (W14_of_ne m ρ c main_arg3 (by decide)).trans (f13_main_arg3 m ρ c hc0)
theorem f14_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W14 (F := Ideal) m ρ c) (Proc.devRef .tc main_arg4) = (m ((c : Thread nD τ).loc main_arg4)) :=
  (W14_of_ne m ρ c main_arg4 (by decide)).trans (f13_main_arg4 m ρ c hc0)
theorem f14_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W14 (F := Ideal) m ρ c) (Proc.devRef .tc main_arg5) = (m ((c : Thread nD τ).loc main_arg5)) :=
  (W14_of_ne m ρ c main_arg5 (by decide)).trans (f13_main_arg5 m ρ c hc0)
theorem f14_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W14 (F := Ideal) m ρ c) (Proc.devRef .tc main_arg6) = (m ((c : Thread nD τ).loc main_arg6)) :=
  (W14_of_ne m ρ c main_arg6 (by decide)).trans (f13_main_arg6 m ρ c hc0)
theorem f15_main_v99 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_v99) = (val_main_v133 (F := Ideal) (m ((c : Thread nD τ).loc main_arg3))) :=
  hC1_W (W14 (F := Ideal) m ρ c) (m ((c : Thread nD τ).loc main_arg3)) (f14_main_arg3 m ρ c hc0 hc1)
theorem f15_main_v101 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_v101) = (val_main_v149 (F := Ideal) (m ((c : Thread nD τ).loc main_arg4))) :=
  hC1_b (W14 (F := Ideal) m ρ c) (m ((c : Thread nD τ).loc main_arg4)) (f14_main_arg4 m ρ c hc0 hc1)
theorem f15_main_v103 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_v103) = (val_main_v173 (F := Ideal) (m ((c : Thread nD τ).loc main_arg5))) :=
  hC1_g (W14 (F := Ideal) m ρ c) (m ((c : Thread nD τ).loc main_arg5)) (f14_main_arg5 m ρ c hc0 hc1)
theorem f15_main_v105 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_v105) = (val_main_v178 (F := Ideal) (m ((c : Thread nD τ).loc main_arg6))) :=
  hC1_be (W14 (F := Ideal) m ρ c) (m ((c : Thread nD τ).loc main_arg6)) (f14_main_arg6 m ρ c hc0 hc1)
theorem f15_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_v3) = (val_main_v3 (F := Ideal) (m ((c : Thread nD τ).loc main_arg1))) :=
  (keep_hostOps6_main_v3 (W14 (F := Ideal) m ρ c)).trans (f14_main_v3 m ρ c hc0 hc1)
theorem f15_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_v6) = (val_main_v6 (F := Ideal) (m ((c : Thread nD τ).loc main_arg1))) :=
  (keep_hostOps6_main_v6 (W14 (F := Ideal) m ρ c)).trans (f14_main_v6 m ρ c hc0 hc1)
theorem f15_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_v29) = (val_main_v29 (F := Ideal) (m ((c : Thread nD τ).loc main_arg1))) :=
  (keep_hostOps6_main_v29 (W14 (F := Ideal) m ρ c)).trans (f14_main_v29 m ρ c hc0 hc1)
theorem f15_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_arg2) = (m ((c : Thread nD τ).loc main_arg2)) :=
  (keep_hostOps6_main_arg2 (W14 (F := Ideal) m ρ c)).trans (f14_main_arg2 m ρ c hc0 hc1)
theorem f15_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_arg3) = (m ((c : Thread nD τ).loc main_arg3)) :=
  (keep_hostOps6_main_arg3 (W14 (F := Ideal) m ρ c)).trans (f14_main_arg3 m ρ c hc0 hc1)
theorem f15_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_arg4) = (m ((c : Thread nD τ).loc main_arg4)) :=
  (keep_hostOps6_main_arg4 (W14 (F := Ideal) m ρ c)).trans (f14_main_arg4 m ρ c hc0 hc1)
theorem f15_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_arg5) = (m ((c : Thread nD τ).loc main_arg5)) :=
  (keep_hostOps6_main_arg5 (W14 (F := Ideal) m ρ c)).trans (f14_main_arg5 m ρ c hc0 hc1)
theorem f15_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_arg6) = (m ((c : Thread nD τ).loc main_arg6)) :=
  (keep_hostOps6_main_arg6 (W14 (F := Ideal) m ρ c)).trans (f14_main_arg6 m ρ c hc0 hc1)
theorem f15_main_v97 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W15 (F := Ideal) m ρ c) (Proc.devRef .tc main_v97) = (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (keep_hostOps6_main_v97 (W14 (F := Ideal) m ρ c)).trans (f14_main_v97 m ρ c hc0 hc1)

/-! ## Layer 3 -/

theorem f16_main_v106 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_v106) = (val_main_v134 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  by
  refine (W16_arr m ρ c 2).trans ?_
  funext i
  obtain ⟨r, q, rfl⟩ : ∃ (r : Fin 100000) (q : Fin 64), i = ix2 r q := ⟨i 0, i 1, eq_ix2 i⟩
  refine (lin6_apply (V15 (F := Ideal) m ρ) c r q).trans ?_
  refine ((val_main_v134_apply (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 r q)).trans ?_).symm
  have hA : lin6_A (V15 (F := Ideal) m ρ) c = (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := (f15_main_v97 m ρ c hc0 hc1)
  have hW : lin6_W (V15 (F := Ideal) m ρ) c = (val_main_v133 (F := Ideal) (m ((c : Thread nD τ).loc main_arg3))) := (f15_main_v99 m ρ c hc0 hc1)
  rw [hA, hW]
  exact Finset.sum_congr rfl fun kk _ => congrArg₂ (· * ·) (congrArg _ (funext fun a => by match a with | ⟨0, _⟩ => rfl | ⟨1, _⟩ => rfl)) (congrArg _ (funext fun a => by match a with | ⟨0, _⟩ => rfl | ⟨1, _⟩ => rfl))
theorem f16_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_v3) = (val_main_v3 (F := Ideal) (m ((c : Thread nD τ).loc main_arg1))) :=
  (W16_of_ne m ρ c main_v3 (by decide)).trans (f15_main_v3 m ρ c hc0 hc1)
theorem f16_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_v6) = (val_main_v6 (F := Ideal) (m ((c : Thread nD τ).loc main_arg1))) :=
  (W16_of_ne m ρ c main_v6 (by decide)).trans (f15_main_v6 m ρ c hc0 hc1)
theorem f16_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_v29) = (val_main_v29 (F := Ideal) (m ((c : Thread nD τ).loc main_arg1))) :=
  (W16_of_ne m ρ c main_v29 (by decide)).trans (f15_main_v29 m ρ c hc0 hc1)
theorem f16_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_arg2) = (m ((c : Thread nD τ).loc main_arg2)) :=
  (W16_of_ne m ρ c main_arg2 (by decide)).trans (f15_main_arg2 m ρ c hc0 hc1)
theorem f16_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_arg3) = (m ((c : Thread nD τ).loc main_arg3)) :=
  (W16_of_ne m ρ c main_arg3 (by decide)).trans (f15_main_arg3 m ρ c hc0 hc1)
theorem f16_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_arg4) = (m ((c : Thread nD τ).loc main_arg4)) :=
  (W16_of_ne m ρ c main_arg4 (by decide)).trans (f15_main_arg4 m ρ c hc0 hc1)
theorem f16_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_arg5) = (m ((c : Thread nD τ).loc main_arg5)) :=
  (W16_of_ne m ρ c main_arg5 (by decide)).trans (f15_main_arg5 m ρ c hc0 hc1)
theorem f16_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_arg6) = (m ((c : Thread nD τ).loc main_arg6)) :=
  (W16_of_ne m ρ c main_arg6 (by decide)).trans (f15_main_arg6 m ρ c hc0 hc1)
theorem f16_main_v101 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_v101) = (val_main_v149 (F := Ideal) (m ((c : Thread nD τ).loc main_arg4))) :=
  (W16_of_ne m ρ c main_v101 (by decide)).trans (f15_main_v101 m ρ c hc0 hc1)
theorem f16_main_v103 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_v103) = (val_main_v173 (F := Ideal) (m ((c : Thread nD τ).loc main_arg5))) :=
  (W16_of_ne m ρ c main_v103 (by decide)).trans (f15_main_v103 m ρ c hc0 hc1)
theorem f16_main_v105 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W16 (F := Ideal) m ρ c) (Proc.devRef .tc main_v105) = (val_main_v178 (F := Ideal) (m ((c : Thread nD τ).loc main_arg6))) :=
  (W16_of_ne m ρ c main_v105 (by decide)).trans (f15_main_v105 m ρ c hc0 hc1)
theorem f17_main_v119 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_v119) = (val_main_v147 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  hA2_agg (W16 (F := Ideal) m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (f16_main_v106 m ρ c hc0 hc1) (f16_main_v3 m ρ c hc0 hc1) (f16_main_v6 m ρ c hc0 hc1) (f16_main_v29 m ρ c hc0 hc1)
theorem f17_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_v3) = (val_main_v3 (F := Ideal) (m ((c : Thread nD τ).loc main_arg1))) :=
  (keep_hostOps7_main_v3 (W16 (F := Ideal) m ρ c)).trans (f16_main_v3 m ρ c hc0 hc1)
theorem f17_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_v6) = (val_main_v6 (F := Ideal) (m ((c : Thread nD τ).loc main_arg1))) :=
  (keep_hostOps7_main_v6 (W16 (F := Ideal) m ρ c)).trans (f16_main_v6 m ρ c hc0 hc1)
theorem f17_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_v29) = (val_main_v29 (F := Ideal) (m ((c : Thread nD τ).loc main_arg1))) :=
  (keep_hostOps7_main_v29 (W16 (F := Ideal) m ρ c)).trans (f16_main_v29 m ρ c hc0 hc1)
theorem f17_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_arg2) = (m ((c : Thread nD τ).loc main_arg2)) :=
  (keep_hostOps7_main_arg2 (W16 (F := Ideal) m ρ c)).trans (f16_main_arg2 m ρ c hc0 hc1)
theorem f17_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_arg3) = (m ((c : Thread nD τ).loc main_arg3)) :=
  (keep_hostOps7_main_arg3 (W16 (F := Ideal) m ρ c)).trans (f16_main_arg3 m ρ c hc0 hc1)
theorem f17_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_arg4) = (m ((c : Thread nD τ).loc main_arg4)) :=
  (keep_hostOps7_main_arg4 (W16 (F := Ideal) m ρ c)).trans (f16_main_arg4 m ρ c hc0 hc1)
theorem f17_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_arg5) = (m ((c : Thread nD τ).loc main_arg5)) :=
  (keep_hostOps7_main_arg5 (W16 (F := Ideal) m ρ c)).trans (f16_main_arg5 m ρ c hc0 hc1)
theorem f17_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_arg6) = (m ((c : Thread nD τ).loc main_arg6)) :=
  (keep_hostOps7_main_arg6 (W16 (F := Ideal) m ρ c)).trans (f16_main_arg6 m ρ c hc0 hc1)
theorem f17_main_v101 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_v101) = (val_main_v149 (F := Ideal) (m ((c : Thread nD τ).loc main_arg4))) :=
  (keep_hostOps7_main_v101 (W16 (F := Ideal) m ρ c)).trans (f16_main_v101 m ρ c hc0 hc1)
theorem f17_main_v103 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_v103) = (val_main_v173 (F := Ideal) (m ((c : Thread nD τ).loc main_arg5))) :=
  (keep_hostOps7_main_v103 (W16 (F := Ideal) m ρ c)).trans (f16_main_v103 m ρ c hc0 hc1)
theorem f17_main_v105 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W17 (F := Ideal) m ρ c) (Proc.devRef .tc main_v105) = (val_main_v178 (F := Ideal) (m ((c : Thread nD τ).loc main_arg6))) :=
  (keep_hostOps7_main_v105 (W16 (F := Ideal) m ρ c)).trans (f16_main_v105 m ρ c hc0 hc1)
theorem f17_main_v120 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W17 (F := Ideal) m ρ c) (Proc.devRef .tc main_v120) (ix2 (0 : Fin 1) q)) ((val_main_v149 (F := Ideal) (m ((c : Thread nD τ).loc main_arg4))) (ix1 q)) :=
  (hA2_brow (W16 (F := Ideal) m ρ c) 0 q).trans (congrFun (f16_main_v101 m ρ c hc0 hc1) (ix1 q))
theorem f18_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_v3) = (val_main_v3 (F := Ideal) (m ((c : Thread nD τ).loc main_arg1))) :=
  (W18_of_ne m ρ c main_v3 (by decide)).trans (f17_main_v3 m ρ c hc0 hc1)
theorem f18_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_v6) = (val_main_v6 (F := Ideal) (m ((c : Thread nD τ).loc main_arg1))) :=
  (W18_of_ne m ρ c main_v6 (by decide)).trans (f17_main_v6 m ρ c hc0 hc1)
theorem f18_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_v29) = (val_main_v29 (F := Ideal) (m ((c : Thread nD τ).loc main_arg1))) :=
  (W18_of_ne m ρ c main_v29 (by decide)).trans (f17_main_v29 m ρ c hc0 hc1)
theorem f18_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_arg2) = (m ((c : Thread nD τ).loc main_arg2)) :=
  (W18_of_ne m ρ c main_arg2 (by decide)).trans (f17_main_arg2 m ρ c hc0 hc1)
theorem f18_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_arg3) = (m ((c : Thread nD τ).loc main_arg3)) :=
  (W18_of_ne m ρ c main_arg3 (by decide)).trans (f17_main_arg3 m ρ c hc0 hc1)
theorem f18_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_arg4) = (m ((c : Thread nD τ).loc main_arg4)) :=
  (W18_of_ne m ρ c main_arg4 (by decide)).trans (f17_main_arg4 m ρ c hc0 hc1)
theorem f18_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_arg5) = (m ((c : Thread nD τ).loc main_arg5)) :=
  (W18_of_ne m ρ c main_arg5 (by decide)).trans (f17_main_arg5 m ρ c hc0 hc1)
theorem f18_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_arg6) = (m ((c : Thread nD τ).loc main_arg6)) :=
  (W18_of_ne m ρ c main_arg6 (by decide)).trans (f17_main_arg6 m ρ c hc0 hc1)
theorem f18_main_v101 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_v101) = (val_main_v149 (F := Ideal) (m ((c : Thread nD τ).loc main_arg4))) :=
  (W18_of_ne m ρ c main_v101 (by decide)).trans (f17_main_v101 m ρ c hc0 hc1)
theorem f18_main_v103 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_v103) = (val_main_v173 (F := Ideal) (m ((c : Thread nD τ).loc main_arg5))) :=
  (W18_of_ne m ρ c main_v103 (by decide)).trans (f17_main_v103 m ρ c hc0 hc1)
theorem f18_main_v105 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_v105) = (val_main_v178 (F := Ideal) (m ((c : Thread nD τ).loc main_arg6))) :=
  (W18_of_ne m ρ c main_v105 (by decide)).trans (f17_main_v105 m ρ c hc0 hc1)
theorem f18_main_v119 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W18 (F := Ideal) m ρ c) (Proc.devRef .tc main_v119) = (val_main_v147 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  ((W18_arr m ρ c 0).trans (((dat7 (V17 (F := Ideal) m ρ) c).arrAt_in 0 rfl _).trans (A_eq7 (V17 (F := Ideal) m ρ) c 0))).trans (f17_main_v119 m ρ c hc0 hc1)
theorem f18_sum (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W18 (F := Ideal) m ρ c) (Proc.devRef .tc main_v121_0) (ix2 (0 : Fin 1) q)) (∑ r : Fin 100000, (Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r) :=
  (congrFun (W18_arr m ρ c 2) (ix2 (0 : Fin 1) q)).trans ((sum7_apply (V17 (F := Ideal) m ρ) c q).trans (Finset.sum_congr rfl (fun r _ => congrArg₂ (· + ·) (congrFun (show statsX7 (V17 (F := Ideal) m ρ) c = (val_main_v147 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) from (f17_main_v119 m ρ c hc0 hc1)) (ix2 r q)) (f17_main_v120 m ρ c hc0 hc1 q))))
theorem f18_sumsq (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W18 (F := Ideal) m ρ c) (Proc.devRef .tc main_v121_1) (ix2 (0 : Fin 1) q)) (∑ r : Fin 100000, (Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r * (Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r) :=
  (congrFun (W18_arr m ρ c 3) (ix2 (0 : Fin 1) q)).trans ((sumsq7_apply (V17 (F := Ideal) m ρ) c q).trans (Finset.sum_congr rfl fun r hr => congrArg₂ (· * ·) ((fun r _ => congrArg₂ (· + ·) (congrFun (show statsX7 (V17 (F := Ideal) m ρ) c = (val_main_v147 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) from (f17_main_v119 m ρ c hc0 hc1)) (ix2 r q)) (f17_main_v120 m ρ c hc0 hc1 q)) r hr) ((fun r _ => congrArg₂ (· + ·) (congrFun (show statsX7 (V17 (F := Ideal) m ρ) c = (val_main_v147 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) from (f17_main_v119 m ρ c hc0 hc1)) (ix2 r q)) (f17_main_v120 m ρ c hc0 hc1 q)) r hr)))
theorem f19_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W19 (F := Ideal) m ρ c) (Proc.devRef .tc main_v3) = (val_main_v3 (F := Ideal) (m ((c : Thread nD τ).loc main_arg1))) :=
  (keep_hostOps8_main_v3 (W18 (F := Ideal) m ρ c)).trans (f18_main_v3 m ρ c hc0 hc1)
theorem f19_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W19 (F := Ideal) m ρ c) (Proc.devRef .tc main_v6) = (val_main_v6 (F := Ideal) (m ((c : Thread nD τ).loc main_arg1))) :=
  (keep_hostOps8_main_v6 (W18 (F := Ideal) m ρ c)).trans (f18_main_v6 m ρ c hc0 hc1)
theorem f19_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W19 (F := Ideal) m ρ c) (Proc.devRef .tc main_v29) = (val_main_v29 (F := Ideal) (m ((c : Thread nD τ).loc main_arg1))) :=
  (keep_hostOps8_main_v29 (W18 (F := Ideal) m ρ c)).trans (f18_main_v29 m ρ c hc0 hc1)
theorem f19_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W19 (F := Ideal) m ρ c) (Proc.devRef .tc main_arg2) = (m ((c : Thread nD τ).loc main_arg2)) :=
  (keep_hostOps8_main_arg2 (W18 (F := Ideal) m ρ c)).trans (f18_main_arg2 m ρ c hc0 hc1)
theorem f19_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W19 (F := Ideal) m ρ c) (Proc.devRef .tc main_arg3) = (m ((c : Thread nD τ).loc main_arg3)) :=
  (keep_hostOps8_main_arg3 (W18 (F := Ideal) m ρ c)).trans (f18_main_arg3 m ρ c hc0 hc1)
theorem f19_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W19 (F := Ideal) m ρ c) (Proc.devRef .tc main_arg4) = (m ((c : Thread nD τ).loc main_arg4)) :=
  (keep_hostOps8_main_arg4 (W18 (F := Ideal) m ρ c)).trans (f18_main_arg4 m ρ c hc0 hc1)
theorem f19_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W19 (F := Ideal) m ρ c) (Proc.devRef .tc main_arg5) = (m ((c : Thread nD τ).loc main_arg5)) :=
  (keep_hostOps8_main_arg5 (W18 (F := Ideal) m ρ c)).trans (f18_main_arg5 m ρ c hc0 hc1)
theorem f19_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W19 (F := Ideal) m ρ c) (Proc.devRef .tc main_arg6) = (m ((c : Thread nD τ).loc main_arg6)) :=
  (keep_hostOps8_main_arg6 (W18 (F := Ideal) m ρ c)).trans (f18_main_arg6 m ρ c hc0 hc1)
theorem f19_main_v119 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W19 (F := Ideal) m ρ c) (Proc.devRef .tc main_v119) = (val_main_v147 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (keep_hostOps8_main_v119 (W18 (F := Ideal) m ρ c)).trans (f18_main_v119 m ρ c hc0 hc1)
theorem f19_mean (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W19 (F := Ideal) m ρ c) (Proc.devRef .tc main_v123) (ix2 (0 : Fin 1) q)) (Cert.Core.mean (Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q)) :=
  (hB2_mean (W18 (F := Ideal) m ρ c) 0 q).trans (congrArg₂ Ideal.div (f18_sum m ρ c hc0 hc1 q) Cert.Core.ofBits_n)
theorem f19_var (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W19 (F := Ideal) m ρ c) (Proc.devRef .tc main_v127) (ix2 (0 : Fin 1) q)) (Cert.Core.varK (Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q)) :=
  (hB2_var (W18 (F := Ideal) m ρ c) 0 q).trans (congrArg₂ (· - ·) (congrArg₂ Ideal.div (f18_sumsq m ρ c hc0 hc1 q) Cert.Core.ofBits_n)
    (congrArg₂ (· * ·) (congrArg₂ Ideal.div (f18_sum m ρ c hc0 hc1 q) Cert.Core.ofBits_n) (congrArg₂ Ideal.div (f18_sum m ρ c hc0 hc1 q) Cert.Core.ofBits_n)))
theorem f19_row_b (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W19 (F := Ideal) m ρ c) (Proc.devRef .tc main_v128) (ix2 (0 : Fin 1) q)) ((val_main_v149 (F := Ideal) (m ((c : Thread nD τ).loc main_arg4))) (ix1 q)) :=
  (hB2_b (W18 (F := Ideal) m ρ c) 0 q).trans (congrFun (f18_main_v101 m ρ c hc0 hc1) (ix1 q))
theorem f19_row_g (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W19 (F := Ideal) m ρ c) (Proc.devRef .tc main_v129) (ix2 (0 : Fin 1) q)) ((val_main_v173 (F := Ideal) (m ((c : Thread nD τ).loc main_arg5))) (ix1 q)) :=
  (hB2_g (W18 (F := Ideal) m ρ c) 0 q).trans (congrFun (f18_main_v103 m ρ c hc0 hc1) (ix1 q))
theorem f19_row_be (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (q : Fin 64) :
    @Eq EReal ((W19 (F := Ideal) m ρ c) (Proc.devRef .tc main_v130) (ix2 (0 : Fin 1) q)) ((val_main_v178 (F := Ideal) (m ((c : Thread nD τ).loc main_arg6))) (ix1 q)) :=
  (hB2_be (W18 (F := Ideal) m ρ c) 0 q).trans (congrFun (f18_main_v105 m ρ c hc0 hc1) (ix1 q))
theorem f20_main_v131 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc2 : ∀ (q : Fin 64) (r : Fin 100000), Cert.Core.IsReal ((Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W20 (F := Ideal) m ρ c) (Proc.devRef .tc main_v131) = (val_main_v182 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  by
  refine (W20_arr m ρ c 6).trans ?_
  funext i
  obtain ⟨r, q, rfl⟩ : ∃ (r : Fin 100000) (q : Fin 64), i = ix2 r q := ⟨i 0, i 1, eq_ix2 i⟩
  refine (norm8_apply (V19 (F := Ideal) m ρ) c r q).trans ?_
  have hX : norm8_X (V19 (F := Ideal) m ρ) c = (val_main_v147 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := (f19_main_v119 m ρ c hc0 hc1)
  have e1 := congrArg₂ (· + ·) (congrFun hX (ix2 r q)) (f19_row_b m ρ c hc0 hc1 q)
  have e2 := congrArg₂ (· - ·) e1 (f19_mean m ρ c hc0 hc1 q)
  have e3 := congrArg₂ (· * ·) e2 (congrArg Ideal.rsqrt (congrArg (· + Ideal.ofBits .f32 0x3727C5AC#32) (f19_var m ρ c hc0 hc1 q)))
  have e4 := congrArg₂ (· * ·) e3 (f19_row_g m ρ c hc0 hc1 q)
  have e5 := congrArg₂ (· + ·) e4 (f19_row_be m ρ c hc0 hc1 q)
  refine (congrArg₂ max e5 Ideal.ofBits_zero_f32).trans ?_
  exact (Cert.Core.outK_eq_outR (hc2 q) _ _ r).trans (Cert.ReferenceIdeal.Layer.ref_out2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) r q).symm
theorem f20_main_v3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc2 : ∀ (q : Fin 64) (r : Fin 100000), Cert.Core.IsReal ((Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W20 (F := Ideal) m ρ c) (Proc.devRef .tc main_v3) = (val_main_v3 (F := Ideal) (m ((c : Thread nD τ).loc main_arg1))) :=
  (W20_of_ne m ρ c main_v3 (by decide)).trans (f19_main_v3 m ρ c hc0 hc1)
theorem f20_main_v6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc2 : ∀ (q : Fin 64) (r : Fin 100000), Cert.Core.IsReal ((Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W20 (F := Ideal) m ρ c) (Proc.devRef .tc main_v6) = (val_main_v6 (F := Ideal) (m ((c : Thread nD τ).loc main_arg1))) :=
  (W20_of_ne m ρ c main_v6 (by decide)).trans (f19_main_v6 m ρ c hc0 hc1)
theorem f20_main_v29 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc2 : ∀ (q : Fin 64) (r : Fin 100000), Cert.Core.IsReal ((Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W20 (F := Ideal) m ρ c) (Proc.devRef .tc main_v29) = (val_main_v29 (F := Ideal) (m ((c : Thread nD τ).loc main_arg1))) :=
  (W20_of_ne m ρ c main_v29 (by decide)).trans (f19_main_v29 m ρ c hc0 hc1)
theorem f20_main_arg2 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc2 : ∀ (q : Fin 64) (r : Fin 100000), Cert.Core.IsReal ((Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W20 (F := Ideal) m ρ c) (Proc.devRef .tc main_arg2) = (m ((c : Thread nD τ).loc main_arg2)) :=
  (W20_of_ne m ρ c main_arg2 (by decide)).trans (f19_main_arg2 m ρ c hc0 hc1)
theorem f20_main_arg3 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc2 : ∀ (q : Fin 64) (r : Fin 100000), Cert.Core.IsReal ((Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W20 (F := Ideal) m ρ c) (Proc.devRef .tc main_arg3) = (m ((c : Thread nD τ).loc main_arg3)) :=
  (W20_of_ne m ρ c main_arg3 (by decide)).trans (f19_main_arg3 m ρ c hc0 hc1)
theorem f20_main_arg4 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc2 : ∀ (q : Fin 64) (r : Fin 100000), Cert.Core.IsReal ((Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W20 (F := Ideal) m ρ c) (Proc.devRef .tc main_arg4) = (m ((c : Thread nD τ).loc main_arg4)) :=
  (W20_of_ne m ρ c main_arg4 (by decide)).trans (f19_main_arg4 m ρ c hc0 hc1)
theorem f20_main_arg5 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc2 : ∀ (q : Fin 64) (r : Fin 100000), Cert.Core.IsReal ((Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W20 (F := Ideal) m ρ c) (Proc.devRef .tc main_arg5) = (m ((c : Thread nD τ).loc main_arg5)) :=
  (W20_of_ne m ρ c main_arg5 (by decide)).trans (f19_main_arg5 m ρ c hc0 hc1)
theorem f20_main_arg6 (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc2 : ∀ (q : Fin 64) (r : Fin 100000), Cert.Core.IsReal ((Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W20 (F := Ideal) m ρ c) (Proc.devRef .tc main_arg6) = (m ((c : Thread nD τ).loc main_arg6)) :=
  (W20_of_ne m ρ c main_arg6 (by decide)).trans (f19_main_arg6 m ρ c hc0 hc1)
theorem kernel_value (hc0 : ∀ (q : Fin 64) (r : Fin 100000), Cert.Core.IsReal ((Cert.ReferenceIdeal.Layer.col0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc1 : ∀ (q : Fin 64) (r : Fin 100000), Cert.Core.IsReal ((Cert.ReferenceIdeal.Layer.col1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) (hc2 : ∀ (q : Fin 64) (r : Fin 100000), Cert.Core.IsReal ((Cert.ReferenceIdeal.Layer.col2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) q) r)) :
    (W21 (F := Ideal) m ρ c) (Proc.devRef .tc main_v143) = (val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  hTail (W20 (F := Ideal) m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (f20_main_v131 m ρ c hc0 hc1 hc2) (f20_main_arg2 m ρ c hc0 hc1 hc2)

end Cert.KernelIdeal.Chain

end
-- ==== Proof.RefRunOps.lean ====
/-
The reference program's @main as a straight line of 239 host operations, and the same line cut into eleven
  consecutive pieces: the edge lists with self-loops; the edge normalisation (before, at and after its selection); each of the
  three layers up to its clamp and the clamp; the mean pooling over graphs.
-/
import proofs.«132062_j28845000360070_1_alg».proof.Proof.Gen.ReferenceIdeal
import Idealize.ShloMosaic.Lib.StableHlo.Run

noncomputable section

namespace Cert.ReferenceIdeal.RunV

open Cert.ReferenceIdeal Cert.ReferenceIdeal.Gen
open Idealize.ShloMosaic Idealize.ShloMosaic.TcCoe Idealize.SL.Sem Idealize.ShloMosaic.StableHlo

variable {F : FTy → Type} [FloatOps F]

/-- @main's 239 operations, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_arg3 main_v30 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v30 main_v31 rfl shapeCasts_S1x64x64_S64x64,
    binary main_arg0 main_v31 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v46 ((extractStridedSlice S1x64 ![0, 0] · slices_S3x64_S1x64_0_0) : (⟨S3x64, .f32⟩ : BufTy).Contents (Elt F) → (⟨S1x64, .f32⟩ : BufTy).Contents (Elt F)),
    reshape main_v46 main_v47 rfl shapeCasts_S1x64_S64,
    unary main_v47 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v45 main_v49 main_v50 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    binary main_v50 main_cst_9 main_v51 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v52 (broadcastInDim S64 ![] bcast_S_S64 : (⟨S_, .f32⟩ : BufTy).Contents (Elt F) → (⟨S64, .f32⟩ : BufTy).Contents (Elt F)),
    binary main_v51 main_v52 main_v53 (Host.divf : (⟨S64, .f32⟩ : BufTy).Contents (Elt F) → (⟨S64, .f32⟩ : BufTy).Contents (Elt F) → (⟨S64, .f32⟩ : BufTy).Contents (Elt F)),
    unary main_v53 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v50 main_v55 main_v56 (subf : (⟨S100000x64, .f32⟩ : BufTy).Contents (Elt F) → (⟨S100000x64, .f32⟩ : BufTy).Contents (Elt F) → (⟨S100000x64, .f32⟩ : BufTy).Contents (Elt F)),
    binary main_v56 main_v56 main_v57 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x00000000#32),
    binary main_v57 main_cst_11 main_v58 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v59 (broadcastInDim S64 ![] bcast_S_S64 : (⟨S_, .f32⟩ : BufTy).Contents (Elt F) → (⟨S64, .f32⟩ : BufTy).Contents (Elt F)),
    binary main_v58 main_v59 main_v60 (Host.divf : (⟨S64, .f32⟩ : BufTy).Contents (Elt F) → (⟨S64, .f32⟩ : BufTy).Contents (Elt F) → (⟨S64, .f32⟩ : BufTy).Contents (Elt F)),
    unary main_v53 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v50 main_v62 main_v63 (subf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v64 (broadcastInDim S64 ![] bcast_S_S64 : (⟨S_, .f32⟩ : BufTy).Contents (Elt F) → (⟨S64, .f32⟩ : BufTy).Contents (Elt F)),
    binary main_v60 main_v64 main_v65 (addf : (⟨S64, .f32⟩ : BufTy).Contents (Elt F) → (⟨S64, .f32⟩ : BufTy).Contents (Elt F) → (⟨S64, .f32⟩ : BufTy).Contents (Elt F)),
    unary main_v65 main_v66 (Host.rsqrt : (⟨S64, .f32⟩ : BufTy).Contents (Elt F) → (⟨S64, .f32⟩ : BufTy).Contents (Elt F)),
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v63 main_v68 main_v69 (mulf : (⟨S100000x64, .f32⟩ : BufTy).Contents (Elt F) → (⟨S100000x64, .f32⟩ : BufTy).Contents (Elt F) → (⟨S100000x64, .f32⟩ : BufTy).Contents (Elt F)),
    unary main_arg5 main_v70 ((extractStridedSlice S1x64 ![0, 0] · slices_S3x64_S1x64_0_0) : (⟨S3x64, .f32⟩ : BufTy).Contents (Elt F) → (⟨S1x64, .f32⟩ : BufTy).Contents (Elt F)),
    reshape main_v70 main_v71 rfl shapeCasts_S1x64_S64,
    unary main_v71 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v69 main_v73 main_v74 (mulf : (⟨S100000x64, .f32⟩ : BufTy).Contents (Elt F) → (⟨S100000x64, .f32⟩ : BufTy).Contents (Elt F) → (⟨S100000x64, .f32⟩ : BufTy).Contents (Elt F)),
    unary main_arg6 main_v75 ((extractStridedSlice S1x64 ![0, 0] · slices_S3x64_S1x64_0_0) : (⟨S3x64, .f32⟩ : BufTy).Contents (Elt F) → (⟨S1x64, .f32⟩ : BufTy).Contents (Elt F)),
    reshape main_v75 main_v76 rfl shapeCasts_S1x64_S64,
    unary main_v76 main_v77 (broadcastInDim S1x64 ![1] bcast_S64_S1x64_1 : (⟨S64, .f32⟩ : BufTy).Contents (Elt F) → (⟨S1x64, .f32⟩ : BufTy).Contents (Elt F)),
    unary main_v77 main_v78 (broadcastInDim S100000x64 ![0, 1] bcast_S1x64_S100000x64_0_1 : (⟨S1x64, .f32⟩ : BufTy).Contents (Elt F) → (⟨S100000x64, .f32⟩ : BufTy).Contents (Elt F)),
    binary main_v74 main_v78 main_v79 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v79) (TRef.of (T := ⟨S100000x64, .f32⟩) main_call1_v0) (TRef.of (T := ⟨S100000x64, .f32⟩) main_v80) maximumf,
    unary main_arg3 main_v81 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v81 main_v82 rfl shapeCasts_S1x64x64_S64x64,
    binary main_v80 main_v82 main_v83 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_14 (constantI S_ 32 0#32),
    unary main_c_14 main_v84 (broadcastInDim S1700000 ![] bcast_S_S1700000 : (⟨S_, .i32⟩ : BufTy).Contents (Elt F) → (⟨S1700000, .i32⟩ : BufTy).Contents (Elt F)),
    binary main_v3 main_v84 main_v85 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v86 (broadcastInDim S1700000 ![] bcast_S_S1700000 : (⟨S_, .i32⟩ : BufTy).Contents (Elt F) → (⟨S1700000, .i32⟩ : BufTy).Contents (Elt F)),
    binary main_v3 main_v86 main_v87 (addi : (⟨S1700000, .i32⟩ : BufTy).Contents (Elt F) → (⟨S1700000, .i32⟩ : BufTy).Contents (Elt F) → (⟨S1700000, .i32⟩ : BufTy).Contents (Elt F)),
    ternary main_v85 main_v87 main_v3 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v88 main_v89 (broadcastInDim S1700000x1 ![0] bcast_S1700000_S1700000x1_0 : (⟨S1700000, .i32⟩ : BufTy).Contents (Elt F) → (⟨S1700000x1, .i32⟩ : BufTy).Contents (Elt F)),
    binary main_v83 main_v89 main_v90 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v91 (broadcastInDim S1700000x1 ![0] bcast_S1700000_S1700000x1_0 : (⟨S1700000, .f32⟩ : BufTy).Contents (Elt F) → (⟨S1700000x1, .f32⟩ : BufTy).Contents (Elt F)),
    unary main_v91 main_v92 (broadcastInDim S1700000x64 ![0, 1] bcast_S1700000x1_S1700000x64_0_1 : (⟨S1700000x1, .f32⟩ : BufTy).Contents (Elt F) → (⟨S1700000x64, .f32⟩ : BufTy).Contents (Elt F)),
    binary main_v90 main_v92 main_v93 (mulf : (⟨S1700000x64, .f32⟩ : BufTy).Contents (Elt F) → (⟨S1700000x64, .f32⟩ : BufTy).Contents (Elt F) → (⟨S1700000x64, .f32⟩ : BufTy).Contents (Elt F)),
    nullary main_cst_16 (constant S_ .f32 0x00000000#32),
    unary main_cst_16 main_v94 (broadcastInDim S100000x64 ![] bcast_S_S100000x64 : (⟨S_, .f32⟩ : BufTy).Contents (Elt F) → (⟨S100000x64, .f32⟩ : BufTy).Contents (Elt F)),
    unary main_v6 main_v95 (broadcastInDim S1700000x1 ![0] bcast_S1700000_S1700000x1_0 : (⟨S1700000, .i32⟩ : BufTy).Contents (Elt F) → (⟨S1700000x1, .i32⟩ : BufTy).Contents (Elt F)),
    ternary main_v94 main_v95 main_v93 main_v96 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v97 ((extractStridedSlice S1x64 ![1, 0] · slices_S3x64_S1x64_1_0) : (⟨S3x64, .f32⟩ : BufTy).Contents (Elt F) → (⟨S1x64, .f32⟩ : BufTy).Contents (Elt F)),
    reshape main_v97 main_v98 rfl shapeCasts_S1x64_S64,
    unary main_v98 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v96 main_v100 main_v101 (addf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v101 main_cst_17 main_v102 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v103 (broadcastInDim S64 ![] bcast_S_S64 : (⟨S_, .f32⟩ : BufTy).Contents (Elt F) → (⟨S64, .f32⟩ : BufTy).Contents (Elt F)),
    binary main_v102 main_v103 main_v104 (Host.divf : (⟨S64, .f32⟩ : BufTy).Contents (Elt F) → (⟨S64, .f32⟩ : BufTy).Contents (Elt F) → (⟨S64, .f32⟩ : BufTy).Contents (Elt F)),
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S100000x64 ![0, 1] bcast_S1x64_S100000x64_0_1 : (⟨S1x64, .f32⟩ : BufTy).Contents (Elt F) → (⟨S100000x64, .f32⟩ : BufTy).Contents (Elt F)),
    binary main_v101 main_v106 main_v107 (subf : (⟨S100000x64, .f32⟩ : BufTy).Contents (Elt F) → (⟨S100000x64, .f32⟩ : BufTy).Contents (Elt F) → (⟨S100000x64, .f32⟩ : BufTy).Contents (Elt F)),
    binary main_v107 main_v107 main_v108 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x00000000#32),
    binary main_v108 main_cst_19 main_v109 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_20 (constant S_ .f32 0x47C35000#32),
    unary main_cst_20 main_v110 (broadcastInDim S64 ![] bcast_S_S64 : (⟨S_, .f32⟩ : BufTy).Contents (Elt F) → (⟨S64, .f32⟩ : BufTy).Contents (Elt F)),
    binary main_v109 main_v110 main_v111 (Host.divf : (⟨S64, .f32⟩ : BufTy).Contents (Elt F) → (⟨S64, .f32⟩ : BufTy).Contents (Elt F) → (⟨S64, .f32⟩ : BufTy).Contents (Elt F)),
    unary main_v104 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v101 main_v113 main_v114 (subf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3727C5AC#32),
    unary main_cst_21 main_v115 (broadcastInDim S64 ![] bcast_S_S64 : (⟨S_, .f32⟩ : BufTy).Contents (Elt F) → (⟨S64, .f32⟩ : BufTy).Contents (Elt F)),
    binary main_v111 main_v115 main_v116 (addf : (⟨S64, .f32⟩ : BufTy).Contents (Elt F) → (⟨S64, .f32⟩ : BufTy).Contents (Elt F) → (⟨S64, .f32⟩ : BufTy).Contents (Elt F)),
    unary main_v116 main_v117 (Host.rsqrt : (⟨S64, .f32⟩ : BufTy).Contents (Elt F) → (⟨S64, .f32⟩ : BufTy).Contents (Elt F)),
    unary main_v117 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v114 main_v119 main_v120 (mulf : (⟨S100000x64, .f32⟩ : BufTy).Contents (Elt F) → (⟨S100000x64, .f32⟩ : BufTy).Contents (Elt F) → (⟨S100000x64, .f32⟩ : BufTy).Contents (Elt F)),
    unary main_arg5 main_v121 ((extractStridedSlice S1x64 ![1, 0] · slices_S3x64_S1x64_1_0) : (⟨S3x64, .f32⟩ : BufTy).Contents (Elt F) → (⟨S1x64, .f32⟩ : BufTy).Contents (Elt F)),
    reshape main_v121 main_v122 rfl shapeCasts_S1x64_S64,
    unary main_v122 main_v123 (broadcastInDim S1x64 ![1] bcast_S64_S1x64_1 : (⟨S64, .f32⟩ : BufTy).Contents (Elt F) → (⟨S1x64, .f32⟩ : BufTy).Contents (Elt F)),
    unary main_v123 main_v124 (broadcastInDim S100000x64 ![0, 1] bcast_S1x64_S100000x64_0_1 : (⟨S1x64, .f32⟩ : BufTy).Contents (Elt F) → (⟨S100000x64, .f32⟩ : BufTy).Contents (Elt F)),
    binary main_v120 main_v124 main_v125 (mulf : (⟨S100000x64, .f32⟩ : BufTy).Contents (Elt F) → (⟨S100000x64, .f32⟩ : BufTy).Contents (Elt F) → (⟨S100000x64, .f32⟩ : BufTy).Contents (Elt F)),
    unary main_arg6 main_v126 ((extractStridedSlice S1x64 ![1, 0] · slices_S3x64_S1x64_1_0) : (⟨S3x64, .f32⟩ : BufTy).Contents (Elt F) → (⟨S1x64, .f32⟩ : BufTy).Contents (Elt F)),
    reshape main_v126 main_v127 rfl shapeCasts_S1x64_S64,
    unary main_v127 main_v128 (broadcastInDim S1x64 ![1] bcast_S64_S1x64_1 : (⟨S64, .f32⟩ : BufTy).Contents (Elt F) → (⟨S1x64, .f32⟩ : BufTy).Contents (Elt F)),
    unary main_v128 main_v129 (broadcastInDim S100000x64 ![0, 1] bcast_S1x64_S100000x64_0_1 : (⟨S1x64, .f32⟩ : BufTy).Contents (Elt F) → (⟨S100000x64, .f32⟩ : BufTy).Contents (Elt F)),
    binary main_v125 main_v129 main_v130 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v130) (TRef.of (T := ⟨S100000x64, .f32⟩) main_call2_v0) (TRef.of (T := ⟨S100000x64, .f32⟩) main_v131) maximumf,
    unary main_arg3 main_v132 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v132 main_v133 rfl shapeCasts_S1x64x64_S64x64,
    binary main_v131 main_v133 main_v134 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_22 (constantI S_ 32 0#32),
    unary main_c_22 main_v135 (broadcastInDim S1700000 ![] bcast_S_S1700000 : (⟨S_, .i32⟩ : BufTy).Contents (Elt F) → (⟨S1700000, .i32⟩ : BufTy).Contents (Elt F)),
    binary main_v3 main_v135 main_v136 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v137 (broadcastInDim S1700000 ![] bcast_S_S1700000 : (⟨S_, .i32⟩ : BufTy).Contents (Elt F) → (⟨S1700000, .i32⟩ : BufTy).Contents (Elt F)),
    binary main_v3 main_v137 main_v138 (addi : (⟨S1700000, .i32⟩ : BufTy).Contents (Elt F) → (⟨S1700000, .i32⟩ : BufTy).Contents (Elt F) → (⟨S1700000, .i32⟩ : BufTy).Contents (Elt F)),
    ternary main_v136 main_v138 main_v3 main_v139 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v139 main_v140 (broadcastInDim S1700000x1 ![0] bcast_S1700000_S1700000x1_0 : (⟨S1700000, .i32⟩ : BufTy).Contents (Elt F) → (⟨S1700000x1, .i32⟩ : BufTy).Contents (Elt F)),
    binary main_v134 main_v140 main_v141 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v142 (broadcastInDim S1700000x1 ![0] bcast_S1700000_S1700000x1_0 : (⟨S1700000, .f32⟩ : BufTy).Contents (Elt F) → (⟨S1700000x1, .f32⟩ : BufTy).Contents (Elt F)),
    unary main_v142 main_v143 (broadcastInDim S1700000x64 ![0, 1] bcast_S1700000x1_S1700000x64_0_1 : (⟨S1700000x1, .f32⟩ : BufTy).Contents (Elt F) → (⟨S1700000x64, .f32⟩ : BufTy).Contents (Elt F)),
    binary main_v141 main_v143 main_v144 (mulf : (⟨S1700000x64, .f32⟩ : BufTy).Contents (Elt F) → (⟨S1700000x64, .f32⟩ : BufTy).Contents (Elt F) → (⟨S1700000x64, .f32⟩ : BufTy).Contents (Elt F)),
    nullary main_cst_24 (constant S_ .f32 0x00000000#32),
    unary main_cst_24 main_v145 (broadcastInDim S100000x64 ![] bcast_S_S100000x64 : (⟨S_, .f32⟩ : BufTy).Contents (Elt F) → (⟨S100000x64, .f32⟩ : BufTy).Contents (Elt F)),
    unary main_v6 main_v146 (broadcastInDim S1700000x1 ![0] bcast_S1700000_S1700000x1_0 : (⟨S1700000, .i32⟩ : BufTy).Contents (Elt F) → (⟨S1700000x1, .i32⟩ : BufTy).Contents (Elt F)),
    ternary main_v145 main_v146 main_v144 main_v147 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v148 ((extractStridedSlice S1x64 ![2, 0] · slices_S3x64_S1x64_2_0) : (⟨S3x64, .f32⟩ : BufTy).Contents (Elt F) → (⟨S1x64, .f32⟩ : BufTy).Contents (Elt F)),
    reshape main_v148 main_v149 rfl shapeCasts_S1x64_S64,
    unary main_v149 main_v150 (broadcastInDim S1x64 ![1] bcast_S64_S1x64_1 : (⟨S64, .f32⟩ : BufTy).Contents (Elt F) → (⟨S1x64, .f32⟩ : BufTy).Contents (Elt F)),
    unary main_v150 main_v151 (broadcastInDim S100000x64 ![0, 1] bcast_S1x64_S100000x64_0_1 : (⟨S1x64, .f32⟩ : BufTy).Contents (Elt F) → (⟨S100000x64, .f32⟩ : BufTy).Contents (Elt F)),
    binary main_v147 main_v151 main_v152 (addf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x00000000#32),
    binary main_v152 main_cst_25 main_v153 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v154 (broadcastInDim S64 ![] bcast_S_S64 : (⟨S_, .f32⟩ : BufTy).Contents (Elt F) → (⟨S64, .f32⟩ : BufTy).Contents (Elt F)),
    binary main_v153 main_v154 main_v155 (Host.divf : (⟨S64, .f32⟩ : BufTy).Contents (Elt F) → (⟨S64, .f32⟩ : BufTy).Contents (Elt F) → (⟨S64, .f32⟩ : BufTy).Contents (Elt F)),
    unary main_v155 main_v156 (broadcastInDim S1x64 ![1] bcast_S64_S1x64_1 : (⟨S64, .f32⟩ : BufTy).Contents (Elt F) → (⟨S1x64, .f32⟩ : BufTy).Contents (Elt F)),
    unary main_v156 main_v157 (broadcastInDim S100000x64 ![0, 1] bcast_S1x64_S100000x64_0_1 : (⟨S1x64, .f32⟩ : BufTy).Contents (Elt F) → (⟨S100000x64, .f32⟩ : BufTy).Contents (Elt F)),
    binary main_v152 main_v157 main_v158 (subf : (⟨S100000x64, .f32⟩ : BufTy).Contents (Elt F) → (⟨S100000x64, .f32⟩ : BufTy).Contents (Elt F) → (⟨S100000x64, .f32⟩ : BufTy).Contents (Elt F)),
    binary main_v158 main_v158 main_v159 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x00000000#32),
    binary main_v159 main_cst_27 main_v160 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v161 (broadcastInDim S64 ![] bcast_S_S64 : (⟨S_, .f32⟩ : BufTy).Contents (Elt F) → (⟨S64, .f32⟩ : BufTy).Contents (Elt F)),
    binary main_v160 main_v161 main_v162 (Host.divf : (⟨S64, .f32⟩ : BufTy).Contents (Elt F) → (⟨S64, .f32⟩ : BufTy).Contents (Elt F) → (⟨S64, .f32⟩ : BufTy).Contents (Elt F)),
    unary main_v155 main_v163 (broadcastInDim S1x64 ![1] bcast_S64_S1x64_1 : (⟨S64, .f32⟩ : BufTy).Contents (Elt F) → (⟨S1x64, .f32⟩ : BufTy).Contents (Elt F)),
    unary main_v163 main_v164 (broadcastInDim S100000x64 ![0, 1] bcast_S1x64_S100000x64_0_1 : (⟨S1x64, .f32⟩ : BufTy).Contents (Elt F) → (⟨S100000x64, .f32⟩ : BufTy).Contents (Elt F)),
    binary main_v152 main_v164 main_v165 (subf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x3727C5AC#32),
    unary main_cst_29 main_v166 (broadcastInDim S64 ![] bcast_S_S64 : (⟨S_, .f32⟩ : BufTy).Contents (Elt F) → (⟨S64, .f32⟩ : BufTy).Contents (Elt F)),
    binary main_v162 main_v166 main_v167 (addf : (⟨S64, .f32⟩ : BufTy).Contents (Elt F) → (⟨S64, .f32⟩ : BufTy).Contents (Elt F) → (⟨S64, .f32⟩ : BufTy).Contents (Elt F)),
    unary main_v167 main_v168 (Host.rsqrt : (⟨S64, .f32⟩ : BufTy).Contents (Elt F) → (⟨S64, .f32⟩ : BufTy).Contents (Elt F)),
    unary main_v168 main_v169 (broadcastInDim S1x64 ![1] bcast_S64_S1x64_1 : (⟨S64, .f32⟩ : BufTy).Contents (Elt F) → (⟨S1x64, .f32⟩ : BufTy).Contents (Elt F)),
    unary main_v169 main_v170 (broadcastInDim S100000x64 ![0, 1] bcast_S1x64_S100000x64_0_1 : (⟨S1x64, .f32⟩ : BufTy).Contents (Elt F) → (⟨S100000x64, .f32⟩ : BufTy).Contents (Elt F)),
    binary main_v165 main_v170 main_v171 (mulf : (⟨S100000x64, .f32⟩ : BufTy).Contents (Elt F) → (⟨S100000x64, .f32⟩ : BufTy).Contents (Elt F) → (⟨S100000x64, .f32⟩ : BufTy).Contents (Elt F)),
    unary main_arg5 main_v172 ((extractStridedSlice S1x64 ![2, 0] · slices_S3x64_S1x64_2_0) : (⟨S3x64, .f32⟩ : BufTy).Contents (Elt F) → (⟨S1x64, .f32⟩ : BufTy).Contents (Elt F)),
    reshape main_v172 main_v173 rfl shapeCasts_S1x64_S64,
    unary main_v173 main_v174 (broadcastInDim S1x64 ![1] bcast_S64_S1x64_1 : (⟨S64, .f32⟩ : BufTy).Contents (Elt F) → (⟨S1x64, .f32⟩ : BufTy).Contents (Elt F)),
    unary main_v174 main_v175 (broadcastInDim S100000x64 ![0, 1] bcast_S1x64_S100000x64_0_1 : (⟨S1x64, .f32⟩ : BufTy).Contents (Elt F) → (⟨S100000x64, .f32⟩ : BufTy).Contents (Elt F)),
    binary main_v171 main_v175 main_v176 (mulf : (⟨S100000x64, .f32⟩ : BufTy).Contents (Elt F) → (⟨S100000x64, .f32⟩ : BufTy).Contents (Elt F) → (⟨S100000x64, .f32⟩ : BufTy).Contents (Elt F)),
    unary main_arg6 main_v177 ((extractStridedSlice S1x64 ![2, 0] · slices_S3x64_S1x64_2_0) : (⟨S3x64, .f32⟩ : BufTy).Contents (Elt F) → (⟨S1x64, .f32⟩ : BufTy).Contents (Elt F)),
    reshape main_v177 main_v178 rfl shapeCasts_S1x64_S64,
    unary main_v178 main_v179 (broadcastInDim S1x64 ![1] bcast_S64_S1x64_1 : (⟨S64, .f32⟩ : BufTy).Contents (Elt F) → (⟨S1x64, .f32⟩ : BufTy).Contents (Elt F)),
    unary main_v179 main_v180 (broadcastInDim S100000x64 ![0, 1] bcast_S1x64_S100000x64_0_1 : (⟨S1x64, .f32⟩ : BufTy).Contents (Elt F) → (⟨S100000x64, .f32⟩ : BufTy).Contents (Elt F)),
    binary main_v176 main_v180 main_v181 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v181) (TRef.of (T := ⟨S100000x64, .f32⟩) main_call3_v0) (TRef.of (T := ⟨S100000x64, .f32⟩) main_v182) maximumf,
    nullary main_cst_30 (constant S_ .f32 0x00000000#32),
    unary main_cst_30 main_v183 (broadcastInDim S128x64 ![] bcast_S_S128x64 : (⟨S_, .f32⟩ : BufTy).Contents (Elt F) → (⟨S128x64, .f32⟩ : BufTy).Contents (Elt F)),
    unary main_arg2 main_v184 (broadcastInDim S100000x1 ![0] bcast_S100000_S100000x1_0 : (⟨S100000, .i32⟩ : BufTy).Contents (Elt F) → (⟨S100000x1, .i32⟩ : BufTy).Contents (Elt F)),
    ternary main_v183 main_v184 main_v182 main_v185 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_31 (constant S_ .f32 0x3F800000#32),
    unary main_cst_31 main_v186 (broadcastInDim S100000 ![] bcast_S_S100000 : (⟨S_, .f32⟩ : BufTy).Contents (Elt F) → (⟨S100000, .f32⟩ : BufTy).Contents (Elt F)),
    nullary main_cst_32 (constant S_ .f32 0x00000000#32),
    unary main_cst_32 main_v187 (broadcastInDim S128 ![] bcast_S_S128 : (⟨S_, .f32⟩ : BufTy).Contents (Elt F) → (⟨S128, .f32⟩ : BufTy).Contents (Elt F)),
    unary main_arg2 main_v188 (broadcastInDim S100000x1 ![0] bcast_S100000_S100000x1_0 : (⟨S100000, .i32⟩ : BufTy).Contents (Elt F) → (⟨S100000x1, .i32⟩ : BufTy).Contents (Elt F)),
    ternary main_v187 main_v188 main_v186 main_v189 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_33 (constant S_ .f32 0x3F800000#32),
    unary main_cst_33 main_v190 (broadcastInDim S128 ![] bcast_S_S128 : (⟨S_, .f32⟩ : BufTy).Contents (Elt F) → (⟨S128, .f32⟩ : BufTy).Contents (Elt F)),
    binary main_v189 main_v190 main_v191 (maximumf : (⟨S128, .f32⟩ : BufTy).Contents (Elt F) → (⟨S128, .f32⟩ : BufTy).Contents (Elt F) → (⟨S128, .f32⟩ : BufTy).Contents (Elt F)),
    unary main_v191 main_v192 (broadcastInDim S128x1 ![0] bcast_S128_S128x1_0 : (⟨S128, .f32⟩ : BufTy).Contents (Elt F) → (⟨S128x1, .f32⟩ : BufTy).Contents (Elt F)),
    unary main_v192 main_v193 (broadcastInDim S128x64 ![0, 1] bcast_S128x1_S128x64_0_1 : (⟨S128x1, .f32⟩ : BufTy).Contents (Elt F) → (⟨S128x64, .f32⟩ : BufTy).Contents (Elt F)),
    binary main_v185 main_v193 main_v194 (Host.divf : (⟨S128x64, .f32⟩ : BufTy).Contents (Elt F) → (⟨S128x64, .f32⟩ : BufTy).Contents (Elt F) → (⟨S128x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-! ## The pieces -/

abbrev opsPreA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

abbrev opsPreB1 : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

abbrev opsCall0 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

abbrev opsPreB2 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

abbrev opsL0a : List (HloOp τ sig (Elt F)) :=
  [ unary main_arg3 main_v30 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v30 main_v31 rfl shapeCasts_S1x64x64_S64x64,
    binary main_arg0 main_v31 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v46 ((extractStridedSlice S1x64 ![0, 0] · slices_S3x64_S1x64_0_0) : (⟨S3x64, .f32⟩ : BufTy).Contents (Elt F) → (⟨S1x64, .f32⟩ : BufTy).Contents (Elt F)),
    reshape main_v46 main_v47 rfl shapeCasts_S1x64_S64,
    unary main_v47 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v45 main_v49 main_v50 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    binary main_v50 main_cst_9 main_v51 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v52 (broadcastInDim S64 ![] bcast_S_S64 : (⟨S_, .f32⟩ : BufTy).Contents (Elt F) → (⟨S64, .f32⟩ : BufTy).Contents (Elt F)),
    binary main_v51 main_v52 main_v53 (Host.divf : (⟨S64, .f32⟩ : BufTy).Contents (Elt F) → (⟨S64, .f32⟩ : BufTy).Contents (Elt F) → (⟨S64, .f32⟩ : BufTy).Contents (Elt F)),
    unary main_v53 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v50 main_v55 main_v56 (subf : (⟨S100000x64, .f32⟩ : BufTy).Contents (Elt F) → (⟨S100000x64, .f32⟩ : BufTy).Contents (Elt F) → (⟨S100000x64, .f32⟩ : BufTy).Contents (Elt F)),
    binary main_v56 main_v56 main_v57 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x00000000#32),
    binary main_v57 main_cst_11 main_v58 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v59 (broadcastInDim S64 ![] bcast_S_S64 : (⟨S_, .f32⟩ : BufTy).Contents (Elt F) → (⟨S64, .f32⟩ : BufTy).Contents (Elt F)),
    binary main_v58 main_v59 main_v60 (Host.divf : (⟨S64, .f32⟩ : BufTy).Contents (Elt F) → (⟨S64, .f32⟩ : BufTy).Contents (Elt F) → (⟨S64, .f32⟩ : BufTy).Contents (Elt F)),
    unary main_v53 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v50 main_v62 main_v63 (subf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v64 (broadcastInDim S64 ![] bcast_S_S64 : (⟨S_, .f32⟩ : BufTy).Contents (Elt F) → (⟨S64, .f32⟩ : BufTy).Contents (Elt F)),
    binary main_v60 main_v64 main_v65 (addf : (⟨S64, .f32⟩ : BufTy).Contents (Elt F) → (⟨S64, .f32⟩ : BufTy).Contents (Elt F) → (⟨S64, .f32⟩ : BufTy).Contents (Elt F)),
    unary main_v65 main_v66 (Host.rsqrt : (⟨S64, .f32⟩ : BufTy).Contents (Elt F) → (⟨S64, .f32⟩ : BufTy).Contents (Elt F)),
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v63 main_v68 main_v69 (mulf : (⟨S100000x64, .f32⟩ : BufTy).Contents (Elt F) → (⟨S100000x64, .f32⟩ : BufTy).Contents (Elt F) → (⟨S100000x64, .f32⟩ : BufTy).Contents (Elt F)),
    unary main_arg5 main_v70 ((extractStridedSlice S1x64 ![0, 0] · slices_S3x64_S1x64_0_0) : (⟨S3x64, .f32⟩ : BufTy).Contents (Elt F) → (⟨S1x64, .f32⟩ : BufTy).Contents (Elt F)),
    reshape main_v70 main_v71 rfl shapeCasts_S1x64_S64,
    unary main_v71 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v69 main_v73 main_v74 (mulf : (⟨S100000x64, .f32⟩ : BufTy).Contents (Elt F) → (⟨S100000x64, .f32⟩ : BufTy).Contents (Elt F) → (⟨S100000x64, .f32⟩ : BufTy).Contents (Elt F)),
    unary main_arg6 main_v75 ((extractStridedSlice S1x64 ![0, 0] · slices_S3x64_S1x64_0_0) : (⟨S3x64, .f32⟩ : BufTy).Contents (Elt F) → (⟨S1x64, .f32⟩ : BufTy).Contents (Elt F)),
    reshape main_v75 main_v76 rfl shapeCasts_S1x64_S64,
    unary main_v76 main_v77 (broadcastInDim S1x64 ![1] bcast_S64_S1x64_1 : (⟨S64, .f32⟩ : BufTy).Contents (Elt F) → (⟨S1x64, .f32⟩ : BufTy).Contents (Elt F)),
    unary main_v77 main_v78 (broadcastInDim S100000x64 ![0, 1] bcast_S1x64_S100000x64_0_1 : (⟨S1x64, .f32⟩ : BufTy).Contents (Elt F) → (⟨S100000x64, .f32⟩ : BufTy).Contents (Elt F)),
    binary main_v74 main_v78 main_v79 (addf : (⟨S100000x64, .f32⟩ : BufTy).Contents (Elt F) → (⟨S100000x64, .f32⟩ : BufTy).Contents (Elt F) → (⟨S100000x64, .f32⟩ : BufTy).Contents (Elt F)) ]

abbrev opsL0b : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v79) (TRef.of (T := ⟨S100000x64, .f32⟩) main_call1_v0) (TRef.of (T := ⟨S100000x64, .f32⟩) main_v80) maximumf ]

abbrev opsL1a : List (HloOp τ sig (Elt F)) :=
  [ unary main_arg3 main_v81 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v81 main_v82 rfl shapeCasts_S1x64x64_S64x64,
    binary main_v80 main_v82 main_v83 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_14 (constantI S_ 32 0#32),
    unary main_c_14 main_v84 (broadcastInDim S1700000 ![] bcast_S_S1700000 : (⟨S_, .i32⟩ : BufTy).Contents (Elt F) → (⟨S1700000, .i32⟩ : BufTy).Contents (Elt F)),
    binary main_v3 main_v84 main_v85 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v86 (broadcastInDim S1700000 ![] bcast_S_S1700000 : (⟨S_, .i32⟩ : BufTy).Contents (Elt F) → (⟨S1700000, .i32⟩ : BufTy).Contents (Elt F)),
    binary main_v3 main_v86 main_v87 (addi : (⟨S1700000, .i32⟩ : BufTy).Contents (Elt F) → (⟨S1700000, .i32⟩ : BufTy).Contents (Elt F) → (⟨S1700000, .i32⟩ : BufTy).Contents (Elt F)),
    ternary main_v85 main_v87 main_v3 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v88 main_v89 (broadcastInDim S1700000x1 ![0] bcast_S1700000_S1700000x1_0 : (⟨S1700000, .i32⟩ : BufTy).Contents (Elt F) → (⟨S1700000x1, .i32⟩ : BufTy).Contents (Elt F)),
    binary main_v83 main_v89 main_v90 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v91 (broadcastInDim S1700000x1 ![0] bcast_S1700000_S1700000x1_0 : (⟨S1700000, .f32⟩ : BufTy).Contents (Elt F) → (⟨S1700000x1, .f32⟩ : BufTy).Contents (Elt F)),
    unary main_v91 main_v92 (broadcastInDim S1700000x64 ![0, 1] bcast_S1700000x1_S1700000x64_0_1 : (⟨S1700000x1, .f32⟩ : BufTy).Contents (Elt F) → (⟨S1700000x64, .f32⟩ : BufTy).Contents (Elt F)),
    binary main_v90 main_v92 main_v93 (mulf : (⟨S1700000x64, .f32⟩ : BufTy).Contents (Elt F) → (⟨S1700000x64, .f32⟩ : BufTy).Contents (Elt F) → (⟨S1700000x64, .f32⟩ : BufTy).Contents (Elt F)),
    nullary main_cst_16 (constant S_ .f32 0x00000000#32),
    unary main_cst_16 main_v94 (broadcastInDim S100000x64 ![] bcast_S_S100000x64 : (⟨S_, .f32⟩ : BufTy).Contents (Elt F) → (⟨S100000x64, .f32⟩ : BufTy).Contents (Elt F)),
    unary main_v6 main_v95 (broadcastInDim S1700000x1 ![0] bcast_S1700000_S1700000x1_0 : (⟨S1700000, .i32⟩ : BufTy).Contents (Elt F) → (⟨S1700000x1, .i32⟩ : BufTy).Contents (Elt F)),
    ternary main_v94 main_v95 main_v93 main_v96 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v97 ((extractStridedSlice S1x64 ![1, 0] · slices_S3x64_S1x64_1_0) : (⟨S3x64, .f32⟩ : BufTy).Contents (Elt F) → (⟨S1x64, .f32⟩ : BufTy).Contents (Elt F)),
    reshape main_v97 main_v98 rfl shapeCasts_S1x64_S64,
    unary main_v98 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v96 main_v100 main_v101 (addf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v101 main_cst_17 main_v102 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v103 (broadcastInDim S64 ![] bcast_S_S64 : (⟨S_, .f32⟩ : BufTy).Contents (Elt F) → (⟨S64, .f32⟩ : BufTy).Contents (Elt F)),
    binary main_v102 main_v103 main_v104 (Host.divf : (⟨S64, .f32⟩ : BufTy).Contents (Elt F) → (⟨S64, .f32⟩ : BufTy).Contents (Elt F) → (⟨S64, .f32⟩ : BufTy).Contents (Elt F)),
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S100000x64 ![0, 1] bcast_S1x64_S100000x64_0_1 : (⟨S1x64, .f32⟩ : BufTy).Contents (Elt F) → (⟨S100000x64, .f32⟩ : BufTy).Contents (Elt F)),
    binary main_v101 main_v106 main_v107 (subf : (⟨S100000x64, .f32⟩ : BufTy).Contents (Elt F) → (⟨S100000x64, .f32⟩ : BufTy).Contents (Elt F) → (⟨S100000x64, .f32⟩ : BufTy).Contents (Elt F)),
    binary main_v107 main_v107 main_v108 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x00000000#32),
    binary main_v108 main_cst_19 main_v109 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_20 (constant S_ .f32 0x47C35000#32),
    unary main_cst_20 main_v110 (broadcastInDim S64 ![] bcast_S_S64 : (⟨S_, .f32⟩ : BufTy).Contents (Elt F) → (⟨S64, .f32⟩ : BufTy).Contents (Elt F)),
    binary main_v109 main_v110 main_v111 (Host.divf : (⟨S64, .f32⟩ : BufTy).Contents (Elt F) → (⟨S64, .f32⟩ : BufTy).Contents (Elt F) → (⟨S64, .f32⟩ : BufTy).Contents (Elt F)),
    unary main_v104 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v101 main_v113 main_v114 (subf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3727C5AC#32),
    unary main_cst_21 main_v115 (broadcastInDim S64 ![] bcast_S_S64 : (⟨S_, .f32⟩ : BufTy).Contents (Elt F) → (⟨S64, .f32⟩ : BufTy).Contents (Elt F)),
    binary main_v111 main_v115 main_v116 (addf : (⟨S64, .f32⟩ : BufTy).Contents (Elt F) → (⟨S64, .f32⟩ : BufTy).Contents (Elt F) → (⟨S64, .f32⟩ : BufTy).Contents (Elt F)),
    unary main_v116 main_v117 (Host.rsqrt : (⟨S64, .f32⟩ : BufTy).Contents (Elt F) → (⟨S64, .f32⟩ : BufTy).Contents (Elt F)),
    unary main_v117 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v114 main_v119 main_v120 (mulf : (⟨S100000x64, .f32⟩ : BufTy).Contents (Elt F) → (⟨S100000x64, .f32⟩ : BufTy).Contents (Elt F) → (⟨S100000x64, .f32⟩ : BufTy).Contents (Elt F)),
    unary main_arg5 main_v121 ((extractStridedSlice S1x64 ![1, 0] · slices_S3x64_S1x64_1_0) : (⟨S3x64, .f32⟩ : BufTy).Contents (Elt F) → (⟨S1x64, .f32⟩ : BufTy).Contents (Elt F)),
    reshape main_v121 main_v122 rfl shapeCasts_S1x64_S64,
    unary main_v122 main_v123 (broadcastInDim S1x64 ![1] bcast_S64_S1x64_1 : (⟨S64, .f32⟩ : BufTy).Contents (Elt F) → (⟨S1x64, .f32⟩ : BufTy).Contents (Elt F)),
    unary main_v123 main_v124 (broadcastInDim S100000x64 ![0, 1] bcast_S1x64_S100000x64_0_1 : (⟨S1x64, .f32⟩ : BufTy).Contents (Elt F) → (⟨S100000x64, .f32⟩ : BufTy).Contents (Elt F)),
    binary main_v120 main_v124 main_v125 (mulf : (⟨S100000x64, .f32⟩ : BufTy).Contents (Elt F) → (⟨S100000x64, .f32⟩ : BufTy).Contents (Elt F) → (⟨S100000x64, .f32⟩ : BufTy).Contents (Elt F)),
    unary main_arg6 main_v126 ((extractStridedSlice S1x64 ![1, 0] · slices_S3x64_S1x64_1_0) : (⟨S3x64, .f32⟩ : BufTy).Contents (Elt F) → (⟨S1x64, .f32⟩ : BufTy).Contents (Elt F)),
    reshape main_v126 main_v127 rfl shapeCasts_S1x64_S64,
    unary main_v127 main_v128 (broadcastInDim S1x64 ![1] bcast_S64_S1x64_1 : (⟨S64, .f32⟩ : BufTy).Contents (Elt F) → (⟨S1x64, .f32⟩ : BufTy).Contents (Elt F)),
    unary main_v128 main_v129 (broadcastInDim S100000x64 ![0, 1] bcast_S1x64_S100000x64_0_1 : (⟨S1x64, .f32⟩ : BufTy).Contents (Elt F) → (⟨S100000x64, .f32⟩ : BufTy).Contents (Elt F)),
    binary main_v125 main_v129 main_v130 (addf : (⟨S100000x64, .f32⟩ : BufTy).Contents (Elt F) → (⟨S100000x64, .f32⟩ : BufTy).Contents (Elt F) → (⟨S100000x64, .f32⟩ : BufTy).Contents (Elt F)) ]

abbrev opsL1b : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v130) (TRef.of (T := ⟨S100000x64, .f32⟩) main_call2_v0) (TRef.of (T := ⟨S100000x64, .f32⟩) main_v131) maximumf ]

abbrev opsL2a : List (HloOp τ sig (Elt F)) :=
  [ unary main_arg3 main_v132 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v132 main_v133 rfl shapeCasts_S1x64x64_S64x64,
    binary main_v131 main_v133 main_v134 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_22 (constantI S_ 32 0#32),
    unary main_c_22 main_v135 (broadcastInDim S1700000 ![] bcast_S_S1700000 : (⟨S_, .i32⟩ : BufTy).Contents (Elt F) → (⟨S1700000, .i32⟩ : BufTy).Contents (Elt F)),
    binary main_v3 main_v135 main_v136 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v137 (broadcastInDim S1700000 ![] bcast_S_S1700000 : (⟨S_, .i32⟩ : BufTy).Contents (Elt F) → (⟨S1700000, .i32⟩ : BufTy).Contents (Elt F)),
    binary main_v3 main_v137 main_v138 (addi : (⟨S1700000, .i32⟩ : BufTy).Contents (Elt F) → (⟨S1700000, .i32⟩ : BufTy).Contents (Elt F) → (⟨S1700000, .i32⟩ : BufTy).Contents (Elt F)),
    ternary main_v136 main_v138 main_v3 main_v139 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v139 main_v140 (broadcastInDim S1700000x1 ![0] bcast_S1700000_S1700000x1_0 : (⟨S1700000, .i32⟩ : BufTy).Contents (Elt F) → (⟨S1700000x1, .i32⟩ : BufTy).Contents (Elt F)),
    binary main_v134 main_v140 main_v141 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v142 (broadcastInDim S1700000x1 ![0] bcast_S1700000_S1700000x1_0 : (⟨S1700000, .f32⟩ : BufTy).Contents (Elt F) → (⟨S1700000x1, .f32⟩ : BufTy).Contents (Elt F)),
    unary main_v142 main_v143 (broadcastInDim S1700000x64 ![0, 1] bcast_S1700000x1_S1700000x64_0_1 : (⟨S1700000x1, .f32⟩ : BufTy).Contents (Elt F) → (⟨S1700000x64, .f32⟩ : BufTy).Contents (Elt F)),
    binary main_v141 main_v143 main_v144 (mulf : (⟨S1700000x64, .f32⟩ : BufTy).Contents (Elt F) → (⟨S1700000x64, .f32⟩ : BufTy).Contents (Elt F) → (⟨S1700000x64, .f32⟩ : BufTy).Contents (Elt F)),
    nullary main_cst_24 (constant S_ .f32 0x00000000#32),
    unary main_cst_24 main_v145 (broadcastInDim S100000x64 ![] bcast_S_S100000x64 : (⟨S_, .f32⟩ : BufTy).Contents (Elt F) → (⟨S100000x64, .f32⟩ : BufTy).Contents (Elt F)),
    unary main_v6 main_v146 (broadcastInDim S1700000x1 ![0] bcast_S1700000_S1700000x1_0 : (⟨S1700000, .i32⟩ : BufTy).Contents (Elt F) → (⟨S1700000x1, .i32⟩ : BufTy).Contents (Elt F)),
    ternary main_v145 main_v146 main_v144 main_v147 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v148 ((extractStridedSlice S1x64 ![2, 0] · slices_S3x64_S1x64_2_0) : (⟨S3x64, .f32⟩ : BufTy).Contents (Elt F) → (⟨S1x64, .f32⟩ : BufTy).Contents (Elt F)),
    reshape main_v148 main_v149 rfl shapeCasts_S1x64_S64,
    unary main_v149 main_v150 (broadcastInDim S1x64 ![1] bcast_S64_S1x64_1 : (⟨S64, .f32⟩ : BufTy).Contents (Elt F) → (⟨S1x64, .f32⟩ : BufTy).Contents (Elt F)),
    unary main_v150 main_v151 (broadcastInDim S100000x64 ![0, 1] bcast_S1x64_S100000x64_0_1 : (⟨S1x64, .f32⟩ : BufTy).Contents (Elt F) → (⟨S100000x64, .f32⟩ : BufTy).Contents (Elt F)),
    binary main_v147 main_v151 main_v152 (addf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x00000000#32),
    binary main_v152 main_cst_25 main_v153 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v154 (broadcastInDim S64 ![] bcast_S_S64 : (⟨S_, .f32⟩ : BufTy).Contents (Elt F) → (⟨S64, .f32⟩ : BufTy).Contents (Elt F)),
    binary main_v153 main_v154 main_v155 (Host.divf : (⟨S64, .f32⟩ : BufTy).Contents (Elt F) → (⟨S64, .f32⟩ : BufTy).Contents (Elt F) → (⟨S64, .f32⟩ : BufTy).Contents (Elt F)),
    unary main_v155 main_v156 (broadcastInDim S1x64 ![1] bcast_S64_S1x64_1 : (⟨S64, .f32⟩ : BufTy).Contents (Elt F) → (⟨S1x64, .f32⟩ : BufTy).Contents (Elt F)),
    unary main_v156 main_v157 (broadcastInDim S100000x64 ![0, 1] bcast_S1x64_S100000x64_0_1 : (⟨S1x64, .f32⟩ : BufTy).Contents (Elt F) → (⟨S100000x64, .f32⟩ : BufTy).Contents (Elt F)),
    binary main_v152 main_v157 main_v158 (subf : (⟨S100000x64, .f32⟩ : BufTy).Contents (Elt F) → (⟨S100000x64, .f32⟩ : BufTy).Contents (Elt F) → (⟨S100000x64, .f32⟩ : BufTy).Contents (Elt F)),
    binary main_v158 main_v158 main_v159 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x00000000#32),
    binary main_v159 main_cst_27 main_v160 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v161 (broadcastInDim S64 ![] bcast_S_S64 : (⟨S_, .f32⟩ : BufTy).Contents (Elt F) → (⟨S64, .f32⟩ : BufTy).Contents (Elt F)),
    binary main_v160 main_v161 main_v162 (Host.divf : (⟨S64, .f32⟩ : BufTy).Contents (Elt F) → (⟨S64, .f32⟩ : BufTy).Contents (Elt F) → (⟨S64, .f32⟩ : BufTy).Contents (Elt F)),
    unary main_v155 main_v163 (broadcastInDim S1x64 ![1] bcast_S64_S1x64_1 : (⟨S64, .f32⟩ : BufTy).Contents (Elt F) → (⟨S1x64, .f32⟩ : BufTy).Contents (Elt F)),
    unary main_v163 main_v164 (broadcastInDim S100000x64 ![0, 1] bcast_S1x64_S100000x64_0_1 : (⟨S1x64, .f32⟩ : BufTy).Contents (Elt F) → (⟨S100000x64, .f32⟩ : BufTy).Contents (Elt F)),
    binary main_v152 main_v164 main_v165 (subf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x3727C5AC#32),
    unary main_cst_29 main_v166 (broadcastInDim S64 ![] bcast_S_S64 : (⟨S_, .f32⟩ : BufTy).Contents (Elt F) → (⟨S64, .f32⟩ : BufTy).Contents (Elt F)),
    binary main_v162 main_v166 main_v167 (addf : (⟨S64, .f32⟩ : BufTy).Contents (Elt F) → (⟨S64, .f32⟩ : BufTy).Contents (Elt F) → (⟨S64, .f32⟩ : BufTy).Contents (Elt F)),
    unary main_v167 main_v168 (Host.rsqrt : (⟨S64, .f32⟩ : BufTy).Contents (Elt F) → (⟨S64, .f32⟩ : BufTy).Contents (Elt F)),
    unary main_v168 main_v169 (broadcastInDim S1x64 ![1] bcast_S64_S1x64_1 : (⟨S64, .f32⟩ : BufTy).Contents (Elt F) → (⟨S1x64, .f32⟩ : BufTy).Contents (Elt F)),
    unary main_v169 main_v170 (broadcastInDim S100000x64 ![0, 1] bcast_S1x64_S100000x64_0_1 : (⟨S1x64, .f32⟩ : BufTy).Contents (Elt F) → (⟨S100000x64, .f32⟩ : BufTy).Contents (Elt F)),
    binary main_v165 main_v170 main_v171 (mulf : (⟨S100000x64, .f32⟩ : BufTy).Contents (Elt F) → (⟨S100000x64, .f32⟩ : BufTy).Contents (Elt F) → (⟨S100000x64, .f32⟩ : BufTy).Contents (Elt F)),
    unary main_arg5 main_v172 ((extractStridedSlice S1x64 ![2, 0] · slices_S3x64_S1x64_2_0) : (⟨S3x64, .f32⟩ : BufTy).Contents (Elt F) → (⟨S1x64, .f32⟩ : BufTy).Contents (Elt F)),
    reshape main_v172 main_v173 rfl shapeCasts_S1x64_S64,
    unary main_v173 main_v174 (broadcastInDim S1x64 ![1] bcast_S64_S1x64_1 : (⟨S64, .f32⟩ : BufTy).Contents (Elt F) → (⟨S1x64, .f32⟩ : BufTy).Contents (Elt F)),
    unary main_v174 main_v175 (broadcastInDim S100000x64 ![0, 1] bcast_S1x64_S100000x64_0_1 : (⟨S1x64, .f32⟩ : BufTy).Contents (Elt F) → (⟨S100000x64, .f32⟩ : BufTy).Contents (Elt F)),
    binary main_v171 main_v175 main_v176 (mulf : (⟨S100000x64, .f32⟩ : BufTy).Contents (Elt F) → (⟨S100000x64, .f32⟩ : BufTy).Contents (Elt F) → (⟨S100000x64, .f32⟩ : BufTy).Contents (Elt F)),
    unary main_arg6 main_v177 ((extractStridedSlice S1x64 ![2, 0] · slices_S3x64_S1x64_2_0) : (⟨S3x64, .f32⟩ : BufTy).Contents (Elt F) → (⟨S1x64, .f32⟩ : BufTy).Contents (Elt F)),
    reshape main_v177 main_v178 rfl shapeCasts_S1x64_S64,
    unary main_v178 main_v179 (broadcastInDim S1x64 ![1] bcast_S64_S1x64_1 : (⟨S64, .f32⟩ : BufTy).Contents (Elt F) → (⟨S1x64, .f32⟩ : BufTy).Contents (Elt F)),
    unary main_v179 main_v180 (broadcastInDim S100000x64 ![0, 1] bcast_S1x64_S100000x64_0_1 : (⟨S1x64, .f32⟩ : BufTy).Contents (Elt F) → (⟨S100000x64, .f32⟩ : BufTy).Contents (Elt F)),
    binary main_v176 main_v180 main_v181 (addf : (⟨S100000x64, .f32⟩ : BufTy).Contents (Elt F) → (⟨S100000x64, .f32⟩ : BufTy).Contents (Elt F) → (⟨S100000x64, .f32⟩ : BufTy).Contents (Elt F)) ]

abbrev opsL2b : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v181) (TRef.of (T := ⟨S100000x64, .f32⟩) main_call3_v0) (TRef.of (T := ⟨S100000x64, .f32⟩) main_v182) maximumf ]

abbrev opsTail : List (HloOp τ sig (Elt F)) :=
  [ nullary main_cst_30 (constant S_ .f32 0x00000000#32),
    unary main_cst_30 main_v183 (broadcastInDim S128x64 ![] bcast_S_S128x64 : (⟨S_, .f32⟩ : BufTy).Contents (Elt F) → (⟨S128x64, .f32⟩ : BufTy).Contents (Elt F)),
    unary main_arg2 main_v184 (broadcastInDim S100000x1 ![0] bcast_S100000_S100000x1_0 : (⟨S100000, .i32⟩ : BufTy).Contents (Elt F) → (⟨S100000x1, .i32⟩ : BufTy).Contents (Elt F)),
    ternary main_v183 main_v184 main_v182 main_v185 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_31 (constant S_ .f32 0x3F800000#32),
    unary main_cst_31 main_v186 (broadcastInDim S100000 ![] bcast_S_S100000 : (⟨S_, .f32⟩ : BufTy).Contents (Elt F) → (⟨S100000, .f32⟩ : BufTy).Contents (Elt F)),
    nullary main_cst_32 (constant S_ .f32 0x00000000#32),
    unary main_cst_32 main_v187 (broadcastInDim S128 ![] bcast_S_S128 : (⟨S_, .f32⟩ : BufTy).Contents (Elt F) → (⟨S128, .f32⟩ : BufTy).Contents (Elt F)),
    unary main_arg2 main_v188 (broadcastInDim S100000x1 ![0] bcast_S100000_S100000x1_0 : (⟨S100000, .i32⟩ : BufTy).Contents (Elt F) → (⟨S100000x1, .i32⟩ : BufTy).Contents (Elt F)),
    ternary main_v187 main_v188 main_v186 main_v189 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_33 (constant S_ .f32 0x3F800000#32),
    unary main_cst_33 main_v190 (broadcastInDim S128 ![] bcast_S_S128 : (⟨S_, .f32⟩ : BufTy).Contents (Elt F) → (⟨S128, .f32⟩ : BufTy).Contents (Elt F)),
    binary main_v189 main_v190 main_v191 (maximumf : (⟨S128, .f32⟩ : BufTy).Contents (Elt F) → (⟨S128, .f32⟩ : BufTy).Contents (Elt F) → (⟨S128, .f32⟩ : BufTy).Contents (Elt F)),
    unary main_v191 main_v192 (broadcastInDim S128x1 ![0] bcast_S128_S128x1_0 : (⟨S128, .f32⟩ : BufTy).Contents (Elt F) → (⟨S128x1, .f32⟩ : BufTy).Contents (Elt F)),
    unary main_v192 main_v193 (broadcastInDim S128x64 ![0, 1] bcast_S128x1_S128x64_0_1 : (⟨S128x1, .f32⟩ : BufTy).Contents (Elt F) → (⟨S128x64, .f32⟩ : BufTy).Contents (Elt F)),
    binary main_v185 main_v193 main_v194 (Host.divf : (⟨S128x64, .f32⟩ : BufTy).Contents (Elt F) → (⟨S128x64, .f32⟩ : BufTy).Contents (Elt F) → (⟨S128x64, .f32⟩ : BufTy).Contents (Elt F)) ]

set_option maxRecDepth 8192 in
set_option maxHeartbeats 4000000 in
/-- The line is its eleven pieces in order. -/
theorem ops_split : (ops : List (HloOp τ sig (Elt F))) = opsPreA ++ (opsPreB1 ++ (opsCall0 ++ (opsPreB2 ++ (opsL0a ++ (opsL0b ++ (opsL1a ++ (opsL1b ++ (opsL2a ++ (opsL2b ++ (opsTail)))))))))) := rfl

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

end Cert.ReferenceIdeal.RunV

end
-- ==== Proof.RefRunPreA.lean ====
/-
The reference's first operations from any contents: the source and destination lists with the self-loops appended are
  the stage functions of the edge argument; the arguments are left as they were.
-/
import proofs.«132062_j28845000360070_1_alg».proof.Proof.RefRunOps
import proofs.«132062_j28845000360070_1_alg».proof.Proof.RefRead

noncomputable section

namespace Cert.ReferenceIdeal.RunV

open Cert.ReferenceIdeal Cert.ReferenceIdeal.Gen Cert.ReferenceIdeal.ReadP
open Idealize.ShloMosaic Idealize.ShloMosaic.TcCoe Idealize.SL.Sem Idealize.ShloMosaic.StableHlo

variable (Wp : Valuation τ sig (Elt Ideal))
variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S3x64x64, .f32⟩ : BufTy).Contents (Elt Ideal))
  (x4 x5 x6 : (⟨S3x64, .f32⟩ : BufTy).Contents (Elt Ideal))

set_option maxHeartbeats 4000000 in
theorem preA_v3 (h1 : Wp (Proc.devRef .tc main_arg1) = x1) :
    after (opsPreA (F := Ideal)) Wp (Proc.devRef .tc main_v3) = (val_main_v3 (F := Ideal) x1) := by
  dsimp only [opsPreA]; after_results
  rw [h1]
  rfl
set_option maxHeartbeats 4000000 in
theorem preA_v6 (h1 : Wp (Proc.devRef .tc main_arg1) = x1) :
    after (opsPreA (F := Ideal)) Wp (Proc.devRef .tc main_v6) = (val_main_v6 (F := Ideal) x1) := by
  dsimp only [opsPreA]; after_results
  rw [h1]
  rfl
theorem keep_opsPreA_main_arg0 : after (opsPreA (F := Ideal)) Wp (Proc.devRef .tc main_arg0) = Wp (Proc.devRef .tc main_arg0) := by
  dsimp only [opsPreA]; after_results_simp
theorem keep_opsPreA_main_arg1 : after (opsPreA (F := Ideal)) Wp (Proc.devRef .tc main_arg1) = Wp (Proc.devRef .tc main_arg1) := by
  dsimp only [opsPreA]; after_results_simp
theorem keep_opsPreA_main_arg2 : after (opsPreA (F := Ideal)) Wp (Proc.devRef .tc main_arg2) = Wp (Proc.devRef .tc main_arg2) := by
  dsimp only [opsPreA]; after_results_simp
theorem keep_opsPreA_main_arg3 : after (opsPreA (F := Ideal)) Wp (Proc.devRef .tc main_arg3) = Wp (Proc.devRef .tc main_arg3) := by
  dsimp only [opsPreA]; after_results_simp
theorem keep_opsPreA_main_arg4 : after (opsPreA (F := Ideal)) Wp (Proc.devRef .tc main_arg4) = Wp (Proc.devRef .tc main_arg4) := by
  dsimp only [opsPreA]; after_results_simp
theorem keep_opsPreA_main_arg5 : after (opsPreA (F := Ideal)) Wp (Proc.devRef .tc main_arg5) = Wp (Proc.devRef .tc main_arg5) := by
  dsimp only [opsPreA]; after_results_simp
theorem keep_opsPreA_main_arg6 : after (opsPreA (F := Ideal)) Wp (Proc.devRef .tc main_arg6) = Wp (Proc.devRef .tc main_arg6) := by
  dsimp only [opsPreA]; after_results_simp

end Cert.ReferenceIdeal.RunV

end
-- ==== Proof.RefRunPreB.lean ====
/-
The reference's edge normalisation from any contents: the degree by an accumulating scatter of ones; its reciprocal
  square root where positive, else zero (the selection is a called function, run from abstract operands); gathered at the
  two ends of each edge and multiplied.
-/
import proofs.«132062_j28845000360070_1_alg».proof.Proof.RefRunOps
import proofs.«132062_j28845000360070_1_alg».proof.Proof.RefRead

noncomputable section

namespace Cert.ReferenceIdeal.RunV

open Cert.ReferenceIdeal Cert.ReferenceIdeal.Gen Cert.ReferenceIdeal.ReadP
open Idealize.ShloMosaic Idealize.ShloMosaic.TcCoe Idealize.SL.Sem Idealize.ShloMosaic.StableHlo

variable (Wp : Valuation τ sig (Elt Ideal))
variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S3x64x64, .f32⟩ : BufTy).Contents (Elt Ideal))
  (x4 x5 x6 : (⟨S3x64, .f32⟩ : BufTy).Contents (Elt Ideal))

set_option maxHeartbeats 4000000 in
theorem preB1_v12 (h6 : Wp (Proc.devRef .tc main_v6) = (val_main_v6 (F := Ideal) x1)) :
    after (opsPreB1 (F := Ideal)) Wp (Proc.devRef .tc main_v12) = (val_main_v12 (F := Ideal) x1) := by
  dsimp only [opsPreB1]; after_results_simp
  simp only [h6]
  rfl
set_option maxHeartbeats 4000000 in
theorem preB1_v13 (h6 : Wp (Proc.devRef .tc main_v6) = (val_main_v6 (F := Ideal) x1)) :
    after (opsPreB1 (F := Ideal)) Wp (Proc.devRef .tc main_v13) = (val_main_v13 (F := Ideal) x1) := by
  dsimp only [opsPreB1]; after_results_simp
  simp only [h6]
  rfl
set_option maxHeartbeats 4000000 in
theorem preB1_cst2  :
    after (opsPreB1 (F := Ideal)) Wp (Proc.devRef .tc main_cst_2) = (val_main_cst_2 (F := Ideal)) := by
  dsimp only [opsPreB1]; after_results_simp

  rfl
theorem keep_opsPreB1_main_arg0 : after (opsPreB1 (F := Ideal)) Wp (Proc.devRef .tc main_arg0) = Wp (Proc.devRef .tc main_arg0) := by
  dsimp only [opsPreB1]; after_results_simp
theorem keep_opsPreB1_main_arg1 : after (opsPreB1 (F := Ideal)) Wp (Proc.devRef .tc main_arg1) = Wp (Proc.devRef .tc main_arg1) := by
  dsimp only [opsPreB1]; after_results_simp
theorem keep_opsPreB1_main_arg2 : after (opsPreB1 (F := Ideal)) Wp (Proc.devRef .tc main_arg2) = Wp (Proc.devRef .tc main_arg2) := by
  dsimp only [opsPreB1]; after_results_simp
theorem keep_opsPreB1_main_arg3 : after (opsPreB1 (F := Ideal)) Wp (Proc.devRef .tc main_arg3) = Wp (Proc.devRef .tc main_arg3) := by
  dsimp only [opsPreB1]; after_results_simp
theorem keep_opsPreB1_main_arg4 : after (opsPreB1 (F := Ideal)) Wp (Proc.devRef .tc main_arg4) = Wp (Proc.devRef .tc main_arg4) := by
  dsimp only [opsPreB1]; after_results_simp
theorem keep_opsPreB1_main_arg5 : after (opsPreB1 (F := Ideal)) Wp (Proc.devRef .tc main_arg5) = Wp (Proc.devRef .tc main_arg5) := by
  dsimp only [opsPreB1]; after_results_simp
theorem keep_opsPreB1_main_arg6 : after (opsPreB1 (F := Ideal)) Wp (Proc.devRef .tc main_arg6) = Wp (Proc.devRef .tc main_arg6) := by
  dsimp only [opsPreB1]; after_results_simp
theorem keep_opsPreB1_main_v3 : after (opsPreB1 (F := Ideal)) Wp (Proc.devRef .tc main_v3) = Wp (Proc.devRef .tc main_v3) := by
  dsimp only [opsPreB1]; after_results_simp
theorem keep_opsPreB1_main_v6 : after (opsPreB1 (F := Ideal)) Wp (Proc.devRef .tc main_v6) = Wp (Proc.devRef .tc main_v6) := by
  dsimp only [opsPreB1]; after_results_simp

set_option maxHeartbeats 4000000 in
/-- The selection from any operands. -/
theorem call0_abs (a : (⟨S100000, .i1⟩ : BufTy).Contents (Elt Ideal)) (b : (⟨S100000, .f32⟩ : BufTy).Contents (Elt Ideal)) (cc : (⟨S_, .f32⟩ : BufTy).Contents (Elt Ideal))
    (h12 : Wp (Proc.devRef .tc main_v12) = a) (h13 : Wp (Proc.devRef .tc main_v13) = b) (hc : Wp (Proc.devRef .tc main_cst_2) = cc) :
    after (opsCall0 (F := Ideal)) Wp (Proc.devRef .tc main_v14) = select a b (broadcastInDim S100000 ![] bcast_S_S100000 (id cc)) := by
  dsimp only [opsCall0]; after_results_simp
  simp only [h12, h13, hc]
  rfl
theorem sel_ref : (val_main_v14 (F := Ideal) x1) = select (val_main_v12 (F := Ideal) x1) (val_main_v13 (F := Ideal) x1) (broadcastInDim S100000 ![] bcast_S_S100000 (id (val_main_cst_2 (F := Ideal)))) := rfl
theorem call0_v14 (h12 : Wp (Proc.devRef .tc main_v12) = (val_main_v12 (F := Ideal) x1)) (h13 : Wp (Proc.devRef .tc main_v13) = (val_main_v13 (F := Ideal) x1)) (hc : Wp (Proc.devRef .tc main_cst_2) = (val_main_cst_2 (F := Ideal))) :
    after (opsCall0 (F := Ideal)) Wp (Proc.devRef .tc main_v14) = (val_main_v14 (F := Ideal) x1) :=
  (call0_abs Wp _ _ _ h12 h13 hc).trans (sel_ref x1).symm
theorem keep_opsCall0_main_arg0 : after (opsCall0 (F := Ideal)) Wp (Proc.devRef .tc main_arg0) = Wp (Proc.devRef .tc main_arg0) := by
  dsimp only [opsCall0]; after_results_simp
theorem keep_opsCall0_main_arg1 : after (opsCall0 (F := Ideal)) Wp (Proc.devRef .tc main_arg1) = Wp (Proc.devRef .tc main_arg1) := by
  dsimp only [opsCall0]; after_results_simp
theorem keep_opsCall0_main_arg2 : after (opsCall0 (F := Ideal)) Wp (Proc.devRef .tc main_arg2) = Wp (Proc.devRef .tc main_arg2) := by
  dsimp only [opsCall0]; after_results_simp
theorem keep_opsCall0_main_arg3 : after (opsCall0 (F := Ideal)) Wp (Proc.devRef .tc main_arg3) = Wp (Proc.devRef .tc main_arg3) := by
  dsimp only [opsCall0]; after_results_simp
theorem keep_opsCall0_main_arg4 : after (opsCall0 (F := Ideal)) Wp (Proc.devRef .tc main_arg4) = Wp (Proc.devRef .tc main_arg4) := by
  dsimp only [opsCall0]; after_results_simp
theorem keep_opsCall0_main_arg5 : after (opsCall0 (F := Ideal)) Wp (Proc.devRef .tc main_arg5) = Wp (Proc.devRef .tc main_arg5) := by
  dsimp only [opsCall0]; after_results_simp
theorem keep_opsCall0_main_arg6 : after (opsCall0 (F := Ideal)) Wp (Proc.devRef .tc main_arg6) = Wp (Proc.devRef .tc main_arg6) := by
  dsimp only [opsCall0]; after_results_simp
theorem keep_opsCall0_main_v3 : after (opsCall0 (F := Ideal)) Wp (Proc.devRef .tc main_v3) = Wp (Proc.devRef .tc main_v3) := by
  dsimp only [opsCall0]; after_results_simp
theorem keep_opsCall0_main_v6 : after (opsCall0 (F := Ideal)) Wp (Proc.devRef .tc main_v6) = Wp (Proc.devRef .tc main_v6) := by
  dsimp only [opsCall0]; after_results_simp
set_option maxHeartbeats 4000000 in
theorem preB2_v29 (h14 : Wp (Proc.devRef .tc main_v14) = (val_main_v14 (F := Ideal) x1)) (h3 : Wp (Proc.devRef .tc main_v3) = (val_main_v3 (F := Ideal) x1)) (h6 : Wp (Proc.devRef .tc main_v6) = (val_main_v6 (F := Ideal) x1)) :
    after (opsPreB2 (F := Ideal)) Wp (Proc.devRef .tc main_v29) = (val_main_v29 (F := Ideal) x1) := by
  dsimp only [opsPreB2]; after_results_simp
  simp only [h14, h3, h6]
  rfl
theorem keep_opsPreB2_main_arg0 : after (opsPreB2 (F := Ideal)) Wp (Proc.devRef .tc main_arg0) = Wp (Proc.devRef .tc main_arg0) := by
  dsimp only [opsPreB2]; after_results_simp
theorem keep_opsPreB2_main_arg1 : after (opsPreB2 (F := Ideal)) Wp (Proc.devRef .tc main_arg1) = Wp (Proc.devRef .tc main_arg1) := by
  dsimp only [opsPreB2]; after_results_simp
theorem keep_opsPreB2_main_arg2 : after (opsPreB2 (F := Ideal)) Wp (Proc.devRef .tc main_arg2) = Wp (Proc.devRef .tc main_arg2) := by
  dsimp only [opsPreB2]; after_results_simp
theorem keep_opsPreB2_main_arg3 : after (opsPreB2 (F := Ideal)) Wp (Proc.devRef .tc main_arg3) = Wp (Proc.devRef .tc main_arg3) := by
  dsimp only [opsPreB2]; after_results_simp
theorem keep_opsPreB2_main_arg4 : after (opsPreB2 (F := Ideal)) Wp (Proc.devRef .tc main_arg4) = Wp (Proc.devRef .tc main_arg4) := by
  dsimp only [opsPreB2]; after_results_simp
theorem keep_opsPreB2_main_arg5 : after (opsPreB2 (F := Ideal)) Wp (Proc.devRef .tc main_arg5) = Wp (Proc.devRef .tc main_arg5) := by
  dsimp only [opsPreB2]; after_results_simp
theorem keep_opsPreB2_main_arg6 : after (opsPreB2 (F := Ideal)) Wp (Proc.devRef .tc main_arg6) = Wp (Proc.devRef .tc main_arg6) := by
  dsimp only [opsPreB2]; after_results_simp
theorem keep_opsPreB2_main_v3 : after (opsPreB2 (F := Ideal)) Wp (Proc.devRef .tc main_v3) = Wp (Proc.devRef .tc main_v3) := by
  dsimp only [opsPreB2]; after_results_simp
theorem keep_opsPreB2_main_v6 : after (opsPreB2 (F := Ideal)) Wp (Proc.devRef .tc main_v6) = Wp (Proc.devRef .tc main_v6) := by
  dsimp only [opsPreB2]; after_results_simp

end Cert.ReferenceIdeal.RunV

end
-- ==== Proof.RefRunL0.lean ====
/-
Layer 1 of the reference from any contents: if the layer's input, the edge lists, the edge normalisation and the
  parameter arguments are at their stage functions, so is the layer's value before the clamp, and then its output (the clamp
  is a called function, run from an abstract operand); the carried buffers are left as they were.
-/
import proofs.«132062_j28845000360070_1_alg».proof.Proof.RefRunOps
import proofs.«132062_j28845000360070_1_alg».proof.Proof.RefRead

noncomputable section

namespace Cert.ReferenceIdeal.RunV

open Cert.ReferenceIdeal Cert.ReferenceIdeal.Gen Cert.ReferenceIdeal.ReadP
open Idealize.ShloMosaic Idealize.ShloMosaic.TcCoe Idealize.SL.Sem Idealize.ShloMosaic.StableHlo

variable (Wp : Valuation τ sig (Elt Ideal))
variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S3x64x64, .f32⟩ : BufTy).Contents (Elt Ideal))
  (x4 x5 x6 : (⟨S3x64, .f32⟩ : BufTy).Contents (Elt Ideal))

set_option maxHeartbeats 4000000 in
theorem layer0a_out (hh : Wp (Proc.devRef .tc main_arg0) = x0) (h3 : Wp (Proc.devRef .tc main_v3) = (val_main_v3 (F := Ideal) x1)) (h6 : Wp (Proc.devRef .tc main_v6) = (val_main_v6 (F := Ideal) x1)) (h29 : Wp (Proc.devRef .tc main_v29) = (val_main_v29 (F := Ideal) x1)) (ha3 : Wp (Proc.devRef .tc main_arg3) = x3) (ha4 : Wp (Proc.devRef .tc main_arg4) = x4) (ha5 : Wp (Proc.devRef .tc main_arg5) = x5) (ha6 : Wp (Proc.devRef .tc main_arg6) = x6) :
    after (opsL0a (F := Ideal)) Wp (Proc.devRef .tc main_v79) = (val_main_v79 (F := Ideal) x0 x1 x3 x4 x5 x6) := by
  dsimp only [opsL0a]; after_results_simp
  simp only [hh, h3, h6, h29, ha3, ha4, ha5, ha6]
  rfl
theorem keep_opsL0a_main_arg0 : after (opsL0a (F := Ideal)) Wp (Proc.devRef .tc main_arg0) = Wp (Proc.devRef .tc main_arg0) := by
  dsimp only [opsL0a]; after_results_simp
theorem keep_opsL0a_main_arg1 : after (opsL0a (F := Ideal)) Wp (Proc.devRef .tc main_arg1) = Wp (Proc.devRef .tc main_arg1) := by
  dsimp only [opsL0a]; after_results_simp
theorem keep_opsL0a_main_arg2 : after (opsL0a (F := Ideal)) Wp (Proc.devRef .tc main_arg2) = Wp (Proc.devRef .tc main_arg2) := by
  dsimp only [opsL0a]; after_results_simp
theorem keep_opsL0a_main_arg3 : after (opsL0a (F := Ideal)) Wp (Proc.devRef .tc main_arg3) = Wp (Proc.devRef .tc main_arg3) := by
  dsimp only [opsL0a]; after_results_simp
theorem keep_opsL0a_main_arg4 : after (opsL0a (F := Ideal)) Wp (Proc.devRef .tc main_arg4) = Wp (Proc.devRef .tc main_arg4) := by
  dsimp only [opsL0a]; after_results_simp
theorem keep_opsL0a_main_arg5 : after (opsL0a (F := Ideal)) Wp (Proc.devRef .tc main_arg5) = Wp (Proc.devRef .tc main_arg5) := by
  dsimp only [opsL0a]; after_results_simp
theorem keep_opsL0a_main_arg6 : after (opsL0a (F := Ideal)) Wp (Proc.devRef .tc main_arg6) = Wp (Proc.devRef .tc main_arg6) := by
  dsimp only [opsL0a]; after_results_simp
theorem keep_opsL0a_main_v3 : after (opsL0a (F := Ideal)) Wp (Proc.devRef .tc main_v3) = Wp (Proc.devRef .tc main_v3) := by
  dsimp only [opsL0a]; after_results_simp
theorem keep_opsL0a_main_v6 : after (opsL0a (F := Ideal)) Wp (Proc.devRef .tc main_v6) = Wp (Proc.devRef .tc main_v6) := by
  dsimp only [opsL0a]; after_results_simp
theorem keep_opsL0a_main_v29 : after (opsL0a (F := Ideal)) Wp (Proc.devRef .tc main_v29) = Wp (Proc.devRef .tc main_v29) := by
  dsimp only [opsL0a]; after_results_simp

set_option maxHeartbeats 4000000 in
/-- The clamp at zero from any operand. -/
theorem relu0_abs (a : (⟨S100000x64, .f32⟩ : BufTy).Contents (Elt Ideal)) (h : Wp (Proc.devRef .tc main_v79) = a) :
    after (opsL0b (F := Ideal)) Wp (Proc.devRef .tc main_v80) = maximumf a (broadcastInDim S100000x64 ![] bcast_S_S100000x64 (constant (F := Ideal) S_ .f32 0x00000000#32)) := by
  dsimp only [opsL0b]; after_results_simp
  simp only [h]
  rfl
theorem relu0_ref : (val_main_v80 (F := Ideal) x0 x1 x3 x4 x5 x6) = maximumf (val_main_v79 (F := Ideal) x0 x1 x3 x4 x5 x6) (broadcastInDim S100000x64 ![] bcast_S_S100000x64 (constant (F := Ideal) S_ .f32 0x00000000#32)) := rfl
theorem layer0b_out (h : Wp (Proc.devRef .tc main_v79) = (val_main_v79 (F := Ideal) x0 x1 x3 x4 x5 x6)) :
    after (opsL0b (F := Ideal)) Wp (Proc.devRef .tc main_v80) = (val_main_v80 (F := Ideal) x0 x1 x3 x4 x5 x6) :=
  (relu0_abs Wp _ h).trans (relu0_ref x0 x1 x3 x4 x5 x6).symm
theorem keep_opsL0b_main_arg0 : after (opsL0b (F := Ideal)) Wp (Proc.devRef .tc main_arg0) = Wp (Proc.devRef .tc main_arg0) := by
  dsimp only [opsL0b]; after_results_simp
theorem keep_opsL0b_main_arg1 : after (opsL0b (F := Ideal)) Wp (Proc.devRef .tc main_arg1) = Wp (Proc.devRef .tc main_arg1) := by
  dsimp only [opsL0b]; after_results_simp
theorem keep_opsL0b_main_arg2 : after (opsL0b (F := Ideal)) Wp (Proc.devRef .tc main_arg2) = Wp (Proc.devRef .tc main_arg2) := by
  dsimp only [opsL0b]; after_results_simp
theorem keep_opsL0b_main_arg3 : after (opsL0b (F := Ideal)) Wp (Proc.devRef .tc main_arg3) = Wp (Proc.devRef .tc main_arg3) := by
  dsimp only [opsL0b]; after_results_simp
theorem keep_opsL0b_main_arg4 : after (opsL0b (F := Ideal)) Wp (Proc.devRef .tc main_arg4) = Wp (Proc.devRef .tc main_arg4) := by
  dsimp only [opsL0b]; after_results_simp
theorem keep_opsL0b_main_arg5 : after (opsL0b (F := Ideal)) Wp (Proc.devRef .tc main_arg5) = Wp (Proc.devRef .tc main_arg5) := by
  dsimp only [opsL0b]; after_results_simp
theorem keep_opsL0b_main_arg6 : after (opsL0b (F := Ideal)) Wp (Proc.devRef .tc main_arg6) = Wp (Proc.devRef .tc main_arg6) := by
  dsimp only [opsL0b]; after_results_simp
theorem keep_opsL0b_main_v3 : after (opsL0b (F := Ideal)) Wp (Proc.devRef .tc main_v3) = Wp (Proc.devRef .tc main_v3) := by
  dsimp only [opsL0b]; after_results_simp
theorem keep_opsL0b_main_v6 : after (opsL0b (F := Ideal)) Wp (Proc.devRef .tc main_v6) = Wp (Proc.devRef .tc main_v6) := by
  dsimp only [opsL0b]; after_results_simp
theorem keep_opsL0b_main_v29 : after (opsL0b (F := Ideal)) Wp (Proc.devRef .tc main_v29) = Wp (Proc.devRef .tc main_v29) := by
  dsimp only [opsL0b]; after_results_simp

end Cert.ReferenceIdeal.RunV

end
-- ==== Proof.RefRunL1.lean ====
/-
Layer 2 of the reference from any contents: if the layer's input, the edge lists, the edge normalisation and the
  parameter arguments are at their stage functions, so is the layer's value before the clamp, and then its output (the clamp
  is a called function, run from an abstract operand); the carried buffers are left as they were.
-/
import proofs.«132062_j28845000360070_1_alg».proof.Proof.RefRunOps
import proofs.«132062_j28845000360070_1_alg».proof.Proof.RefRead

noncomputable section

namespace Cert.ReferenceIdeal.RunV

open Cert.ReferenceIdeal Cert.ReferenceIdeal.Gen Cert.ReferenceIdeal.ReadP
open Idealize.ShloMosaic Idealize.ShloMosaic.TcCoe Idealize.SL.Sem Idealize.ShloMosaic.StableHlo

variable (Wp : Valuation τ sig (Elt Ideal))
variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S3x64x64, .f32⟩ : BufTy).Contents (Elt Ideal))
  (x4 x5 x6 : (⟨S3x64, .f32⟩ : BufTy).Contents (Elt Ideal))

set_option maxHeartbeats 4000000 in
theorem layer1a_out (hh : Wp (Proc.devRef .tc main_v80) = (val_main_v80 (F := Ideal) x0 x1 x3 x4 x5 x6)) (h3 : Wp (Proc.devRef .tc main_v3) = (val_main_v3 (F := Ideal) x1)) (h6 : Wp (Proc.devRef .tc main_v6) = (val_main_v6 (F := Ideal) x1)) (h29 : Wp (Proc.devRef .tc main_v29) = (val_main_v29 (F := Ideal) x1)) (ha3 : Wp (Proc.devRef .tc main_arg3) = x3) (ha4 : Wp (Proc.devRef .tc main_arg4) = x4) (ha5 : Wp (Proc.devRef .tc main_arg5) = x5) (ha6 : Wp (Proc.devRef .tc main_arg6) = x6) :
    after (opsL1a (F := Ideal)) Wp (Proc.devRef .tc main_v130) = (val_main_v130 (F := Ideal) x0 x1 x3 x4 x5 x6) := by
  dsimp only [opsL1a]; after_results_simp
  simp only [hh, h3, h6, h29, ha3, ha4, ha5, ha6]
  rfl
theorem keep_opsL1a_main_arg0 : after (opsL1a (F := Ideal)) Wp (Proc.devRef .tc main_arg0) = Wp (Proc.devRef .tc main_arg0) := by
  dsimp only [opsL1a]; after_results_simp
theorem keep_opsL1a_main_arg1 : after (opsL1a (F := Ideal)) Wp (Proc.devRef .tc main_arg1) = Wp (Proc.devRef .tc main_arg1) := by
  dsimp only [opsL1a]; after_results_simp
theorem keep_opsL1a_main_arg2 : after (opsL1a (F := Ideal)) Wp (Proc.devRef .tc main_arg2) = Wp (Proc.devRef .tc main_arg2) := by
  dsimp only [opsL1a]; after_results_simp
theorem keep_opsL1a_main_arg3 : after (opsL1a (F := Ideal)) Wp (Proc.devRef .tc main_arg3) = Wp (Proc.devRef .tc main_arg3) := by
  dsimp only [opsL1a]; after_results_simp
theorem keep_opsL1a_main_arg4 : after (opsL1a (F := Ideal)) Wp (Proc.devRef .tc main_arg4) = Wp (Proc.devRef .tc main_arg4) := by
  dsimp only [opsL1a]; after_results_simp
theorem keep_opsL1a_main_arg5 : after (opsL1a (F := Ideal)) Wp (Proc.devRef .tc main_arg5) = Wp (Proc.devRef .tc main_arg5) := by
  dsimp only [opsL1a]; after_results_simp
theorem keep_opsL1a_main_arg6 : after (opsL1a (F := Ideal)) Wp (Proc.devRef .tc main_arg6) = Wp (Proc.devRef .tc main_arg6) := by
  dsimp only [opsL1a]; after_results_simp
theorem keep_opsL1a_main_v3 : after (opsL1a (F := Ideal)) Wp (Proc.devRef .tc main_v3) = Wp (Proc.devRef .tc main_v3) := by
  dsimp only [opsL1a]; after_results_simp
theorem keep_opsL1a_main_v6 : after (opsL1a (F := Ideal)) Wp (Proc.devRef .tc main_v6) = Wp (Proc.devRef .tc main_v6) := by
  dsimp only [opsL1a]; after_results_simp
theorem keep_opsL1a_main_v29 : after (opsL1a (F := Ideal)) Wp (Proc.devRef .tc main_v29) = Wp (Proc.devRef .tc main_v29) := by
  dsimp only [opsL1a]; after_results_simp

set_option maxHeartbeats 4000000 in
/-- The clamp at zero from any operand. -/
theorem relu1_abs (a : (⟨S100000x64, .f32⟩ : BufTy).Contents (Elt Ideal)) (h : Wp (Proc.devRef .tc main_v130) = a) :
    after (opsL1b (F := Ideal)) Wp (Proc.devRef .tc main_v131) = maximumf a (broadcastInDim S100000x64 ![] bcast_S_S100000x64 (constant (F := Ideal) S_ .f32 0x00000000#32)) := by
  dsimp only [opsL1b]; after_results_simp
  simp only [h]
  rfl
theorem relu1_ref : (val_main_v131 (F := Ideal) x0 x1 x3 x4 x5 x6) = maximumf (val_main_v130 (F := Ideal) x0 x1 x3 x4 x5 x6) (broadcastInDim S100000x64 ![] bcast_S_S100000x64 (constant (F := Ideal) S_ .f32 0x00000000#32)) := rfl
theorem layer1b_out (h : Wp (Proc.devRef .tc main_v130) = (val_main_v130 (F := Ideal) x0 x1 x3 x4 x5 x6)) :
    after (opsL1b (F := Ideal)) Wp (Proc.devRef .tc main_v131) = (val_main_v131 (F := Ideal) x0 x1 x3 x4 x5 x6) :=
  (relu1_abs Wp _ h).trans (relu1_ref x0 x1 x3 x4 x5 x6).symm
theorem keep_opsL1b_main_arg0 : after (opsL1b (F := Ideal)) Wp (Proc.devRef .tc main_arg0) = Wp (Proc.devRef .tc main_arg0) := by
  dsimp only [opsL1b]; after_results_simp
theorem keep_opsL1b_main_arg1 : after (opsL1b (F := Ideal)) Wp (Proc.devRef .tc main_arg1) = Wp (Proc.devRef .tc main_arg1) := by
  dsimp only [opsL1b]; after_results_simp
theorem keep_opsL1b_main_arg2 : after (opsL1b (F := Ideal)) Wp (Proc.devRef .tc main_arg2) = Wp (Proc.devRef .tc main_arg2) := by
  dsimp only [opsL1b]; after_results_simp
theorem keep_opsL1b_main_arg3 : after (opsL1b (F := Ideal)) Wp (Proc.devRef .tc main_arg3) = Wp (Proc.devRef .tc main_arg3) := by
  dsimp only [opsL1b]; after_results_simp
theorem keep_opsL1b_main_arg4 : after (opsL1b (F := Ideal)) Wp (Proc.devRef .tc main_arg4) = Wp (Proc.devRef .tc main_arg4) := by
  dsimp only [opsL1b]; after_results_simp
theorem keep_opsL1b_main_arg5 : after (opsL1b (F := Ideal)) Wp (Proc.devRef .tc main_arg5) = Wp (Proc.devRef .tc main_arg5) := by
  dsimp only [opsL1b]; after_results_simp
theorem keep_opsL1b_main_arg6 : after (opsL1b (F := Ideal)) Wp (Proc.devRef .tc main_arg6) = Wp (Proc.devRef .tc main_arg6) := by
  dsimp only [opsL1b]; after_results_simp
theorem keep_opsL1b_main_v3 : after (opsL1b (F := Ideal)) Wp (Proc.devRef .tc main_v3) = Wp (Proc.devRef .tc main_v3) := by
  dsimp only [opsL1b]; after_results_simp
theorem keep_opsL1b_main_v6 : after (opsL1b (F := Ideal)) Wp (Proc.devRef .tc main_v6) = Wp (Proc.devRef .tc main_v6) := by
  dsimp only [opsL1b]; after_results_simp
theorem keep_opsL1b_main_v29 : after (opsL1b (F := Ideal)) Wp (Proc.devRef .tc main_v29) = Wp (Proc.devRef .tc main_v29) := by
  dsimp only [opsL1b]; after_results_simp

end Cert.ReferenceIdeal.RunV

end
-- ==== Proof.RefRunL2.lean ====
/-
Layer 3 of the reference from any contents: if the layer's input, the edge lists, the edge normalisation and the
  parameter arguments are at their stage functions, so is the layer's value before the clamp, and then its output (the clamp
  is a called function, run from an abstract operand); the carried buffers are left as they were.
-/
import proofs.«132062_j28845000360070_1_alg».proof.Proof.RefRunOps
import proofs.«132062_j28845000360070_1_alg».proof.Proof.RefRead

noncomputable section

namespace Cert.ReferenceIdeal.RunV

open Cert.ReferenceIdeal Cert.ReferenceIdeal.Gen Cert.ReferenceIdeal.ReadP
open Idealize.ShloMosaic Idealize.ShloMosaic.TcCoe Idealize.SL.Sem Idealize.ShloMosaic.StableHlo

variable (Wp : Valuation τ sig (Elt Ideal))
variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S3x64x64, .f32⟩ : BufTy).Contents (Elt Ideal))
  (x4 x5 x6 : (⟨S3x64, .f32⟩ : BufTy).Contents (Elt Ideal))

set_option maxHeartbeats 4000000 in
theorem layer2a_out (hh : Wp (Proc.devRef .tc main_v131) = (val_main_v131 (F := Ideal) x0 x1 x3 x4 x5 x6)) (h3 : Wp (Proc.devRef .tc main_v3) = (val_main_v3 (F := Ideal) x1)) (h6 : Wp (Proc.devRef .tc main_v6) = (val_main_v6 (F := Ideal) x1)) (h29 : Wp (Proc.devRef .tc main_v29) = (val_main_v29 (F := Ideal) x1)) (ha3 : Wp (Proc.devRef .tc main_arg3) = x3) (ha4 : Wp (Proc.devRef .tc main_arg4) = x4) (ha5 : Wp (Proc.devRef .tc main_arg5) = x5) (ha6 : Wp (Proc.devRef .tc main_arg6) = x6) :
    after (opsL2a (F := Ideal)) Wp (Proc.devRef .tc main_v181) = (val_main_v181 (F := Ideal) x0 x1 x3 x4 x5 x6) := by
  dsimp only [opsL2a]; after_results_simp
  simp only [hh, h3, h6, h29, ha3, ha4, ha5, ha6]
  rfl
theorem keep_opsL2a_main_arg0 : after (opsL2a (F := Ideal)) Wp (Proc.devRef .tc main_arg0) = Wp (Proc.devRef .tc main_arg0) := by
  dsimp only [opsL2a]; after_results_simp
theorem keep_opsL2a_main_arg1 : after (opsL2a (F := Ideal)) Wp (Proc.devRef .tc main_arg1) = Wp (Proc.devRef .tc main_arg1) := by
  dsimp only [opsL2a]; after_results_simp
theorem keep_opsL2a_main_arg2 : after (opsL2a (F := Ideal)) Wp (Proc.devRef .tc main_arg2) = Wp (Proc.devRef .tc main_arg2) := by
  dsimp only [opsL2a]; after_results_simp
theorem keep_opsL2a_main_arg3 : after (opsL2a (F := Ideal)) Wp (Proc.devRef .tc main_arg3) = Wp (Proc.devRef .tc main_arg3) := by
  dsimp only [opsL2a]; after_results_simp
theorem keep_opsL2a_main_arg4 : after (opsL2a (F := Ideal)) Wp (Proc.devRef .tc main_arg4) = Wp (Proc.devRef .tc main_arg4) := by
  dsimp only [opsL2a]; after_results_simp
theorem keep_opsL2a_main_arg5 : after (opsL2a (F := Ideal)) Wp (Proc.devRef .tc main_arg5) = Wp (Proc.devRef .tc main_arg5) := by
  dsimp only [opsL2a]; after_results_simp
theorem keep_opsL2a_main_arg6 : after (opsL2a (F := Ideal)) Wp (Proc.devRef .tc main_arg6) = Wp (Proc.devRef .tc main_arg6) := by
  dsimp only [opsL2a]; after_results_simp
theorem keep_opsL2a_main_v3 : after (opsL2a (F := Ideal)) Wp (Proc.devRef .tc main_v3) = Wp (Proc.devRef .tc main_v3) := by
  dsimp only [opsL2a]; after_results_simp
theorem keep_opsL2a_main_v6 : after (opsL2a (F := Ideal)) Wp (Proc.devRef .tc main_v6) = Wp (Proc.devRef .tc main_v6) := by
  dsimp only [opsL2a]; after_results_simp
theorem keep_opsL2a_main_v29 : after (opsL2a (F := Ideal)) Wp (Proc.devRef .tc main_v29) = Wp (Proc.devRef .tc main_v29) := by
  dsimp only [opsL2a]; after_results_simp

set_option maxHeartbeats 4000000 in
/-- The clamp at zero from any operand. -/
theorem relu2_abs (a : (⟨S100000x64, .f32⟩ : BufTy).Contents (Elt Ideal)) (h : Wp (Proc.devRef .tc main_v181) = a) :
    after (opsL2b (F := Ideal)) Wp (Proc.devRef .tc main_v182) = maximumf a (broadcastInDim S100000x64 ![] bcast_S_S100000x64 (constant (F := Ideal) S_ .f32 0x00000000#32)) := by
  dsimp only [opsL2b]; after_results_simp
  simp only [h]
  rfl
theorem relu2_ref : (val_main_v182 (F := Ideal) x0 x1 x3 x4 x5 x6) = maximumf (val_main_v181 (F := Ideal) x0 x1 x3 x4 x5 x6) (broadcastInDim S100000x64 ![] bcast_S_S100000x64 (constant (F := Ideal) S_ .f32 0x00000000#32)) := rfl
theorem layer2b_out (h : Wp (Proc.devRef .tc main_v181) = (val_main_v181 (F := Ideal) x0 x1 x3 x4 x5 x6)) :
    after (opsL2b (F := Ideal)) Wp (Proc.devRef .tc main_v182) = (val_main_v182 (F := Ideal) x0 x1 x3 x4 x5 x6) :=
  (relu2_abs Wp _ h).trans (relu2_ref x0 x1 x3 x4 x5 x6).symm
theorem keep_opsL2b_main_arg0 : after (opsL2b (F := Ideal)) Wp (Proc.devRef .tc main_arg0) = Wp (Proc.devRef .tc main_arg0) := by
  dsimp only [opsL2b]; after_results_simp
theorem keep_opsL2b_main_arg1 : after (opsL2b (F := Ideal)) Wp (Proc.devRef .tc main_arg1) = Wp (Proc.devRef .tc main_arg1) := by
  dsimp only [opsL2b]; after_results_simp
theorem keep_opsL2b_main_arg2 : after (opsL2b (F := Ideal)) Wp (Proc.devRef .tc main_arg2) = Wp (Proc.devRef .tc main_arg2) := by
  dsimp only [opsL2b]; after_results_simp
theorem keep_opsL2b_main_arg3 : after (opsL2b (F := Ideal)) Wp (Proc.devRef .tc main_arg3) = Wp (Proc.devRef .tc main_arg3) := by
  dsimp only [opsL2b]; after_results_simp
theorem keep_opsL2b_main_arg4 : after (opsL2b (F := Ideal)) Wp (Proc.devRef .tc main_arg4) = Wp (Proc.devRef .tc main_arg4) := by
  dsimp only [opsL2b]; after_results_simp
theorem keep_opsL2b_main_arg5 : after (opsL2b (F := Ideal)) Wp (Proc.devRef .tc main_arg5) = Wp (Proc.devRef .tc main_arg5) := by
  dsimp only [opsL2b]; after_results_simp
theorem keep_opsL2b_main_arg6 : after (opsL2b (F := Ideal)) Wp (Proc.devRef .tc main_arg6) = Wp (Proc.devRef .tc main_arg6) := by
  dsimp only [opsL2b]; after_results_simp
theorem keep_opsL2b_main_v3 : after (opsL2b (F := Ideal)) Wp (Proc.devRef .tc main_v3) = Wp (Proc.devRef .tc main_v3) := by
  dsimp only [opsL2b]; after_results_simp
theorem keep_opsL2b_main_v6 : after (opsL2b (F := Ideal)) Wp (Proc.devRef .tc main_v6) = Wp (Proc.devRef .tc main_v6) := by
  dsimp only [opsL2b]; after_results_simp
theorem keep_opsL2b_main_v29 : after (opsL2b (F := Ideal)) Wp (Proc.devRef .tc main_v29) = Wp (Proc.devRef .tc main_v29) := by
  dsimp only [opsL2b]; after_results_simp

end Cert.ReferenceIdeal.RunV

end
-- ==== Proof.RefRunTail.lean ====
/-
The reference's mean pooling over graphs from any contents.
-/
import proofs.«132062_j28845000360070_1_alg».proof.Proof.RefRunOps
import proofs.«132062_j28845000360070_1_alg».proof.Proof.RefRead

noncomputable section

namespace Cert.ReferenceIdeal.RunV

open Cert.ReferenceIdeal Cert.ReferenceIdeal.Gen Cert.ReferenceIdeal.ReadP
open Idealize.ShloMosaic Idealize.ShloMosaic.TcCoe Idealize.SL.Sem Idealize.ShloMosaic.StableHlo

variable (Wp : Valuation τ sig (Elt Ideal))
variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S3x64x64, .f32⟩ : BufTy).Contents (Elt Ideal))
  (x4 x5 x6 : (⟨S3x64, .f32⟩ : BufTy).Contents (Elt Ideal))

set_option maxHeartbeats 4000000 in
theorem tail_out (h182 : Wp (Proc.devRef .tc main_v182) = (val_main_v182 (F := Ideal) x0 x1 x3 x4 x5 x6)) (h2 : Wp (Proc.devRef .tc main_arg2) = x2) :
    after (opsTail (F := Ideal)) Wp (Proc.devRef .tc main_v194) = (val_main_v194 (F := Ideal) x0 x1 x2 x3 x4 x5 x6) := by
  dsimp only [opsTail]; after_results_simp
  simp only [h182, h2]
  rfl
theorem keep_opsTail_main_arg0 : after (opsTail (F := Ideal)) Wp (Proc.devRef .tc main_arg0) = Wp (Proc.devRef .tc main_arg0) := by
  dsimp only [opsTail]; after_results_simp
theorem keep_opsTail_main_arg1 : after (opsTail (F := Ideal)) Wp (Proc.devRef .tc main_arg1) = Wp (Proc.devRef .tc main_arg1) := by
  dsimp only [opsTail]; after_results_simp
theorem keep_opsTail_main_arg2 : after (opsTail (F := Ideal)) Wp (Proc.devRef .tc main_arg2) = Wp (Proc.devRef .tc main_arg2) := by
  dsimp only [opsTail]; after_results_simp
theorem keep_opsTail_main_arg3 : after (opsTail (F := Ideal)) Wp (Proc.devRef .tc main_arg3) = Wp (Proc.devRef .tc main_arg3) := by
  dsimp only [opsTail]; after_results_simp
theorem keep_opsTail_main_arg4 : after (opsTail (F := Ideal)) Wp (Proc.devRef .tc main_arg4) = Wp (Proc.devRef .tc main_arg4) := by
  dsimp only [opsTail]; after_results_simp
theorem keep_opsTail_main_arg5 : after (opsTail (F := Ideal)) Wp (Proc.devRef .tc main_arg5) = Wp (Proc.devRef .tc main_arg5) := by
  dsimp only [opsTail]; after_results_simp
theorem keep_opsTail_main_arg6 : after (opsTail (F := Ideal)) Wp (Proc.devRef .tc main_arg6) = Wp (Proc.devRef .tc main_arg6) := by
  dsimp only [opsTail]; after_results_simp

end Cert.ReferenceIdeal.RunV

end
-- ==== Proof.RefRun.lean ====
/-
The reference program's run. Every weakly fair execution of @main terminates with the arguments unchanged and the result
  buffer at the last stage function of the arguments. The straight line is run piece by piece: after each of its consecutive
  pieces the buffers the later pieces read hold their stage functions of the arguments, given that they did before it;
  composing the full term of the result at once would repeat every layer's sub-terms for each of their uses.
-/
import proofs.«132062_j28845000360070_1_alg».proof.Proof.RefRunOps
import proofs.«132062_j28845000360070_1_alg».proof.Proof.RefRead
import proofs.«132062_j28845000360070_1_alg».proof.Proof.RefRunPreA
import proofs.«132062_j28845000360070_1_alg».proof.Proof.RefRunPreB
import proofs.«132062_j28845000360070_1_alg».proof.Proof.RefRunL0
import proofs.«132062_j28845000360070_1_alg».proof.Proof.RefRunL1
import proofs.«132062_j28845000360070_1_alg».proof.Proof.RefRunL2
import proofs.«132062_j28845000360070_1_alg».proof.Proof.RefRunTail

noncomputable section

namespace Cert.ReferenceIdeal.RunV

open Cert.ReferenceIdeal Cert.ReferenceIdeal.Gen Cert.ReferenceIdeal.ReadP
open Idealize.ShloMosaic Idealize.ShloMosaic.TcCoe Idealize.SL.Sem Idealize.ShloMosaic.StableHlo

/-- From contents `W0` that hold the arguments, the whole line leaves the result buffer at the last stage and each
    argument as it was. -/
theorem line_eq (W0 : Valuation τ sig (Elt Ideal))
    (x0 : (⟨S100000x64, .f32⟩ : BufTy).Contents (Elt Ideal)) (x1 : (⟨S2x1600000, .i32⟩ : BufTy).Contents (Elt Ideal))
    (x2 : (⟨S100000, .i32⟩ : BufTy).Contents (Elt Ideal)) (x3 : (⟨S3x64x64, .f32⟩ : BufTy).Contents (Elt Ideal))
    (x4 x5 x6 : (⟨S3x64, .f32⟩ : BufTy).Contents (Elt Ideal))
    (e0 : W0 (Proc.devRef .tc main_arg0) = x0) (e1 : W0 (Proc.devRef .tc main_arg1) = x1) (e2 : W0 (Proc.devRef .tc main_arg2) = x2)
    (e3 : W0 (Proc.devRef .tc main_arg3) = x3) (e4 : W0 (Proc.devRef .tc main_arg4) = x4) (e5 : W0 (Proc.devRef .tc main_arg5) = x5)
    (e6 : W0 (Proc.devRef .tc main_arg6) = x6) :
    after (ops (F := Ideal)) W0 (Proc.devRef .tc main_v194) = val_main_v194 (F := Ideal) x0 x1 x2 x3 x4 x5 x6
      ∧ after (ops (F := Ideal)) W0 (Proc.devRef .tc main_arg0) = x0 ∧ after (ops (F := Ideal)) W0 (Proc.devRef .tc main_arg1) = x1
      ∧ after (ops (F := Ideal)) W0 (Proc.devRef .tc main_arg2) = x2 ∧ after (ops (F := Ideal)) W0 (Proc.devRef .tc main_arg3) = x3
      ∧ after (ops (F := Ideal)) W0 (Proc.devRef .tc main_arg4) = x4 ∧ after (ops (F := Ideal)) W0 (Proc.devRef .tc main_arg5) = x5
      ∧ after (ops (F := Ideal)) W0 (Proc.devRef .tc main_arg6) = x6 := by
  rw [ops_split, after_append, after_append, after_append, after_append, after_append, after_append, after_append, after_append, after_append, after_append]
  generalize hW1 : after (opsPreA (F := Ideal)) W0 = W1
  have p1_main_v3 : W1 (Proc.devRef .tc main_v3) = (val_main_v3 (F := Ideal) x1) := by rw [← hW1]; exact preA_v3 W0 x1 e1
  have p1_main_v6 : W1 (Proc.devRef .tc main_v6) = (val_main_v6 (F := Ideal) x1) := by rw [← hW1]; exact preA_v6 W0 x1 e1
  have k1_main_arg0 : W1 (Proc.devRef .tc main_arg0) = x0 := by rw [← hW1]; exact (keep_opsPreA_main_arg0 W0).trans e0
  have k1_main_arg1 : W1 (Proc.devRef .tc main_arg1) = x1 := by rw [← hW1]; exact (keep_opsPreA_main_arg1 W0).trans e1
  have k1_main_arg2 : W1 (Proc.devRef .tc main_arg2) = x2 := by rw [← hW1]; exact (keep_opsPreA_main_arg2 W0).trans e2
  have k1_main_arg3 : W1 (Proc.devRef .tc main_arg3) = x3 := by rw [← hW1]; exact (keep_opsPreA_main_arg3 W0).trans e3
  have k1_main_arg4 : W1 (Proc.devRef .tc main_arg4) = x4 := by rw [← hW1]; exact (keep_opsPreA_main_arg4 W0).trans e4
  have k1_main_arg5 : W1 (Proc.devRef .tc main_arg5) = x5 := by rw [← hW1]; exact (keep_opsPreA_main_arg5 W0).trans e5
  have k1_main_arg6 : W1 (Proc.devRef .tc main_arg6) = x6 := by rw [← hW1]; exact (keep_opsPreA_main_arg6 W0).trans e6
  clear hW1
  generalize hW2 : after (opsPreB1 (F := Ideal)) W1 = W2
  have p2_main_v12 : W2 (Proc.devRef .tc main_v12) = (val_main_v12 (F := Ideal) x1) := by rw [← hW2]; exact preB1_v12 W1 x1 p1_main_v6
  have p2_main_v13 : W2 (Proc.devRef .tc main_v13) = (val_main_v13 (F := Ideal) x1) := by rw [← hW2]; exact preB1_v13 W1 x1 p1_main_v6
  have p2_main_cst_2 : W2 (Proc.devRef .tc main_cst_2) = (val_main_cst_2 (F := Ideal)) := by rw [← hW2]; exact preB1_cst2 W1
  have k2_main_arg0 : W2 (Proc.devRef .tc main_arg0) = x0 := by rw [← hW2]; exact (keep_opsPreB1_main_arg0 W1).trans k1_main_arg0
  have k2_main_arg1 : W2 (Proc.devRef .tc main_arg1) = x1 := by rw [← hW2]; exact (keep_opsPreB1_main_arg1 W1).trans k1_main_arg1
  have k2_main_arg2 : W2 (Proc.devRef .tc main_arg2) = x2 := by rw [← hW2]; exact (keep_opsPreB1_main_arg2 W1).trans k1_main_arg2
  have k2_main_arg3 : W2 (Proc.devRef .tc main_arg3) = x3 := by rw [← hW2]; exact (keep_opsPreB1_main_arg3 W1).trans k1_main_arg3
  have k2_main_arg4 : W2 (Proc.devRef .tc main_arg4) = x4 := by rw [← hW2]; exact (keep_opsPreB1_main_arg4 W1).trans k1_main_arg4
  have k2_main_arg5 : W2 (Proc.devRef .tc main_arg5) = x5 := by rw [← hW2]; exact (keep_opsPreB1_main_arg5 W1).trans k1_main_arg5
  have k2_main_arg6 : W2 (Proc.devRef .tc main_arg6) = x6 := by rw [← hW2]; exact (keep_opsPreB1_main_arg6 W1).trans k1_main_arg6
  have k2_main_v3 : W2 (Proc.devRef .tc main_v3) = (val_main_v3 (F := Ideal) x1) := by rw [← hW2]; exact (keep_opsPreB1_main_v3 W1).trans p1_main_v3
  have k2_main_v6 : W2 (Proc.devRef .tc main_v6) = (val_main_v6 (F := Ideal) x1) := by rw [← hW2]; exact (keep_opsPreB1_main_v6 W1).trans p1_main_v6
  clear hW2
  generalize hW3 : after (opsCall0 (F := Ideal)) W2 = W3
  have p3_main_v14 : W3 (Proc.devRef .tc main_v14) = (val_main_v14 (F := Ideal) x1) := by rw [← hW3]; exact call0_v14 W2 x1 p2_main_v12 p2_main_v13 p2_main_cst_2
  have k3_main_arg0 : W3 (Proc.devRef .tc main_arg0) = x0 := by rw [← hW3]; exact (keep_opsCall0_main_arg0 W2).trans k2_main_arg0
  have k3_main_arg1 : W3 (Proc.devRef .tc main_arg1) = x1 := by rw [← hW3]; exact (keep_opsCall0_main_arg1 W2).trans k2_main_arg1
  have k3_main_arg2 : W3 (Proc.devRef .tc main_arg2) = x2 := by rw [← hW3]; exact (keep_opsCall0_main_arg2 W2).trans k2_main_arg2
  have k3_main_arg3 : W3 (Proc.devRef .tc main_arg3) = x3 := by rw [← hW3]; exact (keep_opsCall0_main_arg3 W2).trans k2_main_arg3
  have k3_main_arg4 : W3 (Proc.devRef .tc main_arg4) = x4 := by rw [← hW3]; exact (keep_opsCall0_main_arg4 W2).trans k2_main_arg4
  have k3_main_arg5 : W3 (Proc.devRef .tc main_arg5) = x5 := by rw [← hW3]; exact (keep_opsCall0_main_arg5 W2).trans k2_main_arg5
  have k3_main_arg6 : W3 (Proc.devRef .tc main_arg6) = x6 := by rw [← hW3]; exact (keep_opsCall0_main_arg6 W2).trans k2_main_arg6
  have k3_main_v3 : W3 (Proc.devRef .tc main_v3) = (val_main_v3 (F := Ideal) x1) := by rw [← hW3]; exact (keep_opsCall0_main_v3 W2).trans k2_main_v3
  have k3_main_v6 : W3 (Proc.devRef .tc main_v6) = (val_main_v6 (F := Ideal) x1) := by rw [← hW3]; exact (keep_opsCall0_main_v6 W2).trans k2_main_v6
  clear hW3
  generalize hW4 : after (opsPreB2 (F := Ideal)) W3 = W4
  have p4_main_v29 : W4 (Proc.devRef .tc main_v29) = (val_main_v29 (F := Ideal) x1) := by rw [← hW4]; exact preB2_v29 W3 x1 p3_main_v14 k3_main_v3 k3_main_v6
  have k4_main_arg0 : W4 (Proc.devRef .tc main_arg0) = x0 := by rw [← hW4]; exact (keep_opsPreB2_main_arg0 W3).trans k3_main_arg0
  have k4_main_arg1 : W4 (Proc.devRef .tc main_arg1) = x1 := by rw [← hW4]; exact (keep_opsPreB2_main_arg1 W3).trans k3_main_arg1
  have k4_main_arg2 : W4 (Proc.devRef .tc main_arg2) = x2 := by rw [← hW4]; exact (keep_opsPreB2_main_arg2 W3).trans k3_main_arg2
  have k4_main_arg3 : W4 (Proc.devRef .tc main_arg3) = x3 := by rw [← hW4]; exact (keep_opsPreB2_main_arg3 W3).trans k3_main_arg3
  have k4_main_arg4 : W4 (Proc.devRef .tc main_arg4) = x4 := by rw [← hW4]; exact (keep_opsPreB2_main_arg4 W3).trans k3_main_arg4
  have k4_main_arg5 : W4 (Proc.devRef .tc main_arg5) = x5 := by rw [← hW4]; exact (keep_opsPreB2_main_arg5 W3).trans k3_main_arg5
  have k4_main_arg6 : W4 (Proc.devRef .tc main_arg6) = x6 := by rw [← hW4]; exact (keep_opsPreB2_main_arg6 W3).trans k3_main_arg6
  have k4_main_v3 : W4 (Proc.devRef .tc main_v3) = (val_main_v3 (F := Ideal) x1) := by rw [← hW4]; exact (keep_opsPreB2_main_v3 W3).trans k3_main_v3
  have k4_main_v6 : W4 (Proc.devRef .tc main_v6) = (val_main_v6 (F := Ideal) x1) := by rw [← hW4]; exact (keep_opsPreB2_main_v6 W3).trans k3_main_v6
  clear hW4
  generalize hW5 : after (opsL0a (F := Ideal)) W4 = W5
  have p5_main_v79 : W5 (Proc.devRef .tc main_v79) = (val_main_v79 (F := Ideal) x0 x1 x3 x4 x5 x6) := by rw [← hW5]; exact layer0a_out W4 x0 x1 x3 x4 x5 x6 k4_main_arg0 k4_main_v3 k4_main_v6 p4_main_v29 k4_main_arg3 k4_main_arg4 k4_main_arg5 k4_main_arg6
  have k5_main_arg0 : W5 (Proc.devRef .tc main_arg0) = x0 := by rw [← hW5]; exact (keep_opsL0a_main_arg0 W4).trans k4_main_arg0
  have k5_main_arg1 : W5 (Proc.devRef .tc main_arg1) = x1 := by rw [← hW5]; exact (keep_opsL0a_main_arg1 W4).trans k4_main_arg1
  have k5_main_arg2 : W5 (Proc.devRef .tc main_arg2) = x2 := by rw [← hW5]; exact (keep_opsL0a_main_arg2 W4).trans k4_main_arg2
  have k5_main_arg3 : W5 (Proc.devRef .tc main_arg3) = x3 := by rw [← hW5]; exact (keep_opsL0a_main_arg3 W4).trans k4_main_arg3
  have k5_main_arg4 : W5 (Proc.devRef .tc main_arg4) = x4 := by rw [← hW5]; exact (keep_opsL0a_main_arg4 W4).trans k4_main_arg4
  have k5_main_arg5 : W5 (Proc.devRef .tc main_arg5) = x5 := by rw [← hW5]; exact (keep_opsL0a_main_arg5 W4).trans k4_main_arg5
  have k5_main_arg6 : W5 (Proc.devRef .tc main_arg6) = x6 := by rw [← hW5]; exact (keep_opsL0a_main_arg6 W4).trans k4_main_arg6
  have k5_main_v3 : W5 (Proc.devRef .tc main_v3) = (val_main_v3 (F := Ideal) x1) := by rw [← hW5]; exact (keep_opsL0a_main_v3 W4).trans k4_main_v3
  have k5_main_v6 : W5 (Proc.devRef .tc main_v6) = (val_main_v6 (F := Ideal) x1) := by rw [← hW5]; exact (keep_opsL0a_main_v6 W4).trans k4_main_v6
  have k5_main_v29 : W5 (Proc.devRef .tc main_v29) = (val_main_v29 (F := Ideal) x1) := by rw [← hW5]; exact (keep_opsL0a_main_v29 W4).trans p4_main_v29
  clear hW5
  generalize hW6 : after (opsL0b (F := Ideal)) W5 = W6
  have p6_main_v80 : W6 (Proc.devRef .tc main_v80) = (val_main_v80 (F := Ideal) x0 x1 x3 x4 x5 x6) := by rw [← hW6]; exact layer0b_out W5 x0 x1 x3 x4 x5 x6 p5_main_v79
  have k6_main_arg0 : W6 (Proc.devRef .tc main_arg0) = x0 := by rw [← hW6]; exact (keep_opsL0b_main_arg0 W5).trans k5_main_arg0
  have k6_main_arg1 : W6 (Proc.devRef .tc main_arg1) = x1 := by rw [← hW6]; exact (keep_opsL0b_main_arg1 W5).trans k5_main_arg1
  have k6_main_arg2 : W6 (Proc.devRef .tc main_arg2) = x2 := by rw [← hW6]; exact (keep_opsL0b_main_arg2 W5).trans k5_main_arg2
  have k6_main_arg3 : W6 (Proc.devRef .tc main_arg3) = x3 := by rw [← hW6]; exact (keep_opsL0b_main_arg3 W5).trans k5_main_arg3
  have k6_main_arg4 : W6 (Proc.devRef .tc main_arg4) = x4 := by rw [← hW6]; exact (keep_opsL0b_main_arg4 W5).trans k5_main_arg4
  have k6_main_arg5 : W6 (Proc.devRef .tc main_arg5) = x5 := by rw [← hW6]; exact (keep_opsL0b_main_arg5 W5).trans k5_main_arg5
  have k6_main_arg6 : W6 (Proc.devRef .tc main_arg6) = x6 := by rw [← hW6]; exact (keep_opsL0b_main_arg6 W5).trans k5_main_arg6
  have k6_main_v3 : W6 (Proc.devRef .tc main_v3) = (val_main_v3 (F := Ideal) x1) := by rw [← hW6]; exact (keep_opsL0b_main_v3 W5).trans k5_main_v3
  have k6_main_v6 : W6 (Proc.devRef .tc main_v6) = (val_main_v6 (F := Ideal) x1) := by rw [← hW6]; exact (keep_opsL0b_main_v6 W5).trans k5_main_v6
  have k6_main_v29 : W6 (Proc.devRef .tc main_v29) = (val_main_v29 (F := Ideal) x1) := by rw [← hW6]; exact (keep_opsL0b_main_v29 W5).trans k5_main_v29
  clear hW6
  generalize hW7 : after (opsL1a (F := Ideal)) W6 = W7
  have p7_main_v130 : W7 (Proc.devRef .tc main_v130) = (val_main_v130 (F := Ideal) x0 x1 x3 x4 x5 x6) := by rw [← hW7]; exact layer1a_out W6 x0 x1 x3 x4 x5 x6 p6_main_v80 k6_main_v3 k6_main_v6 k6_main_v29 k6_main_arg3 k6_main_arg4 k6_main_arg5 k6_main_arg6
  have k7_main_arg0 : W7 (Proc.devRef .tc main_arg0) = x0 := by rw [← hW7]; exact (keep_opsL1a_main_arg0 W6).trans k6_main_arg0
  have k7_main_arg1 : W7 (Proc.devRef .tc main_arg1) = x1 := by rw [← hW7]; exact (keep_opsL1a_main_arg1 W6).trans k6_main_arg1
  have k7_main_arg2 : W7 (Proc.devRef .tc main_arg2) = x2 := by rw [← hW7]; exact (keep_opsL1a_main_arg2 W6).trans k6_main_arg2
  have k7_main_arg3 : W7 (Proc.devRef .tc main_arg3) = x3 := by rw [← hW7]; exact (keep_opsL1a_main_arg3 W6).trans k6_main_arg3
  have k7_main_arg4 : W7 (Proc.devRef .tc main_arg4) = x4 := by rw [← hW7]; exact (keep_opsL1a_main_arg4 W6).trans k6_main_arg4
  have k7_main_arg5 : W7 (Proc.devRef .tc main_arg5) = x5 := by rw [← hW7]; exact (keep_opsL1a_main_arg5 W6).trans k6_main_arg5
  have k7_main_arg6 : W7 (Proc.devRef .tc main_arg6) = x6 := by rw [← hW7]; exact (keep_opsL1a_main_arg6 W6).trans k6_main_arg6
  have k7_main_v3 : W7 (Proc.devRef .tc main_v3) = (val_main_v3 (F := Ideal) x1) := by rw [← hW7]; exact (keep_opsL1a_main_v3 W6).trans k6_main_v3
  have k7_main_v6 : W7 (Proc.devRef .tc main_v6) = (val_main_v6 (F := Ideal) x1) := by rw [← hW7]; exact (keep_opsL1a_main_v6 W6).trans k6_main_v6
  have k7_main_v29 : W7 (Proc.devRef .tc main_v29) = (val_main_v29 (F := Ideal) x1) := by rw [← hW7]; exact (keep_opsL1a_main_v29 W6).trans k6_main_v29
  clear hW7
  generalize hW8 : after (opsL1b (F := Ideal)) W7 = W8
  have p8_main_v131 : W8 (Proc.devRef .tc main_v131) = (val_main_v131 (F := Ideal) x0 x1 x3 x4 x5 x6) := by rw [← hW8]; exact layer1b_out W7 x0 x1 x3 x4 x5 x6 p7_main_v130
  have k8_main_arg0 : W8 (Proc.devRef .tc main_arg0) = x0 := by rw [← hW8]; exact (keep_opsL1b_main_arg0 W7).trans k7_main_arg0
  have k8_main_arg1 : W8 (Proc.devRef .tc main_arg1) = x1 := by rw [← hW8]; exact (keep_opsL1b_main_arg1 W7).trans k7_main_arg1
  have k8_main_arg2 : W8 (Proc.devRef .tc main_arg2) = x2 := by rw [← hW8]; exact (keep_opsL1b_main_arg2 W7).trans k7_main_arg2
  have k8_main_arg3 : W8 (Proc.devRef .tc main_arg3) = x3 := by rw [← hW8]; exact (keep_opsL1b_main_arg3 W7).trans k7_main_arg3
  have k8_main_arg4 : W8 (Proc.devRef .tc main_arg4) = x4 := by rw [← hW8]; exact (keep_opsL1b_main_arg4 W7).trans k7_main_arg4
  have k8_main_arg5 : W8 (Proc.devRef .tc main_arg5) = x5 := by rw [← hW8]; exact (keep_opsL1b_main_arg5 W7).trans k7_main_arg5
  have k8_main_arg6 : W8 (Proc.devRef .tc main_arg6) = x6 := by rw [← hW8]; exact (keep_opsL1b_main_arg6 W7).trans k7_main_arg6
  have k8_main_v3 : W8 (Proc.devRef .tc main_v3) = (val_main_v3 (F := Ideal) x1) := by rw [← hW8]; exact (keep_opsL1b_main_v3 W7).trans k7_main_v3
  have k8_main_v6 : W8 (Proc.devRef .tc main_v6) = (val_main_v6 (F := Ideal) x1) := by rw [← hW8]; exact (keep_opsL1b_main_v6 W7).trans k7_main_v6
  have k8_main_v29 : W8 (Proc.devRef .tc main_v29) = (val_main_v29 (F := Ideal) x1) := by rw [← hW8]; exact (keep_opsL1b_main_v29 W7).trans k7_main_v29
  clear hW8
  generalize hW9 : after (opsL2a (F := Ideal)) W8 = W9
  have p9_main_v181 : W9 (Proc.devRef .tc main_v181) = (val_main_v181 (F := Ideal) x0 x1 x3 x4 x5 x6) := by rw [← hW9]; exact layer2a_out W8 x0 x1 x3 x4 x5 x6 p8_main_v131 k8_main_v3 k8_main_v6 k8_main_v29 k8_main_arg3 k8_main_arg4 k8_main_arg5 k8_main_arg6
  have k9_main_arg0 : W9 (Proc.devRef .tc main_arg0) = x0 := by rw [← hW9]; exact (keep_opsL2a_main_arg0 W8).trans k8_main_arg0
  have k9_main_arg1 : W9 (Proc.devRef .tc main_arg1) = x1 := by rw [← hW9]; exact (keep_opsL2a_main_arg1 W8).trans k8_main_arg1
  have k9_main_arg2 : W9 (Proc.devRef .tc main_arg2) = x2 := by rw [← hW9]; exact (keep_opsL2a_main_arg2 W8).trans k8_main_arg2
  have k9_main_arg3 : W9 (Proc.devRef .tc main_arg3) = x3 := by rw [← hW9]; exact (keep_opsL2a_main_arg3 W8).trans k8_main_arg3
  have k9_main_arg4 : W9 (Proc.devRef .tc main_arg4) = x4 := by rw [← hW9]; exact (keep_opsL2a_main_arg4 W8).trans k8_main_arg4
  have k9_main_arg5 : W9 (Proc.devRef .tc main_arg5) = x5 := by rw [← hW9]; exact (keep_opsL2a_main_arg5 W8).trans k8_main_arg5
  have k9_main_arg6 : W9 (Proc.devRef .tc main_arg6) = x6 := by rw [← hW9]; exact (keep_opsL2a_main_arg6 W8).trans k8_main_arg6
  have k9_main_v3 : W9 (Proc.devRef .tc main_v3) = (val_main_v3 (F := Ideal) x1) := by rw [← hW9]; exact (keep_opsL2a_main_v3 W8).trans k8_main_v3
  have k9_main_v6 : W9 (Proc.devRef .tc main_v6) = (val_main_v6 (F := Ideal) x1) := by rw [← hW9]; exact (keep_opsL2a_main_v6 W8).trans k8_main_v6
  have k9_main_v29 : W9 (Proc.devRef .tc main_v29) = (val_main_v29 (F := Ideal) x1) := by rw [← hW9]; exact (keep_opsL2a_main_v29 W8).trans k8_main_v29
  clear hW9
  generalize hW10 : after (opsL2b (F := Ideal)) W9 = W10
  have p10_main_v182 : W10 (Proc.devRef .tc main_v182) = (val_main_v182 (F := Ideal) x0 x1 x3 x4 x5 x6) := by rw [← hW10]; exact layer2b_out W9 x0 x1 x3 x4 x5 x6 p9_main_v181
  have k10_main_arg0 : W10 (Proc.devRef .tc main_arg0) = x0 := by rw [← hW10]; exact (keep_opsL2b_main_arg0 W9).trans k9_main_arg0
  have k10_main_arg1 : W10 (Proc.devRef .tc main_arg1) = x1 := by rw [← hW10]; exact (keep_opsL2b_main_arg1 W9).trans k9_main_arg1
  have k10_main_arg2 : W10 (Proc.devRef .tc main_arg2) = x2 := by rw [← hW10]; exact (keep_opsL2b_main_arg2 W9).trans k9_main_arg2
  have k10_main_arg3 : W10 (Proc.devRef .tc main_arg3) = x3 := by rw [← hW10]; exact (keep_opsL2b_main_arg3 W9).trans k9_main_arg3
  have k10_main_arg4 : W10 (Proc.devRef .tc main_arg4) = x4 := by rw [← hW10]; exact (keep_opsL2b_main_arg4 W9).trans k9_main_arg4
  have k10_main_arg5 : W10 (Proc.devRef .tc main_arg5) = x5 := by rw [← hW10]; exact (keep_opsL2b_main_arg5 W9).trans k9_main_arg5
  have k10_main_arg6 : W10 (Proc.devRef .tc main_arg6) = x6 := by rw [← hW10]; exact (keep_opsL2b_main_arg6 W9).trans k9_main_arg6
  have k10_main_v3 : W10 (Proc.devRef .tc main_v3) = (val_main_v3 (F := Ideal) x1) := by rw [← hW10]; exact (keep_opsL2b_main_v3 W9).trans k9_main_v3
  have k10_main_v6 : W10 (Proc.devRef .tc main_v6) = (val_main_v6 (F := Ideal) x1) := by rw [← hW10]; exact (keep_opsL2b_main_v6 W9).trans k9_main_v6
  have k10_main_v29 : W10 (Proc.devRef .tc main_v29) = (val_main_v29 (F := Ideal) x1) := by rw [← hW10]; exact (keep_opsL2b_main_v29 W9).trans k9_main_v29
  clear hW10
  refine ⟨tail_out W10 x0 x1 x2 x3 x4 x5 x6 p10_main_v182 k10_main_arg2, (keep_opsTail_main_arg0 W10).trans k10_main_arg0,
    (keep_opsTail_main_arg1 W10).trans k10_main_arg1,
    (keep_opsTail_main_arg2 W10).trans k10_main_arg2,
    (keep_opsTail_main_arg3 W10).trans k10_main_arg3,
    (keep_opsTail_main_arg4 W10).trans k10_main_arg4,
    (keep_opsTail_main_arg5 W10).trans k10_main_arg5,
    (keep_opsTail_main_arg6 W10).trans k10_main_arg6⟩

set_option maxRecDepth 8192 in
set_option maxHeartbeats 4000000 in
/-- On every device, from any memory with zero counters: every weakly fair execution of @main terminates with the result
    at the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v194) = val_main_v194 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      have L := line_eq (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) rfl rfl rfl rfl rfl rfl rfl
      exact ⟨(h c main_v194).trans L.1, (h c main_arg0).trans L.2.1, (h c main_arg1).trans L.2.2.1, (h c main_arg2).trans L.2.2.2.1,
        (h c main_arg3).trans L.2.2.2.2.1, (h c main_arg4).trans L.2.2.2.2.2.1, (h c main_arg5).trans L.2.2.2.2.2.2.1, (h c main_arg6).trans L.2.2.2.2.2.2.2⟩)
    (run_seq scopedRefs_eq scopedSems_eq defs main (fun _ => ops) main_eq (fun _ => ops_sub) m ρ)

end Cert.ReferenceIdeal.RunV

end
-- ==== Proof.RefReal.lean ====
/-
  Every value the reference computes on the way to a layer's pre-normalisation column is a real number when the float
  arguments are: each operation's result at an index is a sum, product, selection or copy of entries of its operands.
  The edge normalisation needs no hypothesis at all: an entry is the reciprocal square root of a positive degree, or zero.
-/
import proofs.«132062_j28845000360070_1_alg».proof.Proof.RefRead
import proofs.«132062_j28845000360070_1_alg».proof.Proof.Core
import proofs.«132062_j28845000360070_1_alg».proof.Proof.RefLayer0
import proofs.«132062_j28845000360070_1_alg».proof.Proof.RefLayer1
import proofs.«132062_j28845000360070_1_alg».proof.Proof.RefLayer2
import Idealize.ShloMosaic.Lib.ValueIdx
import Idealize.ShloMosaic.PureOps.Ideal.Laws

set_option maxRecDepth 16384

noncomputable section

namespace Cert.ReferenceIdeal.Real

open Cert.ReferenceIdeal Cert.ReferenceIdeal.ReadP Cert.Core
open Idealize.ShloMosaic Idealize.ShloMosaic.ValueIdx

/-! ## The operations that move or add entries -/

/-- A gather's entry is an entry of its operand. -/
theorem real_gather {s si t : Shape} {w : Nat} (d : GatherDims s si t) (x : s.Idx → EReal) (idx : IVec si w)
    (hx : ∀ i, IsReal (x i)) (j : t.Idx) : IsReal (Host.gather d x idx j) := hx _

/-- An accumulating scatter's entry is the operand's entry plus a finite sum of update entries. -/
theorem real_scatterAdd {s si u : Shape} {w : Nat} (d : ScatterDims s si u) (x : s.Idx → EReal) (idx : IVec si w)
    (upd : u.Idx → EReal) (hx : ∀ i, IsReal (x i)) (hu : ∀ j, IsReal (upd j)) (i : s.Idx) :
    IsReal (Host.scatterAdd (F := Ideal) (φ := .f32) d x idx upd i) := by
  show IsReal (Ideal.hostScatterAdd d x idx upd i)
  unfold Ideal.hostScatterAdd
  exact (hx i).add (IsReal.sum _ _ hu)

/-- The zero word is the real number zero. -/
theorem real_ofBits_zero : IsReal (Ideal.ofBits .f32 0x00000000#32) := by
  rw [Ideal.ofBits_zero_f32]; exact isReal_zero

/-- `d^(-1/2)` where `d > 0`, else zero: always a real number. -/
theorem real_where (d : EReal) :
    IsReal (Scalar.select (FloatOps.cmpf (F := Ideal) (φ := .f32) .ogt d (0 : EReal)) (FloatOps.hostUnary (F := Ideal) (φ := .f32) .rsqrt d) (0 : EReal)) := by
  show IsReal (Scalar.select (Ideal.cmp .ogt d 0) (Ideal.rsqrt d) (0 : EReal))
  by_cases h : (0 : EReal) < d
  · have e : Ideal.cmp .ogt d 0 = 1#1 := by
      show BitVec.ofBool (decide ((0 : EReal) < d)) = 1#1
      rw [decide_eq_true h]; rfl
    rw [e, select_one]; exact isReal_rsqrt_of_pos h
  · have e : Ideal.cmp .ogt d 0 = 0#1 := by
      show BitVec.ofBool (decide ((0 : EReal) < d)) = 0#1
      rw [decide_eq_false h]; rfl
    rw [e, select_zero]; exact isReal_zero

/-! ## The edge normalisation -/

/-- The degree's reciprocal square root where the degree is positive, zero elsewhere. -/
theorem real_v14 (x1 : (⟨S2x1600000, .i32⟩ : BufTy).Contents (Elt Ideal)) (i : S100000.Idx) : IsReal (val_main_v14 (F := Ideal) x1 i) := by
  have h11 : val_main_v11 (F := Ideal) i = (0 : EReal) :=
    (val_main_v11_apply i).trans ((val_main_cst_1_apply _).trans Ideal.ofBits_zero_f32)
  have hc : val_main_call0_v1 (F := Ideal) i = (0 : EReal) :=
    (val_main_call0_v1_apply i).trans ((val_main_call0_v0_apply _).trans ((val_main_cst_2_apply _).trans Ideal.ofBits_zero_f32))
  rw [val_main_v14_apply, val_main_v12_apply, val_main_v13_apply, h11, hc]
  exact real_where _

/-- The product of the two gathered factors of an edge. -/
theorem real_v29 (x1 : (⟨S2x1600000, .i32⟩ : BufTy).Contents (Elt Ideal)) (i : S1700000.Idx) : IsReal (val_main_v29 (F := Ideal) x1 i) := by
  rw [val_main_v29_apply]
  exact IsReal.mul (real_gather _ _ _ (real_v14 x1) _) (real_gather _ _ _ (real_v14 x1) _)

/-! ## The first layer -/

/-- The layer's weight matrix: a slice of the weights, reshaped. -/
theorem real_v31 (x3 : (⟨S3x64x64, .f32⟩ : BufTy).Contents (Elt Ideal)) (h3 : ∀ i, IsReal (x3 i)) (i : S64x64.Idx) : IsReal (val_main_v31 (F := Ideal) x3 i) := by
  rw [val_main_v31_apply, val_main_v30_apply]; exact h3 _

/-- The dense transform: a sum of 64 products. -/
theorem real_v32 (x0 : (⟨S100000x64, .f32⟩ : BufTy).Contents (Elt Ideal)) (x3 : (⟨S3x64x64, .f32⟩ : BufTy).Contents (Elt Ideal)) (h0 : ∀ i, IsReal (x0 i)) (h3 : ∀ i, IsReal (x3 i)) (i : S100000x64.Idx) : IsReal (val_main_v32 (F := Ideal) x0 x3 i) := by
  rw [val_main_v32_apply]
  exact IsReal.sum _ _ fun k => IsReal.mul (h0 _) (real_v31 x3 h3 _)

/-- The edge normalisation broadcast over the 64 columns. -/
theorem real_v41 (x1 : (⟨S2x1600000, .i32⟩ : BufTy).Contents (Elt Ideal)) (i : S1700000x64.Idx) : IsReal (val_main_v41 (F := Ideal) x1 i) := by
  rw [val_main_v41_apply, val_main_v40_apply]; exact real_v29 x1 _

/-- The messages: gathered rows of the transform times the edge normalisation. -/
theorem real_v42 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (h0 : ∀ i, IsReal (x0 i)) (h3 : ∀ i, IsReal (x3 i)) (i : S1700000x64.Idx) : IsReal (val_main_v42 (F := Ideal) x0 x1 x3 i) := by
  rw [val_main_v42_apply]
  exact IsReal.mul (real_gather _ _ _ (real_v32 x0 x3 h0 h3) _) (real_v41 x1 _)

/-- The zero array the messages are accumulated into. -/
theorem real_v43 (i : S100000x64.Idx) : IsReal (val_main_v43 (F := Ideal) i) := by
  rw [val_main_v43_apply, val_main_cst_8_apply]; exact real_ofBits_zero

/-- The aggregated messages: zero plus a finite sum of messages. -/
theorem real_v45 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (h0 : ∀ i, IsReal (x0 i)) (h3 : ∀ i, IsReal (x3 i)) (i : S100000x64.Idx) : IsReal (val_main_v45 (F := Ideal) x0 x1 x3 i) := by
  unfold val_main_v45
  exact real_scatterAdd _ _ _ _ real_v43 (real_v42 x0 x1 x3 h0 h3) i

/-- The layer's bias row. -/
theorem real_v47 (x4 : (⟨S3x64, .f32⟩ : BufTy).Contents (Elt Ideal)) (h4 : ∀ i, IsReal (x4 i)) (i : S64.Idx) : IsReal (val_main_v47 (F := Ideal) x4 i) := by
  rw [val_main_v47_apply, val_main_v46_apply]; exact h4 _

/-- THE COLUMN of the first layer's pre-normalisation values is real. -/
theorem real_col0 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (q : Fin 64) (r : Fin 100000) :
    IsReal (Cert.ReferenceIdeal.Layer.col0 x0 x1 x3 x4 x5 x6 q r) := by
  show IsReal (val_main_v45 (F := Ideal) x0 x1 x3 (ix2 r q) + val_main_v47 (F := Ideal) x4 (ix1 q))
  exact IsReal.add (real_v45 x0 x1 x3 h0 h3 _) (real_v47 x4 h4 _)

/-- The layer's scale and shift rows. -/
theorem real_v71 (x5 : (⟨S3x64, .f32⟩ : BufTy).Contents (Elt Ideal)) (h5 : ∀ i, IsReal (x5 i)) (i : S64.Idx) : IsReal (val_main_v71 (F := Ideal) x5 i) := by
  rw [val_main_v71_apply, val_main_v70_apply]; exact h5 _
theorem real_v76 (x6 : (⟨S3x64, .f32⟩ : BufTy).Contents (Elt Ideal)) (h6 : ∀ i, IsReal (x6 i)) (i : S64.Idx) : IsReal (val_main_v76 (F := Ideal) x6 i) := by
  rw [val_main_v76_apply, val_main_v75_apply]; exact h6 _

/-- The layer's output (the next layer's input): the normalised, scaled, shifted and clamped column entry. -/
theorem real_v80 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (i : S100000x64.Idx) :
    IsReal (val_main_v80 (F := Ideal) x0 x1 x3 x4 x5 x6 i) := by
  obtain ⟨r, q, rfl⟩ : ∃ (r : Fin 100000) (q : Fin 64), i = ix2 r q := ⟨i 0, i 1, eq_ix2 i⟩
  rw [Cert.ReferenceIdeal.Layer.ref_out0 x0 x1 x3 x4 x5 x6 r q]
  exact isReal_outR (fun r' => real_col0 x0 x1 x3 x4 x5 x6 h0 h3 h4 h5 h6 q r') (real_v71 x5 h5 _) (real_v76 x6 h6 _) r

/-! ## The second layer -/

/-- The layer's weight matrix: a slice of the weights, reshaped. -/
theorem real_v82 (x3 : (⟨S3x64x64, .f32⟩ : BufTy).Contents (Elt Ideal)) (h3 : ∀ i, IsReal (x3 i)) (i : S64x64.Idx) : IsReal (val_main_v82 (F := Ideal) x3 i) := by
  rw [val_main_v82_apply, val_main_v81_apply]; exact h3 _

/-- The dense transform: a sum of 64 products. -/
theorem real_v83 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (i : S100000x64.Idx) : IsReal (val_main_v83 (F := Ideal) x0 x1 x3 x4 x5 x6 i) := by
  rw [val_main_v83_apply]
  exact IsReal.sum _ _ fun k => IsReal.mul (real_v80 x0 x1 x3 x4 x5 x6 h0 h3 h4 h5 h6 _) (real_v82 x3 h3 _)

/-- The edge normalisation broadcast over the 64 columns. -/
theorem real_v92 (x1 : (⟨S2x1600000, .i32⟩ : BufTy).Contents (Elt Ideal)) (i : S1700000x64.Idx) : IsReal (val_main_v92 (F := Ideal) x1 i) := by
  rw [val_main_v92_apply, val_main_v91_apply]; exact real_v29 x1 _

/-- The messages: gathered rows of the transform times the edge normalisation. -/
theorem real_v93 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (i : S1700000x64.Idx) : IsReal (val_main_v93 (F := Ideal) x0 x1 x3 x4 x5 x6 i) := by
  rw [val_main_v93_apply]
  exact IsReal.mul (real_gather _ _ _ (real_v83 x0 x1 x3 x4 x5 x6 h0 h3 h4 h5 h6) _) (real_v92 x1 _)

/-- The zero array the messages are accumulated into. -/
theorem real_v94 (i : S100000x64.Idx) : IsReal (val_main_v94 (F := Ideal) i) := by
  rw [val_main_v94_apply, val_main_cst_16_apply]; exact real_ofBits_zero

/-- The aggregated messages: zero plus a finite sum of messages. -/
theorem real_v96 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (i : S100000x64.Idx) : IsReal (val_main_v96 (F := Ideal) x0 x1 x3 x4 x5 x6 i) := by
  unfold val_main_v96
  exact real_scatterAdd _ _ _ _ real_v94 (real_v93 x0 x1 x3 x4 x5 x6 h0 h3 h4 h5 h6) i

/-- The layer's bias row. -/
theorem real_v98 (x4 : (⟨S3x64, .f32⟩ : BufTy).Contents (Elt Ideal)) (h4 : ∀ i, IsReal (x4 i)) (i : S64.Idx) : IsReal (val_main_v98 (F := Ideal) x4 i) := by
  rw [val_main_v98_apply, val_main_v97_apply]; exact h4 _

/-- THE COLUMN of the second layer's pre-normalisation values is real. -/
theorem real_col1 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (q : Fin 64) (r : Fin 100000) :
    IsReal (Cert.ReferenceIdeal.Layer.col1 x0 x1 x3 x4 x5 x6 q r) := by
  show IsReal (val_main_v96 (F := Ideal) x0 x1 x3 x4 x5 x6 (ix2 r q) + val_main_v98 (F := Ideal) x4 (ix1 q))
  exact IsReal.add (real_v96 x0 x1 x3 x4 x5 x6 h0 h3 h4 h5 h6 _) (real_v98 x4 h4 _)

/-- The layer's scale and shift rows. -/
theorem real_v122 (x5 : (⟨S3x64, .f32⟩ : BufTy).Contents (Elt Ideal)) (h5 : ∀ i, IsReal (x5 i)) (i : S64.Idx) : IsReal (val_main_v122 (F := Ideal) x5 i) := by
  rw [val_main_v122_apply, val_main_v121_apply]; exact h5 _
theorem real_v127 (x6 : (⟨S3x64, .f32⟩ : BufTy).Contents (Elt Ideal)) (h6 : ∀ i, IsReal (x6 i)) (i : S64.Idx) : IsReal (val_main_v127 (F := Ideal) x6 i) := by
  rw [val_main_v127_apply, val_main_v126_apply]; exact h6 _

/-- The layer's output (the next layer's input): the normalised, scaled, shifted and clamped column entry. -/
theorem real_v131 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (i : S100000x64.Idx) :
    IsReal (val_main_v131 (F := Ideal) x0 x1 x3 x4 x5 x6 i) := by
  obtain ⟨r, q, rfl⟩ : ∃ (r : Fin 100000) (q : Fin 64), i = ix2 r q := ⟨i 0, i 1, eq_ix2 i⟩
  rw [Cert.ReferenceIdeal.Layer.ref_out1 x0 x1 x3 x4 x5 x6 r q]
  exact isReal_outR (fun r' => real_col1 x0 x1 x3 x4 x5 x6 h0 h3 h4 h5 h6 q r') (real_v122 x5 h5 _) (real_v127 x6 h6 _) r

/-! ## The third layer -/

/-- The layer's weight matrix: a slice of the weights, reshaped. -/
theorem real_v133 (x3 : (⟨S3x64x64, .f32⟩ : BufTy).Contents (Elt Ideal)) (h3 : ∀ i, IsReal (x3 i)) (i : S64x64.Idx) : IsReal (val_main_v133 (F := Ideal) x3 i) := by
  rw [val_main_v133_apply, val_main_v132_apply]; exact h3 _

/-- The dense transform: a sum of 64 products. -/
theorem real_v134 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (i : S100000x64.Idx) : IsReal (val_main_v134 (F := Ideal) x0 x1 x3 x4 x5 x6 i) := by
  rw [val_main_v134_apply]
  exact IsReal.sum _ _ fun k => IsReal.mul (real_v131 x0 x1 x3 x4 x5 x6 h0 h3 h4 h5 h6 _) (real_v133 x3 h3 _)

/-- The edge normalisation broadcast over the 64 columns. -/
theorem real_v143 (x1 : (⟨S2x1600000, .i32⟩ : BufTy).Contents (Elt Ideal)) (i : S1700000x64.Idx) : IsReal (val_main_v143 (F := Ideal) x1 i) := by
  rw [val_main_v143_apply, val_main_v142_apply]; exact real_v29 x1 _

/-- The messages: gathered rows of the transform times the edge normalisation. -/
theorem real_v144 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (i : S1700000x64.Idx) : IsReal (val_main_v144 (F := Ideal) x0 x1 x3 x4 x5 x6 i) := by
  rw [val_main_v144_apply]
  exact IsReal.mul (real_gather _ _ _ (real_v134 x0 x1 x3 x4 x5 x6 h0 h3 h4 h5 h6) _) (real_v143 x1 _)

/-- The zero array the messages are accumulated into. -/
theorem real_v145 (i : S100000x64.Idx) : IsReal (val_main_v145 (F := Ideal) i) := by
  rw [val_main_v145_apply, val_main_cst_24_apply]; exact real_ofBits_zero

/-- The aggregated messages: zero plus a finite sum of messages. -/
theorem real_v147 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (i : S100000x64.Idx) : IsReal (val_main_v147 (F := Ideal) x0 x1 x3 x4 x5 x6 i) := by
  unfold val_main_v147
  exact real_scatterAdd _ _ _ _ real_v145 (real_v144 x0 x1 x3 x4 x5 x6 h0 h3 h4 h5 h6) i

/-- The layer's bias row. -/
theorem real_v149 (x4 : (⟨S3x64, .f32⟩ : BufTy).Contents (Elt Ideal)) (h4 : ∀ i, IsReal (x4 i)) (i : S64.Idx) : IsReal (val_main_v149 (F := Ideal) x4 i) := by
  rw [val_main_v149_apply, val_main_v148_apply]; exact h4 _

/-- THE COLUMN of the third layer's pre-normalisation values is real. -/
theorem real_col2 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (q : Fin 64) (r : Fin 100000) :
    IsReal (Cert.ReferenceIdeal.Layer.col2 x0 x1 x3 x4 x5 x6 q r) := by
  show IsReal (val_main_v147 (F := Ideal) x0 x1 x3 x4 x5 x6 (ix2 r q) + val_main_v149 (F := Ideal) x4 (ix1 q))
  exact IsReal.add (real_v147 x0 x1 x3 x4 x5 x6 h0 h3 h4 h5 h6 _) (real_v149 x4 h4 _)

/-- The layer's scale and shift rows. -/
theorem real_v173 (x5 : (⟨S3x64, .f32⟩ : BufTy).Contents (Elt Ideal)) (h5 : ∀ i, IsReal (x5 i)) (i : S64.Idx) : IsReal (val_main_v173 (F := Ideal) x5 i) := by
  rw [val_main_v173_apply, val_main_v172_apply]; exact h5 _
theorem real_v178 (x6 : (⟨S3x64, .f32⟩ : BufTy).Contents (Elt Ideal)) (h6 : ∀ i, IsReal (x6 i)) (i : S64.Idx) : IsReal (val_main_v178 (F := Ideal) x6 i) := by
  rw [val_main_v178_apply, val_main_v177_apply]; exact h6 _

/-- The layer's output (the next layer's input): the normalised, scaled, shifted and clamped column entry. -/
theorem real_v182 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (i : S100000x64.Idx) :
    IsReal (val_main_v182 (F := Ideal) x0 x1 x3 x4 x5 x6 i) := by
  obtain ⟨r, q, rfl⟩ : ∃ (r : Fin 100000) (q : Fin 64), i = ix2 r q := ⟨i 0, i 1, eq_ix2 i⟩
  rw [Cert.ReferenceIdeal.Layer.ref_out2 x0 x1 x3 x4 x5 x6 r q]
  exact isReal_outR (fun r' => real_col2 x0 x1 x3 x4 x5 x6 h0 h3 h4 h5 h6 q r') (real_v173 x5 h5 _) (real_v178 x6 h6 _) r

end Cert.ReferenceIdeal.Real

end
-- ==== Proof.PreReal.lean ====
import proofs.«132062_j28845000360070_1_alg».proof.Defs
import proofs.«132062_j28845000360070_1_alg».proof.Proof.Core
import proofs.«132062_j28845000360070_1_alg».proof.Proof.Gen.Pre_finite_inputs
import Idealize.ShloMosaic.Lib.ReduceAll
import Idealize.ShloMosaic.Lib.ValueIdx
import Idealize.ShloMosaic.PureOps.Ideal.Laws

/-!
# From the precondition to real-valued arguments

The precondition is the conjunction of five tests "every entry of the array has absolute value below +∞", one per
float argument. On the extended reals the absolute value of x is max x (−x), which is +∞ exactly at the two
infinities; so the test holds at an entry iff the entry is a real number. A conjunction of single bits is 1 iff each
bit is 1, and a reduction by "and" over all axes that comes out 1 met a 1 at every entry.
-/

noncomputable section

namespace Cert.PreReal

open Idealize.ShloMosaic Idealize.ShloMosaic.ValueIdx Idealize.ShloMosaic.TcCoe Idealize.SL.Sem Cert.Core
open Cert.Pre_finite_inputs (S_ S100000x64 S2x1600000 S100000 S3x64x64 S3x64)

/-- The rank-zero shape has one index. -/
instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value compares below +∞ is a real number. -/
theorem isReal_of_abs_lt (x : EReal) (h : Ideal.cmp .olt (max x (-x)) (Ideal.ofBits .f32 0x7F800000#32) = 1#1) : IsReal x := by
  rw [ofBits_inf] at h
  have hlt : max x (-x) < (⊤ : EReal) := by
    by_contra hn
    have : Ideal.cmp .olt (max x (-x)) (⊤ : EReal) = 0#1 := by
      show BitVec.ofBool (decide (max x (-x) < (⊤ : EReal))) = 0#1
      rw [decide_eq_false hn]; rfl
    rw [this] at h
    exact absurd h (by decide)
  induction x using EReal.rec with
  | bot => exact absurd hlt (by simp)
  | top => exact absurd hlt (by simp)
  | coe r => exact ⟨r, rfl⟩

/-- One test of the precondition: if the reduction by "and" of the entrywise comparison |a| < +∞ is 1, every entry
    of a is a real number. Stated over any shape, the reduction's side conditions as variables. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ix0 = 1#1) (i : s.Idx) : IsReal (a i) := by
  have hi := Host.reduce_andi_all _ _ hr hu ix0 e i
  exact isReal_of_abs_lt (a i) hi

/-- Under the precondition every entry of each of the five float arguments is a real number. -/
theorem real_of_pre [Cert.Pre_finite_inputs.Facts] (a0 : FVec Ideal S100000x64 .f32) (a1 : IVec S2x1600000 32) (a2 : IVec S100000 32)
    (a3 : FVec Ideal S3x64x64 .f32) (a4 a5 a6 : FVec Ideal S3x64 .f32)
    (h : Cert.Pre_finite_inputs.fn (F := Ideal) a0 a1 a2 a3 a4 a5 a6 = fun _ => 1#1) :
    (∀ i, IsReal (a0 i)) ∧ (∀ i, IsReal (a3 i)) ∧ (∀ i, IsReal (a4 i)) ∧ (∀ i, IsReal (a5 i)) ∧ (∀ i, IsReal (a6 i)) := by
  have h0 := congrFun h ix0
  dsimp only [Cert.Pre_finite_inputs.fn, Cert.Pre_finite_inputs.fn_part1] at h0
  obtain ⟨h0123, e6⟩ := IntOp.andi_eq_one.mp h0
  obtain ⟨h012, e5⟩ := IntOp.andi_eq_one.mp h0123
  obtain ⟨h01, e4⟩ := IntOp.andi_eq_one.mp h012
  obtain ⟨e0, e3⟩ := IntOp.andi_eq_one.mp h01
  exact ⟨all_real a0 _ _ _ e0, all_real a3 _ _ _ e3, all_real a4 _ _ _ e4, all_real a5 _ _ _ e5, all_real a6 _ _ _ e6⟩

/-- The same for the idealized kernel's launch memory: on every device, every entry of the five float argument arrays
    is a real number. -/
theorem real_of_pre_KernelIdeal [Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i : S100000x64.Idx, IsReal (m ((c.tc : Thread Cert.KernelIdeal.nD Cert.KernelIdeal.τ).loc Cert.KernelIdeal.main_arg0) i))
    ∧ (∀ i : S3x64x64.Idx, IsReal (m ((c.tc : Thread Cert.KernelIdeal.nD Cert.KernelIdeal.τ).loc Cert.KernelIdeal.main_arg3) i))
    ∧ (∀ i : S3x64.Idx, IsReal (m ((c.tc : Thread Cert.KernelIdeal.nD Cert.KernelIdeal.τ).loc Cert.KernelIdeal.main_arg4) i))
    ∧ (∀ i : S3x64.Idx, IsReal (m ((c.tc : Thread Cert.KernelIdeal.nD Cert.KernelIdeal.τ).loc Cert.KernelIdeal.main_arg5) i))
    ∧ (∀ i : S3x64.Idx, IsReal (m ((c.tc : Thread Cert.KernelIdeal.nD Cert.KernelIdeal.τ).loc Cert.KernelIdeal.main_arg6) i)) :=
  real_of_pre _ _ _ _ _ _ _ (hm c)

end Cert.PreReal

end
-- ==== Proof.lean ====
/-
  The certificate of a three-layer graph convolution network: the Pallas program (per layer a row-blocked matrix product,
  column sums and sums of squares accumulated over ten row blocks, and a normalise-scale-shift-clamp pass, among the host's
  gathers and accumulating scatters along the edges) against the plain reference.

  The frames of the two kernel programs are the generated frame certificates. The reference has no kernel: its frame is its
  run, a straight line of host operations, with the result dropped. The idealization rewrote nothing, so there is nothing to
  preserve. At the ideal instance both programs end with the same pooled array: the kernel's result buffer is followed along
  @main stage by stage, and at every stage the buffers hold the reference's stage functions of the arguments. The one step that
  is not a re-association of exact sums is the variance: the kernel takes the mean of squares minus the squared mean, the
  reference the mean of squared deviations; the two agree on columns of real numbers, and every column is real because the
  float arguments are finite (the precondition), the edge normalisation is real for any edge list, and each layer maps real
  arrays to real arrays (the variance is nonnegative, so its reciprocal square root after adding the positive constant is real).
-/
import proofs.«132062_j28845000360070_1_alg».proof.Defs
import proofs.«132062_j28845000360070_1_alg».proof.Proof.Gen.Kernel
import proofs.«132062_j28845000360070_1_alg».proof.Proof.Gen.Kernel.Frame
import proofs.«132062_j28845000360070_1_alg».proof.Proof.Gen.KernelIdeal
import proofs.«132062_j28845000360070_1_alg».proof.Proof.Gen.KernelIdeal.Frame
import proofs.«132062_j28845000360070_1_alg».proof.Proof.Gen.ReferenceIdeal
import proofs.«132062_j28845000360070_1_alg».proof.Proof.Gen.Pre_finite_inputs
import proofs.«132062_j28845000360070_1_alg».proof.Proof.RunMain
import proofs.«132062_j28845000360070_1_alg».proof.Proof.KChain
import proofs.«132062_j28845000360070_1_alg».proof.Proof.RefRun
import proofs.«132062_j28845000360070_1_alg».proof.Proof.RefReal
import proofs.«132062_j28845000360070_1_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RunV.run m ρ)

theorem preserves : Cert.preserves_Kernel_KernelIdeal := trivial

/-- Both idealized programs end with the last stage function of the (shared) arguments. -/
theorem algebraic : Cert.algebraic_KernelIdeal_ReferenceIdeal := by
  intro m ρ m' ρ' hpre hagree
  refine ⟨fun c => Cert.ReferenceIdeal.ReadP.val_main_v194 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩) (Cert.KernelIdeal.RunV.run_main m ρ)
    obtain ⟨h0, h3, h4, h5, h6⟩ := Cert.PreReal.real_of_pre_KernelIdeal m hpre c
    exact Cert.KernelIdeal.Chain.kernel_value m ρ c
      (fun q r => Cert.ReferenceIdeal.Real.real_col0 _ _ _ _ _ _ h0 h3 h4 h5 h6 q r)
      (fun q r => Cert.ReferenceIdeal.Real.real_col1 _ _ _ _ _ _ h0 h3 h4 h5 h6 q r)
      (fun q r => Cert.ReferenceIdeal.Real.real_col2 _ _ _ _ _ _ h0 h3 h4 h5 h6 q r)
  · refine (θ_run Cert.ReferenceIdeal.defs _ _).mono (fun r h c => ⟨(h c).1.trans ?_, (h c).2⟩) (Cert.ReferenceIdeal.RunV.run m' ρ')
    rw [(hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
